-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S8192x10 : Shape := ⟨2, ![8192, 10]⟩
abbrev S3x1 : Shape := ⟨2, ![3, 1]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192x10 : S_.BroadcastsInDim S8192x10 (![] : Fin 0 → Fin S8192x10.rank)
  reducesTo_S8192x10_S_d0_1 : S8192x10.ReducesTo [0, 1] S_
  bcast_S_S3x1 : S_.BroadcastsInDim S3x1 (![] : Fin 0 → Fin S3x1.rank)
  reducesTo_S3x1_S_d0_1 : S3x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S3x1 .f32) (main_arg8 : FVec F S256x128 .f32) (main_arg9 : FVec F S128 .f32) (main_arg10 : FVec F S128x128 .f32) (main_arg11 : FVec F S128 .f32) (main_v33 : IVec S_ 1) : IVec S_ 1 :=
  let main_v34 : FVec F S3x1 .f32 := Host.absf main_arg7
  let main_cst_12 : FVec F S_ .f32 := constant S_ .f32 0x7F800000#32
  let main_v35 : FVec F S3x1 .f32 := broadcastInDim S3x1 ![] bcast_S_S3x1 main_cst_12
  let main_v36 : IVec S3x1 1 := cmpf .olt main_v34 main_v35
  let main_c_13 : IVec S_ 1 := constantI S_ 1 1#1
  let main_v37 : IVec S_ 1 := (fun x v => Host.reduce IntOp.andi x v reducesTo_S3x1_S_d0_1 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S8192x10 .f32) (main_arg5 : FVec F S8192x10 .f32) (main_arg6 : FVec F S8192x10 .f32) (main_arg7 : FVec F S3x1 .f32) (main_arg8 : FVec F S256x128 .f32) (main_arg9 : FVec F S128 .f32) (main_arg10 : FVec F S128x128 .f32) (main_arg11 : FVec F S128 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x10 .f32 := Host.absf main_arg4
  let main_cst_6 : FVec F S_ .f32 := constant S_ .f32 0x7F800000#32
  let main_v20 : FVec F S8192x10 .f32 := broadcastInDim S8192x10 ![] bcast_S_S8192x10 main_cst_6
  let main_v21 : IVec S8192x10 1 := cmpf .olt main_v19 main_v20
  let main_c_7 : IVec S_ 1 := constantI S_ 1 1#1
  let main_v22 : IVec S_ 1 := (fun x v => Host.reduce IntOp.andi x v reducesTo_S8192x10_S_d0_1 h_S_) main_v21 main_c_7
  let main_v23 : IVec S_ 1 := andi main_v18 main_v22
  let main_v24 : FVec F S8192x10 .f32 := Host.absf main_arg5
  let main_cst_8 : FVec F S_ .f32 := constant S_ .f32 0x7F800000#32
  let main_v25 : FVec F S8192x10 .f32 := broadcastInDim S8192x10 ![] bcast_S_S8192x10 main_cst_8
  let main_v26 : IVec S8192x10 1 := cmpf .olt main_v24 main_v25
  let main_c_9 : IVec S_ 1 := constantI S_ 1 1#1
  let main_v27 : IVec S_ 1 := (fun x v => Host.reduce IntOp.andi x v reducesTo_S8192x10_S_d0_1 h_S_) main_v26 main_c_9
  let main_v28 : IVec S_ 1 := andi main_v23 main_v27
  let main_v29 : FVec F S8192x10 .f32 := Host.absf main_arg6
  let main_cst_10 : FVec F S_ .f32 := constant S_ .f32 0x7F800000#32
  let main_v30 : FVec F S8192x10 .f32 := broadcastInDim S8192x10 ![] bcast_S_S8192x10 main_cst_10
  let main_v31 : IVec S8192x10 1 := cmpf .olt main_v29 main_v30
  let main_c_11 : IVec S_ 1 := constantI S_ 1 1#1
  let main_v32 : IVec S_ 1 := (fun x v => Host.reduce IntOp.andi x v reducesTo_S8192x10_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x256 .f32) (main_arg1 : FVec F S8192x8192 .f32) (main_arg2 : FVec F S8192x8192 .f32) (main_arg3 : FVec F S8192x8192 .f32) (main_arg4 : FVec F S8192x10 .f32) (main_arg5 : FVec F S8192x10 .f32) (main_arg6 : FVec F S8192x10 .f32) (main_arg7 : FVec F S3x1 .f32) (main_arg8 : FVec F S256x128 .f32) (main_arg9 : FVec F S128 .f32) (main_arg10 : FVec F S128x128 .f32) (main_arg11 : FVec F S128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_arg10 main_arg11 main_v13 main_v16
-- ==== Kernel.lean ====
abbrev S8192x256 : Shape := ⟨2, ![8192, 256]⟩
abbrev S8192x8192 : Shape := ⟨2, ![8192, 8192]⟩
abbrev S8192x10 : Shape := ⟨2, ![8192, 10]⟩
abbrev S3x1 : Shape := ⟨2, ![3, 1]⟩
abbrev S256x128 : Shape := ⟨2, ![256, 128]⟩
abbrev S128 : Shape := ⟨1, ![128]⟩
abbrev S128x128 : Shape := ⟨2, ![128, 128]⟩
abbrev S512x512 : Shape := ⟨2, ![512, 512]⟩
abbrev S512x10 : Shape := ⟨2, ![512, 10]⟩
abbrev S1x1 : Shape := ⟨2, ![1, 1]⟩
abbrev S8192x128 : Shape := ⟨2, ![8192, 128]⟩
abbrev S512x128 : Shape := ⟨2, ![512, 128]⟩
abbrev S1x128 : Shape := ⟨2, ![1, 128]⟩

abbrev nBuf : Space → Nat
  | .hbm => 26
  | .vmem => 43
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S8192x10, .f32⟩
  | .hbm, ⟨5, _⟩ => ⟨S8192x10, .f32⟩
  | .hbm, ⟨6, _⟩ => ⟨S8192x10, .f32⟩
  | .hbm, ⟨7, _⟩ => ⟨S3x1, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S8192x8192, .bf16⟩
  | .hbm, ⟨13, _⟩ => ⟨S8192x10, .f32⟩
  | .hbm, ⟨14, _⟩ => ⟨S8192x10, .f32⟩
  | .hbm, ⟨15, _⟩ => ⟨S8192x10, .f32⟩
  | .hbm, ⟨16, _⟩ => ⟨S8192x256, .bf16⟩
  | .hbm, ⟨17, _⟩ => ⟨S256x128, .bf16⟩
  | .hbm, ⟨18, _⟩ => ⟨S8192x128, .f32⟩
  | .hbm, ⟨19, _⟩ => ⟨S8192x128, .bf16⟩
  | .hbm, ⟨20, _⟩ => ⟨S8192x128, .f32⟩
  | .hbm, ⟨21, _⟩ => ⟨S8192x128, .bf16⟩
  | .hbm, ⟨22, _⟩ => ⟨S128x128, .bf16⟩
  | .hbm, ⟨23, _⟩ => ⟨S8192x128, .f32⟩
  | .hbm, ⟨24, _⟩ => ⟨S8192x128, .bf16⟩
  | .hbm, ⟨25, _⟩ => ⟨S8192x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x10, .f32⟩
  | .local _ .vmem, ⟨7, _⟩ => ⟨S512x10, .f32⟩
  | .local _ .vmem, ⟨8, _⟩ => ⟨S512x10, .f32⟩
  | .local _ .vmem, ⟨9, _⟩ => ⟨S512x10, .f32⟩
  | .local _ .vmem, ⟨10, _⟩ => ⟨S512x10, .f32⟩
  | .local _ .vmem, ⟨11, _⟩ => ⟨S512x10, .f32⟩
  | .local _ .vmem, ⟨12, _⟩ => ⟨S3x1, .f32⟩
  | .local _ .vmem, ⟨13, _⟩ => ⟨S512x512, .bf16⟩
  | .local _ .vmem, ⟨14, _⟩ => ⟨S512x512, .bf16⟩
  | .local _ .vmem, ⟨15, _⟩ => ⟨S512x10, .f32⟩
  | .local _ .vmem, ⟨16, _⟩ => ⟨S512x10, .f32⟩
  | .local _ .vmem, ⟨17, _⟩ => ⟨S512x10, .f32⟩
  | .local _ .vmem, ⟨18, _⟩ => ⟨S512x10, .f32⟩
  | .local _ .vmem, ⟨19, _⟩ => ⟨S512x10, .f32⟩
  | .local _ .vmem, ⟨20, _⟩ => ⟨S512x10, .f32⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x128, .bf16⟩
  | .local _ .vmem, ⟨26, _⟩ => ⟨S512x128, .bf16⟩
  | .local _ .vmem, ⟨27, _⟩ => ⟨S128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x128, .bf16⟩
  | .local _ .vmem, ⟨36, _⟩ => ⟨S512x128, .bf16⟩
  | .local _ .vmem, ⟨37, _⟩ => ⟨S512x128, .f32⟩
  | .local _ .vmem, ⟨38, _⟩ => ⟨S512x128, .f32⟩
  | .local _ .vmem, ⟨39, _⟩ => ⟨S128, .f32⟩
  | .local _ .vmem, ⟨40, _⟩ => ⟨S512x128, .f32⟩
  | .local _ .vmem, ⟨41, _⟩ => ⟨S512x128, .f32⟩
  | .local _ .vmem, ⟨42, _⟩ => ⟨S512x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg4_1 : Ref sig .tc := ⟨.vmem, 29, rfl⟩
abbrev cc1_scratch0 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg3_1 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg5_1 : Ref sig .tc := ⟨.vmem, 41, rfl⟩
abbrev cc2_scratch0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem4_0 : DmaSem sig := 28
abbrev cc1_sem4_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc2_sem4_0 : DmaSem sig := 38
abbrev cc2_sem5_0 : DmaSem sig := 39
abbrev cc2_sem5_1 : DmaSem sig := 40

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x10 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x10 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_15 : BitVec 32 := 0#32
  let v23 : BitVec 1 := Scalar.cmpi .ne v22 c0_i32_15
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![16, 16], ![false, false]⟩

def k2_cond2 (i : grid2.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_15 : BitVec 32 := 0#32
  let v23 : BitVec 1 := Scalar.cmpi .ne v22 c0_i32_15
  v23

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  inb_S512x10_S512x10_0_0 : ∀ a, (![0, 0] : Fin 2 → Nat) a + S512x10.size a ≤ S512x10.size a
  h_S512x10 : 0 < S512x10.numel
  inb_S3x1_S3x1_0_0 : ∀ a, (![0, 0] : Fin 2 → Nat) a + S3x1.size a ≤ S3x1.size a
  h_S3x1 : 0 < S3x1.numel
  slices_S3x1_o0_0_S1x1 : S3x1.Slices ![0, 0] S1x1
  inpos_S1x1_p0_0 : ∀ a, (![0, 0] : Fin 2 → Nat) a < S1x1.size a
  slices_S3x1_o1_0_S1x1 : S3x1.Slices ![1, 0] S1x1
  slices_S3x1_o2_0_S1x1 : S3x1.Slices ![2, 0] S1x1
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  shapeCasts_S512x10_S512x10 : S512x10.ShapeCasts S512x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S512x512_S512x512 : S512x512.ShapeCasts S512x512
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  dot_S512x512_S512x10_S512x10_1_0_0_1_n_n_wf : DotDims.WF S512x512 S512x10 S512x10 [1] [0] [0] [1] [] []
  dot_S8192x256_S256x128_S8192x128_1_0_0_1_n_n_wf : DotDims.WF S8192x256 S256x128 S8192x128 [1] [0] [0] [1] [] []
  dot_S512x512_S512x128_S512x128_1_0_0_1_n_n_wf : DotDims.WF S512x512 S512x128 S512x128 [1] [0] [0] [1] [] []
  dot_S512x512_S512x128_S512x128_0_0_1_1_n_n_wf : DotDims.WF S512x512 S512x128 S512x128 [0] [0] [1] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x8192.size a
  hwx0_0 : ∀ i : grid0.Coords, EltTy.bits .f32 = 32 ∨ (Rect.block (s := S8192x8192) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x8192.size a
  hwx0_1 : ∀ i : grid0.Coords, EltTy.bits .f32 = 32 ∨ (Rect.block (s := S8192x8192) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x8192.size a
  hwx0_2 : ∀ i : grid0.Coords, EltTy.bits .f32 = 32 ∨ (Rect.block (s := S8192x8192) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x10.size a ≤ S8192x10.size a
  hwx0_3 : ∀ i : grid0.Coords, EltTy.bits .f32 = 32 ∨ (Rect.block (s := S8192x10) S512x10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x10.size a ≤ S8192x10.size a
  hwx0_4 : ∀ i : grid0.Coords, EltTy.bits .f32 = 32 ∨ (Rect.block (s := S8192x10) S512x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x10.size a ≤ S8192x10.size a
  hwx0_5 : ∀ i : grid0.Coords, EltTy.bits .f32 = 32 ∨ (Rect.block (s := S8192x10) S512x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S8192x8192.size a
  hwx0_7 : ∀ i : grid0.Coords, EltTy.bits .bf16 = 32 ∨ (Rect.block (s := S8192x8192) S512x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x10.size a ≤ S8192x10.size a
  hwx0_8 : ∀ i : grid0.Coords, EltTy.bits .f32 = 32 ∨ (Rect.block (s := S8192x10) S512x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x10.size a ≤ S8192x10.size a
  hwx0_9 : ∀ i : grid0.Coords, EltTy.bits .f32 = 32 ∨ (Rect.block (s := S8192x10) S512x10.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x10.size a ≤ S8192x10.size a
  hwx0_10 : ∀ i : grid0.Coords, EltTy.bits .f32 = 32 ∨ (Rect.block (s := S8192x10) S512x10.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x8192.size a
  hwx1_0 : ∀ i : grid1.Coords, EltTy.bits .bf16 = 32 ∨ (Rect.block (s := S8192x8192) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x8192.size a
  hwx1_1 : ∀ i : grid1.Coords, EltTy.bits .bf16 = 32 ∨ (Rect.block (s := S8192x8192) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S8192x128.size a
  hwx1_2 : ∀ i : grid1.Coords, EltTy.bits .bf16 = 32 ∨ (Rect.block (s := S8192x128) S512x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S8192x128.size a
  hwx1_4 : ∀ i : grid1.Coords, EltTy.bits .f32 = 32 ∨ (Rect.block (s := S8192x128) S512x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S8192x8192.size a
  hwx2_0 : ∀ i : grid2.Coords, EltTy.bits .bf16 = 32 ∨ (Rect.block (s := S8192x8192) S512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S8192x8192.size a
  hwx2_1 : ∀ i : grid2.Coords, EltTy.bits .bf16 = 32 ∨ (Rect.block (s := S8192x8192) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S8192x128.size a
  hwx2_2 : ∀ i : grid2.Coords, EltTy.bits .bf16 = 32 ∨ (Rect.block (s := S8192x128) S512x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S8192x128.size a
  hwx2_3 : ∀ i : grid2.Coords, EltTy.bits .f32 = 32 ∨ (Rect.block (s := S8192x128) S512x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S8192x128.size a
  hwx2_5 : ∀ i : grid2.Coords, EltTy.bits .f32 = 32 ∨ (Rect.block (s := S8192x128) S512x128.size (cc2_transform_5 i) (hinb2_5 i)).WholeWords (EltTy.packing .f32)

variable [Facts₀]

def dot_S512x512_S512x10_S512x10_1_0_0_1_n_n : DotDims S512x512 S512x10 S512x10 where
  lhsContracting := [1]
  rhsContracting := [0]
  lhsNonContracting := [0]
  rhsNonContracting := [1]
  lhsBatch := []
  rhsBatch := []
  wf := dot_S512x512_S512x10_S512x10_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x512_S512x128_S512x128_0_0_1_1_n_n : DotDims S512x512 S512x128 S512x128 where
  lhsContracting := [0]
  rhsContracting := [0]
  lhsNonContracting := [1]
  rhsNonContracting := [1]
  lhsBatch := []
  rhsBatch := []
  wf := dot_S512x512_S512x128_S512x128_0_0_1_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x10.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x10.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x10.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S512x10.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S512x10.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_3) S512x10.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v0_0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v0_0) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S512x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S512x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S8192x10 : Shape := ⟨2, ![8192, 10]⟩
abbrev S3x1 : Shape := ⟨2, ![3, 1]⟩
abbrev S256x128 : Shape := ⟨2, ![256, 128]⟩
abbrev S128 : Shape := ⟨1, ![128]⟩
abbrev S128x128 : Shape := ⟨2, ![128, 128]⟩
abbrev S3 : Shape := ⟨1, ![3]⟩
abbrev S1 : Shape := ⟨1, ![1]⟩
abbrev S_ : Shape := ⟨0, ![]⟩
abbrev S8192x128 : Shape := ⟨2, ![8192, 128]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S8192x10, .f32⟩
  | .hbm, ⟨5, _⟩ => ⟨S8192x10, .f32⟩
  | .hbm, ⟨6, _⟩ => ⟨S8192x10, .f32⟩
  | .hbm, ⟨7, _⟩ => ⟨S3x1, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S8192x10, .f32⟩
  | .hbm, ⟨13, _⟩ => ⟨S8192x10, .f32⟩
  | .hbm, ⟨14, _⟩ => ⟨S8192x10, .f32⟩
  | .hbm, ⟨15, _⟩ => ⟨S3, .f32⟩
  | .hbm, ⟨16, _⟩ => ⟨S1, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S1, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S1, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x128, .f32⟩
  | .hbm, ⟨33, _⟩ => ⟨S8192x128, .f32⟩
  | .hbm, ⟨34, _⟩ => ⟨S1x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S1x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S_, .f32⟩
  | .hbm, ⟨44, _⟩ => ⟨S8192x128, .f32⟩
  | .hbm, ⟨45, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  shapeCasts_S3x1_S3 : S3x1.ShapeCasts S3
  slices_S3_S1_0 : S3.Slices ![0] S1
  shapeCasts_S1_S_ : S1.ShapeCasts S_
  bcast_S_S8192x8192 : S_.BroadcastsInDim S8192x8192 (![] : Fin 0 → Fin S8192x8192.rank)
  slices_S3_S1_1 : S3.Slices ![1] S1
  slices_S3_S1_2 : S3.Slices ![2] S1
  transposes_S8192x8192_S8192x8192_1_0 : S8192x8192.Transposes [1, 0] S8192x8192
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  dot_S8192x8192_S8192x10_S8192x10_1_0_0_1_n_n_wf : DotDims.WF S8192x8192 S8192x10 S8192x10 [1] [0] [0] [1] [] []
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x10_S8192x10_1_0_0_1_n_n : DotDims S8192x8192 S8192x10 S8192x10 where
  lhsContracting := [1]
  rhsContracting := [0]
  lhsNonContracting := [0]
  rhsNonContracting := [1]
  lhsBatch := []
  rhsBatch := []
  wf := dot_S8192x8192_S8192x10_S8192x10_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.R0Frame.lean ====
import proofs.«177282_j10187662426197_2_alg».proof.Proof.Gen.KernelIdeal.Launch
import proofs.«177282_j10187662426197_2_alg».proof.Proof.Gen.KernelIdeal.Skeleton
import proofs.«177282_j10187662426197_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

/-!
  The first region: a 16 × 16 grid of points (i, j). At each point the body reads one 512 × 512 block of each of the
  three relation matrices, one 512 × 10 block of each token table and the three relation weights; it writes the weighted
  mix of the three matrix blocks, and it keeps three running 512 × 10 totals — one per relation — in the buffers of its
  last three results: set to zero where j = 0, then increased at every point by (matrix block) · (token block). A total
  is written back to its array when the row of the grid ends (j = 15).

  This file states, for any float model, what every buffer holds after the body at every point — an input buffer its
  block, the mix buffer the mix of the blocks, a total's buffer the recursion just described — and proves that the body
  does leave exactly that.
-/

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents when the region is entered, per core. -/
abbrev Entry (F : FTy → Type) [FloatOps F] : Type := (c : Dev nD) → (b : Ref sig .tc) → Buf (Elt F) ((c : Thread nD τ).loc b)

/-! ## The windows' blocks -/

/-- Window `w`'s block at point `t`, read off its array as the region finds it. -/
def iblk (V : Entry F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not fetched the
    block index has not moved and the body left the block in place. -/
theorem before_0_of (V : Entry F) {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not: where it is not fetched the
    block index has not moved and the body left the block in place. -/
theorem before_1_of (V : Entry F) {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not: where it is not fetched the
    block index has not moved and the body left the block in place. -/
theorem before_2_of (V : Entry F) {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, fetched there or not: where it is not fetched the
    block index has not moved and the body left the block in place. -/
theorem before_3_of (V : Entry F) {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, fetched there or not: where it is not fetched the
    block index has not moved and the body left the block in place. -/
theorem before_4_of (V : Entry F) {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, fetched there or not: where it is not fetched the
    block index has not moved and the body left the block in place. -/
theorem before_5_of (V : Entry F) {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every point, fetched there or not: where it is not fetched the
    block index has not moved and the body left the block in place. -/
theorem before_6_of (V : Entry F) {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole-block rectangles the body loads and stores through. -/
abbrev rA : Rect S512x512 := Rect.unit (s := S512x512) ![0, 0] S512x512.size inb_S512x512_S512x512_0_0
abbrev rT : Rect S512x10 := Rect.unit (s := S512x10) ![0, 0] S512x10.size inb_S512x10_S512x10_0_0
abbrev rW : Rect S3x1 := Rect.unit (s := S3x1) ![0, 0] S3x1.size inb_S3x1_S3x1_0_0

/-- Their offsets are zero. -/
theorem hz2 : (![0, 0] : Fin 2 → Nat) = fun _ => 0 := funext fun a => by fin_cases a <;> rfl

/-- The body's one condition, from the grid coordinates: "j = 0" as the program spells it. -/
abbrev cond (i : grid0.Coords) : Prop := (Scalar.cmpi .ne (Scalar.extui (Scalar.cmpi .eq (BitVec.ofNat 32 (i 1).val) 0#32)) 0#32) = 1#1

/-- It holds at the points that begin a row of the grid — decided over the grid. -/
theorem hcond : ∀ t : Fin cfg0.N, cond (grid0.coords t) ↔ t.val % 16 = 0 :=
  (by decide +kernel : ∀ t : Fin grid0.N, cond (grid0.coords t) ↔ t.val % 16 = 0)

/-! ## What a whole-block store leaves, what a whole-block load reads -/

/-- After a store through the whole-block rectangle (whatever earlier stores lie under it) a buffer reads the stored
    value. -/
theorem read_store_whole {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩)]
  exact View.canon_cons_unit_zero h inb w L

/-- A load through the whole-block rectangle reads the buffer's contents: of a matrix block, -/
theorem readA {sp : Space} {e : EltTy} (v : View sig .tc sp S512x512 e) (f : v.ty.Contents (Elt F)) :
    v.readAt (Elt F) rA.toLoadRect f = v.read (Elt F) f :=
  (View.readAt_eq_ld v f _).trans (View.ld_unit_zero hz2 _ _)

/-- of a token block or a total, -/
theorem readT {sp : Space} {e : EltTy} (v : View sig .tc sp S512x10 e) (f : v.ty.Contents (Elt F)) :
    v.readAt (Elt F) rT.toLoadRect f = v.read (Elt F) f :=
  (View.readAt_eq_ld v f _).trans (View.ld_unit_zero hz2 _ _)

/-- of the weights. -/
theorem readW {sp : Space} {e : EltTy} (v : View sig .tc sp S3x1 e) (f : v.ty.Contents (Elt F)) :
    v.readAt (Elt F) rW.toLoadRect f = v.read (Elt F) f :=
  (View.readAt_eq_ld v f _).trans (View.ld_unit_zero hz2 _ _)

/-- A total read back right after it was set: the value it was set to. -/
theorem readCovT {sp : Space} {e : EltTy} (v : View sig .tc sp S512x10 e) (w : S512x10.Idx → Elt F e) :
    v.readCov [(⟨rT, w⟩ : View.Piece (Elt F) S512x10 e)] rT.toLoadRect = w :=
  View.readCov_unit_zero v hz2 _ w

/-! ## The body's triple, case by case -/

set_option maxHeartbeats 400000 in
/-- AWAY FROM THE START OF A ROW (j ≠ 0). On whole buffers — the inputs' at contents `x·`, the three totals' at `p·`, the
    mix's at anything — the body runs to the continuation holding the inputs' as they were, the mix's at the mix of the
    blocks and each total's at the old total plus its product. -/
theorem run_B (c : Dev nD) (E : Set ℕ) (i : grid0.Coords) (hc : ¬cond i)
    (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x10 .f32) (harg5 : arg5.IsWhole) (arg6 : Memref sig .tc .vmem S512x10 .f32) (harg6 : arg6.IsWhole) (arg7 : Memref sig .tc .vmem S512x10 .f32) (harg7 : arg7.IsWhole) (arg8 : Memref sig .tc .vmem S3x1 .f32) (harg8 : arg8.IsWhole) (arg9 : Memref sig .tc .vmem S512x512 .bf16) (harg9 : arg9.IsWhole) (arg10 : Memref sig .tc .vmem S512x10 .f32) (harg10 : arg10.IsWhole) (arg11 : Memref sig .tc .vmem S512x10 .f32) (harg11 : arg11.IsWhole) (arg12 : Memref sig .tc .vmem S512x10 .f32) (harg12 : arg12.IsWhole)
    (x0 x1 x2 : Vec F S512x512 .f32) (x3 x4 x5 : Vec F S512x10 .f32) (x6 : Vec F S3x1 .f32) (p8 p9 p10 : Vec F S512x10 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d)
        ∗ owns (c : Thread nD τ) arg10 fullShare p8 ∗ owns (c : Thread nD τ) arg11 fullShare p9 ∗ owns (c : Thread nD τ) arg12 fullShare p10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay6 x6 x0 x1 x2) ∗ owns (c : Thread nD τ) arg10 fullShare (k0_pay9 x0 x3 p8) ∗ owns (c : Thread nD τ) arg11 fullShare (k0_pay1 x1 (k0_pay7 x4) p9) ∗ owns (c : Thread nD τ) arg12 fullShare (k0_pay2 x2 (k0_pay8 x5) p10)) -∗ K ⟨⟩))
      ⊢ wp frame (wpE (defs₀ (F := F)) Variants.none c none) E (cc0__adj_kernel i arg2 harg2 arg3 harg3 arg4 harg4 arg5 harg5 arg6 harg6 arg7 harg7 arg8 harg8 arg9 harg9 arg10 harg10 arg11 harg11 arg12 harg12) K := by
  simp only [cc0__adj_kernel_eq_skeleton]; unfold cc0__adj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  subst hf0 hf1 hf2 hf3 hf4 hf5 hf6 hf8 hf9 hf10
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_store_whole _ _ hz2]
    exact congr (congr (congr (congrArg k0_pay6 (readW _ _)) (readA _ _)) (readA _ _)) (readA _ _)
  isplitl [H8]
  · iexists _; isplitr
    swap; · iexact H8
    ipureintro
    rw [read_store_whole _ _ hz2]
    exact congr (congr (congrArg k0_pay9 (readA _ _)) (readT _ _)) (readT _ _)
  isplitl [H9]
  · iexists _; isplitr
    swap; · iexact H9
    ipureintro
    rw [read_store_whole _ _ hz2]
    exact congr (congr (congrArg k0_pay1 (readA _ _)) (congrArg k0_pay7 (readT _ _))) (readT _ _)
  · iexists _; isplitr
    swap; · iexact H10
    ipureintro
    rw [read_store_whole _ _ hz2]
    exact congr (congr (congrArg k0_pay2 (readA _ _)) (congrArg k0_pay8 (readT _ _))) (readT _ _)

set_option maxHeartbeats 400000 in
/-- AT THE START OF A ROW (j = 0). The same, the three totals' buffers at anything: the body sets each to zero first, so
    each ends at zero plus its product. -/
theorem run_A (c : Dev nD) (E : Set ℕ) (i : grid0.Coords) (hc : cond i)
    (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x10 .f32) (harg5 : arg5.IsWhole) (arg6 : Memref sig .tc .vmem S512x10 .f32) (harg6 : arg6.IsWhole) (arg7 : Memref sig .tc .vmem S512x10 .f32) (harg7 : arg7.IsWhole) (arg8 : Memref sig .tc .vmem S3x1 .f32) (harg8 : arg8.IsWhole) (arg9 : Memref sig .tc .vmem S512x512 .bf16) (harg9 : arg9.IsWhole) (arg10 : Memref sig .tc .vmem S512x10 .f32) (harg10 : arg10.IsWhole) (arg11 : Memref sig .tc .vmem S512x10 .f32) (harg11 : arg11.IsWhole) (arg12 : Memref sig .tc .vmem S512x10 .f32) (harg12 : arg12.IsWhole)
    (x0 x1 x2 : Vec F S512x512 .f32) (x3 x4 x5 : Vec F S512x10 .f32) (x6 : Vec F S3x1 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay6 x6 x0 x1 x2) ∗ owns (c : Thread nD τ) arg10 fullShare (k0_pay9 x0 x3 (k0_pay3 (F := F))) ∗ owns (c : Thread nD τ) arg11 fullShare (k0_pay1 x1 (k0_pay7 x4) (k0_pay4 (F := F))) ∗ owns (c : Thread nD τ) arg12 fullShare (k0_pay2 x2 (k0_pay8 x5) (k0_pay5 (F := F)))) -∗ K ⟨⟩))
      ⊢ wp frame (wpE (defs₀ (F := F)) Variants.none c none) E (cc0__adj_kernel i arg2 harg2 arg3 harg3 arg4 harg4 arg5 harg5 arg6 harg6 arg7 harg7 arg8 harg8 arg9 harg9 arg10 harg10 arg11 harg11 arg12 harg12) K := by
  simp only [cc0__adj_kernel_eq_skeleton]; unfold cc0__adj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_store_whole _ _ hz2]
    exact congr (congr (congr (congrArg k0_pay6 (readW _ _)) (readA _ _)) (readA _ _)) (readA _ _)
  isplitl [H8]
  · iexists _; isplitr
    swap; · iexact H8
    ipureintro
    rw [read_store_whole _ _ hz2]
    sl_unfold_run_names
    exact congr (congr (congrArg k0_pay9 (readA _ _)) (readT _ _)) (readCovT _ _)
  isplitl [H9]
  · iexists _; isplitr
    swap; · iexact H9
    ipureintro
    rw [read_store_whole _ _ hz2]
    sl_unfold_run_names
    exact congr (congr (congrArg k0_pay1 (readA _ _)) (congrArg k0_pay7 (readT _ _))) (readCovT _ _)
  · iexists _; isplitr
    swap; · iexact H10
    ipureintro
    rw [read_store_whole _ _ hz2]
    sl_unfold_run_names
    exact congr (congr (congrArg k0_pay2 (readA _ _)) (congrArg k0_pay8 (readT _ _))) (readCovT _ _)

/-! ## What the totals hold after each point -/

/-- THE RUNNING TOTAL of window 8. What its buffer holds after the body at position `n`: the old total — zero where a
    row of the grid begins, else what the point before left (the buffer is not written back in between) — plus the
    product of this point's blocks. -/
def acc8 (V : Entry F) (c : Dev nD) : (n : ℕ) → n < cfg0.N → Vec F S512x10 .f32
  | 0, hn => k0_pay9 (iblk V c 0 ⟨0, hn⟩) (iblk V c 3 ⟨0, hn⟩) (k0_pay3 (F := F))
  | n + 1, hn => k0_pay9 (iblk V c 0 ⟨n + 1, hn⟩) (iblk V c 3 ⟨n + 1, hn⟩)
      (if (n + 1) % 16 = 0 then (k0_pay3 (F := F)) else acc8 V c n (Nat.lt_of_succ_lt hn))

/-- At a point that begins a row: zero plus the product. -/
theorem acc8_A (V : Entry F) (c : Dev nD) (t : Fin cfg0.N) (h0 : t.val % 16 = 0) :
    acc8 V c t.val t.isLt = k0_pay9 (iblk V c 0 t) (iblk V c 3 t) (k0_pay3 (F := F)) := by
  obtain ⟨n, hn⟩ := t
  cases n with
  | zero => rfl
  | succ n => exact congrArg (k0_pay9 _ _) (if_pos h0)

/-- At any other point: what the point before left plus the product. -/
theorem acc8_B (V : Entry F) (c : Dev nD) (t : Fin cfg0.N) (h0 : ¬t.val % 16 = 0) :
    acc8 V c t.val t.isLt = k0_pay9 (iblk V c 0 t) (iblk V c 3 t)
      (acc8 V c (t.val - 1) (Nat.lt_of_le_of_lt (Nat.sub_le _ _) t.isLt)) := by
  obtain ⟨n, hn⟩ := t
  cases n with
  | zero => exact absurd (Nat.zero_mod _) h0
  | succ n => exact congrArg (k0_pay9 _ _) (if_neg h0)

/-- THE RUNNING TOTAL of window 9. What its buffer holds after the body at position `n`: the old total — zero where a
    row of the grid begins, else what the point before left (the buffer is not written back in between) — plus the
    product of this point's blocks. -/
def acc9 (V : Entry F) (c : Dev nD) : (n : ℕ) → n < cfg0.N → Vec F S512x10 .f32
  | 0, hn => k0_pay1 (iblk V c 1 ⟨0, hn⟩) (k0_pay7 (iblk V c 4 ⟨0, hn⟩)) (k0_pay4 (F := F))
  | n + 1, hn => k0_pay1 (iblk V c 1 ⟨n + 1, hn⟩) (k0_pay7 (iblk V c 4 ⟨n + 1, hn⟩))
      (if (n + 1) % 16 = 0 then (k0_pay4 (F := F)) else acc9 V c n (Nat.lt_of_succ_lt hn))

/-- At a point that begins a row: zero plus the product. -/
theorem acc9_A (V : Entry F) (c : Dev nD) (t : Fin cfg0.N) (h0 : t.val % 16 = 0) :
    acc9 V c t.val t.isLt = k0_pay1 (iblk V c 1 t) (k0_pay7 (iblk V c 4 t)) (k0_pay4 (F := F)) := by
  obtain ⟨n, hn⟩ := t
  cases n with
  | zero => rfl
  | succ n => exact congrArg (k0_pay1 _ _) (if_pos h0)

/-- At any other point: what the point before left plus the product. -/
theorem acc9_B (V : Entry F) (c : Dev nD) (t : Fin cfg0.N) (h0 : ¬t.val % 16 = 0) :
    acc9 V c t.val t.isLt = k0_pay1 (iblk V c 1 t) (k0_pay7 (iblk V c 4 t))
      (acc9 V c (t.val - 1) (Nat.lt_of_le_of_lt (Nat.sub_le _ _) t.isLt)) := by
  obtain ⟨n, hn⟩ := t
  cases n with
  | zero => exact absurd (Nat.zero_mod _) h0
  | succ n => exact congrArg (k0_pay1 _ _) (if_neg h0)

/-- THE RUNNING TOTAL of window 10. What its buffer holds after the body at position `n`: the old total — zero where a
    row of the grid begins, else what the point before left (the buffer is not written back in between) — plus the
    product of this point's blocks. -/
def acc10 (V : Entry F) (c : Dev nD) : (n : ℕ) → n < cfg0.N → Vec F S512x10 .f32
  | 0, hn => k0_pay2 (iblk V c 2 ⟨0, hn⟩) (k0_pay8 (iblk V c 5 ⟨0, hn⟩)) (k0_pay5 (F := F))
  | n + 1, hn => k0_pay2 (iblk V c 2 ⟨n + 1, hn⟩) (k0_pay8 (iblk V c 5 ⟨n + 1, hn⟩))
      (if (n + 1) % 16 = 0 then (k0_pay5 (F := F)) else acc10 V c n (Nat.lt_of_succ_lt hn))

/-- At a point that begins a row: zero plus the product. -/
theorem acc10_A (V : Entry F) (c : Dev nD) (t : Fin cfg0.N) (h0 : t.val % 16 = 0) :
    acc10 V c t.val t.isLt = k0_pay2 (iblk V c 2 t) (k0_pay8 (iblk V c 5 t)) (k0_pay5 (F := F)) := by
  obtain ⟨n, hn⟩ := t
  cases n with
  | zero => rfl
  | succ n => exact congrArg (k0_pay2 _ _) (if_pos h0)

/-- At any other point: what the point before left plus the product. -/
theorem acc10_B (V : Entry F) (c : Dev nD) (t : Fin cfg0.N) (h0 : ¬t.val % 16 = 0) :
    acc10 V c t.val t.isLt = k0_pay2 (iblk V c 2 t) (k0_pay8 (iblk V c 5 t))
      (acc10 V c (t.val - 1) (Nat.lt_of_le_of_lt (Nat.sub_le _ _) t.isLt)) := by
  obtain ⟨n, hn⟩ := t
  cases n with
  | zero => exact absurd (Nat.zero_mod _) h0
  | succ n => exact congrArg (k0_pay2 _ _) (if_neg h0)

/-! ## The proof data -/

/-- Every array is held whole. -/
def q : Fin cfg0.W → PosShare TreeShare := fun _ => fullShare

/-- The proof data on core `c`: the arrays as the region finds them; after the body at point `t` each input's buffer at
    its block, the mix's at the mix of the blocks, each total's at its running total; the invariant the scoped rest and the
    generator register, untouched; nothing owed. -/
def dat (V : Entry F) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => k0_pay6 (iblk V c 6 t) (iblk V c 0 t) (iblk V c 1 t) (iblk V c 2 t)
    | ⟨8, _⟩ => acc8 V c t.val t.isLt
    | ⟨9, _⟩ => acc9 V c t.val t.isLt
    | ⟨10, _⟩ => acc10 V c t.val t.isLt
  Φ _ := Pipeline.ΦA spec0 c
  q := q
  owed _ := 0

theorem A_eq (V : Entry F) (c : Dev nD) (w : Fin cfg0.W) : (dat V c).A w = V c (Pipeline.arrRef spec0 w) := by
  dsimp only [dat]

theorem q_eq (V : Entry F) (c : Dev nD) : (dat V c).q = q := by
  dsimp only [dat]

theorem owed_eq (V : Entry F) (c : Dev nD) (t) : (dat V c).owed t = 0 := by
  dsimp only [dat]

/-- What the body leaves, window by window. -/
theorem after_0 (V : Entry F) (c : Dev nD) (t : Fin cfg0.N) : (dat V c).after 0 t = iblk V c 0 t := by dsimp only [dat]
theorem after_1 (V : Entry F) (c : Dev nD) (t : Fin cfg0.N) : (dat V c).after 1 t = iblk V c 1 t := by dsimp only [dat]
theorem after_2 (V : Entry F) (c : Dev nD) (t : Fin cfg0.N) : (dat V c).after 2 t = iblk V c 2 t := by dsimp only [dat]
theorem after_3 (V : Entry F) (c : Dev nD) (t : Fin cfg0.N) : (dat V c).after 3 t = iblk V c 3 t := by dsimp only [dat]
theorem after_4 (V : Entry F) (c : Dev nD) (t : Fin cfg0.N) : (dat V c).after 4 t = iblk V c 4 t := by dsimp only [dat]
theorem after_5 (V : Entry F) (c : Dev nD) (t : Fin cfg0.N) : (dat V c).after 5 t = iblk V c 5 t := by dsimp only [dat]
theorem after_6 (V : Entry F) (c : Dev nD) (t : Fin cfg0.N) : (dat V c).after 6 t = iblk V c 6 t := by dsimp only [dat]
theorem after_7 (V : Entry F) (c : Dev nD) (t : Fin cfg0.N) : (dat V c).after 7 t = k0_pay6 (iblk V c 6 t) (iblk V c 0 t) (iblk V c 1 t) (iblk V c 2 t) := by dsimp only [dat]
theorem after_8 (V : Entry F) (c : Dev nD) (t : Fin cfg0.N) : (dat V c).after 8 t = acc8 V c t.val t.isLt := by dsimp only [dat]
theorem after_9 (V : Entry F) (c : Dev nD) (t : Fin cfg0.N) : (dat V c).after 9 t = acc9 V c t.val t.isLt := by dsimp only [dat]
theorem after_10 (V : Entry F) (c : Dev nD) (t : Fin cfg0.N) : (dat V c).after 10 t = acc10 V c t.val t.isLt := by dsimp only [dat]

/-- Each input's current buffer holds its block at every point. -/
theorem before_0 (V : Entry F) (c : Dev nD) (t : Fin cfg0.N) (d) : (dat V c).before 0 t d = iblk V c 0 t :=
  before_0_of V (dat V c) (A_eq V c 0) (after_0 V c) t d
theorem before_1 (V : Entry F) (c : Dev nD) (t : Fin cfg0.N) (d) : (dat V c).before 1 t d = iblk V c 1 t :=
  before_1_of V (dat V c) (A_eq V c 1) (after_1 V c) t d
theorem before_2 (V : Entry F) (c : Dev nD) (t : Fin cfg0.N) (d) : (dat V c).before 2 t d = iblk V c 2 t :=
  before_2_of V (dat V c) (A_eq V c 2) (after_2 V c) t d
theorem before_3 (V : Entry F) (c : Dev nD) (t : Fin cfg0.N) (d) : (dat V c).before 3 t d = iblk V c 3 t :=
  before_3_of V (dat V c) (A_eq V c 3) (after_3 V c) t d
theorem before_4 (V : Entry F) (c : Dev nD) (t : Fin cfg0.N) (d) : (dat V c).before 4 t d = iblk V c 4 t :=
  before_4_of V (dat V c) (A_eq V c 4) (after_4 V c) t d
theorem before_5 (V : Entry F) (c : Dev nD) (t : Fin cfg0.N) (d) : (dat V c).before 5 t d = iblk V c 5 t :=
  before_5_of V (dat V c) (A_eq V c 5) (after_5 V c) t d
theorem before_6 (V : Entry F) (c : Dev nD) (t : Fin cfg0.N) (d) : (dat V c).before 6 t d = iblk V c 6 t :=
  before_6_of V (dat V c) (A_eq V c 6) (after_6 V c) t d

/-- Away from the start of a row, total 8's current buffer holds what the body left at the point before: the point is not
    the first and the buffer was not written back in between. -/
theorem before_8_B (V : Entry F) (c : Dev nD) (t : Fin cfg0.N) (h0 : ¬t.val % 16 = 0) (d) :
    (dat V c).before 8 t d = acc8 V c (t.val - 1) (Nat.lt_of_le_of_lt (Nat.sub_le _ _) t.isLt) := by
  have hN : t.val < 256 := lt_of_lt_of_eq t.isLt (show cfg0.N = 256 from N_0)
  rw [Dat.before_out_kept _ 8 rfl t (by omega) (Bool.eq_false_iff.mpr fun h => by have := (flush0_8 _).mp h; dsimp only at this; omega)
    (fun _ => rfl) (fun _ _ => rfl)]
  dsimp only [dat]

/-- Away from the start of a row, total 9's current buffer holds what the body left at the point before: the point is not
    the first and the buffer was not written back in between. -/
theorem before_9_B (V : Entry F) (c : Dev nD) (t : Fin cfg0.N) (h0 : ¬t.val % 16 = 0) (d) :
    (dat V c).before 9 t d = acc9 V c (t.val - 1) (Nat.lt_of_le_of_lt (Nat.sub_le _ _) t.isLt) := by
  have hN : t.val < 256 := lt_of_lt_of_eq t.isLt (show cfg0.N = 256 from N_0)
  rw [Dat.before_out_kept _ 9 rfl t (by omega) (Bool.eq_false_iff.mpr fun h => by have := (flush0_9 _).mp h; dsimp only at this; omega)
    (fun _ => rfl) (fun _ _ => rfl)]
  dsimp only [dat]

/-- Away from the start of a row, total 10's current buffer holds what the body left at the point before: the point is not
    the first and the buffer was not written back in between. -/
theorem before_10_B (V : Entry F) (c : Dev nD) (t : Fin cfg0.N) (h0 : ¬t.val % 16 = 0) (d) :
    (dat V c).before 10 t d = acc10 V c (t.val - 1) (Nat.lt_of_le_of_lt (Nat.sub_le _ _) t.isLt) := by
  have hN : t.val < 256 := lt_of_lt_of_eq t.isLt (show cfg0.N = 256 from N_0)
  rw [Dat.before_out_kept _ 10 rfl t (by omega) (Bool.eq_false_iff.mpr fun h => by have := (flush0_10 _).mp h; dsimp only at this; omega)
    (fun _ => rfl) (fun _ _ => rfl)]
  dsimp only [dat]

/-! ## The body obligation, at a generic point -/

/-- What the body is called with at point `t`, the windows one by one, -/
def bodyPre (V : Entry F) (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- and what it returns. -/
def bodyPost (V : Entry F) (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))

set_option maxHeartbeats 400000 in
/-- The body at any point: the inputs' buffers hold their blocks; the closed form of the condition says which case the
    point is in; away from the start of a row each total's buffer holds what the point before left; so the case's triple
    applies. The invariant passes through unread; the core owes nothing throughout. -/
theorem sound_body (V : Entry F) (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10]
  by_cases h0 : t.val % 16 = 0
  · rw [acc8_A V c t h0, acc9_A V c t h0, acc10_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_A c Set.univ (grid0.coords t) ((hcond t).mpr h0) _ _ _ _ _ _ _ _ _ _ _ _ _ _ _ _ _ _ _ _ _ _ (iblk V c 0 t) (iblk V c 1 t) (iblk V c 2 t) (iblk V c 3 t) (iblk V c 4 t) (iblk V c 5 t) (iblk V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [acc8_B V c t h0, acc9_B V c t h0, acc10_B V c t h0]
    simp only [before_8_B V c t h0, before_9_B V c t h0, before_10_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_B c Set.univ (grid0.coords t) (fun h => h0 ((hcond t).mp h)) _ _ _ _ _ _ _ _ _ _ _ _ _ _ _ _ _ _ _ _ _ _ (iblk V c 0 t) (iblk V c 1 t) (iblk V c 2 t) (iblk V c 3 t) (iblk V c 4 t) (iblk V c 5 t) (iblk V c 6 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The library's body obligation, at every point. -/
theorem body_obligation (V : Entry F) (c : Dev nD) : BodyObligation (dat (F := F) V c) (defs₀ (F := F)) Variants.none () Set.univ := fun t => by
  rw [bigSep_W0, bigSep_W0]
  exact sound_body V c t

/-- The invariant is the region's own at the first point -/
theorem hin (V : Entry F) (c : Dev nD) : (Pipeline.ΦA spec0 c : sProp 𝕄) ⊢ (dat V c).Φ 0 := Entails.refl _

/-- and at the last. -/
theorem hout (V : Entry F) (c : Dev nD) : (dat V c).Φ (Fin.last cfg0.N) ⊢ (Pipeline.ΦA spec0 c : sProp 𝕄) := Entails.refl _

end Cert.KernelIdeal.R0

end
-- ==== Proof.R1Frame.lean ====
import proofs.«177282_j10187662426197_2_alg».proof.Proof.Gen.KernelIdeal.Launch
import proofs.«177282_j10187662426197_2_alg».proof.Proof.Gen.KernelIdeal.Skeleton
import proofs.«177282_j10187662426197_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

/-!
# The second pallas_call's frame: one graph-convolution layer, accumulated over sixteen column blocks

The grid is 16 × 16; point `t` is (i, k) = (t / 16, t % 16). The body keeps a 512 × 128 running total in a scratch
buffer that lives across points. At k = 0 it resets the total to zero; at every point it adds the product of block
(i, k) of the relation matrix with block k of Y, then the product of the TRANSPOSE of block (k, i) with the same block of
Y; at k = 15 it writes the total plus the bias row into the output block i. At every other point the output's staging
buffer is left as it was found.

So the contents of the scratch after point `t` are a recursion on `t` (`accAt`), restarted from zero at the points
with t % 16 = 0; the invariant before point `t + 1` names the scratch at `accAt t`; and what is written back at the
points with t % 16 = 15 is `accAt t` plus the bias row.
-/

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents when the region is entered, per core. -/
abbrev Entry (F : FTy → Type) [FloatOps F] : Type := (c : Dev nD) → (b : Ref sig .tc) → Buf (Elt F) ((c : Thread nD τ).loc b)

/-- The shares held of the windows' arrays: the two windows that stage the same matrix hold one half of it each. -/
def q : Fin cfg1.W → PosShare TreeShare
  | ⟨0, _⟩ => fullShare.left | ⟨1, _⟩ => fullShare.right | ⟨2, _⟩ => fullShare | ⟨3, _⟩ => fullShare | ⟨4, _⟩ => fullShare

variable (V : Entry F)

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The running total -/

/-- One point's work on the running total `xs`: add block·Y, then add blockᵀ·Y. -/
def step (x0 x1 : Vec F S512x512 .bf16) (x2 : Vec F S512x128 .bf16) (xs : Vec F S512x128 .f32) : Vec F S512x128 .f32 :=
  k1_pay4 x1 x2 (k1_pay3 x0 x2 xs)

/-- The scratch after the body at position `n`: one step from zero at the first point and at the points with
    n % 16 = 0, one step from what the point before left otherwise. -/
def accAt (c : Dev nD) : (n : ℕ) → n < cfg1.N → Vec F S512x128 .f32
  | 0, hn => step (iblk V c 0 ⟨0, hn⟩) (iblk V c 1 ⟨0, hn⟩) (iblk V c 2 ⟨0, hn⟩) (k1_pay1 (F := F))
  | n + 1, hn => step (iblk V c 0 ⟨n + 1, hn⟩) (iblk V c 1 ⟨n + 1, hn⟩) (iblk V c 2 ⟨n + 1, hn⟩)
      (if (n + 1) % 16 = 0 then (k1_pay1 (F := F)) else accAt c n (Nat.lt_of_succ_lt hn))

/-- The scratch operand: a whole scoped buffer of the kernel's own, passed beside the windows. -/
abbrev scM : Memref sig .tc .vmem S512x128 .f32 := Memref.whole cc1_scratch0

/-- The region invariant before position `n`: before the first point the scoped rest and the generator register at
    anything; afterwards the same with the scratch named at what the point before left. -/
def PhiS (c : Dev nD) : (n : ℕ) → n ≤ cfg1.N → sProp 𝕄
  | 0, _ => Pipeline.ΦA spec1 c
  | n + 1, hn => iprop(iprop(owns (c : Thread nD τ) scM fullShare (accAt V c n hn)
      ∗ Pipeline.scopedRestBut (Ix := Unit) (Name := ℕ) (U := UR sig nD τ) (Lvl := ℕ) (Val := Elt F) spec1 c [cc1_scratch0]) ∗ (∃ r, prngReg c r))

/-! ## The proof data -/

/-- The proof data of the pipeline on core `c`: the arrays as the region finds them; after the body each input's
    buffer at its block, the output's at the running total plus the bias row; the invariant `PhiS`; nothing owed. -/
def dat (V : Entry F) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay5 (accAt V c t.val t.isLt) (iblk V c 3 t)
  Φ t := PhiS V c t.val (Nat.le_of_lt_succ t.isLt)
  q := q
  owed _ := 0

theorem A_eq (V : Entry F) (c : Dev nD) (w : Fin cfg1.W) : (dat V c).A w = V c (Pipeline.arrRef spec1 w) := by
  dsimp only [dat]
theorem q_eq (V : Entry F) (c : Dev nD) : (dat V c).q = q := by dsimp only [dat]
theorem owed_eq (V : Entry F) (c : Dev nD) (t) : (dat V c).owed t = 0 := by dsimp only [dat]

/-! ## The body's branch conditions -/

/-- The condition of the body's first conditional (the reset), from the grid coordinates. -/
abbrev condZ (i : grid1.Coords) : Prop := (Scalar.cmpi .ne (Scalar.extui (Scalar.cmpi .eq (BitVec.ofNat 32 (i 1).val) 0#32)) 0#32) = 1#1
/-- It holds at the points with t % 16 = 0. -/
theorem hcondZ : ∀ t : Fin cfg1.N, condZ (grid1.coords t) ↔ t.val % 16 = 0 :=
  (by decide +kernel : ∀ t : Fin grid1.N, condZ (grid1.coords t) ↔ t.val % 16 = 0)
/-- The condition of the body's second conditional (the write of the output). -/
abbrev condL (i : grid1.Coords) : Prop := k1_cond2 i = 1#1
/-- It holds at the points with t % 16 = 15. -/
theorem hcondL : ∀ t : Fin cfg1.N, condL (grid1.coords t) ↔ t.val % 16 = 15 :=
  (by decide +kernel : ∀ t : Fin grid1.N, condL (grid1.coords t) ↔ t.val % 16 = 15)

/-- The zero offsets of a whole-buffer access, however spelt. -/
theorem hz2 : (![0, 0] : Fin 2 → ℕ) = fun _ => 0 := by funext a; fin_cases a <;> rfl
theorem hz1 : (![0] : Fin 1 → ℕ) = fun _ => 0 := by funext a; fin_cases a; rfl

/-! ## Whole-buffer stores and loads

Every access of the body is through the rectangle that is the whole buffer. A load after such a store reads the
stored payload, whatever was stored earlier; so does a read of the buffer at the end. -/

/-- A whole-buffer load after writes whose LAST is a whole-buffer store reads that store's payload. -/
theorem readCov_cons_whole {S : Shape} {e : EltTy} {κ : Kind} {sp : Space} (v : View sig κ sp S e) {off : Fin S.rank → ℕ}
    (h : off = fun _ => 0) (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-- The buffer after writes whose LAST is a whole-buffer store holds that store's payload. -/
theorem read_writes_cons_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h]

set_option maxHeartbeats 400000 in
/-- The body at a point with k = 0 (the reset taken, the output not written): the scratch, found at anything, is left one step from zero; the output's buffer is handed back as found. -/
theorem run_A (c : Dev nD) (i : grid1.Coords)
    (arg2 : Memref sig .tc .vmem S512x512 .bf16) (harg2 : arg2.IsWhole) (arg3 : Memref sig .tc .vmem S512x512 .bf16) (harg3 : arg3.IsWhole)
    (arg4 : Memref sig .tc .vmem S512x128 .bf16) (harg4 : arg4.IsWhole) (arg5 : Memref sig .tc .vmem S128 .f32) (harg5 : arg5.IsWhole)
    (arg6 : Memref sig .tc .vmem S512x128 .f32) (harg6 : arg6.IsWhole) (arg7 : Memref sig .tc .vmem S512x128 .f32) (harg7 : arg7.IsWhole)
    (hc0 : condZ i) (hc1 : ¬condL i)
    (x0 x1 : Vec F S512x512 .bf16) (x2 : Vec F S512x128 .bf16) (x3 : Vec F S128 .f32) (xi : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (step x0 x1 x2 (k1_pay1 (F := F)))) -∗ K ⟨⟩))
      ⊢ wp frame (wpE (defs₀ (F := F)) Variants.none c none) E (cc1__gc1_kernel i arg2 harg2 arg3 harg3 arg4 harg4 arg5 harg5 arg6 harg6 arg7 harg7) K := by
  simp only [cc1__gc1_kernel_eq_skeleton]; unfold cc1__gc1_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  sl_unfold_words
  rw [read_writes_cons_whole (S := S512x128) _ _ hz2]
  simp only [readCov_cons_whole (S := S512x128) _ hz2]
  simp only [View.readAt_eq_ld, harg2.read_unread, harg3.read_unread, harg4.read_unread, harg5.read_unread, harg7.read_unread,
      View.ld_unit_zero (S := S512x128) hz2, View.ld_unit_zero (S := S512x512) hz2, View.ld_unit_zero (S := S128) hz1]
  rfl

set_option maxHeartbeats 400000 in
/-- The body at a point with 0 < k < 15 (no reset, the output not written): the scratch, found at `xs`, is left one step further; the output's buffer is handed back as found. -/
theorem run_B (c : Dev nD) (i : grid1.Coords)
    (arg2 : Memref sig .tc .vmem S512x512 .bf16) (harg2 : arg2.IsWhole) (arg3 : Memref sig .tc .vmem S512x512 .bf16) (harg3 : arg3.IsWhole)
    (arg4 : Memref sig .tc .vmem S512x128 .bf16) (harg4 : arg4.IsWhole) (arg5 : Memref sig .tc .vmem S128 .f32) (harg5 : arg5.IsWhole)
    (arg6 : Memref sig .tc .vmem S512x128 .f32) (harg6 : arg6.IsWhole) (arg7 : Memref sig .tc .vmem S512x128 .f32) (harg7 : arg7.IsWhole)
    (hc0 : ¬condZ i) (hc1 : ¬condL i)
    (x0 x1 : Vec F S512x512 .bf16) (x2 : Vec F S512x128 .bf16) (x3 : Vec F S128 .f32) (xi xs : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (step x0 x1 x2 xs)) -∗ K ⟨⟩))
      ⊢ wp frame (wpE (defs₀ (F := F)) Variants.none c none) E (cc1__gc1_kernel i arg2 harg2 arg3 harg3 arg4 harg4 arg5 harg5 arg6 harg6 arg7 harg7) K := by
  simp only [cc1__gc1_kernel_eq_skeleton]; unfold cc1__gc1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  sl_unfold_words
  rw [read_writes_cons_whole (S := S512x128) _ _ hz2]
  simp only [readCov_cons_whole (S := S512x128) _ hz2]
  simp only [View.readAt_eq_ld, harg2.read_unread, harg3.read_unread, harg4.read_unread, harg5.read_unread, harg7.read_unread,
      View.ld_unit_zero (S := S512x128) hz2, View.ld_unit_zero (S := S512x512) hz2, View.ld_unit_zero (S := S128) hz1]
  rfl

set_option maxHeartbeats 400000 in
/-- The body at a point with k = 15 (no reset, the output written): the scratch, found at `xs`, is left one step further, and the output's buffer, found at anything, holds that total plus the bias row. -/
theorem run_C (c : Dev nD) (i : grid1.Coords)
    (arg2 : Memref sig .tc .vmem S512x512 .bf16) (harg2 : arg2.IsWhole) (arg3 : Memref sig .tc .vmem S512x512 .bf16) (harg3 : arg3.IsWhole)
    (arg4 : Memref sig .tc .vmem S512x128 .bf16) (harg4 : arg4.IsWhole) (arg5 : Memref sig .tc .vmem S128 .f32) (harg5 : arg5.IsWhole)
    (arg6 : Memref sig .tc .vmem S512x128 .f32) (harg6 : arg6.IsWhole) (arg7 : Memref sig .tc .vmem S512x128 .f32) (harg7 : arg7.IsWhole)
    (hc0 : ¬condZ i) (hc1 : condL i)
    (x0 x1 : Vec F S512x512 .bf16) (x2 : Vec F S512x128 .bf16) (x3 : Vec F S128 .f32) (xs : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay5 (step x0 x1 x2 xs) x3)
            ∗ owns (c : Thread nD τ) arg7 fullShare (step x0 x1 x2 xs)) -∗ K ⟨⟩))
      ⊢ wp frame (wpE (defs₀ (F := F)) Variants.none c none) E (cc1__gc1_kernel i arg2 harg2 arg3 harg3 arg4 harg4 arg5 harg5 arg6 harg6 arg7 harg7) K := by
  simp only [cc1__gc1_kernel_eq_skeleton]; unfold cc1__gc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [read_writes_cons_whole (S := S512x128) _ _ hz2]
    simp only [readCov_cons_whole (S := S512x128) _ hz2]
    simp only [View.readAt_eq_ld, harg2.read_unread, harg3.read_unread, harg4.read_unread, harg5.read_unread, harg7.read_unread,
      View.ld_unit_zero (S := S512x128) hz2, View.ld_unit_zero (S := S512x512) hz2, View.ld_unit_zero (S := S128) hz1]
    rfl
  iexists _; isplitr
  swap; · iexact HS
  ipureintro
  sl_unfold_words
  rw [read_writes_cons_whole (S := S512x128) _ _ hz2]
  simp only [readCov_cons_whole (S := S512x128) _ hz2]
  simp only [View.readAt_eq_ld, harg2.read_unread, harg3.read_unread, harg4.read_unread, harg5.read_unread, harg7.read_unread,
      View.ld_unit_zero (S := S512x128) hz2, View.ld_unit_zero (S := S512x512) hz2, View.ld_unit_zero (S := S128) hz1]
  rfl

/-! ## What the windows' buffers hold when the body runs, and what it leaves in them -/

/-- What the body leaves, window by window (the proof data's `match` reduced). -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = k1_pay5 (accAt V c t.val t.isLt) (iblk V c 3 t) := by dsimp only [dat]

/-- Each input's current staging buffer holds its block at every point, fetched there or not: an input that is not
    fetched at a point has the block index of the point before, and the body leaves its block in place. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- The inputs are never idle. -/
theorem liveAt_0 : ∀ t : Fin cfg1.N, cfg1.idle 0 (grid1.coords t) = false := fun _ => rfl
theorem liveAt_1 : ∀ t : Fin cfg1.N, cfg1.idle 1 (grid1.coords t) = false := fun _ => rfl
theorem liveAt_2 : ∀ t : Fin cfg1.N, cfg1.idle 2 (grid1.coords t) = false := fun _ => rfl
theorem liveAt_3 : ∀ t : Fin cfg1.N, cfg1.idle 3 (grid1.coords t) = false := fun _ => rfl
/-- The output is idle exactly where the body does not write it, -/
theorem idleAt_4 : ∀ t : Fin cfg1.N, ¬condL (grid1.coords t) → cfg1.idle 4 (grid1.coords t) = true := by decide +kernel
theorem liveAt_4 : ∀ t : Fin cfg1.N, condL (grid1.coords t) → cfg1.idle 4 (grid1.coords t) = false := by decide +kernel
/-- and is not written back there. -/
theorem noFlush_4 (t : Fin cfg1.N) (h : ¬t.val % 16 = 15) : (cfg1.win 4).flush t = false :=
  Bool.eq_false_iff.mpr fun hf => h ((flush1_4 t).mp hf)

/-- What the body's post says of each input's buffer: it holds its block still. -/
theorem leaves_0 (c : Dev nD) (t : Fin cfg1.N) :
    (dat V c).leavesExact 0 t = owns (c : Thread nD τ) (st1_0 t) fullShare (iblk V c 0 t) := by
  unfold Dat.leavesExact; rw [liveAt_0 t, after_0]
theorem leaves_1 (c : Dev nD) (t : Fin cfg1.N) :
    (dat V c).leavesExact 1 t = owns (c : Thread nD τ) (st1_1 t) fullShare (iblk V c 1 t) := by
  unfold Dat.leavesExact; rw [liveAt_1 t, after_1]
theorem leaves_2 (c : Dev nD) (t : Fin cfg1.N) :
    (dat V c).leavesExact 2 t = owns (c : Thread nD τ) (st1_2 t) fullShare (iblk V c 2 t) := by
  unfold Dat.leavesExact; rw [liveAt_2 t, after_2]
theorem leaves_3 (c : Dev nD) (t : Fin cfg1.N) :
    (dat V c).leavesExact 3 t = owns (c : Thread nD τ) (st1_3 t) fullShare (iblk V c 3 t) := by
  unfold Dat.leavesExact; rw [liveAt_3 t, after_3]
/-- Of the output's at a point that writes it: the running total plus the bias row. -/
theorem leaves_4 (c : Dev nD) (t : Fin cfg1.N) (h : condL (grid1.coords t)) :
    (dat V c).leavesExact 4 t = owns (c : Thread nD τ) (st1_4 t) fullShare (k1_pay5 (accAt V c t.val t.isLt) (iblk V c 3 t)) := by
  unfold Dat.leavesExact; rw [liveAt_4 t h, after_4]

/-! ## The running total, point by point -/

/-- At a point with t % 16 = 0 the total restarts from zero. -/
theorem accAt_Z (c : Dev nD) (t : Fin cfg1.N) (h0 : t.val % 16 = 0) :
    accAt V c t.val t.isLt = step (iblk V c 0 t) (iblk V c 1 t) (iblk V c 2 t) (k1_pay1 (F := F)) := by
  obtain ⟨n, hn⟩ := t
  cases n with
  | zero => rfl
  | succ n => exact congrArg (step _ _ _) (if_pos h0)

/-- At any other point it continues from what the point before left. -/
theorem accAt_S (c : Dev nD) (t : Fin cfg1.N) (h0 : ¬t.val % 16 = 0) :
    accAt V c t.val t.isLt = step (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact congrArg (step _ _ _) (if_neg h0)

/-! ## The invariant -/

/-- What the launch hands the region, with the scratch operand split out of the scoped rest and owned as a memref. -/
theorem PhiA_eq (c : Dev nD) :
    (Pipeline.ΦA spec1 c : sProp 𝕄)
      = iprop(iprop((∃ d, owns (c : Thread nD τ) scM fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM, owns_whole]; try rfl

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (accAt V c n hn)
      ∗ Pipeline.scopedRestBut (Ix := Unit) (Name := ℕ) (U := UR sig nD τ) (Lvl := ℕ) (Val := Elt F) spec1 c [cc1_scratch0]) ∗ (∃ r, prngReg c r)) := rfl

theorem PhiS_pos (c : Dev nD) (n : ℕ) (h : n ≤ cfg1.N) (hz : n ≠ 0) :
    PhiS V c n h = iprop(iprop(owns (c : Thread nD τ) scM fullShare (accAt V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

theorem PhiS_castSucc (c : Dev nD) (t : Fin cfg1.N) :
    (dat V c).Φ t.castSucc = PhiS V c t.val (Nat.le_of_lt t.isLt) := by
  dsimp only [dat]; simp only [Fin.coe_castSucc]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 3200000 in
/-- The body at any point. The inputs' buffers hold their blocks; the point's position in its row of the grid says
    which of the three cases it is in; the invariant hands the body the scratch at what the point before left (at
    anything at the first point) and takes it back at this point's total; at the points that do not write the output its
    buffer goes back as it came; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3]
  have hN : t.val < 256 := lt_of_lt_of_eq t.isLt (show cfg1.N = 256 from N_1)
  by_cases h0 : t.val % 16 = 0
  · have h1 : ¬t.val % 16 = 15 := by omega
    rw [Dat.leavesExact_idle (dat V c) 4 t (idleAt_4 t (fun h => h1 ((hcondL t).mp h))) (noFlush_4 t h1)]
    rw [accAt_Z V c t h0]
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩⟩
      iapply (run_A c (grid1.coords t) _ _ _ _ _ _ _ _ _ _ _ _ ((hcondZ t).mpr h0) (fun h => h1 ((hcondL t).mp h)) (iblk V c 0 t) (iblk V c 1 t) (iblk V c 2 t) (iblk V c 3 t) ((dat V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run_A c (grid1.coords t) _ _ _ _ _ _ _ _ _ _ _ _ ((hcondZ t).mpr h0) (fun h => h1 ((hcondL t).mp h)) (iblk V c 0 t) (iblk V c 1 t) (iblk V c 2 t) (iblk V c 3 t) ((dat V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [accAt_S V c t h0, PhiS_castSucc V c t, PhiS_pos V c _ _ hz]
    by_cases h1 : t.val % 16 = 15
    · rw [leaves_4 V c t ((hcondL t).mpr h1), accAt_S V c t h0]
      iintro ⟨⟨⟨HS, HR⟩, Hg⟩, Ho, ⟨%d0, H0⟩, ⟨%d1, H1⟩, ⟨%d2, H2⟩, ⟨%d3, H3⟩, ⟨%d4, H4⟩⟩
      iapply (run_C c (grid1.coords t) _ _ _ _ _ _ _ _ _ _ _ _ (fun h => h0 ((hcondZ t).mp h)) ((hcondL t).mpr h1) (iblk V c 0 t) (iblk V c 1 t) (iblk V c 2 t) (iblk V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat V c) 4 t (idleAt_4 t (fun h => h1 ((hcondL t).mp h))) (noFlush_4 t h1)]
      iintro ⟨⟨⟨HS, HR⟩, Hg⟩, Ho, ⟨%d0, H0⟩, ⟨%d1, H1⟩, ⟨%d2, H2⟩, ⟨%d3, H3⟩, ⟨%d4, H4⟩⟩
      iapply (run_B c (grid1.coords t) _ _ _ _ _ _ _ _ _ _ _ _ (fun h => h0 ((hcondZ t).mp h)) (fun h => h1 ((hcondL t).mp h)) (iblk V c 0 t) (iblk V c 1 t) (iblk V c 2 t) (iblk V c 3 t) ((dat V c).before 4 t d4) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (V : Entry F) (c : Dev nD) : BodyObligation (dat (F := F) V c) (defs₀ (F := F)) Variants.none () Set.univ := fun t => by
  rw [bigSep_W1, bigSep_W1]
  exact sound_body V c t

/-- What the launch hands the region is the invariant before the first point. -/
theorem hin (V : Entry F) (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the scratch's named contents are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (V : Entry F) (c : Dev nD) : (dat V c).Φ (Fin.last cfg1.N) ⊢ (Pipeline.ΦA spec1 c : sProp 𝕄) :=
  Phi_out V c _ (by rw [Fin.val_last]; have : cfg1.N = 256 := N_1; omega)

end Cert.KernelIdeal.R1

end
-- ==== Proof.R2Frame.lean ====
import proofs.«177282_j10187662426197_2_alg».proof.Proof.Gen.KernelIdeal.Launch
import proofs.«177282_j10187662426197_2_alg».proof.Proof.Gen.KernelIdeal.Skeleton
import proofs.«177282_j10187662426197_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

/-!
# The third grid (16 × 16 points): the accumulating readout, point by point

Point `t` of the grid is the pair `(i, k) = (t / 16, t % 16)`. Along a row `i` the body keeps a
`512 × 128` accumulator in a scratch buffer of its own:

* at `k = 0` the accumulator is set to zero;
* at every `k` it gains the product of block `(i, k)` of the square matrix with block `k` of the
  tall matrix, and then the product of the TRANSPOSE of block `(k, i)` with the same block `k`;
* at `k = 15` block `i` of the result is written: (block `i` of the addend + (accumulator + bias row)) · ½.

This file states what every staging buffer and the accumulator hold after each point (`accAt`, `outAt`),
packs it as the proof data of the pipeline rule (`dat`), and proves that the body, run at any point from
that data, re-establishes it (`body_obligation`). Everything here holds for any float instance.
-/

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffer contents of a core when the grid is entered. -/
abbrev Entry (F : FTy → Type) [FloatOps F] : Type := (c : Dev nD) → (b : Ref sig .tc) → Buf (Elt F) ((c : Thread nD τ).loc b)

/-- The share held of each windowed array: the square matrix is staged by two windows, which hold a half each. -/
def q : Fin cfg2.W → PosShare TreeShare
  | ⟨0, _⟩ => fullShare.left | ⟨1, _⟩ => fullShare.right | ⟨2, _⟩ => fullShare | ⟨3, _⟩ => fullShare | ⟨4, _⟩ => fullShare | ⟨5, _⟩ => fullShare

/-! ## The blocks the windows stage -/

/-- Window `w`'s block at point `t`, read off its array as the grid finds it. -/
def iblk (V : Entry F) (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the accumulator and the output block hold -/

/-- One point's update of the accumulator `s`: add block `x0` times `x2`, then the transpose of `x1` times `x2`. -/
def stepAcc (x0 x1 : Vec F S512x512 .bf16) (x2 : Vec F S512x128 .bf16) (s : Vec F S512x128 .f32) : Vec F S512x128 .f32 :=
  k2_pay4 x1 x2 (k2_pay3 x0 x2 s)

/-- The accumulator after the body at point `n`: restarted from zero where a row begins (`n % 16 = 0`). -/
def accAt (V : Entry F) (c : Dev nD) : (n : ℕ) → n < cfg2.N → Vec F S512x128 .f32
  | 0, hn => stepAcc (iblk V c 0 ⟨0, hn⟩) (iblk V c 1 ⟨0, hn⟩) (iblk V c 2 ⟨0, hn⟩) (k2_pay1 (F := F))
  | n + 1, hn =>
    stepAcc (iblk V c 0 ⟨n + 1, hn⟩) (iblk V c 1 ⟨n + 1, hn⟩) (iblk V c 2 ⟨n + 1, hn⟩)
      (if (n + 1) % 16 = 0 then k2_pay1 (F := F) else accAt V c n (Nat.lt_of_succ_lt hn))

/-- The output block the body writes at a row's last point, from that point's accumulator. -/
def outAt (V : Entry F) (c : Dev nD) (t : Fin cfg2.N) : Vec F S512x128 .f32 :=
  k2_pay5 (accAt V c t.val t.isLt) (iblk V c 4 t) (iblk V c 3 t)

/-! ## The invariant: the accumulator between points -/

/-- The scratch buffer the body keeps its accumulator in. -/
abbrev scM : Memref sig .tc .vmem S512x128 .f32 := Memref.whole cc2_scratch0

/-- What the grid is entered with, with the accumulator's buffer split off at some contents. -/
theorem PhiA_eq (c : Dev nD) :
    (Pipeline.ΦA spec2 c : sProp 𝕄)
      = iprop(iprop(iprop((∃ d, owns (c : Thread nD τ) scM fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM, owns_whole]; try rfl

/-- The invariant before position `n`: before the first point what the grid is entered with; afterwards the same
    with the accumulator's buffer at what the point before left in it. -/
def PhiS (V : Entry F) (c : Dev nD) : (n : ℕ) → n ≤ cfg2.N → sProp 𝕄
  | 0, _ => Pipeline.ΦA spec2 c
  | n + 1, hn => iprop(iprop(owns (c : Thread nD τ) scM fullShare (accAt V c n hn)
      ∗ Pipeline.scopedRestBut (Ix := Unit) (Name := ℕ) (U := UR sig nD τ) (Lvl := ℕ) (Val := Elt F) spec2 c [cc2_scratch0]) ∗ (∃ r, prngReg c r))

theorem PhiS_zero (V : Entry F) (c : Dev nD) (n : ℕ) (h : n ≤ cfg2.N) (hz : n = 0) : PhiS V c n h = Pipeline.ΦA spec2 c := by
  subst hz; rfl

theorem PhiS_succ (V : Entry F) (c : Dev nD) (n : ℕ) (hn : n < cfg2.N) :
    PhiS V c (n + 1) hn = iprop(iprop(owns (c : Thread nD τ) scM fullShare (accAt V c n hn)
      ∗ Pipeline.scopedRestBut (Ix := Unit) (Name := ℕ) (U := UR sig nD τ) (Lvl := ℕ) (Val := Elt F) spec2 c [cc2_scratch0]) ∗ (∃ r, prngReg c r)) := rfl

theorem PhiS_pos (V : Entry F) (c : Dev nD) (n : ℕ) (h : n ≤ cfg2.N) (hz : n ≠ 0) :
    PhiS V c n h = iprop(iprop(owns (c : Thread nD τ) scM fullShare (accAt V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The proof data on core `c`: the arrays as the grid finds them; after the body at point `t` every input's
    buffer at its block and the output's at `outAt`; the invariant `PhiS`; nothing owed. -/
def dat (V : Entry F) (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val (Nat.le_of_lt_succ t.isLt)
  q := q
  owed _ := 0

theorem A_eq (V : Entry F) (c : Dev nD) (w : Fin cfg2.W) : (dat V c).A w = V c (Pipeline.arrRef spec2 w) := by
  dsimp only [dat]

theorem q_eq (V : Entry F) (c : Dev nD) : (dat V c).q = q := by
  dsimp only [dat]

theorem owed_eq (V : Entry F) (c : Dev nD) (t) : (dat V c).owed t = 0 := by
  dsimp only [dat]

theorem PhiS_castSucc (V : Entry F) (c : Dev nD) (t : Fin cfg2.N) :
    (dat V c).Φ t.castSucc = PhiS V c t.val (Nat.le_of_lt t.isLt) := by
  dsimp only [dat]; simp only [Fin.coe_castSucc]

theorem after_0 (V : Entry F) (c : Dev nD) (t : Fin cfg2.N) : (dat V c).after 0 t = iblk V c 0 t := by dsimp only [dat]
theorem after_1 (V : Entry F) (c : Dev nD) (t : Fin cfg2.N) : (dat V c).after 1 t = iblk V c 1 t := by dsimp only [dat]
theorem after_2 (V : Entry F) (c : Dev nD) (t : Fin cfg2.N) : (dat V c).after 2 t = iblk V c 2 t := by dsimp only [dat]
theorem after_3 (V : Entry F) (c : Dev nD) (t : Fin cfg2.N) : (dat V c).after 3 t = iblk V c 3 t := by dsimp only [dat]
theorem after_4 (V : Entry F) (c : Dev nD) (t : Fin cfg2.N) : (dat V c).after 4 t = iblk V c 4 t := by dsimp only [dat]
theorem after_5 (V : Entry F) (c : Dev nD) (t : Fin cfg2.N) : (dat V c).after 5 t = outAt V c t := by dsimp only [dat]

/-- The first conditional of the body (the accumulator is zeroed): its condition from the grid coordinates. -/
abbrev cond1 (i : grid2.Coords) : Prop := (Scalar.cmpi .ne (Scalar.extui (Scalar.cmpi .eq (BitVec.ofNat 32 (i 1).val) 0#32)) 0#32) = 1#1
/-- The second conditional (the output block is written). -/
abbrev cond2 (i : grid2.Coords) : Prop := k2_cond2 i = 1#1

/-- The accumulator is zeroed exactly at the first point of a row; -/
theorem hcond1 : ∀ t : Fin cfg2.N, cond1 (grid2.coords t) ↔ t.val % 16 = 0 :=
  (by decide +kernel : ∀ t : Fin grid2.N, cond1 (grid2.coords t) ↔ t.val % 16 = 0)
/-- the output block is written exactly at its last point. -/
theorem hcond2 : ∀ t : Fin cfg2.N, cond2 (grid2.coords t) ↔ t.val % 16 = 15 :=
  (by decide +kernel : ∀ t : Fin grid2.N, cond2 (grid2.coords t) ↔ t.val % 16 = 15)

/-- Where the output block is not written its window is idle, -/
theorem idleAt_5 : ∀ t : Fin cfg2.N, ¬cond2 (grid2.coords t) → cfg2.idle 5 (grid2.coords t) = true := by decide +kernel
/-- and not written back; -/
theorem noFlush_5 : ∀ t : Fin cfg2.N, ¬cond2 (grid2.coords t) → (cfg2.win 5).flush t = false := by decide +kernel
/-- where it is written the window is live. -/
theorem liveAt_5 : ∀ t : Fin cfg2.N, cond2 (grid2.coords t) → cfg2.idle 5 (grid2.coords t) = false := by decide +kernel

theorem hz2 : (![0, 0] : Fin 2 → Nat) = fun _ => 0 := funext fun a => by fin_cases a <;> rfl
theorem hz1 : (![0] : Fin 1 → Nat) = fun _ => 0 := funext fun a => by fin_cases a; rfl

/-! ## What the inputs' buffers hold at a point: their blocks, fetched there or not -/

theorem before_0 (V : Entry F) (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (V : Entry F) (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (V : Entry F) (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (V : Entry F) (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (V : Entry F) (c : Dev nD) (t : Fin cfg2.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body on any whole staging buffers, case by case

The three cases the grid meets: a row's first point (`A`: the accumulator is zeroed first), a point inside a row
(`B`), a row's last point (`C`: the output block is written from the accumulator). In each the inputs' buffers are
handed back as found and the accumulator's buffer holds `stepAcc` of the blocks over what it started from. -/

set_option maxHeartbeats 400000 in
theorem run_A (c : Dev nD) (E : Set ℕ) (i : grid2.Coords) (arg2 : Memref sig .tc .vmem S512x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S512x128 .f32) (harg5 : arg5.IsWhole) (arg6 : Memref sig .tc .vmem S128 .f32) (harg6 : arg6.IsWhole) (arg7 : Memref sig .tc .vmem S512x128 .f32) (harg7 : arg7.IsWhole) (arg8 : Memref sig .tc .vmem S512x128 .f32) (harg8 : arg8.IsWhole) (hc1 : cond1 i) (hc2 : ¬cond2 i)
    (x0 x1 : Vec F S512x512 .bf16) (x2 : Vec F S512x128 .bf16) (x3 : Vec F S512x128 .f32) (x4 : Vec F S128 .f32) (xi5 : Vec F S512x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare (stepAcc x0 x1 x2 (k2_pay1 (F := F)))) -∗ K ⟨⟩))
      ⊢ wp frame (wpE (defs₀ (F := F)) Variants.none c none) E (cc2__gc2_kernel i arg2 harg2 arg3 harg3 arg4 harg4 arg5 harg5 arg6 harg6 arg7 harg7 arg8 harg8) K := by
  simp only [cc2__gc2_kernel_eq_skeleton]; unfold cc2__gc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  rw [View.read_writes_eq_canon _ _ _ (fun y => ⟨_, List.mem_cons_self, View.mem_set_unit_zero hz2 inb_S512x128_S512x128_0_0 y⟩)]
  rw [View.canon_cons_unit_zero (S := S512x128) hz2]
  sl_unfold_words
  rw [View.readCov_cons_toLoadRect, View.readCov_cons_toLoadRect]
  simp only [View.readAt_eq_ld, harg2.read_unread, harg3.read_unread, harg4.read_unread,
    View.ld_unit_zero (S := S512x512) hz2, View.ld_unit_zero (S := S512x128) hz2]
  rfl

set_option maxHeartbeats 400000 in
theorem run_B (c : Dev nD) (E : Set ℕ) (i : grid2.Coords) (arg2 : Memref sig .tc .vmem S512x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S512x128 .f32) (harg5 : arg5.IsWhole) (arg6 : Memref sig .tc .vmem S128 .f32) (harg6 : arg6.IsWhole) (arg7 : Memref sig .tc .vmem S512x128 .f32) (harg7 : arg7.IsWhole) (arg8 : Memref sig .tc .vmem S512x128 .f32) (harg8 : arg8.IsWhole) (hc1 : ¬cond1 i) (hc2 : ¬cond2 i)
    (x0 x1 : Vec F S512x512 .bf16) (x2 : Vec F S512x128 .bf16) (x3 : Vec F S512x128 .f32) (x4 : Vec F S128 .f32) (xi5 : Vec F S512x128 .f32) (xs : Vec F S512x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare (stepAcc x0 x1 x2 xs)) -∗ K ⟨⟩))
      ⊢ wp frame (wpE (defs₀ (F := F)) Variants.none c none) E (cc2__gc2_kernel i arg2 harg2 arg3 harg3 arg4 harg4 arg5 harg5 arg6 harg6 arg7 harg7 arg8 harg8) K := by
  simp only [cc2__gc2_kernel_eq_skeleton]; unfold cc2__gc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  rw [View.read_writes_eq_canon _ _ _ (fun y => ⟨_, List.mem_cons_self, View.mem_set_unit_zero hz2 inb_S512x128_S512x128_0_0 y⟩)]
  rw [View.canon_cons_unit_zero (S := S512x128) hz2]
  sl_unfold_words
  rw [View.readCov_unit_zero (S := S512x128) _ hz2]
  simp only [View.readAt_eq_ld, harg2.read_unread, harg3.read_unread, harg4.read_unread, harg8.read_unread,
    View.ld_unit_zero (S := S512x512) hz2, View.ld_unit_zero (S := S512x128) hz2]
  rfl

set_option maxHeartbeats 1000000 in
theorem run_C (c : Dev nD) (E : Set ℕ) (i : grid2.Coords) (arg2 : Memref sig .tc .vmem S512x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S512x128 .f32) (harg5 : arg5.IsWhole) (arg6 : Memref sig .tc .vmem S128 .f32) (harg6 : arg6.IsWhole) (arg7 : Memref sig .tc .vmem S512x128 .f32) (harg7 : arg7.IsWhole) (arg8 : Memref sig .tc .vmem S512x128 .f32) (harg8 : arg8.IsWhole) (hc1 : ¬cond1 i) (hc2 : cond2 i)
    (x0 x1 : Vec F S512x512 .bf16) (x2 : Vec F S512x128 .bf16) (x3 : Vec F S512x128 .f32) (x4 : Vec F S128 .f32) (xs : Vec F S512x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare (k2_pay5 (stepAcc x0 x1 x2 xs) x4 x3)
            ∗ owns (c : Thread nD τ) arg8 fullShare (stepAcc x0 x1 x2 xs)) -∗ K ⟨⟩))
      ⊢ wp frame (wpE (defs₀ (F := F)) Variants.none c none) E (cc2__gc2_kernel i arg2 harg2 arg3 harg3 arg4 harg4 arg5 harg5 arg6 harg6 arg7 harg7 arg8 harg8) K := by
  simp only [cc2__gc2_kernel_eq_skeleton]; unfold cc2__gc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (fun y => ⟨_, List.mem_cons_self, View.mem_set_unit_zero hz2 inb_S512x128_S512x128_0_0 y⟩)]
    rw [View.canon_cons_unit_zero (S := S512x128) hz2]
    sl_unfold_words
    rw [View.readCov_cons_toLoadRect, View.readCov_unit_zero (S := S512x128) _ hz2]
    simp only [View.readAt_eq_ld, harg2.read_unread, harg3.read_unread, harg4.read_unread, harg5.read_unread, harg6.read_unread, harg8.read_unread,
      View.ld_unit_zero (S := S512x512) hz2, View.ld_unit_zero (S := S512x128) hz2, View.ld_unit_zero (S := S128) hz1]
    rfl
  iexists _; isplitr
  swap; · iexact HS
  ipureintro
  sl_unfold_words
  rw [View.read_writes_eq_canon _ _ _ (fun y => ⟨_, List.mem_cons_self, View.mem_set_unit_zero hz2 inb_S512x128_S512x128_0_0 y⟩)]
  rw [View.canon_cons_unit_zero (S := S512x128) hz2]
  rw [View.readCov_unit_zero (S := S512x128) _ hz2]
  simp only [View.readAt_eq_ld, harg2.read_unread, harg3.read_unread, harg4.read_unread, harg8.read_unread,
    View.ld_unit_zero (S := S512x512) hz2, View.ld_unit_zero (S := S512x128) hz2]
  rfl

/-! ## The body at a generic point -/

/-- Each window's current staging buffer at point `t`, as the body is called with it. -/
abbrev mst_0 (t : Fin cfg2.N) : Memref sig .tc .vmem S512x512 .bf16 := win2_0.stage (cfg2.slots t 0)
abbrev hst_0 (t : Fin cfg2.N) : (mst_0 t).IsWhole := hstage2_0 ((cfg2.slots t 0).cast nbuf2_0)
abbrev mst_1 (t : Fin cfg2.N) : Memref sig .tc .vmem S512x512 .bf16 := win2_1.stage (cfg2.slots t 1)
abbrev hst_1 (t : Fin cfg2.N) : (mst_1 t).IsWhole := hstage2_1 ((cfg2.slots t 1).cast nbuf2_1)
abbrev mst_2 (t : Fin cfg2.N) : Memref sig .tc .vmem S512x128 .bf16 := win2_2.stage (cfg2.slots t 2)
abbrev hst_2 (t : Fin cfg2.N) : (mst_2 t).IsWhole := hstage2_2 ((cfg2.slots t 2).cast nbuf2_2)
abbrev mst_3 (t : Fin cfg2.N) : Memref sig .tc .vmem S512x128 .f32 := win2_3.stage (cfg2.slots t 3)
abbrev hst_3 (t : Fin cfg2.N) : (mst_3 t).IsWhole := hstage2_3 ((cfg2.slots t 3).cast nbuf2_3)
abbrev mst_4 (t : Fin cfg2.N) : Memref sig .tc .vmem S128 .f32 := win2_4.stage (cfg2.slots t 4)
abbrev hst_4 (t : Fin cfg2.N) : (mst_4 t).IsWhole := hstage2_4 ((cfg2.slots t 4).cast nbuf2_4)
abbrev mst_5 (t : Fin cfg2.N) : Memref sig .tc .vmem S512x128 .f32 := win2_5.stage (cfg2.slots t 5)
abbrev hst_5 (t : Fin cfg2.N) : (mst_5 t).IsWhole := hstage2_5 ((cfg2.slots t 5).cast nbuf2_5)

/-- The inputs' windows are never idle. -/
theorem liveAt_0 : ∀ t : Fin cfg2.N, cfg2.idle 0 (grid2.coords t) = false := fun _ => rfl
theorem liveAt_1 : ∀ t : Fin cfg2.N, cfg2.idle 1 (grid2.coords t) = false := fun _ => rfl
theorem liveAt_2 : ∀ t : Fin cfg2.N, cfg2.idle 2 (grid2.coords t) = false := fun _ => rfl
theorem liveAt_3 : ∀ t : Fin cfg2.N, cfg2.idle 3 (grid2.coords t) = false := fun _ => rfl
theorem liveAt_4 : ∀ t : Fin cfg2.N, cfg2.idle 4 (grid2.coords t) = false := fun _ => rfl

/-- An input's buffer is handed back holding its block. -/
theorem leaves_0 (V : Entry F) (c : Dev nD) (t : Fin cfg2.N) :
    (dat V c).leavesExact 0 t = owns (c : Thread nD τ) (mst_0 t) fullShare (iblk V c 0 t) := by
  unfold Dat.leavesExact; rw [liveAt_0 t, after_0]
theorem leaves_1 (V : Entry F) (c : Dev nD) (t : Fin cfg2.N) :
    (dat V c).leavesExact 1 t = owns (c : Thread nD τ) (mst_1 t) fullShare (iblk V c 1 t) := by
  unfold Dat.leavesExact; rw [liveAt_1 t, after_1]
theorem leaves_2 (V : Entry F) (c : Dev nD) (t : Fin cfg2.N) :
    (dat V c).leavesExact 2 t = owns (c : Thread nD τ) (mst_2 t) fullShare (iblk V c 2 t) := by
  unfold Dat.leavesExact; rw [liveAt_2 t, after_2]
theorem leaves_3 (V : Entry F) (c : Dev nD) (t : Fin cfg2.N) :
    (dat V c).leavesExact 3 t = owns (c : Thread nD τ) (mst_3 t) fullShare (iblk V c 3 t) := by
  unfold Dat.leavesExact; rw [liveAt_3 t, after_3]
theorem leaves_4 (V : Entry F) (c : Dev nD) (t : Fin cfg2.N) :
    (dat V c).leavesExact 4 t = owns (c : Thread nD τ) (mst_4 t) fullShare (iblk V c 4 t) := by
  unfold Dat.leavesExact; rw [liveAt_4 t, after_4]

/-- The accumulator after a row's first point: the update of zero. -/
theorem accAt_first (V : Entry F) (c : Dev nD) (t : Fin cfg2.N) (h0 : t.val % 16 = 0) :
    accAt V c t.val t.isLt = stepAcc (iblk V c 0 t) (iblk V c 1 t) (iblk V c 2 t) (k2_pay1 (F := F)) := by
  obtain ⟨n, hn⟩ := t
  cases n with
  | zero => rfl
  | succ n => exact congrArg (stepAcc _ _ _) (if_pos h0)

/-- The accumulator after any other point: the update of what the point before left. -/
theorem accAt_next (V : Entry F) (c : Dev nD) (t : Fin cfg2.N) (h0 : ¬t.val % 16 = 0) :
    accAt V c t.val t.isLt = stepAcc (iblk V c 0 t) (iblk V c 1 t) (iblk V c 2 t) (accAt V c (t.val - 1) (Nat.lt_of_le_of_lt (Nat.sub_le _ _) t.isLt)) := by
  obtain ⟨n, hn⟩ := t
  cases n with
  | zero => exact absurd (Nat.zero_mod _) h0
  | succ n => exact congrArg (stepAcc _ _ _) (if_neg h0)

/-- What the body is called with at point `t`, the windows one by one, -/
def bodyPre (V : Entry F) (c : Dev nD) (t : Fin cfg2.N) : sProp 𝕄 :=
  iprop((dat V c).Φ t.castSucc ∗ (dat V c).owesAt () t.castSucc
    ∗ (∃ d, owns (c : Thread nD τ) (mst_0 t) fullShare ((dat V c).before 0 t d))
    ∗ (∃ d, owns (c : Thread nD τ) (mst_1 t) fullShare ((dat V c).before 1 t d))
    ∗ (∃ d, owns (c : Thread nD τ) (mst_2 t) fullShare ((dat V c).before 2 t d))
    ∗ (∃ d, owns (c : Thread nD τ) (mst_3 t) fullShare ((dat V c).before 3 t d))
    ∗ (∃ d, owns (c : Thread nD τ) (mst_4 t) fullShare ((dat V c).before 4 t d))
    ∗ (∃ d, owns (c : Thread nD τ) (mst_5 t) fullShare ((dat V c).before 5 t d)))

/-- and what it returns. -/
def bodyPost (V : Entry F) (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' buffers hold their blocks; the point's position in its row says which case
    it is in; the invariant hands the body the accumulator at what the point before left (at anything where a row
    begins) and takes it back at this point's contents; the core owes nothing throughout. -/
theorem sound_body (V : Entry F) (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4]
  have hN : t.val < 256 := lt_of_lt_of_eq t.isLt (show cfg2.N = 256 from N_2)
  by_cases h0 : t.val % 16 = 0
  · have h1 : ¬t.val % 16 = 15 := by omega
    rw [Dat.leavesExact_idle (dat V c) 5 t (idleAt_5 t (fun h => h1 ((hcond2 t).mp h))) (noFlush_5 t (fun h => h1 ((hcond2 t).mp h)))]
    rw [accAt_first V c t h0]
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run_A c Set.univ (grid2.coords t) _ _ _ _ _ _ _ _ _ _ _ _ _ _ ((hcond1 t).mpr h0) (fun h => h1 ((hcond2 t).mp h)) (iblk V c 0 t) (iblk V c 1 t) (iblk V c 2 t) (iblk V c 3 t) (iblk V c 4 t) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run_A c Set.univ (grid2.coords t) _ _ _ _ _ _ _ _ _ _ _ _ _ _ ((hcond1 t).mpr h0) (fun h => h1 ((hcond2 t).mp h)) (iblk V c 0 t) (iblk V c 1 t) (iblk V c 2 t) (iblk V c 3 t) (iblk V c 4 t) _ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [PhiS_castSucc V c t, PhiS_pos V c _ _ hz]
    by_cases h1 : t.val % 16 = 15
    · rw [show (dat V c).leavesExact 5 t = owns (c : Thread nD τ) (mst_5 t) fullShare ((dat V c).after 5 t) from by
        unfold Dat.leavesExact; rw [liveAt_5 t ((hcond2 t).mpr h1)], after_5]
      unfold outAt
      rw [accAt_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run_C c Set.univ (grid2.coords t) _ _ _ _ _ _ _ _ _ _ _ _ _ _ (fun h => h0 ((hcond1 t).mp h)) ((hcond2 t).mpr h1) (iblk V c 0 t) (iblk V c 1 t) (iblk V c 2 t) (iblk V c 3 t) (iblk V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat V c) 5 t (idleAt_5 t (fun h => h1 ((hcond2 t).mp h))) (noFlush_5 t (fun h => h1 ((hcond2 t).mp h)))]
      rw [accAt_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run_B c Set.univ (grid2.coords t) _ _ _ _ _ _ _ _ _ _ _ _ _ _ (fun h => h0 ((hcond1 t).mp h)) (fun h => h1 ((hcond2 t).mp h)) (iblk V c 0 t) (iblk V c 1 t) (iblk V c 2 t) (iblk V c 3 t) (iblk V c 4 t) _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline rule's body obligation, at every point. -/
theorem body_obligation (V : Entry F) (c : Dev nD) : BodyObligation (dat (F := F) V c) (defs₀ (F := F)) Variants.none () Set.univ := fun t => by
  rw [bigSep_W2, bigSep_W2]
  exact sound_body V c t

theorem hin (V : Entry F) (c : Dev nD) : (Pipeline.ΦA spec2 c : sProp 𝕄) ⊢ (dat V c).Φ 0 := by
  rw [show (dat V c).Φ 0 = PhiS V c 0 (Nat.zero_le _) from rfl, PhiS_zero V c 0 _ rfl]
  try exact Idealize.SL.BI.Entails.refl _

theorem Phi_out (V : Entry F) (c : Dev nD) (t : Fin (cfg2.N + 1)) (ht : t.val ≠ 0) : (dat V c).Φ t ⊢ (Pipeline.ΦA spec2 c : sProp 𝕄) := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (V : Entry F) (c : Dev nD) : (dat V c).Φ (Fin.last cfg2.N) ⊢ (Pipeline.ΦA spec2 c : sProp 𝕄) :=
  Phi_out V c _ (by rw [Fin.val_last]; have : cfg2.N = 256 := N_2; omega)

end Cert.KernelIdeal.R2

end
-- ==== Proof.LibSharedArrays.lean ====
/-
  One array handed to a kernel through several input windows.

  A pipeline holds each window's array separately, window by window, at a share of the window's own; the launch hands
  over the DISTINCT buffers behind the arrays, each whole at the full share. When several windows read one buffer the
  buffer's full share has to be dealt among them. Two facts, for any window layout:

  * regrouping — the windows are partitioned by the buffer behind their array, so the distinct buffers entail any
    window-indexed family of resources as soon as each buffer by itself entails the family over the windows on it;
  * dealing — one points-to at the full share is three points-tos of the same contents at the shares
    left, right·left, right·right (the tree share's two halves, the right one halved again), and back.
-/
import Idealize.ShloMosaic.Lib.Pipeline.Launch
import Idealize.ShloMosaic.Lib.Pipeline.Frame
import Idealize.ShloMosaic.Lib.Pipeline.FrameSuffix

noncomputable section

namespace Cert.Lib.SharedArrays

open Idealize.ShloMosaic Idealize.ShloMosaic.Pipeline
open Idealize.SL
open Idealize.SL.BI (sProp bigSep bigSep_mono bigSep_biUnion)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The windows, grouped by the buffer behind their array, are all the windows. -/
theorem biUnion_fibers {gr W : Nat} (win : Fin W → WinSpec sig gr) :
    (Finset.univ.image (arrRef win)).biUnion (fun b => Finset.univ.filter fun w => arrRef win w = b) = Finset.univ := by
  ext w
  simp only [Finset.mem_biUnion, Finset.mem_image, Finset.mem_univ, true_and, Finset.mem_filter, iff_true]
  exact ⟨arrRef win w, ⟨w, rfl⟩, rfl⟩

/-- A family over the windows whose array lies among the buffers `s`, grouped buffer by buffer. -/
theorem bigSep_fiberwise {gr W : Nat} (win : Fin W → WinSpec sig gr) (P : Fin W → sProp 𝕄) (s : Finset (Ref sig .tc)) :
    bigSep (Finset.univ.filter fun w => arrRef win w ∈ s) P
      = bigSep s fun b => bigSep (Finset.univ.filter fun w => arrRef win w = b) P := by
  classical
  induction s using Finset.induction_on with
  | empty => simp
  | insert b s hb ih =>
    have hd : Disjoint (Finset.univ.filter fun w => arrRef win w = b) (Finset.univ.filter fun w => arrRef win w ∈ s) :=
      Finset.disjoint_filter.mpr fun w _ h₁ h₂ => hb (h₁ ▸ h₂)
    have hu : (Finset.univ.filter fun w => arrRef win w ∈ insert b s)
        = (Finset.univ.filter fun w => arrRef win w = b) ∪ (Finset.univ.filter fun w => arrRef win w ∈ s) := by
      ext w; simp [Finset.mem_insert]
    rw [BI.bigSep_insert hb, ← ih, hu, BI.bigSep_union hd]

/-- Every window's array lies among the buffers behind the arrays. -/
theorem filter_image_eq_univ {gr W : Nat} (win : Fin W → WinSpec sig gr) :
    (Finset.univ.filter fun w => arrRef win w ∈ Finset.univ.image (arrRef win)) = Finset.univ := by
  ext w; simp

/-- REGROUPING, as an equality: a family over all windows is the family over the windows on each buffer, buffer by buffer. -/
theorem bigSep_windows_eq {gr W : Nat} (win : Fin W → WinSpec sig gr) (P : Fin W → sProp 𝕄) :
    bigSep Finset.univ P
      = bigSep (Finset.univ.image (arrRef win)) fun b => bigSep (Finset.univ.filter fun w => arrRef win w = b) P := by
  rw [← bigSep_fiberwise, filter_image_eq_univ]

/-- JOINING (the converse of dealing, at a region's exit). If the resources of the windows on each buffer entail the buffer
    whole at the full share at contents `V`, then the windows' resources together entail the distinct buffers at `V`. -/
theorem entails_arrBufs {gr W : Nat} (win : Fin W → WinSpec sig gr) (c : Dev nD)
    (V : (b : Ref sig .tc) → Buf Val ((c.tc : Thread nD τ).loc b)) (P : Fin W → sProp 𝕄)
    (h : ∀ b ∈ Finset.univ.image (arrRef win),
      bigSep (Finset.univ.filter fun w => arrRef win w = b) P ⊢ ((((c.tc : Thread nD τ).loc b) ↦{fullShare} V b : sProp 𝕄))) :
    bigSep Finset.univ P ⊢ (arrBufs win c V : sProp 𝕄) := by
  classical
  rw [bigSep_windows_eq win P]
  unfold arrBufs
  exact bigSep_mono h

/-- REGROUPING. If each distinct buffer, whole at the full share at contents `V`, entails the resources `P w` of the
    windows `w` whose array it is, then the distinct buffers together entail `P` over every window. -/
theorem arrBufs_entails {gr W : Nat} (win : Fin W → WinSpec sig gr) (c : Dev nD)
    (V : (b : Ref sig .tc) → Buf Val ((c.tc : Thread nD τ).loc b)) (P : Fin W → sProp 𝕄)
    (h : ∀ b ∈ Finset.univ.image (arrRef win),
      ((((c.tc : Thread nD τ).loc b) ↦{fullShare} V b : sProp 𝕄)) ⊢ bigSep (Finset.univ.filter fun w => arrRef win w = b) P) :
    (arrBufs win c V : sProp 𝕄) ⊢ bigSep Finset.univ P := by
  classical
  unfold arrBufs
  have hflat := bigSep_biUnion (M := 𝕄) (Finset.univ.image (arrRef win))
    (fun b => Finset.univ.filter fun w => arrRef win w = b) (Φ := P)
  rw [biUnion_fibers] at hflat
  exact (bigSep_mono h).trans hflat

/-- REGROUPING, both ways at once. -/
theorem arrBufs_iff {gr W : Nat} (win : Fin W → WinSpec sig gr) (c : Dev nD)
    (V : (b : Ref sig .tc) → Buf Val ((c.tc : Thread nD τ).loc b)) (P : Fin W → sProp 𝕄)
    (h : ∀ b ∈ Finset.univ.image (arrRef win),
      ((((c.tc : Thread nD τ).loc b) ↦{fullShare} V b : sProp 𝕄)) ⊣⊢ bigSep (Finset.univ.filter fun w => arrRef win w = b) P) :
    (arrBufs win c V : sProp 𝕄) ⊣⊢ bigSep Finset.univ P :=
  ⟨arrBufs_entails win c V P fun b hb => (h b hb).1, entails_arrBufs win c V P fun b hb => (h b hb).2⟩

/-- DEALING. One points-to at the full share is three of the same contents, at the left half, the left half of the
    right half and the right half of the right half; the three together are the full share again. -/
theorem pointsTo_deal3 {ℓ : Loc nD τ sig} (I : Finset (Idx ℓ)) (f : Buf Val ℓ) :
    (ℓ ↦[I]{fullShare} f : sProp 𝕄)
      ⊣⊢ iprop((ℓ ↦[I]{fullShare.left} f) ∗ (ℓ ↦[I]{fullShare.right.left} f) ∗ ℓ ↦[I]{fullShare.right.right} f) :=
  (pointsTo_share (PosShare.mem_left_op_right fullShare)).trans
    ⟨sep_mono .rfl (pointsTo_share (PosShare.mem_left_op_right fullShare.right)).1,
     sep_mono .rfl (pointsTo_share (PosShare.mem_left_op_right fullShare.right)).2⟩

/-- The three shares of the deal, for a window's position among the three windows on one buffer. -/
def share3 : Fin 3 → PosShare TreeShare
  | 0 => fullShare.left
  | 1 => fullShare.right.left
  | 2 => fullShare.right.right

/-- A core's unscoped buffers are the distinct buffers behind the windows' arrays and the rest, whether or not
    windows share an array. -/
theorem unscopedBufs_eq {gr W : Nat} (win : Fin W → WinSpec sig gr) (hunscoped : ∀ w, (arrRef win w).isScoped = false) (c : Dev nD)
    (V : (b : Ref sig .tc) → Buf Val ((c.tc : Thread nD τ).loc b)) :
    (unscopedBufs c V : sProp 𝕄) = iprop((arrBufs win c V : sProp 𝕄) ∗ unscopedRest win c V) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  unfold unscopedBufs unscopedRest arrBufs
  rw [BI.bigSep_sdiff_split hA]
  rfl

/-! ## The host lines after a region whose windows share arrays -/

section Tail

variable {Λ₀ : Idealize.SL.Sem.Labels} {P : Type} [Fintype P] [DecidableEq P]
variable (pcs : P → PCfg sig Λ₀ Val) (defs₀ : Defs nD τ sig Val Λ₀) (𝒱₀ : Variants)

local notation "𝔻" => Pipeline.defs pcs defs₀
local notation "𝕍" => Variants.lift 𝒱₀

omit [Fintype P] [DecidableEq P] in
set_option backward.isDefEq.respectTransparency.types false in
/-- The lines after the region, run from the windows' resources `Pw` and the bypassing buffers. The windows' resources
    join into the distinct buffers behind the arrays at the exit contents `Wv` (`hjoin`) and are dealt from them again
    (`hdeal`); no line writes an array (`hkeep`). The lines then run over the core's unscoped buffers, held whole, and the
    windows' resources come back as they were beside the bypassing buffers at the lines' results. -/
theorem tail_seqs_shared [Preorder Lvl] {gr W : Nat} (win : Fin W → WinSpec sig gr) (hunscoped : ∀ w, (arrRef win w).isScoped = false)
    (c : Dev nD) (Wv : Valuation τ sig Val) (Pw : Fin W → sProp 𝕄)
    (hjoin : bigSep Finset.univ Pw ⊢ (arrBufs win c (fun b => Wv (Proc.devRef .tc b)) : sProp 𝕄))
    (hdeal : (arrBufs win c (fun b => Wv (Proc.devRef .tc b)) : sProp 𝕄) ⊢ bigSep Finset.univ Pw)
    (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef win w) ∉ op.writes)
    (Q' : PUnit → sProp 𝕄) :
    iprop((iprop(bigSep Finset.univ Pw ∗ unscopedRest win c (fun b => StableHlo.after opss.flatten Wv (Proc.devRef .tc b))) -∗ Q' ⟨⟩)
        ∗ boundary (c.tc : Thread nD τ) ∗ bigSep Finset.univ Pw ∗ unscopedRest win c (fun b => Wv (Proc.devRef .tc b)))
      ⊢ wp frame (wpE 𝔻 𝕍 (c.tc : Thread nD τ) none) Set.univ (chain (opss.map StableHlo.seq)) Q' := by
  classical
  have hheld : ∀ Wv' : Valuation τ sig Val, (StableHlo.held (c.tc : Thread nD τ) (ucRefs τ sig) Wv' : sProp 𝕄)
      = iprop((arrBufs win c (fun b => Wv' (Proc.devRef .tc b)) : sProp 𝕄) ∗ unscopedRest win c (fun b => Wv' (Proc.devRef .tc b))) := fun Wv' => by
    rw [← unscopedBufs_held (Ix := Ix) (Name := Name) (U := U) (Lvl := Lvl) c Wv']
    exact unscopedBufs_eq win hunscoped c _
  have hsame : (arrBufs win c (fun b => StableHlo.after opss.flatten Wv (Proc.devRef .tc b)) : sProp 𝕄)
      = arrBufs win c (fun b => Wv (Proc.devRef .tc b)) := by
    unfold arrBufs
    refine BI.bigSep_congr fun b hb => ?_
    obtain ⟨w, -, rfl⟩ := Finset.mem_image.mp hb
    beta_reduce
    rw [StableHlo.after_of_forall_not_mem _ _ fun op hop => ?_]
    obtain ⟨ops, hops, hop⟩ := List.mem_flatten.mp hop
    exact hkeep ops hops op hop w
  rw [← List.append_nil (opss.map StableHlo.seq)]
  iintro ⟨Hk, Hb, Hp, Hr⟩
  ihave Ha := hjoin $$ Hp
  iapply (wp_seqs_then pcs defs₀ 𝒱₀ c (ucRefs τ sig) [] opss (fun ops ho op h => sub_ucRefs op (hsub ops ho op h)) hfresh Wv) $$ [Hb Ha Hr]
  · rw [hheld Wv]
    isplitl [Hb]; · iexact Hb
    isplitl [Ha] <;> iassumption
  iintro Hb
  rw [chain_nil, wp_pure, hheld, hsame]
  imodintro
  iapply Hk
  icases Hb with ⟨-, Ha, Hr⟩
  isplitl [Ha]
  · iapply hdeal; iexact Ha
  iexact Hr

end Tail

/-! ## The frame run of a region whose windows share arrays, @main continuing after it -/

section Frame

variable {Λ₀ : Idealize.SL.Sem.Labels} {P : Type} [Fintype P] [DecidableEq P] [∀ e, Nonempty (Val e)]
variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝕄₁" => MT nD τ sig Unit Val ℕ (UR sig nD τ) ℕ
local notation "𝔻" => Pipeline.defs (fun q => Cfg.toPCfg (Val := Val) (cfgs q)) defs₀

/-- What a run of such a program ends in: every window's array at what the library computes from the proof data, and
    every unscoped buffer that is no window's array at the results of the lines after the region, run from the exit
    contents `VN`. -/
def SharedPost (VN : Dev nD → Valuation τ sig Val) (opss : List (List (HloOp τ sig Val))) : PUnit × MemSt nD τ sig Val → Prop := fun r =>
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = StableHlo.after opss.flatten (VN c) (Proc.devRef .tc b)

set_option backward.isDefEq.respectTransparency.types false in
/-- THE FRAME RUN for a kernel of the plain class — no semaphore, scratch or table of its own, nothing carried between
    points beyond the tracked invariant — whose windows MAY SHARE ARRAYS, in an @main that continues after the region
    with the host lines `opss`. The layout comes by its fields (`hinj`, `hw`, `hne`, `harr`, `hstage`); in place of the
    arrays' distinctness the certificate says how the distinct buffers at the entry contents `V₀` are dealt to the
    windows (`hdeal0`), and, at the exit contents `VN` — `V₀` off the arrays (`hVN`) —, that the windows' holdings join
    into the distinct buffers and are dealt from them again (`hjoinN`, `hdealN`); the lines write no array (`hkeep`). -/
theorem θ_run_frame_around_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ VN : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hVN : ∀ c, ∀ b ∈ restRefs sig (cfg).spec, VN c (Proc.devRef .tc b) = V₀ c (Proc.devRef .tc b))
    (hdeal0 : ∀ c, (arrBufs (cfg).spec c (fun b => V₀ c (Proc.devRef .tc b)) : sProp 𝕄₁) ⊢ (dats p c).arrays ((dats p c).arrAt · 0))
    (hjoinN : ∀ c, (dats p c).arrays ((dats p c).arrAt · (cfg).N) ⊢ (arrBufs (cfg).spec c (fun b => VN c (Proc.devRef .tc b)) : sProp 𝕄₁))
    (hdealN : ∀ c, (arrBufs (cfg).spec c (fun b => VN c (Proc.devRef .tc b)) : sProp 𝕄₁) ⊢ (dats p c).arrays ((dats p c).arrAt · (cfg).N))
    (hin : ∀ c, ΦA (cfg).spec c ⊢ (dats p c).Φ 0) (hout : ∀ c, (dats p c).Φ (Fin.last (cfg).N) ⊢ ΦA (cfg).spec c) :
    θ_run 𝔻 (onTc main) (s₀ m g) (SharedPost cfgs dats p VN opss) := by
  classical
  exact θ_run_region_pf_tail (fun q => (cfgs q).toPCfg (Val := Val)) (fun q => (cfgs q).toPCfg_adm) dats () hinj p hw
    (OwnSemFacts.none (cfg).spec) (PreFacts.none _) emb₁ defs₀ 𝒱₀ m g main
    (fun _ => chain (opss.map StableHlo.seq)) hbody hne harr hstage howed
    (G := fun _ => iprop(emp)) (u₀ := initOf (cells cfgs hinj) (launchToks cfgs hinj))
    (hu₀ := by
      iintro Hu; imodintro
      isplitl [Hu]; · iapply (show (ownU _ : sProp 𝕄₁) ⊢ BI.own (emb₁ (initOf (cells cfgs hinj) (launchToks cfgs hinj))) from .rfl); iexact Hu
      iapply (show (BI.emp : sProp 𝕄₁) ⊢ bigSep Finset.univ (fun _ : Dev nD => (BI.emp : sProp 𝕄₁)) from by rw [BI.bigSep_emp_const])
      iempintro)
    (V := fun c b => V₀ c (Proc.devRef .tc b)) (hmain := hmain)
    (hsplit := hdeal0)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c
      (fun b => StableHlo.after opss.flatten (VN c) (Proc.devRef .tc b)))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      rw [unscopedRestP_none, unscopedRestP_none,
        show (unscopedRest (cfg).spec c (fun b => V₀ c (Proc.devRef .tc b)) : sProp 𝕄₁)
            = unscopedRest (cfg).spec c (fun b => VN c (Proc.devRef .tc b)) from by
          unfold unscopedRest; exact BI.bigSep_congr fun b hb => by beta_reduce; rw [hVN c b hb]]
      exact tail_seqs_shared (fun q => (cfgs q).toPCfg (Val := Val)) defs₀ 𝒱₀ (cfg).spec hw.arr_unscoped c (VN c) _
        (hjoinN c) (hdealN c) opss hsub hfresh hkeep Q')
    (QY := fun c s => ∀ b ∈ restRefs sig (cfg).spec, s.mem ((c.tc : Thread nD τ).loc b) = StableHlo.after opss.flatten (VN c) (Proc.devRef .tc b))
    (hY := fun c s' => by
      rw [unscopedRestP_none]
      iintro ⟨-, HU, HSI⟩
      unfold unscopedRest
      imodintro
      iapply (pointsTo_read_all (restRefs sig (cfg).spec) (fun b => (c.tc : Thread nD τ).loc b)
        (fun b => StableHlo.after opss.flatten (VN c) (Proc.devRef .tc b)) s')
      isplitl [HU] <;> iassumption)
    (hQ := fun s h c => ⟨(h c).1, (h c).2.2⟩)

end Frame

end Cert.Lib.SharedArrays

end
-- ==== Proof.Asm.lean ====
/-
  The three kernel regions and the two stretches of host operations between them, put together.

  Between the five items of the program every unscoped buffer is held whole at named contents: the launch contents, then
  what the first region's write-backs leave in its four results, the host product X·W₁, the first layer written by the
  second region, the host product U₁·W₂, and the result written by the third region. Each region is entered by handing
  it the buffers behind its windows' arrays and left by taking them back. In the second and third regions two windows
  read one array, the mix: its buffer's full share is dealt as two halves at entry and joined again at exit. The run of
  the whole program then says every final memory holds every unscoped buffer at the last contents; no item writes an
  argument, so each argument is read back as launched.
-/
import proofs.«177282_j10187662426197_2_alg».proof.Proof.R0Frame
import proofs.«177282_j10187662426197_2_alg».proof.Proof.R1Frame
import proofs.«177282_j10187662426197_2_alg».proof.Proof.R2Frame
import proofs.«177282_j10187662426197_2_alg».proof.Proof.LibSharedArrays
import proofs.«177282_j10187662426197_2_alg».proof.Proof.Gen.KernelIdeal.Launch
import proofs.«177282_j10187662426197_2_alg».proof.Proof.Gen.KernelIdeal.Regions
import proofs.«177282_j10187662426197_2_alg».proof.Proof.Gen.KernelIdeal.Skeleton
import proofs.«177282_j10187662426197_2_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the five items of the program -/

/-- At launch. -/
abbrev W0 (c : Dev nD) : Valuation τ sig (Elt F) := fun b => m (c, b)
/-- The same read at the TensorCore's references: what the first region is entered from. -/
abbrev E0 : R0.Entry F := fun c b => W0 m c b
/-- After the first region: its four results at what its write-backs leave, every other buffer as before. -/
def W1 (c : Dev nD) : Valuation τ sig (Elt F) :=
  Function.update (Function.update (Function.update (Function.update (W0 m c)
    main_v0_0 ((R0.dat (E0 m) c).arrAt 7 cfg0.N)) main_v0_1 ((R0.dat (E0 m) c).arrAt 8 cfg0.N))
    main_v0_2 ((R0.dat (E0 m) c).arrAt 9 cfg0.N)) main_v0_3 ((R0.dat (E0 m) c).arrAt 10 cfg0.N)
/-- After the first stretch of host operations (the product X·W₁). -/
abbrev W2 (c : Dev nD) : Valuation τ sig (Elt F) := StableHlo.after hostOps1 (W1 m c)
abbrev E2 : R1.Entry F := fun c b => W2 m c b
/-- After the second region: the first layer's result written. -/
def W3 (c : Dev nD) : Valuation τ sig (Elt F) := Function.update (W2 m c) main_v5 ((R1.dat (E2 m) c).arrAt 4 cfg1.N)
/-- After the second stretch of host operations (the product U₁·W₂). -/
abbrev W4 (c : Dev nD) : Valuation τ sig (Elt F) := StableHlo.after hostOps2 (W3 m c)
abbrev E4 : R2.Entry F := fun c b => W4 m c b
/-- After the third region: the result written. -/
def W5 (c : Dev nD) : Valuation τ sig (Elt F) := Function.update (W4 m c) main_v10 ((R2.dat (E4 m) c).arrAt 5 cfg2.N)

/-- The prefetched tables' admissible contents: no region has a table. -/
abbrev adm : (p : Fin 3) → (pcfgs (F := F) p).Adm := fun p => (cfgs p).toPCfg_adm
/-- Every region's proof data, each at its entry contents. -/
def pdats : (p : Fin 3) → (c : Dev nD) → Dat τ (Elt F) Unit ℕ (UR sig nD τ) ℕ (Pipeline.pin (pcfgs (F := F)) adm p) c
  | ⟨0, _⟩ => fun c => R0.dat (E0 m) c
  | ⟨1, _⟩ => fun c => R1.dat (E2 m) c
  | ⟨2, _⟩ => fun c => R2.dat (E4 m) c

/-! ## A region's arrays as points-tos of the buffers behind them, each at the window's share -/

section Arrays

variable {m}

/-- The share region 1 holds each window's array at. -/
theorem share1 (V : R1.Entry F) (c : Dev nD) (w : Fin cfg1.W) :
    (R1.dat V c).share w = (match w with | ⟨0, _⟩ => fullShare.left | ⟨1, _⟩ => fullShare.right | ⟨2, _⟩ => fullShare | ⟨3, _⟩ => fullShare | ⟨4, _⟩ => fullShare) := by
  unfold Dat.share
  rw [R1.q_eq]
  match w with
  | ⟨0, _⟩ => rfl
  | ⟨1, _⟩ => rfl
  | ⟨2, _⟩ => rfl
  | ⟨3, _⟩ => rfl
  | ⟨4, _⟩ => rfl

/-- Region 1's arrays: the mix at the two halves of its full share (the two windows that stage it), the projected
    features, the bias and the result whole. -/
theorem arrays1_eq (V : R1.Entry F) (c : Dev nD) (G : (w : Fin cfg1.W) → Buf (Elt F) ((cfg1.win w).arr.view.loc (c.tc : Thread nD τ))) :
    ((R1.dat V c).arrays G : sProp 𝕄) = iprop(
        ((((c : Thread nD τ).loc main_v0_0) ↦{fullShare.left} G 0) : sProp 𝕄) ∗ (((c : Thread nD τ).loc main_v0_0) ↦{fullShare.right} G 1)
      ∗ (((c : Thread nD τ).loc main_v4) ↦{fullShare} G 2) ∗ (((c : Thread nD τ).loc main_arg9) ↦{fullShare} G 3)
      ∗ (((c : Thread nD τ).loc main_v5) ↦{fullShare} G 4)) := by
  have h : ((R1.dat V c).arrays G : sProp 𝕄)
      = bigSep Finset.univ fun w => ((((c : Thread nD τ).loc (Pipeline.arrRef spec1 w)) ↦{(R1.dat V c).share w} G w) : sProp 𝕄) := by
    unfold Dat.arrays
    exact bigSep_congr fun w _ => by rw [(arr_whole1 w).set_eq_univ]
  rw [h, bigSep_W1, share1, share1, share1, share1, share1]

/-- The distinct buffers behind region 1's arrays. -/
theorem arrBufs1_eq (c : Dev nD) (V : (b : Ref sig .tc) → Buf (Elt F) ((c : Thread nD τ).loc b)) :
    (Pipeline.arrBufs spec1 c V : sProp 𝕄) = iprop(
        ((((c : Thread nD τ).loc main_v0_0) ↦{fullShare} V main_v0_0) : sProp 𝕄) ∗ (((c : Thread nD τ).loc main_v4) ↦{fullShare} V main_v4)
      ∗ (((c : Thread nD τ).loc main_arg9) ↦{fullShare} V main_arg9) ∗ (((c : Thread nD τ).loc main_v5) ↦{fullShare} V main_v5)) := by
  unfold Pipeline.arrBufs
  exact bigSep_eq_bigSepL_of_eq [main_v0_0, main_v4, main_arg9, main_v5] (by decide) (by decide) _

/-- One buffer at the full share is the same contents at the two halves. -/
theorem deal2 {ℓ : Loc nD τ sig} (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

end Arrays

/-! ## The thread state between items, and the host stretches as segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor

/-- A stretch of host operations over every unscoped buffer, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The second region: the mix staged through two windows -/

/-- Every unscoped buffer at a valuation: the distinct buffers behind region 1's arrays and the rest. -/
theorem held1 (c : Dev nD) (W : Valuation τ sig (Elt F)) :
    (StableHlo.held (c : Thread nD τ) (Pipeline.ucRefs τ sig) W : sProp 𝕄)
      = iprop(Pipeline.arrBufs spec1 c (fun b => W b) ∗ Pipeline.unscopedRest spec1 c (fun b => W b)) := by
  rw [← Pipeline.unscopedBufs_held c W]
  exact Cert.Lib.SharedArrays.unscopedBufs_eq spec1 winFacts₀1.arr_unscoped c _

/-- Entering region 1: the buffers behind its arrays become its arrays, the mix dealt to its two windows. -/
theorem enter1 (c : Dev nD) :
    (Pipeline.arrBufs spec1 c (E2 m c) : sProp 𝕄) ⊢ (R1.dat (E2 m) c).arrays ((R1.dat (E2 m) c).arrAt · 0) := by
  rw [arrBufs1_eq, arrays1_eq]
  simp only [show ∀ w, (R1.dat (E2 m) c).arrAt w 0 = (R1.dat (E2 m) c).A w from fun _ => rfl, R1.A_eq]
  have hd := (deal2 (F := F) (ℓ := (c : Thread nD τ).loc main_v0_0) (E2 m c main_v0_0)).1
  refine (sep_mono hd .rfl).trans ?_
  iintro ⟨⟨Hl, Hr⟩, H2, H3, H4⟩
  isplitl [Hl]; · iexact Hl
  isplitl [Hr]; · iexact Hr
  isplitl [H2]; · iexact H2
  isplitl [H3]; · iexact H3
  iexact H4

/-- The second region changes one buffer, its result. -/
theorem W3_of (c : Dev nD) (r : Ref sig .tc) (h : r ≠ main_v5) : W3 m c r = W2 m c r := by
  simp only [W3, Function.update_of_ne (StableHlo.devRef_ne_of_ne h : (Proc.devRef .tc r : DevRef τ sig) ≠ Proc.devRef .tc main_v5)]
theorem W3_self (c : Dev nD) : W3 m c main_v5 = (R1.dat (E2 m) c).arrAt 4 cfg1.N := by
  simp only [W3, Function.update_self]

/-- Leaving region 1: its arrays at their final contents are the buffers behind them at the next contents. -/
theorem leave1 (c : Dev nD) :
    ((R1.dat (E2 m) c).arrays ((R1.dat (E2 m) c).arrAt · cfg1.N) : sProp 𝕄) ⊢ Pipeline.arrBufs spec1 c (fun b => W3 m c b) := by
  rw [arrBufs1_eq, arrays1_eq]
  rw [show (R1.dat (E2 m) c).arrAt 0 cfg1.N = E2 m c main_v0_0 from ((R1.dat (E2 m) c).arrAt_in 0 rfl _).trans (R1.A_eq _ _ 0),
    show (R1.dat (E2 m) c).arrAt 1 cfg1.N = E2 m c main_v0_0 from ((R1.dat (E2 m) c).arrAt_in 1 rfl _).trans (R1.A_eq _ _ 1),
    show (R1.dat (E2 m) c).arrAt 2 cfg1.N = E2 m c main_v4 from ((R1.dat (E2 m) c).arrAt_in 2 rfl _).trans (R1.A_eq _ _ 2),
    show (R1.dat (E2 m) c).arrAt 3 cfg1.N = E2 m c main_arg9 from ((R1.dat (E2 m) c).arrAt_in 3 rfl _).trans (R1.A_eq _ _ 3)]
  rw [W3_of m c main_v0_0 (by decide), W3_of m c main_v4 (by decide), W3_of m c main_arg9 (by decide), W3_self]
  have hj := (deal2 (F := F) (ℓ := (c : Thread nD τ).loc main_v0_0) (W2 m c main_v0_0)).2
  iintro ⟨Hl, Hr, H2, H3, H4⟩
  isplitl [Hl Hr]
  · iapply hj
    isplitl [Hl] <;> iassumption
  isplitl [H2]; · iexact H2
  isplitl [H3]; · iexact H3
  iexact H4

/-- The buffers region 1 bypasses are not touched by its one result. -/
theorem rest1 (c : Dev nD) :
    (Pipeline.unscopedRest spec1 c (fun b => W3 m c b) : sProp 𝕄) = Pipeline.unscopedRest spec1 c (E2 m c) := by
  unfold Pipeline.unscopedRest
  refine bigSep_congr fun b hb => ?_
  have hne : b ≠ main_v5 := fun e => (Finset.mem_sdiff.mp hb).2 (e ▸ Finset.mem_image.mpr ⟨4, Finset.mem_univ _, rfl⟩)
  beta_reduce
  rw [W3_of m c b hne]

set_option backward.isDefEq.respectTransparency.types false in
/-- REGION 1 as a segment: entered from every unscoped buffer at W2, left at W3. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (R1.body_obligation (E2 m) c).loose
  hwaits := Pipeline.hwaits_of_owed_zero _ _ _ _ L lv 1 fun c t => R1.owed_eq (E2 m) c t
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none, held1]
    refine (sep_mono (sep_mono (sep_mono (enter1 m c) .rfl) .rfl) .rfl).trans ?_
    iintro ⟨⟨⟨Ha', Hrest⟩, Hp, HO⟩, -, -⟩
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (R1.hin (E2 m) c)
    unfold Pipeline.ΦA
    iintro ⟨Hp, -, Hr⟩
    isplitl [Hr]; · iexact Hr
    iexact Hp
  hout c := by
    rw [Pipeline.ownSems0_none]
    refine (R1.hout (E2 m) c).trans ?_
    unfold Pipeline.ΦA
    iintro ⟨Hr, Hp⟩
    isplitl [Hp]; · iexact Hp
    isplitr; · iempintro
    iexact Hr
  hexit c := by
    rw [held1, rest1]
    refine (sep_mono (leave1 m c) .rfl).trans ?_
    iintro ⟨Ha', HO, HY, Hrest⟩
    imodintro
    isplitl [Ha' Hrest]
    · isplitl [Ha'] <;> iassumption
    isplitl [HY]; · iexact HY
    unfold Pipeline.Dat.owesAt Pipeline.owesWithin
    icases HO with ⟨%W, -, HO⟩; iexists W; iexact HO

/-! ## The third region: the same mix staged through two windows again -/

theorem share2 (V : R2.Entry F) (c : Dev nD) (w : Fin cfg2.W) :
    (R2.dat V c).share w = (match w with | ⟨0, _⟩ => fullShare.left | ⟨1, _⟩ => fullShare.right | ⟨2, _⟩ => fullShare | ⟨3, _⟩ => fullShare | ⟨4, _⟩ => fullShare | ⟨5, _⟩ => fullShare) := by
  unfold Dat.share
  rw [R2.q_eq]
  match w with
  | ⟨0, _⟩ => rfl
  | ⟨1, _⟩ => rfl
  | ⟨2, _⟩ => rfl
  | ⟨3, _⟩ => rfl
  | ⟨4, _⟩ => rfl
  | ⟨5, _⟩ => rfl

/-- Region 2's arrays: the mix at the two halves of its full share, the projected first layer, the first layer, the
    bias and the result whole. -/
theorem arrays2_eq (V : R2.Entry F) (c : Dev nD) (G : (w : Fin cfg2.W) → Buf (Elt F) ((cfg2.win w).arr.view.loc (c.tc : Thread nD τ))) :
    ((R2.dat V c).arrays G : sProp 𝕄) = iprop(
        ((((c : Thread nD τ).loc main_v0_0) ↦{fullShare.left} G 0) : sProp 𝕄) ∗ (((c : Thread nD τ).loc main_v0_0) ↦{fullShare.right} G 1)
      ∗ (((c : Thread nD τ).loc main_v9) ↦{fullShare} G 2) ∗ (((c : Thread nD τ).loc main_v5) ↦{fullShare} G 3)
      ∗ (((c : Thread nD τ).loc main_arg11) ↦{fullShare} G 4) ∗ (((c : Thread nD τ).loc main_v10) ↦{fullShare} G 5)) := by
  have h : ((R2.dat V c).arrays G : sProp 𝕄)
      = bigSep Finset.univ fun w => ((((c : Thread nD τ).loc (Pipeline.arrRef spec2 w)) ↦{(match w with | ⟨0, _⟩ => fullShare.left | ⟨1, _⟩ => fullShare.right | ⟨2, _⟩ => fullShare | ⟨3, _⟩ => fullShare | ⟨4, _⟩ => fullShare | ⟨5, _⟩ => fullShare : PosShare TreeShare)} G w) : sProp 𝕄) := by
    unfold Dat.arrays
    exact bigSep_congr fun w _ => by rw [(arr_whole2 w).set_eq_univ, share2]; rfl
  rw [h, bigSep_W2]

/-- The distinct buffers behind region 2's arrays. -/
theorem arrBufs2_eq (c : Dev nD) (V : (b : Ref sig .tc) → Buf (Elt F) ((c : Thread nD τ).loc b)) :
    (Pipeline.arrBufs spec2 c V : sProp 𝕄) = iprop(
        ((((c : Thread nD τ).loc main_v0_0) ↦{fullShare} V main_v0_0) : sProp 𝕄) ∗ (((c : Thread nD τ).loc main_v9) ↦{fullShare} V main_v9)
      ∗ (((c : Thread nD τ).loc main_v5) ↦{fullShare} V main_v5) ∗ (((c : Thread nD τ).loc main_arg11) ↦{fullShare} V main_arg11)
      ∗ (((c : Thread nD τ).loc main_v10) ↦{fullShare} V main_v10)) := by
  unfold Pipeline.arrBufs
  exact bigSep_eq_bigSepL_of_eq [main_v0_0, main_v9, main_v5, main_arg11, main_v10] (by decide) (by decide) _

theorem held2 (c : Dev nD) (W : Valuation τ sig (Elt F)) :
    (StableHlo.held (c : Thread nD τ) (Pipeline.ucRefs τ sig) W : sProp 𝕄)
      = iprop(Pipeline.arrBufs spec2 c (fun b => W b) ∗ Pipeline.unscopedRest spec2 c (fun b => W b)) := by
  rw [← Pipeline.unscopedBufs_held c W]
  exact Cert.Lib.SharedArrays.unscopedBufs_eq spec2 winFacts₀2.arr_unscoped c _

theorem enter2 (c : Dev nD) :
    (Pipeline.arrBufs spec2 c (E4 m c) : sProp 𝕄) ⊢ (R2.dat (E4 m) c).arrays ((R2.dat (E4 m) c).arrAt · 0) := by
  rw [arrBufs2_eq, arrays2_eq]
  simp only [show ∀ w, (R2.dat (E4 m) c).arrAt w 0 = (R2.dat (E4 m) c).A w from fun _ => rfl, R2.A_eq]
  have hd := (deal2 (F := F) (ℓ := (c : Thread nD τ).loc main_v0_0) (E4 m c main_v0_0)).1
  refine (sep_mono hd .rfl).trans ?_
  iintro ⟨⟨Hl, Hr⟩, H2, H3, H4, H5⟩
  isplitl [Hl]; · iexact Hl
  isplitl [Hr]; · iexact Hr
  isplitl [H2]; · iexact H2
  isplitl [H3]; · iexact H3
  isplitl [H4]; · iexact H4
  iexact H5

/-- The third region changes one buffer, its result. -/
theorem W5_of (c : Dev nD) (r : Ref sig .tc) (h : r ≠ main_v10) : W5 m c r = W4 m c r := by
  simp only [W5, Function.update_of_ne (StableHlo.devRef_ne_of_ne h : (Proc.devRef .tc r : DevRef τ sig) ≠ Proc.devRef .tc main_v10)]
theorem W5_self (c : Dev nD) : W5 m c main_v10 = (R2.dat (E4 m) c).arrAt 5 cfg2.N := by
  simp only [W5, Function.update_self]

theorem leave2 (c : Dev nD) :
    ((R2.dat (E4 m) c).arrays ((R2.dat (E4 m) c).arrAt · cfg2.N) : sProp 𝕄) ⊢ Pipeline.arrBufs spec2 c (fun b => W5 m c b) := by
  rw [arrBufs2_eq, arrays2_eq]
  rw [show (R2.dat (E4 m) c).arrAt 0 cfg2.N = E4 m c main_v0_0 from ((R2.dat (E4 m) c).arrAt_in 0 rfl _).trans (R2.A_eq _ _ 0),
    show (R2.dat (E4 m) c).arrAt 1 cfg2.N = E4 m c main_v0_0 from ((R2.dat (E4 m) c).arrAt_in 1 rfl _).trans (R2.A_eq _ _ 1),
    show (R2.dat (E4 m) c).arrAt 2 cfg2.N = E4 m c main_v9 from ((R2.dat (E4 m) c).arrAt_in 2 rfl _).trans (R2.A_eq _ _ 2),
    show (R2.dat (E4 m) c).arrAt 3 cfg2.N = E4 m c main_v5 from ((R2.dat (E4 m) c).arrAt_in 3 rfl _).trans (R2.A_eq _ _ 3),
    show (R2.dat (E4 m) c).arrAt 4 cfg2.N = E4 m c main_arg11 from ((R2.dat (E4 m) c).arrAt_in 4 rfl _).trans (R2.A_eq _ _ 4)]
  rw [W5_of m c main_v0_0 (by decide), W5_of m c main_v9 (by decide), W5_of m c main_v5 (by decide), W5_of m c main_arg11 (by decide), W5_self]
  have hj := (deal2 (F := F) (ℓ := (c : Thread nD τ).loc main_v0_0) (W4 m c main_v0_0)).2
  iintro ⟨Hl, Hr, H2, H3, H4, H5⟩
  isplitl [Hl Hr]
  · iapply hj
    isplitl [Hl] <;> iassumption
  isplitl [H2]; · iexact H2
  isplitl [H3]; · iexact H3
  isplitl [H4]; · iexact H4
  iexact H5

theorem rest2 (c : Dev nD) :
    (Pipeline.unscopedRest spec2 c (fun b => W5 m c b) : sProp 𝕄) = Pipeline.unscopedRest spec2 c (E4 m c) := by
  unfold Pipeline.unscopedRest
  refine bigSep_congr fun b hb => ?_
  have hne : b ≠ main_v10 := fun e => (Finset.mem_sdiff.mp hb).2 (e ▸ Finset.mem_image.mpr ⟨5, Finset.mem_univ _, rfl⟩)
  beta_reduce
  rw [W5_of m c b hne]

set_option backward.isDefEq.respectTransparency.types false in
/-- REGION 2 as a segment: entered from every unscoped buffer at W4, left at W5. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (R2.body_obligation (E4 m) c).loose
  hwaits := Pipeline.hwaits_of_owed_zero _ _ _ _ L lv 2 fun c t => R2.owed_eq (E4 m) c t
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none, held2]
    refine (sep_mono (sep_mono (sep_mono (enter2 m c) .rfl) .rfl) .rfl).trans ?_
    iintro ⟨⟨⟨Ha', Hrest⟩, Hp, HO⟩, -, -⟩
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (R2.hin (E4 m) c)
    unfold Pipeline.ΦA
    iintro ⟨Hp, -, Hr⟩
    isplitl [Hr]; · iexact Hr
    iexact Hp
  hout c := by
    rw [Pipeline.ownSems0_none]
    refine (R2.hout (E4 m) c).trans ?_
    unfold Pipeline.ΦA
    iintro ⟨Hr, Hp⟩
    isplitl [Hp]; · iexact Hp
    isplitr; · iempintro
    iexact Hr
  hexit c := by
    rw [held2, rest2]
    refine (sep_mono (leave2 m c) .rfl).trans ?_
    iintro ⟨Ha', HO, HY, Hrest⟩
    imodintro
    isplitl [Ha' Hrest]
    · isplitl [Ha'] <;> iassumption
    isplitl [HY]; · iexact HY
    unfold Pipeline.Dat.owesAt Pipeline.owesWithin
    icases HO with ⟨%W, -, HO⟩; iexists W; iexact HO

/-! ## The first region: four results, no shared array -/

/-- The first region changes four buffers, its results. -/
theorem W1_of (c : Dev nD) (r : Ref sig .tc) (h : r ∉ ([main_v0_0, main_v0_1, main_v0_2, main_v0_3] : List (Ref sig .tc))) :
    W1 m c r = W0 m c r := by
  simp only [W1, Function.update_of_ne (StableHlo.devRef_ne_of_ne (List.ne_of_not_mem_cons h) : (Proc.devRef .tc r : DevRef τ sig) ≠ Proc.devRef .tc main_v0_0), Function.update_of_ne (StableHlo.devRef_ne_of_ne (List.ne_of_not_mem_cons (List.not_mem_of_not_mem_cons h)) : (Proc.devRef .tc r : DevRef τ sig) ≠ Proc.devRef .tc main_v0_1), Function.update_of_ne (StableHlo.devRef_ne_of_ne (List.ne_of_not_mem_cons (List.not_mem_of_not_mem_cons (List.not_mem_of_not_mem_cons h))) : (Proc.devRef .tc r : DevRef τ sig) ≠ Proc.devRef .tc main_v0_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v0_3)]
theorem W1_v0_0 (c : Dev nD) : W1 m c main_v0_0 = (R0.dat (E0 m) c).arrAt 7 cfg0.N := by
  simp only [W1, Function.update_of_ne (StableHlo.devRef_ne_of_ne (by decide) : (Proc.devRef .tc main_v0_0 : DevRef τ sig) ≠ Proc.devRef .tc main_v0_3), Function.update_of_ne (StableHlo.devRef_ne_of_ne (by decide) : (Proc.devRef .tc main_v0_0 : DevRef τ sig) ≠ Proc.devRef .tc main_v0_2), Function.update_of_ne (StableHlo.devRef_ne_of_ne (by decide) : (Proc.devRef .tc main_v0_0 : DevRef τ sig) ≠ Proc.devRef .tc main_v0_1), Function.update_self]
theorem W1_v0_1 (c : Dev nD) : W1 m c main_v0_1 = (R0.dat (E0 m) c).arrAt 8 cfg0.N := by
  simp only [W1, Function.update_of_ne (StableHlo.devRef_ne_of_ne (by decide) : (Proc.devRef .tc main_v0_1 : DevRef τ sig) ≠ Proc.devRef .tc main_v0_3), Function.update_of_ne (StableHlo.devRef_ne_of_ne (by decide) : (Proc.devRef .tc main_v0_1 : DevRef τ sig) ≠ Proc.devRef .tc main_v0_2), Function.update_self]
theorem W1_v0_2 (c : Dev nD) : W1 m c main_v0_2 = (R0.dat (E0 m) c).arrAt 9 cfg0.N := by
  simp only [W1, Function.update_of_ne (StableHlo.devRef_ne_of_ne (by decide) : (Proc.devRef .tc main_v0_2 : DevRef τ sig) ≠ Proc.devRef .tc main_v0_3), Function.update_self]
theorem W1_v0_3 (c : Dev nD) : W1 m c main_v0_3 = (R0.dat (E0 m) c).arrAt 10 cfg0.N := by
  simp only [W1, Function.update_self]

/-- After the first region each of its arrays holds what the pipeline leaves there. -/
theorem final0 (c : Dev nD) (w : Fin cfg0.W) : (R0.dat (E0 m) c).arrAt w cfg0.N = W1 m c (Pipeline.arrRef spec0 w) :=
  match w with
  | ⟨0, _⟩ => (((R0.dat (E0 m) c).arrAt_in 0 rfl _).trans (R0.A_eq _ _ 0)).trans (W1_of m c main_arg1 (by decide)).symm
  | ⟨1, _⟩ => (((R0.dat (E0 m) c).arrAt_in 1 rfl _).trans (R0.A_eq _ _ 1)).trans (W1_of m c main_arg2 (by decide)).symm
  | ⟨2, _⟩ => (((R0.dat (E0 m) c).arrAt_in 2 rfl _).trans (R0.A_eq _ _ 2)).trans (W1_of m c main_arg3 (by decide)).symm
  | ⟨3, _⟩ => (((R0.dat (E0 m) c).arrAt_in 3 rfl _).trans (R0.A_eq _ _ 3)).trans (W1_of m c main_arg4 (by decide)).symm
  | ⟨4, _⟩ => (((R0.dat (E0 m) c).arrAt_in 4 rfl _).trans (R0.A_eq _ _ 4)).trans (W1_of m c main_arg5 (by decide)).symm
  | ⟨5, _⟩ => (((R0.dat (E0 m) c).arrAt_in 5 rfl _).trans (R0.A_eq _ _ 5)).trans (W1_of m c main_arg6 (by decide)).symm
  | ⟨6, _⟩ => (((R0.dat (E0 m) c).arrAt_in 6 rfl _).trans (R0.A_eq _ _ 6)).trans (W1_of m c main_arg7 (by decide)).symm
  | ⟨7, _⟩ => (W1_v0_0 m c).symm
  | ⟨8, _⟩ => (W1_v0_1 m c).symm
  | ⟨9, _⟩ => (W1_v0_2 m c).symm
  | ⟨10, _⟩ => (W1_v0_3 m c).symm

/-- Every other buffer is as the region found it. -/
theorem rest0 (c : Dev nD) : ∀ b : Ref sig .tc, b ∉ Finset.univ.image (Pipeline.arrRef spec0) → W1 m c b = W0 m c b := fun b hb =>
  W1_of m c b fun hmem => by
    simp only [List.mem_cons, List.mem_nil_iff, or_false] at hmem
    rcases hmem with rfl | rfl | rfl | rfl
    · exact hb (Finset.mem_image.mpr ⟨7, Finset.mem_univ _, rfl⟩)
    · exact hb (Finset.mem_image.mpr ⟨8, Finset.mem_univ _, rfl⟩)
    · exact hb (Finset.mem_image.mpr ⟨9, Finset.mem_univ _, rfl⟩)
    · exact hb (Finset.mem_image.mpr ⟨10, Finset.mem_univ _, rfl⟩)

theorem share0 (c : Dev nD) : ∀ w, (pdats m 0 c).share w = fullShare :=
  (R0.dat (E0 m) c).share_full fun w => by rw [R0.q_eq]; rfl

set_option backward.isDefEq.respectTransparency.types false in
/-- REGION 0 as a segment: entered from every unscoped buffer at the launch contents, left at W1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E0 m) c).loose
  hwaits := Pipeline.hwaits_of_owed_zero _ _ _ _ L lv 0 fun c t => R0.owed_eq (E0 m) c t
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      (share0 m c) (E0 m c) fun w => R0.A_eq (E0 m) c w
    rw [Pipeline.unscopedBufs_held] at hsplit
    refine (sep_mono (sep_mono hsplit .rfl) .rfl).trans ?_
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (R0.hin (E0 m) c)
    unfold Pipeline.ΦA
    iintro ⟨Hp, -, Hr⟩
    isplitl [Hr]; · iexact Hr
    iexact Hp
  hout c := by
    rw [Pipeline.ownSems0_none]
    refine (R0.hout (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) (share0 m c)
      (E0 m c) (fun b => W1 m c b) ((pdats m 0 c).arrAt · cfg0.N) (final0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as five segments, and its run -/

/-- The five items in order: region, host stretch, region, host stretch, region. -/
abbrev segs : List (Pipeline.Seg (pcfgs (F := F)) adm (pdats m) () defs₀ 𝒱₀ L lv) :=
  [ .region (reg0 m), .host (hseg hostOps1 hostOps1_sub ops1_fresh (W1 m)), .region (reg1 m),
    .host (hseg hostOps2 hostOps2_sub ops2_fresh (W3 m)), .region (reg2 m) ]

theorem main_run (c : Dev nD) : main (F := F) c = Pipeline.Seg.run (segs m) :=
  main_segs adm (pdats m) () 𝒱₀ L lv (hseg hostOps1 hostOps1_sub ops1_fresh (W1 m)) (hseg hostOps2 hostOps2_sub ops2_fresh (W3 m))
    (reg0 m) (reg1 m) (reg2 m) rfl rfl c

/-- The last thread state without the owes: every unscoped buffer at the last contents, the generator register somewhere. -/
abbrev Tₙ (c : Dev nD) : sProp 𝕄 := iprop(StableHlo.held (c : Thread nD τ) (Pipeline.ucRefs τ sig) (W5 m c) ∗ ∃ r, prngReg c r)

set_option backward.isDefEq.respectTransparency.types false in
/-- THE RUN. From any memory with zero counters every weakly fair execution of the program terminates, nothing faulting,
    and every final state holds every unscoped buffer at the last contents W5. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun _ h => h)

/-! ## What the last contents hold at the arguments: as launched -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host stretch writes and no region changes ends as launched. -/
theorem W5_kept (c : Dev nD) (r : Ref sig .tc) (h5 : r ≠ main_v10) (h4 : r ∉ hostOps2_W) (h3 : r ≠ main_v5) (h2 : r ∉ hostOps1_W)
    (h1 : r ∉ ([main_v0_0, main_v0_1, main_v0_2, main_v0_3] : List (Ref sig .tc))) : W5 m c r = m ((c : Thread nD τ).loc r) :=
  (W5_of m c r h5).trans <| (StableHlo.after_of_writes_sub hostOps2 _ hostOps2_writes h4).trans <| (W3_of m c r h3).trans <|
    (StableHlo.after_of_writes_sub hostOps1 _ hostOps1_writes h2).trans <| (W1_of m c r h1).trans rfl

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
      (h c _ (mem_uc main_arg0 (by decide))).trans (W5_kept m c main_arg0 (by decide) (by decide) (by decide) (by decide) (by decide)),
      (h c _ (mem_uc main_arg1 (by decide))).trans (W5_kept m c main_arg1 (by decide) (by decide) (by decide) (by decide) (by decide)),
      (h c _ (mem_uc main_arg2 (by decide))).trans (W5_kept m c main_arg2 (by decide) (by decide) (by decide) (by decide) (by decide)),
      (h c _ (mem_uc main_arg3 (by decide))).trans (W5_kept m c main_arg3 (by decide) (by decide) (by decide) (by decide) (by decide)),
      (h c _ (mem_uc main_arg4 (by decide))).trans (W5_kept m c main_arg4 (by decide) (by decide) (by decide) (by decide) (by decide)),
      (h c _ (mem_uc main_arg5 (by decide))).trans (W5_kept m c main_arg5 (by decide) (by decide) (by decide) (by decide) (by decide)),
      (h c _ (mem_uc main_arg6 (by decide))).trans (W5_kept m c main_arg6 (by decide) (by decide) (by decide) (by decide) (by decide)),
      (h c _ (mem_uc main_arg7 (by decide))).trans (W5_kept m c main_arg7 (by decide) (by decide) (by decide) (by decide) (by decide)),
      (h c _ (mem_uc main_arg8 (by decide))).trans (W5_kept m c main_arg8 (by decide) (by decide) (by decide) (by decide) (by decide)),
      (h c _ (mem_uc main_arg9 (by decide))).trans (W5_kept m c main_arg9 (by decide) (by decide) (by decide) (by decide) (by decide)),
      (h c _ (mem_uc main_arg10 (by decide))).trans (W5_kept m c main_arg10 (by decide) (by decide) (by decide) (by decide) (by decide)),
      (h c _ (mem_uc main_arg11 (by decide))).trans (W5_kept m c main_arg11 (by decide) (by decide) (by decide) (by decide) (by decide))⟩)
    (run_all m ρ)

end Cert.KernelIdeal.Asm
end
-- ==== Proof.WR0Frame.lean ====
import proofs.«177282_j10187662426197_2_alg».proof.Proof.Gen.Kernel.Launch
import proofs.«177282_j10187662426197_2_alg».proof.Proof.Gen.Kernel.Skeleton
import proofs.«177282_j10187662426197_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

/-!
  The first region: a 16 × 16 grid of points (i, j). At each point the body reads one 512 × 512 block of each of the
  three relation matrices, one 512 × 10 block of each token table and the three relation weights; it writes the weighted
  mix of the three matrix blocks, and it keeps three running 512 × 10 totals — one per relation — in the buffers of its
  last three results: set to zero where j = 0, then increased at every point by (matrix block) · (token block). A total
  is written back to its array when the row of the grid ends (j = 15).

  This file states, for any float model, what every buffer holds after the body at every point — an input buffer its
  block, the mix buffer the mix of the blocks, a total's buffer the recursion just described — and proves that the body
  does leave exactly that.
-/

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents when the region is entered, per core. -/
abbrev Entry (F : FTy → Type) [FloatOps F] : Type := (c : Dev nD) → (b : Ref sig .tc) → Buf (Elt F) ((c : Thread nD τ).loc b)

/-! ## The windows' blocks -/

/-- Window `w`'s block at point `t`, read off its array as the region finds it. -/
def iblk (V : Entry F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not fetched the
    block index has not moved and the body left the block in place. -/
theorem before_0_of (V : Entry F) {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not: where it is not fetched the
    block index has not moved and the body left the block in place. -/
theorem before_1_of (V : Entry F) {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not: where it is not fetched the
    block index has not moved and the body left the block in place. -/
theorem before_2_of (V : Entry F) {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, fetched there or not: where it is not fetched the
    block index has not moved and the body left the block in place. -/
theorem before_3_of (V : Entry F) {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, fetched there or not: where it is not fetched the
    block index has not moved and the body left the block in place. -/
theorem before_4_of (V : Entry F) {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, fetched there or not: where it is not fetched the
    block index has not moved and the body left the block in place. -/
theorem before_5_of (V : Entry F) {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every point, fetched there or not: where it is not fetched the
    block index has not moved and the body left the block in place. -/
theorem before_6_of (V : Entry F) {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole-block rectangles the body loads and stores through. -/
abbrev rA : Rect S512x512 := Rect.unit (s := S512x512) ![0, 0] S512x512.size inb_S512x512_S512x512_0_0
abbrev rT : Rect S512x10 := Rect.unit (s := S512x10) ![0, 0] S512x10.size inb_S512x10_S512x10_0_0
abbrev rW : Rect S3x1 := Rect.unit (s := S3x1) ![0, 0] S3x1.size inb_S3x1_S3x1_0_0

/-- Their offsets are zero. -/
theorem hz2 : (![0, 0] : Fin 2 → Nat) = fun _ => 0 := funext fun a => by fin_cases a <;> rfl

/-- The body's one condition, from the grid coordinates: "j = 0" as the program spells it. -/
abbrev cond (i : grid0.Coords) : Prop := (Scalar.cmpi .ne (Scalar.extui (Scalar.cmpi .eq (BitVec.ofNat 32 (i 1).val) 0#32)) 0#32) = 1#1

/-- It holds at the points that begin a row of the grid — decided over the grid. -/
theorem hcond : ∀ t : Fin cfg0.N, cond (grid0.coords t) ↔ t.val % 16 = 0 :=
  (by decide +kernel : ∀ t : Fin grid0.N, cond (grid0.coords t) ↔ t.val % 16 = 0)

/-! ## What a whole-block store leaves, what a whole-block load reads -/

/-- After a store through the whole-block rectangle (whatever earlier stores lie under it) a buffer reads the stored
    value. -/
theorem read_store_whole {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩)]
  exact View.canon_cons_unit_zero h inb w L

/-- A load through the whole-block rectangle reads the buffer's contents: of a matrix block, -/
theorem readA {sp : Space} {e : EltTy} (v : View sig .tc sp S512x512 e) (f : v.ty.Contents (Elt F)) :
    v.readAt (Elt F) rA.toLoadRect f = v.read (Elt F) f :=
  (View.readAt_eq_ld v f _).trans (View.ld_unit_zero hz2 _ _)

/-- of a token block or a total, -/
theorem readT {sp : Space} {e : EltTy} (v : View sig .tc sp S512x10 e) (f : v.ty.Contents (Elt F)) :
    v.readAt (Elt F) rT.toLoadRect f = v.read (Elt F) f :=
  (View.readAt_eq_ld v f _).trans (View.ld_unit_zero hz2 _ _)

/-- of the weights. -/
theorem readW {sp : Space} {e : EltTy} (v : View sig .tc sp S3x1 e) (f : v.ty.Contents (Elt F)) :
    v.readAt (Elt F) rW.toLoadRect f = v.read (Elt F) f :=
  (View.readAt_eq_ld v f _).trans (View.ld_unit_zero hz2 _ _)

/-- A total read back right after it was set: the value it was set to. -/
theorem readCovT {sp : Space} {e : EltTy} (v : View sig .tc sp S512x10 e) (w : S512x10.Idx → Elt F e) :
    v.readCov [(⟨rT, w⟩ : View.Piece (Elt F) S512x10 e)] rT.toLoadRect = w :=
  View.readCov_unit_zero v hz2 _ w

/-! ## The body's triple, case by case -/

set_option maxHeartbeats 400000 in
/-- AWAY FROM THE START OF A ROW (j ≠ 0). On whole buffers — the inputs' at contents `x·`, the three totals' at `p·`, the
    mix's at anything — the body runs to the continuation holding the inputs' as they were, the mix's at the mix of the
    blocks and each total's at the old total plus its product. -/
theorem run_B (c : Dev nD) (E : Set ℕ) (i : grid0.Coords) (hc : ¬cond i)
    (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x10 .f32) (harg5 : arg5.IsWhole) (arg6 : Memref sig .tc .vmem S512x10 .f32) (harg6 : arg6.IsWhole) (arg7 : Memref sig .tc .vmem S512x10 .f32) (harg7 : arg7.IsWhole) (arg8 : Memref sig .tc .vmem S3x1 .f32) (harg8 : arg8.IsWhole) (arg9 : Memref sig .tc .vmem S512x512 .bf16) (harg9 : arg9.IsWhole) (arg10 : Memref sig .tc .vmem S512x10 .f32) (harg10 : arg10.IsWhole) (arg11 : Memref sig .tc .vmem S512x10 .f32) (harg11 : arg11.IsWhole) (arg12 : Memref sig .tc .vmem S512x10 .f32) (harg12 : arg12.IsWhole)
    (x0 x1 x2 : Vec F S512x512 .f32) (x3 x4 x5 : Vec F S512x10 .f32) (x6 : Vec F S3x1 .f32) (p8 p9 p10 : Vec F S512x10 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d)
        ∗ owns (c : Thread nD τ) arg10 fullShare p8 ∗ owns (c : Thread nD τ) arg11 fullShare p9 ∗ owns (c : Thread nD τ) arg12 fullShare p10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay6 x6 x0 x1 x2) ∗ owns (c : Thread nD τ) arg10 fullShare (k0_pay9 x0 x3 p8) ∗ owns (c : Thread nD τ) arg11 fullShare (k0_pay1 x1 (k0_pay7 x4) p9) ∗ owns (c : Thread nD τ) arg12 fullShare (k0_pay2 x2 (k0_pay8 x5) p10)) -∗ K ⟨⟩))
      ⊢ wp frame (wpE (defs₀ (F := F)) Variants.none c none) E (cc0__adj_kernel i arg2 harg2 arg3 harg3 arg4 harg4 arg5 harg5 arg6 harg6 arg7 harg7 arg8 harg8 arg9 harg9 arg10 harg10 arg11 harg11 arg12 harg12) K := by
  simp only [cc0__adj_kernel_eq_skeleton]; unfold cc0__adj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  subst hf0 hf1 hf2 hf3 hf4 hf5 hf6 hf8 hf9 hf10
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_store_whole _ _ hz2]
    exact congr (congr (congr (congrArg k0_pay6 (readW _ _)) (readA _ _)) (readA _ _)) (readA _ _)
  isplitl [H8]
  · iexists _; isplitr
    swap; · iexact H8
    ipureintro
    rw [read_store_whole _ _ hz2]
    exact congr (congr (congrArg k0_pay9 (readA _ _)) (readT _ _)) (readT _ _)
  isplitl [H9]
  · iexists _; isplitr
    swap; · iexact H9
    ipureintro
    rw [read_store_whole _ _ hz2]
    exact congr (congr (congrArg k0_pay1 (readA _ _)) (congrArg k0_pay7 (readT _ _))) (readT _ _)
  · iexists _; isplitr
    swap; · iexact H10
    ipureintro
    rw [read_store_whole _ _ hz2]
    exact congr (congr (congrArg k0_pay2 (readA _ _)) (congrArg k0_pay8 (readT _ _))) (readT _ _)

set_option maxHeartbeats 400000 in
/-- AT THE START OF A ROW (j = 0). The same, the three totals' buffers at anything: the body sets each to zero first, so
    each ends at zero plus its product. -/
theorem run_A (c : Dev nD) (E : Set ℕ) (i : grid0.Coords) (hc : cond i)
    (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x10 .f32) (harg5 : arg5.IsWhole) (arg6 : Memref sig .tc .vmem S512x10 .f32) (harg6 : arg6.IsWhole) (arg7 : Memref sig .tc .vmem S512x10 .f32) (harg7 : arg7.IsWhole) (arg8 : Memref sig .tc .vmem S3x1 .f32) (harg8 : arg8.IsWhole) (arg9 : Memref sig .tc .vmem S512x512 .bf16) (harg9 : arg9.IsWhole) (arg10 : Memref sig .tc .vmem S512x10 .f32) (harg10 : arg10.IsWhole) (arg11 : Memref sig .tc .vmem S512x10 .f32) (harg11 : arg11.IsWhole) (arg12 : Memref sig .tc .vmem S512x10 .f32) (harg12 : arg12.IsWhole)
    (x0 x1 x2 : Vec F S512x512 .f32) (x3 x4 x5 : Vec F S512x10 .f32) (x6 : Vec F S3x1 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay6 x6 x0 x1 x2) ∗ owns (c : Thread nD τ) arg10 fullShare (k0_pay9 x0 x3 (k0_pay3 (F := F))) ∗ owns (c : Thread nD τ) arg11 fullShare (k0_pay1 x1 (k0_pay7 x4) (k0_pay4 (F := F))) ∗ owns (c : Thread nD τ) arg12 fullShare (k0_pay2 x2 (k0_pay8 x5) (k0_pay5 (F := F)))) -∗ K ⟨⟩))
      ⊢ wp frame (wpE (defs₀ (F := F)) Variants.none c none) E (cc0__adj_kernel i arg2 harg2 arg3 harg3 arg4 harg4 arg5 harg5 arg6 harg6 arg7 harg7 arg8 harg8 arg9 harg9 arg10 harg10 arg11 harg11 arg12 harg12) K := by
  simp only [cc0__adj_kernel_eq_skeleton]; unfold cc0__adj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_store_whole _ _ hz2]
    exact congr (congr (congr (congrArg k0_pay6 (readW _ _)) (readA _ _)) (readA _ _)) (readA _ _)
  isplitl [H8]
  · iexists _; isplitr
    swap; · iexact H8
    ipureintro
    rw [read_store_whole _ _ hz2]
    sl_unfold_run_names
    exact congr (congr (congrArg k0_pay9 (readA _ _)) (readT _ _)) (readCovT _ _)
  isplitl [H9]
  · iexists _; isplitr
    swap; · iexact H9
    ipureintro
    rw [read_store_whole _ _ hz2]
    sl_unfold_run_names
    exact congr (congr (congrArg k0_pay1 (readA _ _)) (congrArg k0_pay7 (readT _ _))) (readCovT _ _)
  · iexists _; isplitr
    swap; · iexact H10
    ipureintro
    rw [read_store_whole _ _ hz2]
    sl_unfold_run_names
    exact congr (congr (congrArg k0_pay2 (readA _ _)) (congrArg k0_pay8 (readT _ _))) (readCovT _ _)

/-! ## What the totals hold after each point -/

/-- THE RUNNING TOTAL of window 8. What its buffer holds after the body at position `n`: the old total — zero where a
    row of the grid begins, else what the point before left (the buffer is not written back in between) — plus the
    product of this point's blocks. -/
def acc8 (V : Entry F) (c : Dev nD) : (n : ℕ) → n < cfg0.N → Vec F S512x10 .f32
  | 0, hn => k0_pay9 (iblk V c 0 ⟨0, hn⟩) (iblk V c 3 ⟨0, hn⟩) (k0_pay3 (F := F))
  | n + 1, hn => k0_pay9 (iblk V c 0 ⟨n + 1, hn⟩) (iblk V c 3 ⟨n + 1, hn⟩)
      (if (n + 1) % 16 = 0 then (k0_pay3 (F := F)) else acc8 V c n (Nat.lt_of_succ_lt hn))

/-- At a point that begins a row: zero plus the product. -/
theorem acc8_A (V : Entry F) (c : Dev nD) (t : Fin cfg0.N) (h0 : t.val % 16 = 0) :
    acc8 V c t.val t.isLt = k0_pay9 (iblk V c 0 t) (iblk V c 3 t) (k0_pay3 (F := F)) := by
  obtain ⟨n, hn⟩ := t
  cases n with
  | zero => rfl
  | succ n => exact congrArg (k0_pay9 _ _) (if_pos h0)

/-- At any other point: what the point before left plus the product. -/
theorem acc8_B (V : Entry F) (c : Dev nD) (t : Fin cfg0.N) (h0 : ¬t.val % 16 = 0) :
    acc8 V c t.val t.isLt = k0_pay9 (iblk V c 0 t) (iblk V c 3 t)
      (acc8 V c (t.val - 1) (Nat.lt_of_le_of_lt (Nat.sub_le _ _) t.isLt)) := by
  obtain ⟨n, hn⟩ := t
  cases n with
  | zero => exact absurd (Nat.zero_mod _) h0
  | succ n => exact congrArg (k0_pay9 _ _) (if_neg h0)

/-- THE RUNNING TOTAL of window 9. What its buffer holds after the body at position `n`: the old total — zero where a
    row of the grid begins, else what the point before left (the buffer is not written back in between) — plus the
    product of this point's blocks. -/
def acc9 (V : Entry F) (c : Dev nD) : (n : ℕ) → n < cfg0.N → Vec F S512x10 .f32
  | 0, hn => k0_pay1 (iblk V c 1 ⟨0, hn⟩) (k0_pay7 (iblk V c 4 ⟨0, hn⟩)) (k0_pay4 (F := F))
  | n + 1, hn => k0_pay1 (iblk V c 1 ⟨n + 1, hn⟩) (k0_pay7 (iblk V c 4 ⟨n + 1, hn⟩))
      (if (n + 1) % 16 = 0 then (k0_pay4 (F := F)) else acc9 V c n (Nat.lt_of_succ_lt hn))

/-- At a point that begins a row: zero plus the product. -/
theorem acc9_A (V : Entry F) (c : Dev nD) (t : Fin cfg0.N) (h0 : t.val % 16 = 0) :
    acc9 V c t.val t.isLt = k0_pay1 (iblk V c 1 t) (k0_pay7 (iblk V c 4 t)) (k0_pay4 (F := F)) := by
  obtain ⟨n, hn⟩ := t
  cases n with
  | zero => rfl
  | succ n => exact congrArg (k0_pay1 _ _) (if_pos h0)

/-- At any other point: what the point before left plus the product. -/
theorem acc9_B (V : Entry F) (c : Dev nD) (t : Fin cfg0.N) (h0 : ¬t.val % 16 = 0) :
    acc9 V c t.val t.isLt = k0_pay1 (iblk V c 1 t) (k0_pay7 (iblk V c 4 t))
      (acc9 V c (t.val - 1) (Nat.lt_of_le_of_lt (Nat.sub_le _ _) t.isLt)) := by
  obtain ⟨n, hn⟩ := t
  cases n with
  | zero => exact absurd (Nat.zero_mod _) h0
  | succ n => exact congrArg (k0_pay1 _ _) (if_neg h0)

/-- THE RUNNING TOTAL of window 10. What its buffer holds after the body at position `n`: the old total — zero where a
    row of the grid begins, else what the point before left (the buffer is not written back in between) — plus the
    product of this point's blocks. -/
def acc10 (V : Entry F) (c : Dev nD) : (n : ℕ) → n < cfg0.N → Vec F S512x10 .f32
  | 0, hn => k0_pay2 (iblk V c 2 ⟨0, hn⟩) (k0_pay8 (iblk V c 5 ⟨0, hn⟩)) (k0_pay5 (F := F))
  | n + 1, hn => k0_pay2 (iblk V c 2 ⟨n + 1, hn⟩) (k0_pay8 (iblk V c 5 ⟨n + 1, hn⟩))
      (if (n + 1) % 16 = 0 then (k0_pay5 (F := F)) else acc10 V c n (Nat.lt_of_succ_lt hn))

/-- At a point that begins a row: zero plus the product. -/
theorem acc10_A (V : Entry F) (c : Dev nD) (t : Fin cfg0.N) (h0 : t.val % 16 = 0) :
    acc10 V c t.val t.isLt = k0_pay2 (iblk V c 2 t) (k0_pay8 (iblk V c 5 t)) (k0_pay5 (F := F)) := by
  obtain ⟨n, hn⟩ := t
  cases n with
  | zero => rfl
  | succ n => exact congrArg (k0_pay2 _ _) (if_pos h0)

/-- At any other point: what the point before left plus the product. -/
theorem acc10_B (V : Entry F) (c : Dev nD) (t : Fin cfg0.N) (h0 : ¬t.val % 16 = 0) :
    acc10 V c t.val t.isLt = k0_pay2 (iblk V c 2 t) (k0_pay8 (iblk V c 5 t))
      (acc10 V c (t.val - 1) (Nat.lt_of_le_of_lt (Nat.sub_le _ _) t.isLt)) := by
  obtain ⟨n, hn⟩ := t
  cases n with
  | zero => exact absurd (Nat.zero_mod _) h0
  | succ n => exact congrArg (k0_pay2 _ _) (if_neg h0)

/-! ## The proof data -/

/-- Every array is held whole. -/
def q : Fin cfg0.W → PosShare TreeShare := fun _ => fullShare

/-- The proof data on core `c`: the arrays as the region finds them; after the body at point `t` each input's buffer at
    its block, the mix's at the mix of the blocks, each total's at its running total; the invariant the scoped rest and the
    generator register, untouched; nothing owed. -/
def dat (V : Entry F) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => k0_pay6 (iblk V c 6 t) (iblk V c 0 t) (iblk V c 1 t) (iblk V c 2 t)
    | ⟨8, _⟩ => acc8 V c t.val t.isLt
    | ⟨9, _⟩ => acc9 V c t.val t.isLt
    | ⟨10, _⟩ => acc10 V c t.val t.isLt
  Φ _ := Pipeline.ΦA spec0 c
  q := q
  owed _ := 0

theorem A_eq (V : Entry F) (c : Dev nD) (w : Fin cfg0.W) : (dat V c).A w = V c (Pipeline.arrRef spec0 w) := by
  dsimp only [dat]

theorem q_eq (V : Entry F) (c : Dev nD) : (dat V c).q = q := by
  dsimp only [dat]

theorem owed_eq (V : Entry F) (c : Dev nD) (t) : (dat V c).owed t = 0 := by
  dsimp only [dat]

/-- What the body leaves, window by window. -/
theorem after_0 (V : Entry F) (c : Dev nD) (t : Fin cfg0.N) : (dat V c).after 0 t = iblk V c 0 t := by dsimp only [dat]
theorem after_1 (V : Entry F) (c : Dev nD) (t : Fin cfg0.N) : (dat V c).after 1 t = iblk V c 1 t := by dsimp only [dat]
theorem after_2 (V : Entry F) (c : Dev nD) (t : Fin cfg0.N) : (dat V c).after 2 t = iblk V c 2 t := by dsimp only [dat]
theorem after_3 (V : Entry F) (c : Dev nD) (t : Fin cfg0.N) : (dat V c).after 3 t = iblk V c 3 t := by dsimp only [dat]
theorem after_4 (V : Entry F) (c : Dev nD) (t : Fin cfg0.N) : (dat V c).after 4 t = iblk V c 4 t := by dsimp only [dat]
theorem after_5 (V : Entry F) (c : Dev nD) (t : Fin cfg0.N) : (dat V c).after 5 t = iblk V c 5 t := by dsimp only [dat]
theorem after_6 (V : Entry F) (c : Dev nD) (t : Fin cfg0.N) : (dat V c).after 6 t = iblk V c 6 t := by dsimp only [dat]
theorem after_7 (V : Entry F) (c : Dev nD) (t : Fin cfg0.N) : (dat V c).after 7 t = k0_pay6 (iblk V c 6 t) (iblk V c 0 t) (iblk V c 1 t) (iblk V c 2 t) := by dsimp only [dat]
theorem after_8 (V : Entry F) (c : Dev nD) (t : Fin cfg0.N) : (dat V c).after 8 t = acc8 V c t.val t.isLt := by dsimp only [dat]
theorem after_9 (V : Entry F) (c : Dev nD) (t : Fin cfg0.N) : (dat V c).after 9 t = acc9 V c t.val t.isLt := by dsimp only [dat]
theorem after_10 (V : Entry F) (c : Dev nD) (t : Fin cfg0.N) : (dat V c).after 10 t = acc10 V c t.val t.isLt := by dsimp only [dat]

/-- Each input's current buffer holds its block at every point. -/
theorem before_0 (V : Entry F) (c : Dev nD) (t : Fin cfg0.N) (d) : (dat V c).before 0 t d = iblk V c 0 t :=
  before_0_of V (dat V c) (A_eq V c 0) (after_0 V c) t d
theorem before_1 (V : Entry F) (c : Dev nD) (t : Fin cfg0.N) (d) : (dat V c).before 1 t d = iblk V c 1 t :=
  before_1_of V (dat V c) (A_eq V c 1) (after_1 V c) t d
theorem before_2 (V : Entry F) (c : Dev nD) (t : Fin cfg0.N) (d) : (dat V c).before 2 t d = iblk V c 2 t :=
  before_2_of V (dat V c) (A_eq V c 2) (after_2 V c) t d
theorem before_3 (V : Entry F) (c : Dev nD) (t : Fin cfg0.N) (d) : (dat V c).before 3 t d = iblk V c 3 t :=
  before_3_of V (dat V c) (A_eq V c 3) (after_3 V c) t d
theorem before_4 (V : Entry F) (c : Dev nD) (t : Fin cfg0.N) (d) : (dat V c).before 4 t d = iblk V c 4 t :=
  before_4_of V (dat V c) (A_eq V c 4) (after_4 V c) t d
theorem before_5 (V : Entry F) (c : Dev nD) (t : Fin cfg0.N) (d) : (dat V c).before 5 t d = iblk V c 5 t :=
  before_5_of V (dat V c) (A_eq V c 5) (after_5 V c) t d
theorem before_6 (V : Entry F) (c : Dev nD) (t : Fin cfg0.N) (d) : (dat V c).before 6 t d = iblk V c 6 t :=
  before_6_of V (dat V c) (A_eq V c 6) (after_6 V c) t d

/-- Away from the start of a row, total 8's current buffer holds what the body left at the point before: the point is not
    the first and the buffer was not written back in between. -/
theorem before_8_B (V : Entry F) (c : Dev nD) (t : Fin cfg0.N) (h0 : ¬t.val % 16 = 0) (d) :
    (dat V c).before 8 t d = acc8 V c (t.val - 1) (Nat.lt_of_le_of_lt (Nat.sub_le _ _) t.isLt) := by
  have hN : t.val < 256 := lt_of_lt_of_eq t.isLt (show cfg0.N = 256 from N_0)
  rw [Dat.before_out_kept _ 8 rfl t (by omega) (Bool.eq_false_iff.mpr fun h => by have := (flush0_8 _).mp h; dsimp only at this; omega)
    (fun _ => rfl) (fun _ _ => rfl)]
  dsimp only [dat]

/-- Away from the start of a row, total 9's current buffer holds what the body left at the point before: the point is not
    the first and the buffer was not written back in between. -/
theorem before_9_B (V : Entry F) (c : Dev nD) (t : Fin cfg0.N) (h0 : ¬t.val % 16 = 0) (d) :
    (dat V c).before 9 t d = acc9 V c (t.val - 1) (Nat.lt_of_le_of_lt (Nat.sub_le _ _) t.isLt) := by
  have hN : t.val < 256 := lt_of_lt_of_eq t.isLt (show cfg0.N = 256 from N_0)
  rw [Dat.before_out_kept _ 9 rfl t (by omega) (Bool.eq_false_iff.mpr fun h => by have := (flush0_9 _).mp h; dsimp only at this; omega)
    (fun _ => rfl) (fun _ _ => rfl)]
  dsimp only [dat]

/-- Away from the start of a row, total 10's current buffer holds what the body left at the point before: the point is not
    the first and the buffer was not written back in between. -/
theorem before_10_B (V : Entry F) (c : Dev nD) (t : Fin cfg0.N) (h0 : ¬t.val % 16 = 0) (d) :
    (dat V c).before 10 t d = acc10 V c (t.val - 1) (Nat.lt_of_le_of_lt (Nat.sub_le _ _) t.isLt) := by
  have hN : t.val < 256 := lt_of_lt_of_eq t.isLt (show cfg0.N = 256 from N_0)
  rw [Dat.before_out_kept _ 10 rfl t (by omega) (Bool.eq_false_iff.mpr fun h => by have := (flush0_10 _).mp h; dsimp only at this; omega)
    (fun _ => rfl) (fun _ _ => rfl)]
  dsimp only [dat]

/-! ## The body obligation, at a generic point -/

/-- What the body is called with at point `t`, the windows one by one, -/
def bodyPre (V : Entry F) (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- and what it returns. -/
def bodyPost (V : Entry F) (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))

set_option maxHeartbeats 400000 in
/-- The body at any point: the inputs' buffers hold their blocks; the closed form of the condition says which case the
    point is in; away from the start of a row each total's buffer holds what the point before left; so the case's triple
    applies. The invariant passes through unread; the core owes nothing throughout. -/
theorem sound_body (V : Entry F) (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10]
  by_cases h0 : t.val % 16 = 0
  · rw [acc8_A V c t h0, acc9_A V c t h0, acc10_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_A c Set.univ (grid0.coords t) ((hcond t).mpr h0) _ _ _ _ _ _ _ _ _ _ _ _ _ _ _ _ _ _ _ _ _ _ (iblk V c 0 t) (iblk V c 1 t) (iblk V c 2 t) (iblk V c 3 t) (iblk V c 4 t) (iblk V c 5 t) (iblk V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [acc8_B V c t h0, acc9_B V c t h0, acc10_B V c t h0]
    simp only [before_8_B V c t h0, before_9_B V c t h0, before_10_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_B c Set.univ (grid0.coords t) (fun h => h0 ((hcond t).mp h)) _ _ _ _ _ _ _ _ _ _ _ _ _ _ _ _ _ _ _ _ _ _ (iblk V c 0 t) (iblk V c 1 t) (iblk V c 2 t) (iblk V c 3 t) (iblk V c 4 t) (iblk V c 5 t) (iblk V c 6 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The library's body obligation, at every point. -/
theorem body_obligation (V : Entry F) (c : Dev nD) : BodyObligation (dat (F := F) V c) (defs₀ (F := F)) Variants.none () Set.univ := fun t => by
  rw [bigSep_W0, bigSep_W0]
  exact sound_body V c t

/-- The invariant is the region's own at the first point -/
theorem hin (V : Entry F) (c : Dev nD) : (Pipeline.ΦA spec0 c : sProp 𝕄) ⊢ (dat V c).Φ 0 := Entails.refl _

/-- and at the last. -/
theorem hout (V : Entry F) (c : Dev nD) : (dat V c).Φ (Fin.last cfg0.N) ⊢ (Pipeline.ΦA spec0 c : sProp 𝕄) := Entails.refl _

end Cert.Kernel.R0

end
-- ==== Proof.WR1Frame.lean ====
import proofs.«177282_j10187662426197_2_alg».proof.Proof.Gen.Kernel.Launch
import proofs.«177282_j10187662426197_2_alg».proof.Proof.Gen.Kernel.Skeleton
import proofs.«177282_j10187662426197_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

/-!
# The second pallas_call's frame: one graph-convolution layer, accumulated over sixteen column blocks

The grid is 16 × 16; point `t` is (i, k) = (t / 16, t % 16). The body keeps a 512 × 128 running total in a scratch
buffer that lives across points. At k = 0 it resets the total to zero; at every point it adds the product of block
(i, k) of the relation matrix with block k of Y, then the product of the TRANSPOSE of block (k, i) with the same block of
Y; at k = 15 it writes the total plus the bias row into the output block i. At every other point the output's staging
buffer is left as it was found.

So the contents of the scratch after point `t` are a recursion on `t` (`accAt`), restarted from zero at the points
with t % 16 = 0; the invariant before point `t + 1` names the scratch at `accAt t`; and what is written back at the
points with t % 16 = 15 is `accAt t` plus the bias row.
-/

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents when the region is entered, per core. -/
abbrev Entry (F : FTy → Type) [FloatOps F] : Type := (c : Dev nD) → (b : Ref sig .tc) → Buf (Elt F) ((c : Thread nD τ).loc b)

/-- The shares held of the windows' arrays: the two windows that stage the same matrix hold one half of it each. -/
def q : Fin cfg1.W → PosShare TreeShare
  | ⟨0, _⟩ => fullShare.left | ⟨1, _⟩ => fullShare.right | ⟨2, _⟩ => fullShare | ⟨3, _⟩ => fullShare | ⟨4, _⟩ => fullShare

variable (V : Entry F)

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The running total -/

/-- One point's work on the running total `xs`: add block·Y, then add blockᵀ·Y. -/
def step (x0 x1 : Vec F S512x512 .bf16) (x2 : Vec F S512x128 .bf16) (xs : Vec F S512x128 .f32) : Vec F S512x128 .f32 :=
  k1_pay4 x1 x2 (k1_pay3 x0 x2 xs)

/-- The scratch after the body at position `n`: one step from zero at the first point and at the points with
    n % 16 = 0, one step from what the point before left otherwise. -/
def accAt (c : Dev nD) : (n : ℕ) → n < cfg1.N → Vec F S512x128 .f32
  | 0, hn => step (iblk V c 0 ⟨0, hn⟩) (iblk V c 1 ⟨0, hn⟩) (iblk V c 2 ⟨0, hn⟩) (k1_pay1 (F := F))
  | n + 1, hn => step (iblk V c 0 ⟨n + 1, hn⟩) (iblk V c 1 ⟨n + 1, hn⟩) (iblk V c 2 ⟨n + 1, hn⟩)
      (if (n + 1) % 16 = 0 then (k1_pay1 (F := F)) else accAt c n (Nat.lt_of_succ_lt hn))

/-- The scratch operand: a whole scoped buffer of the kernel's own, passed beside the windows. -/
abbrev scM : Memref sig .tc .vmem S512x128 .f32 := Memref.whole cc1_scratch0

/-- The region invariant before position `n`: before the first point the scoped rest and the generator register at
    anything; afterwards the same with the scratch named at what the point before left. -/
def PhiS (c : Dev nD) : (n : ℕ) → n ≤ cfg1.N → sProp 𝕄
  | 0, _ => Pipeline.ΦA spec1 c
  | n + 1, hn => iprop(iprop(owns (c : Thread nD τ) scM fullShare (accAt V c n hn)
      ∗ Pipeline.scopedRestBut (Ix := Unit) (Name := ℕ) (U := UR sig nD τ) (Lvl := ℕ) (Val := Elt F) spec1 c [cc1_scratch0]) ∗ (∃ r, prngReg c r))

/-! ## The proof data -/

/-- The proof data of the pipeline on core `c`: the arrays as the region finds them; after the body each input's
    buffer at its block, the output's at the running total plus the bias row; the invariant `PhiS`; nothing owed. -/
def dat (V : Entry F) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay5 (accAt V c t.val t.isLt) (iblk V c 3 t)
  Φ t := PhiS V c t.val (Nat.le_of_lt_succ t.isLt)
  q := q
  owed _ := 0

theorem A_eq (V : Entry F) (c : Dev nD) (w : Fin cfg1.W) : (dat V c).A w = V c (Pipeline.arrRef spec1 w) := by
  dsimp only [dat]
theorem q_eq (V : Entry F) (c : Dev nD) : (dat V c).q = q := by dsimp only [dat]
theorem owed_eq (V : Entry F) (c : Dev nD) (t) : (dat V c).owed t = 0 := by dsimp only [dat]

/-! ## The body's branch conditions -/

/-- The condition of the body's first conditional (the reset), from the grid coordinates. -/
abbrev condZ (i : grid1.Coords) : Prop := (Scalar.cmpi .ne (Scalar.extui (Scalar.cmpi .eq (BitVec.ofNat 32 (i 1).val) 0#32)) 0#32) = 1#1
/-- It holds at the points with t % 16 = 0. -/
theorem hcondZ : ∀ t : Fin cfg1.N, condZ (grid1.coords t) ↔ t.val % 16 = 0 :=
  (by decide +kernel : ∀ t : Fin grid1.N, condZ (grid1.coords t) ↔ t.val % 16 = 0)
/-- The condition of the body's second conditional (the write of the output). -/
abbrev condL (i : grid1.Coords) : Prop := k1_cond2 i = 1#1
/-- It holds at the points with t % 16 = 15. -/
theorem hcondL : ∀ t : Fin cfg1.N, condL (grid1.coords t) ↔ t.val % 16 = 15 :=
  (by decide +kernel : ∀ t : Fin grid1.N, condL (grid1.coords t) ↔ t.val % 16 = 15)

/-- The zero offsets of a whole-buffer access, however spelt. -/
theorem hz2 : (![0, 0] : Fin 2 → ℕ) = fun _ => 0 := by funext a; fin_cases a <;> rfl
theorem hz1 : (![0] : Fin 1 → ℕ) = fun _ => 0 := by funext a; fin_cases a; rfl

/-! ## Whole-buffer stores and loads

Every access of the body is through the rectangle that is the whole buffer. A load after such a store reads the
stored payload, whatever was stored earlier; so does a read of the buffer at the end. -/

/-- A whole-buffer load after writes whose LAST is a whole-buffer store reads that store's payload. -/
theorem readCov_cons_whole {S : Shape} {e : EltTy} {κ : Kind} {sp : Space} (v : View sig κ sp S e) {off : Fin S.rank → ℕ}
    (h : off = fun _ => 0) (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-- The buffer after writes whose LAST is a whole-buffer store holds that store's payload. -/
theorem read_writes_cons_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h]

set_option maxHeartbeats 400000 in
/-- The body at a point with k = 0 (the reset taken, the output not written): the scratch, found at anything, is left one step from zero; the output's buffer is handed back as found. -/
theorem run_A (c : Dev nD) (i : grid1.Coords)
    (arg2 : Memref sig .tc .vmem S512x512 .bf16) (harg2 : arg2.IsWhole) (arg3 : Memref sig .tc .vmem S512x512 .bf16) (harg3 : arg3.IsWhole)
    (arg4 : Memref sig .tc .vmem S512x128 .bf16) (harg4 : arg4.IsWhole) (arg5 : Memref sig .tc .vmem S128 .f32) (harg5 : arg5.IsWhole)
    (arg6 : Memref sig .tc .vmem S512x128 .f32) (harg6 : arg6.IsWhole) (arg7 : Memref sig .tc .vmem S512x128 .f32) (harg7 : arg7.IsWhole)
    (hc0 : condZ i) (hc1 : ¬condL i)
    (x0 x1 : Vec F S512x512 .bf16) (x2 : Vec F S512x128 .bf16) (x3 : Vec F S128 .f32) (xi : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (step x0 x1 x2 (k1_pay1 (F := F)))) -∗ K ⟨⟩))
      ⊢ wp frame (wpE (defs₀ (F := F)) Variants.none c none) E (cc1__gc1_kernel i arg2 harg2 arg3 harg3 arg4 harg4 arg5 harg5 arg6 harg6 arg7 harg7) K := by
  simp only [cc1__gc1_kernel_eq_skeleton]; unfold cc1__gc1_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  sl_unfold_words
  rw [read_writes_cons_whole (S := S512x128) _ _ hz2]
  simp only [readCov_cons_whole (S := S512x128) _ hz2]
  simp only [View.readAt_eq_ld, harg2.read_unread, harg3.read_unread, harg4.read_unread, harg5.read_unread, harg7.read_unread,
      View.ld_unit_zero (S := S512x128) hz2, View.ld_unit_zero (S := S512x512) hz2, View.ld_unit_zero (S := S128) hz1]
  rfl

set_option maxHeartbeats 400000 in
/-- The body at a point with 0 < k < 15 (no reset, the output not written): the scratch, found at `xs`, is left one step further; the output's buffer is handed back as found. -/
theorem run_B (c : Dev nD) (i : grid1.Coords)
    (arg2 : Memref sig .tc .vmem S512x512 .bf16) (harg2 : arg2.IsWhole) (arg3 : Memref sig .tc .vmem S512x512 .bf16) (harg3 : arg3.IsWhole)
    (arg4 : Memref sig .tc .vmem S512x128 .bf16) (harg4 : arg4.IsWhole) (arg5 : Memref sig .tc .vmem S128 .f32) (harg5 : arg5.IsWhole)
    (arg6 : Memref sig .tc .vmem S512x128 .f32) (harg6 : arg6.IsWhole) (arg7 : Memref sig .tc .vmem S512x128 .f32) (harg7 : arg7.IsWhole)
    (hc0 : ¬condZ i) (hc1 : ¬condL i)
    (x0 x1 : Vec F S512x512 .bf16) (x2 : Vec F S512x128 .bf16) (x3 : Vec F S128 .f32) (xi xs : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi
            ∗ owns (c : Thread nD τ) arg7 fullShare (step x0 x1 x2 xs)) -∗ K ⟨⟩))
      ⊢ wp frame (wpE (defs₀ (F := F)) Variants.none c none) E (cc1__gc1_kernel i arg2 harg2 arg3 harg3 arg4 harg4 arg5 harg5 arg6 harg6 arg7 harg7) K := by
  simp only [cc1__gc1_kernel_eq_skeleton]; unfold cc1__gc1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  sl_unfold_words
  rw [read_writes_cons_whole (S := S512x128) _ _ hz2]
  simp only [readCov_cons_whole (S := S512x128) _ hz2]
  simp only [View.readAt_eq_ld, harg2.read_unread, harg3.read_unread, harg4.read_unread, harg5.read_unread, harg7.read_unread,
      View.ld_unit_zero (S := S512x128) hz2, View.ld_unit_zero (S := S512x512) hz2, View.ld_unit_zero (S := S128) hz1]
  rfl

set_option maxHeartbeats 400000 in
/-- The body at a point with k = 15 (no reset, the output written): the scratch, found at `xs`, is left one step further, and the output's buffer, found at anything, holds that total plus the bias row. -/
theorem run_C (c : Dev nD) (i : grid1.Coords)
    (arg2 : Memref sig .tc .vmem S512x512 .bf16) (harg2 : arg2.IsWhole) (arg3 : Memref sig .tc .vmem S512x512 .bf16) (harg3 : arg3.IsWhole)
    (arg4 : Memref sig .tc .vmem S512x128 .bf16) (harg4 : arg4.IsWhole) (arg5 : Memref sig .tc .vmem S128 .f32) (harg5 : arg5.IsWhole)
    (arg6 : Memref sig .tc .vmem S512x128 .f32) (harg6 : arg6.IsWhole) (arg7 : Memref sig .tc .vmem S512x128 .f32) (harg7 : arg7.IsWhole)
    (hc0 : ¬condZ i) (hc1 : condL i)
    (x0 x1 : Vec F S512x512 .bf16) (x2 : Vec F S512x128 .bf16) (x3 : Vec F S128 .f32) (xs : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay5 (step x0 x1 x2 xs) x3)
            ∗ owns (c : Thread nD τ) arg7 fullShare (step x0 x1 x2 xs)) -∗ K ⟨⟩))
      ⊢ wp frame (wpE (defs₀ (F := F)) Variants.none c none) E (cc1__gc1_kernel i arg2 harg2 arg3 harg3 arg4 harg4 arg5 harg5 arg6 harg6 arg7 harg7) K := by
  simp only [cc1__gc1_kernel_eq_skeleton]; unfold cc1__gc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [read_writes_cons_whole (S := S512x128) _ _ hz2]
    simp only [readCov_cons_whole (S := S512x128) _ hz2]
    simp only [View.readAt_eq_ld, harg2.read_unread, harg3.read_unread, harg4.read_unread, harg5.read_unread, harg7.read_unread,
      View.ld_unit_zero (S := S512x128) hz2, View.ld_unit_zero (S := S512x512) hz2, View.ld_unit_zero (S := S128) hz1]
    rfl
  iexists _; isplitr
  swap; · iexact HS
  ipureintro
  sl_unfold_words
  rw [read_writes_cons_whole (S := S512x128) _ _ hz2]
  simp only [readCov_cons_whole (S := S512x128) _ hz2]
  simp only [View.readAt_eq_ld, harg2.read_unread, harg3.read_unread, harg4.read_unread, harg5.read_unread, harg7.read_unread,
      View.ld_unit_zero (S := S512x128) hz2, View.ld_unit_zero (S := S512x512) hz2, View.ld_unit_zero (S := S128) hz1]
  rfl

/-! ## What the windows' buffers hold when the body runs, and what it leaves in them -/

/-- What the body leaves, window by window (the proof data's `match` reduced). -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = k1_pay5 (accAt V c t.val t.isLt) (iblk V c 3 t) := by dsimp only [dat]

/-- Each input's current staging buffer holds its block at every point, fetched there or not: an input that is not
    fetched at a point has the block index of the point before, and the body leaves its block in place. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- The inputs are never idle. -/
theorem liveAt_0 : ∀ t : Fin cfg1.N, cfg1.idle 0 (grid1.coords t) = false := fun _ => rfl
theorem liveAt_1 : ∀ t : Fin cfg1.N, cfg1.idle 1 (grid1.coords t) = false := fun _ => rfl
theorem liveAt_2 : ∀ t : Fin cfg1.N, cfg1.idle 2 (grid1.coords t) = false := fun _ => rfl
theorem liveAt_3 : ∀ t : Fin cfg1.N, cfg1.idle 3 (grid1.coords t) = false := fun _ => rfl
/-- The output is idle exactly where the body does not write it, -/
theorem idleAt_4 : ∀ t : Fin cfg1.N, ¬condL (grid1.coords t) → cfg1.idle 4 (grid1.coords t) = true := by decide +kernel
theorem liveAt_4 : ∀ t : Fin cfg1.N, condL (grid1.coords t) → cfg1.idle 4 (grid1.coords t) = false := by decide +kernel
/-- and is not written back there. -/
theorem noFlush_4 (t : Fin cfg1.N) (h : ¬t.val % 16 = 15) : (cfg1.win 4).flush t = false :=
  Bool.eq_false_iff.mpr fun hf => h ((flush1_4 t).mp hf)

/-- What the body's post says of each input's buffer: it holds its block still. -/
theorem leaves_0 (c : Dev nD) (t : Fin cfg1.N) :
    (dat V c).leavesExact 0 t = owns (c : Thread nD τ) (st1_0 t) fullShare (iblk V c 0 t) := by
  unfold Dat.leavesExact; rw [liveAt_0 t, after_0]
theorem leaves_1 (c : Dev nD) (t : Fin cfg1.N) :
    (dat V c).leavesExact 1 t = owns (c : Thread nD τ) (st1_1 t) fullShare (iblk V c 1 t) := by
  unfold Dat.leavesExact; rw [liveAt_1 t, after_1]
theorem leaves_2 (c : Dev nD) (t : Fin cfg1.N) :
    (dat V c).leavesExact 2 t = owns (c : Thread nD τ) (st1_2 t) fullShare (iblk V c 2 t) := by
  unfold Dat.leavesExact; rw [liveAt_2 t, after_2]
theorem leaves_3 (c : Dev nD) (t : Fin cfg1.N) :
    (dat V c).leavesExact 3 t = owns (c : Thread nD τ) (st1_3 t) fullShare (iblk V c 3 t) := by
  unfold Dat.leavesExact; rw [liveAt_3 t, after_3]
/-- Of the output's at a point that writes it: the running total plus the bias row. -/
theorem leaves_4 (c : Dev nD) (t : Fin cfg1.N) (h : condL (grid1.coords t)) :
    (dat V c).leavesExact 4 t = owns (c : Thread nD τ) (st1_4 t) fullShare (k1_pay5 (accAt V c t.val t.isLt) (iblk V c 3 t)) := by
  unfold Dat.leavesExact; rw [liveAt_4 t h, after_4]

/-! ## The running total, point by point -/

/-- At a point with t % 16 = 0 the total restarts from zero. -/
theorem accAt_Z (c : Dev nD) (t : Fin cfg1.N) (h0 : t.val % 16 = 0) :
    accAt V c t.val t.isLt = step (iblk V c 0 t) (iblk V c 1 t) (iblk V c 2 t) (k1_pay1 (F := F)) := by
  obtain ⟨n, hn⟩ := t
  cases n with
  | zero => rfl
  | succ n => exact congrArg (step _ _ _) (if_pos h0)

/-- At any other point it continues from what the point before left. -/
theorem accAt_S (c : Dev nD) (t : Fin cfg1.N) (h0 : ¬t.val % 16 = 0) :
    accAt V c t.val t.isLt = step (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h0
  | succ n => exact congrArg (step _ _ _) (if_neg h0)

/-! ## The invariant -/

/-- What the launch hands the region, with the scratch operand split out of the scoped rest and owned as a memref. -/
theorem PhiA_eq (c : Dev nD) :
    (Pipeline.ΦA spec1 c : sProp 𝕄)
      = iprop(iprop((∃ d, owns (c : Thread nD τ) scM fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM, owns_whole]; try rfl

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (accAt V c n hn)
      ∗ Pipeline.scopedRestBut (Ix := Unit) (Name := ℕ) (U := UR sig nD τ) (Lvl := ℕ) (Val := Elt F) spec1 c [cc1_scratch0]) ∗ (∃ r, prngReg c r)) := rfl

theorem PhiS_pos (c : Dev nD) (n : ℕ) (h : n ≤ cfg1.N) (hz : n ≠ 0) :
    PhiS V c n h = iprop(iprop(owns (c : Thread nD τ) scM fullShare (accAt V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

theorem PhiS_castSucc (c : Dev nD) (t : Fin cfg1.N) :
    (dat V c).Φ t.castSucc = PhiS V c t.val (Nat.le_of_lt t.isLt) := by
  dsimp only [dat]; simp only [Fin.coe_castSucc]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 3200000 in
/-- The body at any point. The inputs' buffers hold their blocks; the point's position in its row of the grid says
    which of the three cases it is in; the invariant hands the body the scratch at what the point before left (at
    anything at the first point) and takes it back at this point's total; at the points that do not write the output its
    buffer goes back as it came; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3]
  have hN : t.val < 256 := lt_of_lt_of_eq t.isLt (show cfg1.N = 256 from N_1)
  by_cases h0 : t.val % 16 = 0
  · have h1 : ¬t.val % 16 = 15 := by omega
    rw [Dat.leavesExact_idle (dat V c) 4 t (idleAt_4 t (fun h => h1 ((hcondL t).mp h))) (noFlush_4 t h1)]
    rw [accAt_Z V c t h0]
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩⟩
      iapply (run_A c (grid1.coords t) _ _ _ _ _ _ _ _ _ _ _ _ ((hcondZ t).mpr h0) (fun h => h1 ((hcondL t).mp h)) (iblk V c 0 t) (iblk V c 1 t) (iblk V c 2 t) (iblk V c 3 t) ((dat V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run_A c (grid1.coords t) _ _ _ _ _ _ _ _ _ _ _ _ ((hcondZ t).mpr h0) (fun h => h1 ((hcondL t).mp h)) (iblk V c 0 t) (iblk V c 1 t) (iblk V c 2 t) (iblk V c 3 t) ((dat V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [accAt_S V c t h0, PhiS_castSucc V c t, PhiS_pos V c _ _ hz]
    by_cases h1 : t.val % 16 = 15
    · rw [leaves_4 V c t ((hcondL t).mpr h1), accAt_S V c t h0]
      iintro ⟨⟨⟨HS, HR⟩, Hg⟩, Ho, ⟨%d0, H0⟩, ⟨%d1, H1⟩, ⟨%d2, H2⟩, ⟨%d3, H3⟩, ⟨%d4, H4⟩⟩
      iapply (run_C c (grid1.coords t) _ _ _ _ _ _ _ _ _ _ _ _ (fun h => h0 ((hcondZ t).mp h)) ((hcondL t).mpr h1) (iblk V c 0 t) (iblk V c 1 t) (iblk V c 2 t) (iblk V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat V c) 4 t (idleAt_4 t (fun h => h1 ((hcondL t).mp h))) (noFlush_4 t h1)]
      iintro ⟨⟨⟨HS, HR⟩, Hg⟩, Ho, ⟨%d0, H0⟩, ⟨%d1, H1⟩, ⟨%d2, H2⟩, ⟨%d3, H3⟩, ⟨%d4, H4⟩⟩
      iapply (run_B c (grid1.coords t) _ _ _ _ _ _ _ _ _ _ _ _ (fun h => h0 ((hcondZ t).mp h)) (fun h => h1 ((hcondL t).mp h)) (iblk V c 0 t) (iblk V c 1 t) (iblk V c 2 t) (iblk V c 3 t) ((dat V c).before 4 t d4) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (V : Entry F) (c : Dev nD) : BodyObligation (dat (F := F) V c) (defs₀ (F := F)) Variants.none () Set.univ := fun t => by
  rw [bigSep_W1, bigSep_W1]
  exact sound_body V c t

/-- What the launch hands the region is the invariant before the first point. -/
theorem hin (V : Entry F) (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the scratch's named contents are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (V : Entry F) (c : Dev nD) : (dat V c).Φ (Fin.last cfg1.N) ⊢ (Pipeline.ΦA spec1 c : sProp 𝕄) :=
  Phi_out V c _ (by rw [Fin.val_last]; have : cfg1.N = 256 := N_1; omega)

end Cert.Kernel.R1

end
-- ==== Proof.WR2Frame.lean ====
import proofs.«177282_j10187662426197_2_alg».proof.Proof.Gen.Kernel.Launch
import proofs.«177282_j10187662426197_2_alg».proof.Proof.Gen.Kernel.Skeleton
import proofs.«177282_j10187662426197_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

/-!
# The third grid (16 × 16 points): the accumulating readout, point by point

Point `t` of the grid is the pair `(i, k) = (t / 16, t % 16)`. Along a row `i` the body keeps a
`512 × 128` accumulator in a scratch buffer of its own:

* at `k = 0` the accumulator is set to zero;
* at every `k` it gains the product of block `(i, k)` of the square matrix with block `k` of the
  tall matrix, and then the product of the TRANSPOSE of block `(k, i)` with the same block `k`;
* at `k = 15` block `i` of the result is written: (block `i` of the addend + (accumulator + bias row)) · ½.

This file states what every staging buffer and the accumulator hold after each point (`accAt`, `outAt`),
packs it as the proof data of the pipeline rule (`dat`), and proves that the body, run at any point from
that data, re-establishes it (`body_obligation`). Everything here holds for any float instance.
-/

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffer contents of a core when the grid is entered. -/
abbrev Entry (F : FTy → Type) [FloatOps F] : Type := (c : Dev nD) → (b : Ref sig .tc) → Buf (Elt F) ((c : Thread nD τ).loc b)

/-- The share held of each windowed array: the square matrix is staged by two windows, which hold a half each. -/
def q : Fin cfg2.W → PosShare TreeShare
  | ⟨0, _⟩ => fullShare.left | ⟨1, _⟩ => fullShare.right | ⟨2, _⟩ => fullShare | ⟨3, _⟩ => fullShare | ⟨4, _⟩ => fullShare | ⟨5, _⟩ => fullShare

/-! ## The blocks the windows stage -/

/-- Window `w`'s block at point `t`, read off its array as the grid finds it. -/
def iblk (V : Entry F) (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the accumulator and the output block hold -/

/-- One point's update of the accumulator `s`: add block `x0` times `x2`, then the transpose of `x1` times `x2`. -/
def stepAcc (x0 x1 : Vec F S512x512 .bf16) (x2 : Vec F S512x128 .bf16) (s : Vec F S512x128 .f32) : Vec F S512x128 .f32 :=
  k2_pay4 x1 x2 (k2_pay3 x0 x2 s)

/-- The accumulator after the body at point `n`: restarted from zero where a row begins (`n % 16 = 0`). -/
def accAt (V : Entry F) (c : Dev nD) : (n : ℕ) → n < cfg2.N → Vec F S512x128 .f32
  | 0, hn => stepAcc (iblk V c 0 ⟨0, hn⟩) (iblk V c 1 ⟨0, hn⟩) (iblk V c 2 ⟨0, hn⟩) (k2_pay1 (F := F))
  | n + 1, hn =>
    stepAcc (iblk V c 0 ⟨n + 1, hn⟩) (iblk V c 1 ⟨n + 1, hn⟩) (iblk V c 2 ⟨n + 1, hn⟩)
      (if (n + 1) % 16 = 0 then k2_pay1 (F := F) else accAt V c n (Nat.lt_of_succ_lt hn))

/-- The output block the body writes at a row's last point, from that point's accumulator. -/
def outAt (V : Entry F) (c : Dev nD) (t : Fin cfg2.N) : Vec F S512x128 .f32 :=
  k2_pay5 (accAt V c t.val t.isLt) (iblk V c 4 t) (iblk V c 3 t)

/-! ## The invariant: the accumulator between points -/

/-- The scratch buffer the body keeps its accumulator in. -/
abbrev scM : Memref sig .tc .vmem S512x128 .f32 := Memref.whole cc2_scratch0

/-- What the grid is entered with, with the accumulator's buffer split off at some contents. -/
theorem PhiA_eq (c : Dev nD) :
    (Pipeline.ΦA spec2 c : sProp 𝕄)
      = iprop(iprop(iprop((∃ d, owns (c : Thread nD τ) scM fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM, owns_whole]; try rfl

/-- The invariant before position `n`: before the first point what the grid is entered with; afterwards the same
    with the accumulator's buffer at what the point before left in it. -/
def PhiS (V : Entry F) (c : Dev nD) : (n : ℕ) → n ≤ cfg2.N → sProp 𝕄
  | 0, _ => Pipeline.ΦA spec2 c
  | n + 1, hn => iprop(iprop(owns (c : Thread nD τ) scM fullShare (accAt V c n hn)
      ∗ Pipeline.scopedRestBut (Ix := Unit) (Name := ℕ) (U := UR sig nD τ) (Lvl := ℕ) (Val := Elt F) spec2 c [cc2_scratch0]) ∗ (∃ r, prngReg c r))

theorem PhiS_zero (V : Entry F) (c : Dev nD) (n : ℕ) (h : n ≤ cfg2.N) (hz : n = 0) : PhiS V c n h = Pipeline.ΦA spec2 c := by
  subst hz; rfl

theorem PhiS_succ (V : Entry F) (c : Dev nD) (n : ℕ) (hn : n < cfg2.N) :
    PhiS V c (n + 1) hn = iprop(iprop(owns (c : Thread nD τ) scM fullShare (accAt V c n hn)
      ∗ Pipeline.scopedRestBut (Ix := Unit) (Name := ℕ) (U := UR sig nD τ) (Lvl := ℕ) (Val := Elt F) spec2 c [cc2_scratch0]) ∗ (∃ r, prngReg c r)) := rfl

theorem PhiS_pos (V : Entry F) (c : Dev nD) (n : ℕ) (h : n ≤ cfg2.N) (hz : n ≠ 0) :
    PhiS V c n h = iprop(iprop(owns (c : Thread nD τ) scM fullShare (accAt V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The proof data on core `c`: the arrays as the grid finds them; after the body at point `t` every input's
    buffer at its block and the output's at `outAt`; the invariant `PhiS`; nothing owed. -/
def dat (V : Entry F) (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val (Nat.le_of_lt_succ t.isLt)
  q := q
  owed _ := 0

theorem A_eq (V : Entry F) (c : Dev nD) (w : Fin cfg2.W) : (dat V c).A w = V c (Pipeline.arrRef spec2 w) := by
  dsimp only [dat]

theorem q_eq (V : Entry F) (c : Dev nD) : (dat V c).q = q := by
  dsimp only [dat]

theorem owed_eq (V : Entry F) (c : Dev nD) (t) : (dat V c).owed t = 0 := by
  dsimp only [dat]

theorem PhiS_castSucc (V : Entry F) (c : Dev nD) (t : Fin cfg2.N) :
    (dat V c).Φ t.castSucc = PhiS V c t.val (Nat.le_of_lt t.isLt) := by
  dsimp only [dat]; simp only [Fin.coe_castSucc]

theorem after_0 (V : Entry F) (c : Dev nD) (t : Fin cfg2.N) : (dat V c).after 0 t = iblk V c 0 t := by dsimp only [dat]
theorem after_1 (V : Entry F) (c : Dev nD) (t : Fin cfg2.N) : (dat V c).after 1 t = iblk V c 1 t := by dsimp only [dat]
theorem after_2 (V : Entry F) (c : Dev nD) (t : Fin cfg2.N) : (dat V c).after 2 t = iblk V c 2 t := by dsimp only [dat]
theorem after_3 (V : Entry F) (c : Dev nD) (t : Fin cfg2.N) : (dat V c).after 3 t = iblk V c 3 t := by dsimp only [dat]
theorem after_4 (V : Entry F) (c : Dev nD) (t : Fin cfg2.N) : (dat V c).after 4 t = iblk V c 4 t := by dsimp only [dat]
theorem after_5 (V : Entry F) (c : Dev nD) (t : Fin cfg2.N) : (dat V c).after 5 t = outAt V c t := by dsimp only [dat]

/-- The first conditional of the body (the accumulator is zeroed): its condition from the grid coordinates. -/
abbrev cond1 (i : grid2.Coords) : Prop := (Scalar.cmpi .ne (Scalar.extui (Scalar.cmpi .eq (BitVec.ofNat 32 (i 1).val) 0#32)) 0#32) = 1#1
/-- The second conditional (the output block is written). -/
abbrev cond2 (i : grid2.Coords) : Prop := k2_cond2 i = 1#1

/-- The accumulator is zeroed exactly at the first point of a row; -/
theorem hcond1 : ∀ t : Fin cfg2.N, cond1 (grid2.coords t) ↔ t.val % 16 = 0 :=
  (by decide +kernel : ∀ t : Fin grid2.N, cond1 (grid2.coords t) ↔ t.val % 16 = 0)
/-- the output block is written exactly at its last point. -/
theorem hcond2 : ∀ t : Fin cfg2.N, cond2 (grid2.coords t) ↔ t.val % 16 = 15 :=
  (by decide +kernel : ∀ t : Fin grid2.N, cond2 (grid2.coords t) ↔ t.val % 16 = 15)

/-- Where the output block is not written its window is idle, -/
theorem idleAt_5 : ∀ t : Fin cfg2.N, ¬cond2 (grid2.coords t) → cfg2.idle 5 (grid2.coords t) = true := by decide +kernel
/-- and not written back; -/
theorem noFlush_5 : ∀ t : Fin cfg2.N, ¬cond2 (grid2.coords t) → (cfg2.win 5).flush t = false := by decide +kernel
/-- where it is written the window is live. -/
theorem liveAt_5 : ∀ t : Fin cfg2.N, cond2 (grid2.coords t) → cfg2.idle 5 (grid2.coords t) = false := by decide +kernel

theorem hz2 : (![0, 0] : Fin 2 → Nat) = fun _ => 0 := funext fun a => by fin_cases a <;> rfl
theorem hz1 : (![0] : Fin 1 → Nat) = fun _ => 0 := funext fun a => by fin_cases a; rfl

/-! ## What the inputs' buffers hold at a point: their blocks, fetched there or not -/

theorem before_0 (V : Entry F) (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (V : Entry F) (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (V : Entry F) (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (V : Entry F) (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (V : Entry F) (c : Dev nD) (t : Fin cfg2.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body on any whole staging buffers, case by case

The three cases the grid meets: a row's first point (`A`: the accumulator is zeroed first), a point inside a row
(`B`), a row's last point (`C`: the output block is written from the accumulator). In each the inputs' buffers are
handed back as found and the accumulator's buffer holds `stepAcc` of the blocks over what it started from. -/

set_option maxHeartbeats 400000 in
theorem run_A (c : Dev nD) (E : Set ℕ) (i : grid2.Coords) (arg2 : Memref sig .tc .vmem S512x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S512x128 .f32) (harg5 : arg5.IsWhole) (arg6 : Memref sig .tc .vmem S128 .f32) (harg6 : arg6.IsWhole) (arg7 : Memref sig .tc .vmem S512x128 .f32) (harg7 : arg7.IsWhole) (arg8 : Memref sig .tc .vmem S512x128 .f32) (harg8 : arg8.IsWhole) (hc1 : cond1 i) (hc2 : ¬cond2 i)
    (x0 x1 : Vec F S512x512 .bf16) (x2 : Vec F S512x128 .bf16) (x3 : Vec F S512x128 .f32) (x4 : Vec F S128 .f32) (xi5 : Vec F S512x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare (stepAcc x0 x1 x2 (k2_pay1 (F := F)))) -∗ K ⟨⟩))
      ⊢ wp frame (wpE (defs₀ (F := F)) Variants.none c none) E (cc2__gc2_kernel i arg2 harg2 arg3 harg3 arg4 harg4 arg5 harg5 arg6 harg6 arg7 harg7 arg8 harg8) K := by
  simp only [cc2__gc2_kernel_eq_skeleton]; unfold cc2__gc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  rw [View.read_writes_eq_canon _ _ _ (fun y => ⟨_, List.mem_cons_self, View.mem_set_unit_zero hz2 inb_S512x128_S512x128_0_0 y⟩)]
  rw [View.canon_cons_unit_zero (S := S512x128) hz2]
  sl_unfold_words
  rw [View.readCov_cons_toLoadRect, View.readCov_cons_toLoadRect]
  simp only [View.readAt_eq_ld, harg2.read_unread, harg3.read_unread, harg4.read_unread,
    View.ld_unit_zero (S := S512x512) hz2, View.ld_unit_zero (S := S512x128) hz2]
  rfl

set_option maxHeartbeats 400000 in
theorem run_B (c : Dev nD) (E : Set ℕ) (i : grid2.Coords) (arg2 : Memref sig .tc .vmem S512x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S512x128 .f32) (harg5 : arg5.IsWhole) (arg6 : Memref sig .tc .vmem S128 .f32) (harg6 : arg6.IsWhole) (arg7 : Memref sig .tc .vmem S512x128 .f32) (harg7 : arg7.IsWhole) (arg8 : Memref sig .tc .vmem S512x128 .f32) (harg8 : arg8.IsWhole) (hc1 : ¬cond1 i) (hc2 : ¬cond2 i)
    (x0 x1 : Vec F S512x512 .bf16) (x2 : Vec F S512x128 .bf16) (x3 : Vec F S512x128 .f32) (x4 : Vec F S128 .f32) (xi5 : Vec F S512x128 .f32) (xs : Vec F S512x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare (stepAcc x0 x1 x2 xs)) -∗ K ⟨⟩))
      ⊢ wp frame (wpE (defs₀ (F := F)) Variants.none c none) E (cc2__gc2_kernel i arg2 harg2 arg3 harg3 arg4 harg4 arg5 harg5 arg6 harg6 arg7 harg7 arg8 harg8) K := by
  simp only [cc2__gc2_kernel_eq_skeleton]; unfold cc2__gc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  rw [View.read_writes_eq_canon _ _ _ (fun y => ⟨_, List.mem_cons_self, View.mem_set_unit_zero hz2 inb_S512x128_S512x128_0_0 y⟩)]
  rw [View.canon_cons_unit_zero (S := S512x128) hz2]
  sl_unfold_words
  rw [View.readCov_unit_zero (S := S512x128) _ hz2]
  simp only [View.readAt_eq_ld, harg2.read_unread, harg3.read_unread, harg4.read_unread, harg8.read_unread,
    View.ld_unit_zero (S := S512x512) hz2, View.ld_unit_zero (S := S512x128) hz2]
  rfl

set_option maxHeartbeats 1000000 in
theorem run_C (c : Dev nD) (E : Set ℕ) (i : grid2.Coords) (arg2 : Memref sig .tc .vmem S512x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S512x128 .f32) (harg5 : arg5.IsWhole) (arg6 : Memref sig .tc .vmem S128 .f32) (harg6 : arg6.IsWhole) (arg7 : Memref sig .tc .vmem S512x128 .f32) (harg7 : arg7.IsWhole) (arg8 : Memref sig .tc .vmem S512x128 .f32) (harg8 : arg8.IsWhole) (hc1 : ¬cond1 i) (hc2 : cond2 i)
    (x0 x1 : Vec F S512x512 .bf16) (x2 : Vec F S512x128 .bf16) (x3 : Vec F S512x128 .f32) (x4 : Vec F S128 .f32) (xs : Vec F S512x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare (k2_pay5 (stepAcc x0 x1 x2 xs) x4 x3)
            ∗ owns (c : Thread nD τ) arg8 fullShare (stepAcc x0 x1 x2 xs)) -∗ K ⟨⟩))
      ⊢ wp frame (wpE (defs₀ (F := F)) Variants.none c none) E (cc2__gc2_kernel i arg2 harg2 arg3 harg3 arg4 harg4 arg5 harg5 arg6 harg6 arg7 harg7 arg8 harg8) K := by
  simp only [cc2__gc2_kernel_eq_skeleton]; unfold cc2__gc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (fun y => ⟨_, List.mem_cons_self, View.mem_set_unit_zero hz2 inb_S512x128_S512x128_0_0 y⟩)]
    rw [View.canon_cons_unit_zero (S := S512x128) hz2]
    sl_unfold_words
    rw [View.readCov_cons_toLoadRect, View.readCov_unit_zero (S := S512x128) _ hz2]
    simp only [View.readAt_eq_ld, harg2.read_unread, harg3.read_unread, harg4.read_unread, harg5.read_unread, harg6.read_unread, harg8.read_unread,
      View.ld_unit_zero (S := S512x512) hz2, View.ld_unit_zero (S := S512x128) hz2, View.ld_unit_zero (S := S128) hz1]
    rfl
  iexists _; isplitr
  swap; · iexact HS
  ipureintro
  sl_unfold_words
  rw [View.read_writes_eq_canon _ _ _ (fun y => ⟨_, List.mem_cons_self, View.mem_set_unit_zero hz2 inb_S512x128_S512x128_0_0 y⟩)]
  rw [View.canon_cons_unit_zero (S := S512x128) hz2]
  rw [View.readCov_unit_zero (S := S512x128) _ hz2]
  simp only [View.readAt_eq_ld, harg2.read_unread, harg3.read_unread, harg4.read_unread, harg8.read_unread,
    View.ld_unit_zero (S := S512x512) hz2, View.ld_unit_zero (S := S512x128) hz2]
  rfl

/-! ## The body at a generic point -/

/-- Each window's current staging buffer at point `t`, as the body is called with it. -/
abbrev mst_0 (t : Fin cfg2.N) : Memref sig .tc .vmem S512x512 .bf16 := win2_0.stage (cfg2.slots t 0)
abbrev hst_0 (t : Fin cfg2.N) : (mst_0 t).IsWhole := hstage2_0 ((cfg2.slots t 0).cast nbuf2_0)
abbrev mst_1 (t : Fin cfg2.N) : Memref sig .tc .vmem S512x512 .bf16 := win2_1.stage (cfg2.slots t 1)
abbrev hst_1 (t : Fin cfg2.N) : (mst_1 t).IsWhole := hstage2_1 ((cfg2.slots t 1).cast nbuf2_1)
abbrev mst_2 (t : Fin cfg2.N) : Memref sig .tc .vmem S512x128 .bf16 := win2_2.stage (cfg2.slots t 2)
abbrev hst_2 (t : Fin cfg2.N) : (mst_2 t).IsWhole := hstage2_2 ((cfg2.slots t 2).cast nbuf2_2)
abbrev mst_3 (t : Fin cfg2.N) : Memref sig .tc .vmem S512x128 .f32 := win2_3.stage (cfg2.slots t 3)
abbrev hst_3 (t : Fin cfg2.N) : (mst_3 t).IsWhole := hstage2_3 ((cfg2.slots t 3).cast nbuf2_3)
abbrev mst_4 (t : Fin cfg2.N) : Memref sig .tc .vmem S128 .f32 := win2_4.stage (cfg2.slots t 4)
abbrev hst_4 (t : Fin cfg2.N) : (mst_4 t).IsWhole := hstage2_4 ((cfg2.slots t 4).cast nbuf2_4)
abbrev mst_5 (t : Fin cfg2.N) : Memref sig .tc .vmem S512x128 .f32 := win2_5.stage (cfg2.slots t 5)
abbrev hst_5 (t : Fin cfg2.N) : (mst_5 t).IsWhole := hstage2_5 ((cfg2.slots t 5).cast nbuf2_5)

/-- The inputs' windows are never idle. -/
theorem liveAt_0 : ∀ t : Fin cfg2.N, cfg2.idle 0 (grid2.coords t) = false := fun _ => rfl
theorem liveAt_1 : ∀ t : Fin cfg2.N, cfg2.idle 1 (grid2.coords t) = false := fun _ => rfl
theorem liveAt_2 : ∀ t : Fin cfg2.N, cfg2.idle 2 (grid2.coords t) = false := fun _ => rfl
theorem liveAt_3 : ∀ t : Fin cfg2.N, cfg2.idle 3 (grid2.coords t) = false := fun _ => rfl
theorem liveAt_4 : ∀ t : Fin cfg2.N, cfg2.idle 4 (grid2.coords t) = false := fun _ => rfl

/-- An input's buffer is handed back holding its block. -/
theorem leaves_0 (V : Entry F) (c : Dev nD) (t : Fin cfg2.N) :
    (dat V c).leavesExact 0 t = owns (c : Thread nD τ) (mst_0 t) fullShare (iblk V c 0 t) := by
  unfold Dat.leavesExact; rw [liveAt_0 t, after_0]
theorem leaves_1 (V : Entry F) (c : Dev nD) (t : Fin cfg2.N) :
    (dat V c).leavesExact 1 t = owns (c : Thread nD τ) (mst_1 t) fullShare (iblk V c 1 t) := by
  unfold Dat.leavesExact; rw [liveAt_1 t, after_1]
theorem leaves_2 (V : Entry F) (c : Dev nD) (t : Fin cfg2.N) :
    (dat V c).leavesExact 2 t = owns (c : Thread nD τ) (mst_2 t) fullShare (iblk V c 2 t) := by
  unfold Dat.leavesExact; rw [liveAt_2 t, after_2]
theorem leaves_3 (V : Entry F) (c : Dev nD) (t : Fin cfg2.N) :
    (dat V c).leavesExact 3 t = owns (c : Thread nD τ) (mst_3 t) fullShare (iblk V c 3 t) := by
  unfold Dat.leavesExact; rw [liveAt_3 t, after_3]
theorem leaves_4 (V : Entry F) (c : Dev nD) (t : Fin cfg2.N) :
    (dat V c).leavesExact 4 t = owns (c : Thread nD τ) (mst_4 t) fullShare (iblk V c 4 t) := by
  unfold Dat.leavesExact; rw [liveAt_4 t, after_4]

/-- The accumulator after a row's first point: the update of zero. -/
theorem accAt_first (V : Entry F) (c : Dev nD) (t : Fin cfg2.N) (h0 : t.val % 16 = 0) :
    accAt V c t.val t.isLt = stepAcc (iblk V c 0 t) (iblk V c 1 t) (iblk V c 2 t) (k2_pay1 (F := F)) := by
  obtain ⟨n, hn⟩ := t
  cases n with
  | zero => rfl
  | succ n => exact congrArg (stepAcc _ _ _) (if_pos h0)

/-- The accumulator after any other point: the update of what the point before left. -/
theorem accAt_next (V : Entry F) (c : Dev nD) (t : Fin cfg2.N) (h0 : ¬t.val % 16 = 0) :
    accAt V c t.val t.isLt = stepAcc (iblk V c 0 t) (iblk V c 1 t) (iblk V c 2 t) (accAt V c (t.val - 1) (Nat.lt_of_le_of_lt (Nat.sub_le _ _) t.isLt)) := by
  obtain ⟨n, hn⟩ := t
  cases n with
  | zero => exact absurd (Nat.zero_mod _) h0
  | succ n => exact congrArg (stepAcc _ _ _) (if_neg h0)

/-- What the body is called with at point `t`, the windows one by one, -/
def bodyPre (V : Entry F) (c : Dev nD) (t : Fin cfg2.N) : sProp 𝕄 :=
  iprop((dat V c).Φ t.castSucc ∗ (dat V c).owesAt () t.castSucc
    ∗ (∃ d, owns (c : Thread nD τ) (mst_0 t) fullShare ((dat V c).before 0 t d))
    ∗ (∃ d, owns (c : Thread nD τ) (mst_1 t) fullShare ((dat V c).before 1 t d))
    ∗ (∃ d, owns (c : Thread nD τ) (mst_2 t) fullShare ((dat V c).before 2 t d))
    ∗ (∃ d, owns (c : Thread nD τ) (mst_3 t) fullShare ((dat V c).before 3 t d))
    ∗ (∃ d, owns (c : Thread nD τ) (mst_4 t) fullShare ((dat V c).before 4 t d))
    ∗ (∃ d, owns (c : Thread nD τ) (mst_5 t) fullShare ((dat V c).before 5 t d)))

/-- and what it returns. -/
def bodyPost (V : Entry F) (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' buffers hold their blocks; the point's position in its row says which case
    it is in; the invariant hands the body the accumulator at what the point before left (at anything where a row
    begins) and takes it back at this point's contents; the core owes nothing throughout. -/
theorem sound_body (V : Entry F) (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4]
  have hN : t.val < 256 := lt_of_lt_of_eq t.isLt (show cfg2.N = 256 from N_2)
  by_cases h0 : t.val % 16 = 0
  · have h1 : ¬t.val % 16 = 15 := by omega
    rw [Dat.leavesExact_idle (dat V c) 5 t (idleAt_5 t (fun h => h1 ((hcond2 t).mp h))) (noFlush_5 t (fun h => h1 ((hcond2 t).mp h)))]
    rw [accAt_first V c t h0]
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run_A c Set.univ (grid2.coords t) _ _ _ _ _ _ _ _ _ _ _ _ _ _ ((hcond1 t).mpr h0) (fun h => h1 ((hcond2 t).mp h)) (iblk V c 0 t) (iblk V c 1 t) (iblk V c 2 t) (iblk V c 3 t) (iblk V c 4 t) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run_A c Set.univ (grid2.coords t) _ _ _ _ _ _ _ _ _ _ _ _ _ _ ((hcond1 t).mpr h0) (fun h => h1 ((hcond2 t).mp h)) (iblk V c 0 t) (iblk V c 1 t) (iblk V c 2 t) (iblk V c 3 t) (iblk V c 4 t) _ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [PhiS_castSucc V c t, PhiS_pos V c _ _ hz]
    by_cases h1 : t.val % 16 = 15
    · rw [show (dat V c).leavesExact 5 t = owns (c : Thread nD τ) (mst_5 t) fullShare ((dat V c).after 5 t) from by
        unfold Dat.leavesExact; rw [liveAt_5 t ((hcond2 t).mpr h1)], after_5]
      unfold outAt
      rw [accAt_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run_C c Set.univ (grid2.coords t) _ _ _ _ _ _ _ _ _ _ _ _ _ _ (fun h => h0 ((hcond1 t).mp h)) ((hcond2 t).mpr h1) (iblk V c 0 t) (iblk V c 1 t) (iblk V c 2 t) (iblk V c 3 t) (iblk V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat V c) 5 t (idleAt_5 t (fun h => h1 ((hcond2 t).mp h))) (noFlush_5 t (fun h => h1 ((hcond2 t).mp h)))]
      rw [accAt_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run_B c Set.univ (grid2.coords t) _ _ _ _ _ _ _ _ _ _ _ _ _ _ (fun h => h0 ((hcond1 t).mp h)) (fun h => h1 ((hcond2 t).mp h)) (iblk V c 0 t) (iblk V c 1 t) (iblk V c 2 t) (iblk V c 3 t) (iblk V c 4 t) _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline rule's body obligation, at every point. -/
theorem body_obligation (V : Entry F) (c : Dev nD) : BodyObligation (dat (F := F) V c) (defs₀ (F := F)) Variants.none () Set.univ := fun t => by
  rw [bigSep_W2, bigSep_W2]
  exact sound_body V c t

theorem hin (V : Entry F) (c : Dev nD) : (Pipeline.ΦA spec2 c : sProp 𝕄) ⊢ (dat V c).Φ 0 := by
  rw [show (dat V c).Φ 0 = PhiS V c 0 (Nat.zero_le _) from rfl, PhiS_zero V c 0 _ rfl]
  try exact Idealize.SL.BI.Entails.refl _

theorem Phi_out (V : Entry F) (c : Dev nD) (t : Fin (cfg2.N + 1)) (ht : t.val ≠ 0) : (dat V c).Φ t ⊢ (Pipeline.ΦA spec2 c : sProp 𝕄) := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (V : Entry F) (c : Dev nD) : (dat V c).Φ (Fin.last cfg2.N) ⊢ (Pipeline.ΦA spec2 c : sProp 𝕄) :=
  Phi_out V c _ (by rw [Fin.val_last]; have : cfg2.N = 256 := N_2; omega)

end Cert.Kernel.R2

end
-- ==== Proof.WAsm.lean ====
/-
  The three kernel regions and the two stretches of host operations between them, put together.

  Between the five items of the program every unscoped buffer is held whole at named contents: the launch contents, then
  what the first region's write-backs leave in its four results, the host product X·W₁, the first layer written by the
  second region, the host product U₁·W₂, and the result written by the third region. Each region is entered by handing
  it the buffers behind its windows' arrays and left by taking them back. In the second and third regions two windows
  read one array, the mix: its buffer's full share is dealt as two halves at entry and joined again at exit. The run of
  the whole program then says every final memory holds every unscoped buffer at the last contents; no item writes an
  argument, so each argument is read back as launched.
-/
import proofs.«177282_j10187662426197_2_alg».proof.Proof.WR0Frame
import proofs.«177282_j10187662426197_2_alg».proof.Proof.WR1Frame
import proofs.«177282_j10187662426197_2_alg».proof.Proof.WR2Frame
import proofs.«177282_j10187662426197_2_alg».proof.Proof.LibSharedArrays
import proofs.«177282_j10187662426197_2_alg».proof.Proof.Gen.Kernel.Launch
import proofs.«177282_j10187662426197_2_alg».proof.Proof.Gen.Kernel.Regions
import proofs.«177282_j10187662426197_2_alg».proof.Proof.Gen.Kernel.Skeleton
import proofs.«177282_j10187662426197_2_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the five items of the program -/

/-- At launch. -/
abbrev W0 (c : Dev nD) : Valuation τ sig (Elt F) := fun b => m (c, b)
/-- The same read at the TensorCore's references: what the first region is entered from. -/
abbrev E0 : R0.Entry F := fun c b => W0 m c b
/-- After the first region: its four results at what its write-backs leave, every other buffer as before. -/
def W1 (c : Dev nD) : Valuation τ sig (Elt F) :=
  Function.update (Function.update (Function.update (Function.update (W0 m c)
    main_v0_0 ((R0.dat (E0 m) c).arrAt 7 cfg0.N)) main_v0_1 ((R0.dat (E0 m) c).arrAt 8 cfg0.N))
    main_v0_2 ((R0.dat (E0 m) c).arrAt 9 cfg0.N)) main_v0_3 ((R0.dat (E0 m) c).arrAt 10 cfg0.N)
/-- After the first stretch of host operations (the product X·W₁). -/
abbrev W2 (c : Dev nD) : Valuation τ sig (Elt F) := StableHlo.after hostOps1 (W1 m c)
abbrev E2 : R1.Entry F := fun c b => W2 m c b
/-- After the second region: the first layer's result written. -/
def W3 (c : Dev nD) : Valuation τ sig (Elt F) := Function.update (W2 m c) main_v5 ((R1.dat (E2 m) c).arrAt 4 cfg1.N)
/-- After the second stretch of host operations (the product U₁·W₂). -/
abbrev W4 (c : Dev nD) : Valuation τ sig (Elt F) := StableHlo.after hostOps2 (W3 m c)
abbrev E4 : R2.Entry F := fun c b => W4 m c b
/-- After the third region: the result written. -/
def W5 (c : Dev nD) : Valuation τ sig (Elt F) := Function.update (W4 m c) main_v10 ((R2.dat (E4 m) c).arrAt 5 cfg2.N)

/-- The prefetched tables' admissible contents: no region has a table. -/
abbrev adm : (p : Fin 3) → (pcfgs (F := F) p).Adm := fun p => (cfgs p).toPCfg_adm
/-- Every region's proof data, each at its entry contents. -/
def pdats : (p : Fin 3) → (c : Dev nD) → Dat τ (Elt F) Unit ℕ (UR sig nD τ) ℕ (Pipeline.pin (pcfgs (F := F)) adm p) c
  | ⟨0, _⟩ => fun c => R0.dat (E0 m) c
  | ⟨1, _⟩ => fun c => R1.dat (E2 m) c
  | ⟨2, _⟩ => fun c => R2.dat (E4 m) c

/-! ## A region's arrays as points-tos of the buffers behind them, each at the window's share -/

section Arrays

variable {m}

/-- The share region 1 holds each window's array at. -/
theorem share1 (V : R1.Entry F) (c : Dev nD) (w : Fin cfg1.W) :
    (R1.dat V c).share w = (match w with | ⟨0, _⟩ => fullShare.left | ⟨1, _⟩ => fullShare.right | ⟨2, _⟩ => fullShare | ⟨3, _⟩ => fullShare | ⟨4, _⟩ => fullShare) := by
  unfold Dat.share
  rw [R1.q_eq]
  match w with
  | ⟨0, _⟩ => rfl
  | ⟨1, _⟩ => rfl
  | ⟨2, _⟩ => rfl
  | ⟨3, _⟩ => rfl
  | ⟨4, _⟩ => rfl

/-- Region 1's arrays: the mix at the two halves of its full share (the two windows that stage it), the projected
    features, the bias and the result whole. -/
theorem arrays1_eq (V : R1.Entry F) (c : Dev nD) (G : (w : Fin cfg1.W) → Buf (Elt F) ((cfg1.win w).arr.view.loc (c.tc : Thread nD τ))) :
    ((R1.dat V c).arrays G : sProp 𝕄) = iprop(
        ((((c : Thread nD τ).loc main_v0_0) ↦{fullShare.left} G 0) : sProp 𝕄) ∗ (((c : Thread nD τ).loc main_v0_0) ↦{fullShare.right} G 1)
      ∗ (((c : Thread nD τ).loc main_v4) ↦{fullShare} G 2) ∗ (((c : Thread nD τ).loc main_arg9) ↦{fullShare} G 3)
      ∗ (((c : Thread nD τ).loc main_v5) ↦{fullShare} G 4)) := by
  have h : ((R1.dat V c).arrays G : sProp 𝕄)
      = bigSep Finset.univ fun w => ((((c : Thread nD τ).loc (Pipeline.arrRef spec1 w)) ↦{(R1.dat V c).share w} G w) : sProp 𝕄) := by
    unfold Dat.arrays
    exact bigSep_congr fun w _ => by rw [(arr_whole1 w).set_eq_univ]
  rw [h, bigSep_W1, share1, share1, share1, share1, share1]

/-- The distinct buffers behind region 1's arrays. -/
theorem arrBufs1_eq (c : Dev nD) (V : (b : Ref sig .tc) → Buf (Elt F) ((c : Thread nD τ).loc b)) :
    (Pipeline.arrBufs spec1 c V : sProp 𝕄) = iprop(
        ((((c : Thread nD τ).loc main_v0_0) ↦{fullShare} V main_v0_0) : sProp 𝕄) ∗ (((c : Thread nD τ).loc main_v4) ↦{fullShare} V main_v4)
      ∗ (((c : Thread nD τ).loc main_arg9) ↦{fullShare} V main_arg9) ∗ (((c : Thread nD τ).loc main_v5) ↦{fullShare} V main_v5)) := by
  unfold Pipeline.arrBufs
  exact bigSep_eq_bigSepL_of_eq [main_v0_0, main_v4, main_arg9, main_v5] (by decide) (by decide) _

/-- One buffer at the full share is the same contents at the two halves. -/
theorem deal2 {ℓ : Loc nD τ sig} (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

end Arrays

/-! ## The thread state between items, and the host stretches as segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor

/-- A stretch of host operations over every unscoped buffer, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The second region: the mix staged through two windows -/

/-- Every unscoped buffer at a valuation: the distinct buffers behind region 1's arrays and the rest. -/
theorem held1 (c : Dev nD) (W : Valuation τ sig (Elt F)) :
    (StableHlo.held (c : Thread nD τ) (Pipeline.ucRefs τ sig) W : sProp 𝕄)
      = iprop(Pipeline.arrBufs spec1 c (fun b => W b) ∗ Pipeline.unscopedRest spec1 c (fun b => W b)) := by
  rw [← Pipeline.unscopedBufs_held c W]
  exact Cert.Lib.SharedArrays.unscopedBufs_eq spec1 winFacts₀1.arr_unscoped c _

/-- Entering region 1: the buffers behind its arrays become its arrays, the mix dealt to its two windows. -/
theorem enter1 (c : Dev nD) :
    (Pipeline.arrBufs spec1 c (E2 m c) : sProp 𝕄) ⊢ (R1.dat (E2 m) c).arrays ((R1.dat (E2 m) c).arrAt · 0) := by
  rw [arrBufs1_eq, arrays1_eq]
  simp only [show ∀ w, (R1.dat (E2 m) c).arrAt w 0 = (R1.dat (E2 m) c).A w from fun _ => rfl, R1.A_eq]
  have hd := (deal2 (F := F) (ℓ := (c : Thread nD τ).loc main_v0_0) (E2 m c main_v0_0)).1
  refine (sep_mono hd .rfl).trans ?_
  iintro ⟨⟨Hl, Hr⟩, H2, H3, H4⟩
  isplitl [Hl]; · iexact Hl
  isplitl [Hr]; · iexact Hr
  isplitl [H2]; · iexact H2
  isplitl [H3]; · iexact H3
  iexact H4

/-- The second region changes one buffer, its result. -/
theorem W3_of (c : Dev nD) (r : Ref sig .tc) (h : r ≠ main_v5) : W3 m c r = W2 m c r := by
  simp only [W3, Function.update_of_ne (StableHlo.devRef_ne_of_ne h : (Proc.devRef .tc r : DevRef τ sig) ≠ Proc.devRef .tc main_v5)]
theorem W3_self (c : Dev nD) : W3 m c main_v5 = (R1.dat (E2 m) c).arrAt 4 cfg1.N := by
  simp only [W3, Function.update_self]

/-- Leaving region 1: its arrays at their final contents are the buffers behind them at the next contents. -/
theorem leave1 (c : Dev nD) :
    ((R1.dat (E2 m) c).arrays ((R1.dat (E2 m) c).arrAt · cfg1.N) : sProp 𝕄) ⊢ Pipeline.arrBufs spec1 c (fun b => W3 m c b) := by
  rw [arrBufs1_eq, arrays1_eq]
  rw [show (R1.dat (E2 m) c).arrAt 0 cfg1.N = E2 m c main_v0_0 from ((R1.dat (E2 m) c).arrAt_in 0 rfl _).trans (R1.A_eq _ _ 0),
    show (R1.dat (E2 m) c).arrAt 1 cfg1.N = E2 m c main_v0_0 from ((R1.dat (E2 m) c).arrAt_in 1 rfl _).trans (R1.A_eq _ _ 1),
    show (R1.dat (E2 m) c).arrAt 2 cfg1.N = E2 m c main_v4 from ((R1.dat (E2 m) c).arrAt_in 2 rfl _).trans (R1.A_eq _ _ 2),
    show (R1.dat (E2 m) c).arrAt 3 cfg1.N = E2 m c main_arg9 from ((R1.dat (E2 m) c).arrAt_in 3 rfl _).trans (R1.A_eq _ _ 3)]
  rw [W3_of m c main_v0_0 (by decide), W3_of m c main_v4 (by decide), W3_of m c main_arg9 (by decide), W3_self]
  have hj := (deal2 (F := F) (ℓ := (c : Thread nD τ).loc main_v0_0) (W2 m c main_v0_0)).2
  iintro ⟨Hl, Hr, H2, H3, H4⟩
  isplitl [Hl Hr]
  · iapply hj
    isplitl [Hl] <;> iassumption
  isplitl [H2]; · iexact H2
  isplitl [H3]; · iexact H3
  iexact H4

/-- The buffers region 1 bypasses are not touched by its one result. -/
theorem rest1 (c : Dev nD) :
    (Pipeline.unscopedRest spec1 c (fun b => W3 m c b) : sProp 𝕄) = Pipeline.unscopedRest spec1 c (E2 m c) := by
  unfold Pipeline.unscopedRest
  refine bigSep_congr fun b hb => ?_
  have hne : b ≠ main_v5 := fun e => (Finset.mem_sdiff.mp hb).2 (e ▸ Finset.mem_image.mpr ⟨4, Finset.mem_univ _, rfl⟩)
  beta_reduce
  rw [W3_of m c b hne]

set_option backward.isDefEq.respectTransparency.types false in
/-- REGION 1 as a segment: entered from every unscoped buffer at W2, left at W3. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (R1.body_obligation (E2 m) c).loose
  hwaits := Pipeline.hwaits_of_owed_zero _ _ _ _ L lv 1 fun c t => R1.owed_eq (E2 m) c t
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none, held1]
    refine (sep_mono (sep_mono (sep_mono (enter1 m c) .rfl) .rfl) .rfl).trans ?_
    iintro ⟨⟨⟨Ha', Hrest⟩, Hp, HO⟩, -, -⟩
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (R1.hin (E2 m) c)
    unfold Pipeline.ΦA
    iintro ⟨Hp, -, Hr⟩
    isplitl [Hr]; · iexact Hr
    iexact Hp
  hout c := by
    rw [Pipeline.ownSems0_none]
    refine (R1.hout (E2 m) c).trans ?_
    unfold Pipeline.ΦA
    iintro ⟨Hr, Hp⟩
    isplitl [Hp]; · iexact Hp
    isplitr; · iempintro
    iexact Hr
  hexit c := by
    rw [held1, rest1]
    refine (sep_mono (leave1 m c) .rfl).trans ?_
    iintro ⟨Ha', HO, HY, Hrest⟩
    imodintro
    isplitl [Ha' Hrest]
    · isplitl [Ha'] <;> iassumption
    isplitl [HY]; · iexact HY
    unfold Pipeline.Dat.owesAt Pipeline.owesWithin
    icases HO with ⟨%W, -, HO⟩; iexists W; iexact HO

/-! ## The third region: the same mix staged through two windows again -/

theorem share2 (V : R2.Entry F) (c : Dev nD) (w : Fin cfg2.W) :
    (R2.dat V c).share w = (match w with | ⟨0, _⟩ => fullShare.left | ⟨1, _⟩ => fullShare.right | ⟨2, _⟩ => fullShare | ⟨3, _⟩ => fullShare | ⟨4, _⟩ => fullShare | ⟨5, _⟩ => fullShare) := by
  unfold Dat.share
  rw [R2.q_eq]
  match w with
  | ⟨0, _⟩ => rfl
  | ⟨1, _⟩ => rfl
  | ⟨2, _⟩ => rfl
  | ⟨3, _⟩ => rfl
  | ⟨4, _⟩ => rfl
  | ⟨5, _⟩ => rfl

/-- Region 2's arrays: the mix at the two halves of its full share, the projected first layer, the first layer, the
    bias and the result whole. -/
theorem arrays2_eq (V : R2.Entry F) (c : Dev nD) (G : (w : Fin cfg2.W) → Buf (Elt F) ((cfg2.win w).arr.view.loc (c.tc : Thread nD τ))) :
    ((R2.dat V c).arrays G : sProp 𝕄) = iprop(
        ((((c : Thread nD τ).loc main_v0_0) ↦{fullShare.left} G 0) : sProp 𝕄) ∗ (((c : Thread nD τ).loc main_v0_0) ↦{fullShare.right} G 1)
      ∗ (((c : Thread nD τ).loc main_v9) ↦{fullShare} G 2) ∗ (((c : Thread nD τ).loc main_v5) ↦{fullShare} G 3)
      ∗ (((c : Thread nD τ).loc main_arg11) ↦{fullShare} G 4) ∗ (((c : Thread nD τ).loc main_v10) ↦{fullShare} G 5)) := by
  have h : ((R2.dat V c).arrays G : sProp 𝕄)
      = bigSep Finset.univ fun w => ((((c : Thread nD τ).loc (Pipeline.arrRef spec2 w)) ↦{(match w with | ⟨0, _⟩ => fullShare.left | ⟨1, _⟩ => fullShare.right | ⟨2, _⟩ => fullShare | ⟨3, _⟩ => fullShare | ⟨4, _⟩ => fullShare | ⟨5, _⟩ => fullShare : PosShare TreeShare)} G w) : sProp 𝕄) := by
    unfold Dat.arrays
    exact bigSep_congr fun w _ => by rw [(arr_whole2 w).set_eq_univ, share2]; rfl
  rw [h, bigSep_W2]

/-- The distinct buffers behind region 2's arrays. -/
theorem arrBufs2_eq (c : Dev nD) (V : (b : Ref sig .tc) → Buf (Elt F) ((c : Thread nD τ).loc b)) :
    (Pipeline.arrBufs spec2 c V : sProp 𝕄) = iprop(
        ((((c : Thread nD τ).loc main_v0_0) ↦{fullShare} V main_v0_0) : sProp 𝕄) ∗ (((c : Thread nD τ).loc main_v9) ↦{fullShare} V main_v9)
      ∗ (((c : Thread nD τ).loc main_v5) ↦{fullShare} V main_v5) ∗ (((c : Thread nD τ).loc main_arg11) ↦{fullShare} V main_arg11)
      ∗ (((c : Thread nD τ).loc main_v10) ↦{fullShare} V main_v10)) := by
  unfold Pipeline.arrBufs
  exact bigSep_eq_bigSepL_of_eq [main_v0_0, main_v9, main_v5, main_arg11, main_v10] (by decide) (by decide) _

theorem held2 (c : Dev nD) (W : Valuation τ sig (Elt F)) :
    (StableHlo.held (c : Thread nD τ) (Pipeline.ucRefs τ sig) W : sProp 𝕄)
      = iprop(Pipeline.arrBufs spec2 c (fun b => W b) ∗ Pipeline.unscopedRest spec2 c (fun b => W b)) := by
  rw [← Pipeline.unscopedBufs_held c W]
  exact Cert.Lib.SharedArrays.unscopedBufs_eq spec2 winFacts₀2.arr_unscoped c _

theorem enter2 (c : Dev nD) :
    (Pipeline.arrBufs spec2 c (E4 m c) : sProp 𝕄) ⊢ (R2.dat (E4 m) c).arrays ((R2.dat (E4 m) c).arrAt · 0) := by
  rw [arrBufs2_eq, arrays2_eq]
  simp only [show ∀ w, (R2.dat (E4 m) c).arrAt w 0 = (R2.dat (E4 m) c).A w from fun _ => rfl, R2.A_eq]
  have hd := (deal2 (F := F) (ℓ := (c : Thread nD τ).loc main_v0_0) (E4 m c main_v0_0)).1
  refine (sep_mono hd .rfl).trans ?_
  iintro ⟨⟨Hl, Hr⟩, H2, H3, H4, H5⟩
  isplitl [Hl]; · iexact Hl
  isplitl [Hr]; · iexact Hr
  isplitl [H2]; · iexact H2
  isplitl [H3]; · iexact H3
  isplitl [H4]; · iexact H4
  iexact H5

/-- The third region changes one buffer, its result. -/
theorem W5_of (c : Dev nD) (r : Ref sig .tc) (h : r ≠ main_v10) : W5 m c r = W4 m c r := by
  simp only [W5, Function.update_of_ne (StableHlo.devRef_ne_of_ne h : (Proc.devRef .tc r : DevRef τ sig) ≠ Proc.devRef .tc main_v10)]
theorem W5_self (c : Dev nD) : W5 m c main_v10 = (R2.dat (E4 m) c).arrAt 5 cfg2.N := by
  simp only [W5, Function.update_self]

theorem leave2 (c : Dev nD) :
    ((R2.dat (E4 m) c).arrays ((R2.dat (E4 m) c).arrAt · cfg2.N) : sProp 𝕄) ⊢ Pipeline.arrBufs spec2 c (fun b => W5 m c b) := by
  rw [arrBufs2_eq, arrays2_eq]
  rw [show (R2.dat (E4 m) c).arrAt 0 cfg2.N = E4 m c main_v0_0 from ((R2.dat (E4 m) c).arrAt_in 0 rfl _).trans (R2.A_eq _ _ 0),
    show (R2.dat (E4 m) c).arrAt 1 cfg2.N = E4 m c main_v0_0 from ((R2.dat (E4 m) c).arrAt_in 1 rfl _).trans (R2.A_eq _ _ 1),
    show (R2.dat (E4 m) c).arrAt 2 cfg2.N = E4 m c main_v9 from ((R2.dat (E4 m) c).arrAt_in 2 rfl _).trans (R2.A_eq _ _ 2),
    show (R2.dat (E4 m) c).arrAt 3 cfg2.N = E4 m c main_v5 from ((R2.dat (E4 m) c).arrAt_in 3 rfl _).trans (R2.A_eq _ _ 3),
    show (R2.dat (E4 m) c).arrAt 4 cfg2.N = E4 m c main_arg11 from ((R2.dat (E4 m) c).arrAt_in 4 rfl _).trans (R2.A_eq _ _ 4)]
  rw [W5_of m c main_v0_0 (by decide), W5_of m c main_v9 (by decide), W5_of m c main_v5 (by decide), W5_of m c main_arg11 (by decide), W5_self]
  have hj := (deal2 (F := F) (ℓ := (c : Thread nD τ).loc main_v0_0) (W4 m c main_v0_0)).2
  iintro ⟨Hl, Hr, H2, H3, H4, H5⟩
  isplitl [Hl Hr]
  · iapply hj
    isplitl [Hl] <;> iassumption
  isplitl [H2]; · iexact H2
  isplitl [H3]; · iexact H3
  isplitl [H4]; · iexact H4
  iexact H5

theorem rest2 (c : Dev nD) :
    (Pipeline.unscopedRest spec2 c (fun b => W5 m c b) : sProp 𝕄) = Pipeline.unscopedRest spec2 c (E4 m c) := by
  unfold Pipeline.unscopedRest
  refine bigSep_congr fun b hb => ?_
  have hne : b ≠ main_v10 := fun e => (Finset.mem_sdiff.mp hb).2 (e ▸ Finset.mem_image.mpr ⟨5, Finset.mem_univ _, rfl⟩)
  beta_reduce
  rw [W5_of m c b hne]

set_option backward.isDefEq.respectTransparency.types false in
/-- REGION 2 as a segment: entered from every unscoped buffer at W4, left at W5. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (R2.body_obligation (E4 m) c).loose
  hwaits := Pipeline.hwaits_of_owed_zero _ _ _ _ L lv 2 fun c t => R2.owed_eq (E4 m) c t
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none, held2]
    refine (sep_mono (sep_mono (sep_mono (enter2 m c) .rfl) .rfl) .rfl).trans ?_
    iintro ⟨⟨⟨Ha', Hrest⟩, Hp, HO⟩, -, -⟩
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (R2.hin (E4 m) c)
    unfold Pipeline.ΦA
    iintro ⟨Hp, -, Hr⟩
    isplitl [Hr]; · iexact Hr
    iexact Hp
  hout c := by
    rw [Pipeline.ownSems0_none]
    refine (R2.hout (E4 m) c).trans ?_
    unfold Pipeline.ΦA
    iintro ⟨Hr, Hp⟩
    isplitl [Hp]; · iexact Hp
    isplitr; · iempintro
    iexact Hr
  hexit c := by
    rw [held2, rest2]
    refine (sep_mono (leave2 m c) .rfl).trans ?_
    iintro ⟨Ha', HO, HY, Hrest⟩
    imodintro
    isplitl [Ha' Hrest]
    · isplitl [Ha'] <;> iassumption
    isplitl [HY]; · iexact HY
    unfold Pipeline.Dat.owesAt Pipeline.owesWithin
    icases HO with ⟨%W, -, HO⟩; iexists W; iexact HO

/-! ## The first region: four results, no shared array -/

/-- The first region changes four buffers, its results. -/
theorem W1_of (c : Dev nD) (r : Ref sig .tc) (h : r ∉ ([main_v0_0, main_v0_1, main_v0_2, main_v0_3] : List (Ref sig .tc))) :
    W1 m c r = W0 m c r := by
  simp only [W1, Function.update_of_ne (StableHlo.devRef_ne_of_ne (List.ne_of_not_mem_cons h) : (Proc.devRef .tc r : DevRef τ sig) ≠ Proc.devRef .tc main_v0_0), Function.update_of_ne (StableHlo.devRef_ne_of_ne (List.ne_of_not_mem_cons (List.not_mem_of_not_mem_cons h)) : (Proc.devRef .tc r : DevRef τ sig) ≠ Proc.devRef .tc main_v0_1), Function.update_of_ne (StableHlo.devRef_ne_of_ne (List.ne_of_not_mem_cons (List.not_mem_of_not_mem_cons (List.not_mem_of_not_mem_cons h))) : (Proc.devRef .tc r : DevRef τ sig) ≠ Proc.devRef .tc main_v0_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v0_3)]
theorem W1_v0_0 (c : Dev nD) : W1 m c main_v0_0 = (R0.dat (E0 m) c).arrAt 7 cfg0.N := by
  simp only [W1, Function.update_of_ne (StableHlo.devRef_ne_of_ne (by decide) : (Proc.devRef .tc main_v0_0 : DevRef τ sig) ≠ Proc.devRef .tc main_v0_3), Function.update_of_ne (StableHlo.devRef_ne_of_ne (by decide) : (Proc.devRef .tc main_v0_0 : DevRef τ sig) ≠ Proc.devRef .tc main_v0_2), Function.update_of_ne (StableHlo.devRef_ne_of_ne (by decide) : (Proc.devRef .tc main_v0_0 : DevRef τ sig) ≠ Proc.devRef .tc main_v0_1), Function.update_self]
theorem W1_v0_1 (c : Dev nD) : W1 m c main_v0_1 = (R0.dat (E0 m) c).arrAt 8 cfg0.N := by
  simp only [W1, Function.update_of_ne (StableHlo.devRef_ne_of_ne (by decide) : (Proc.devRef .tc main_v0_1 : DevRef τ sig) ≠ Proc.devRef .tc main_v0_3), Function.update_of_ne (StableHlo.devRef_ne_of_ne (by decide) : (Proc.devRef .tc main_v0_1 : DevRef τ sig) ≠ Proc.devRef .tc main_v0_2), Function.update_self]
theorem W1_v0_2 (c : Dev nD) : W1 m c main_v0_2 = (R0.dat (E0 m) c).arrAt 9 cfg0.N := by
  simp only [W1, Function.update_of_ne (StableHlo.devRef_ne_of_ne (by decide) : (Proc.devRef .tc main_v0_2 : DevRef τ sig) ≠ Proc.devRef .tc main_v0_3), Function.update_self]
theorem W1_v0_3 (c : Dev nD) : W1 m c main_v0_3 = (R0.dat (E0 m) c).arrAt 10 cfg0.N := by
  simp only [W1, Function.update_self]

/-- After the first region each of its arrays holds what the pipeline leaves there. -/
theorem final0 (c : Dev nD) (w : Fin cfg0.W) : (R0.dat (E0 m) c).arrAt w cfg0.N = W1 m c (Pipeline.arrRef spec0 w) :=
  match w with
  | ⟨0, _⟩ => (((R0.dat (E0 m) c).arrAt_in 0 rfl _).trans (R0.A_eq _ _ 0)).trans (W1_of m c main_arg1 (by decide)).symm
  | ⟨1, _⟩ => (((R0.dat (E0 m) c).arrAt_in 1 rfl _).trans (R0.A_eq _ _ 1)).trans (W1_of m c main_arg2 (by decide)).symm
  | ⟨2, _⟩ => (((R0.dat (E0 m) c).arrAt_in 2 rfl _).trans (R0.A_eq _ _ 2)).trans (W1_of m c main_arg3 (by decide)).symm
  | ⟨3, _⟩ => (((R0.dat (E0 m) c).arrAt_in 3 rfl _).trans (R0.A_eq _ _ 3)).trans (W1_of m c main_arg4 (by decide)).symm
  | ⟨4, _⟩ => (((R0.dat (E0 m) c).arrAt_in 4 rfl _).trans (R0.A_eq _ _ 4)).trans (W1_of m c main_arg5 (by decide)).symm
  | ⟨5, _⟩ => (((R0.dat (E0 m) c).arrAt_in 5 rfl _).trans (R0.A_eq _ _ 5)).trans (W1_of m c main_arg6 (by decide)).symm
  | ⟨6, _⟩ => (((R0.dat (E0 m) c).arrAt_in 6 rfl _).trans (R0.A_eq _ _ 6)).trans (W1_of m c main_arg7 (by decide)).symm
  | ⟨7, _⟩ => (W1_v0_0 m c).symm
  | ⟨8, _⟩ => (W1_v0_1 m c).symm
  | ⟨9, _⟩ => (W1_v0_2 m c).symm
  | ⟨10, _⟩ => (W1_v0_3 m c).symm

/-- Every other buffer is as the region found it. -/
theorem rest0 (c : Dev nD) : ∀ b : Ref sig .tc, b ∉ Finset.univ.image (Pipeline.arrRef spec0) → W1 m c b = W0 m c b := fun b hb =>
  W1_of m c b fun hmem => by
    simp only [List.mem_cons, List.mem_nil_iff, or_false] at hmem
    rcases hmem with rfl | rfl | rfl | rfl
    · exact hb (Finset.mem_image.mpr ⟨7, Finset.mem_univ _, rfl⟩)
    · exact hb (Finset.mem_image.mpr ⟨8, Finset.mem_univ _, rfl⟩)
    · exact hb (Finset.mem_image.mpr ⟨9, Finset.mem_univ _, rfl⟩)
    · exact hb (Finset.mem_image.mpr ⟨10, Finset.mem_univ _, rfl⟩)

theorem share0 (c : Dev nD) : ∀ w, (pdats m 0 c).share w = fullShare :=
  (R0.dat (E0 m) c).share_full fun w => by rw [R0.q_eq]; rfl

set_option backward.isDefEq.respectTransparency.types false in
/-- REGION 0 as a segment: entered from every unscoped buffer at the launch contents, left at W1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E0 m) c).loose
  hwaits := Pipeline.hwaits_of_owed_zero _ _ _ _ L lv 0 fun c t => R0.owed_eq (E0 m) c t
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      (share0 m c) (E0 m c) fun w => R0.A_eq (E0 m) c w
    rw [Pipeline.unscopedBufs_held] at hsplit
    refine (sep_mono (sep_mono hsplit .rfl) .rfl).trans ?_
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (R0.hin (E0 m) c)
    unfold Pipeline.ΦA
    iintro ⟨Hp, -, Hr⟩
    isplitl [Hr]; · iexact Hr
    iexact Hp
  hout c := by
    rw [Pipeline.ownSems0_none]
    refine (R0.hout (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) (share0 m c)
      (E0 m c) (fun b => W1 m c b) ((pdats m 0 c).arrAt · cfg0.N) (final0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as five segments, and its run -/

/-- The five items in order: region, host stretch, region, host stretch, region. -/
abbrev segs : List (Pipeline.Seg (pcfgs (F := F)) adm (pdats m) () defs₀ 𝒱₀ L lv) :=
  [ .region (reg0 m), .host (hseg hostOps1 hostOps1_sub ops1_fresh (W1 m)), .region (reg1 m),
    .host (hseg hostOps2 hostOps2_sub ops2_fresh (W3 m)), .region (reg2 m) ]

theorem main_run (c : Dev nD) : main (F := F) c = Pipeline.Seg.run (segs m) :=
  main_segs adm (pdats m) () 𝒱₀ L lv (hseg hostOps1 hostOps1_sub ops1_fresh (W1 m)) (hseg hostOps2 hostOps2_sub ops2_fresh (W3 m))
    (reg0 m) (reg1 m) (reg2 m) rfl rfl c

/-- The last thread state without the owes: every unscoped buffer at the last contents, the generator register somewhere. -/
abbrev Tₙ (c : Dev nD) : sProp 𝕄 := iprop(StableHlo.held (c : Thread nD τ) (Pipeline.ucRefs τ sig) (W5 m c) ∗ ∃ r, prngReg c r)

set_option backward.isDefEq.respectTransparency.types false in
/-- THE RUN. From any memory with zero counters every weakly fair execution of the program terminates, nothing faulting,
    and every final state holds every unscoped buffer at the last contents W5. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun _ h => h)

/-! ## What the last contents hold at the arguments: as launched -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host stretch writes and no region changes ends as launched. -/
theorem W5_kept (c : Dev nD) (r : Ref sig .tc) (h5 : r ≠ main_v10) (h4 : r ∉ hostOps2_W) (h3 : r ≠ main_v5) (h2 : r ∉ hostOps1_W)
    (h1 : r ∉ ([main_v0_0, main_v0_1, main_v0_2, main_v0_3] : List (Ref sig .tc))) : W5 m c r = m ((c : Thread nD τ).loc r) :=
  (W5_of m c r h5).trans <| (StableHlo.after_of_writes_sub hostOps2 _ hostOps2_writes h4).trans <| (W3_of m c r h3).trans <|
    (StableHlo.after_of_writes_sub hostOps1 _ hostOps1_writes h2).trans <| (W1_of m c r h1).trans rfl

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
      (h c _ (mem_uc main_arg0 (by decide))).trans (W5_kept m c main_arg0 (by decide) (by decide) (by decide) (by decide) (by decide)),
      (h c _ (mem_uc main_arg1 (by decide))).trans (W5_kept m c main_arg1 (by decide) (by decide) (by decide) (by decide) (by decide)),
      (h c _ (mem_uc main_arg2 (by decide))).trans (W5_kept m c main_arg2 (by decide) (by decide) (by decide) (by decide) (by decide)),
      (h c _ (mem_uc main_arg3 (by decide))).trans (W5_kept m c main_arg3 (by decide) (by decide) (by decide) (by decide) (by decide)),
      (h c _ (mem_uc main_arg4 (by decide))).trans (W5_kept m c main_arg4 (by decide) (by decide) (by decide) (by decide) (by decide)),
      (h c _ (mem_uc main_arg5 (by decide))).trans (W5_kept m c main_arg5 (by decide) (by decide) (by decide) (by decide) (by decide)),
      (h c _ (mem_uc main_arg6 (by decide))).trans (W5_kept m c main_arg6 (by decide) (by decide) (by decide) (by decide) (by decide)),
      (h c _ (mem_uc main_arg7 (by decide))).trans (W5_kept m c main_arg7 (by decide) (by decide) (by decide) (by decide) (by decide)),
      (h c _ (mem_uc main_arg8 (by decide))).trans (W5_kept m c main_arg8 (by decide) (by decide) (by decide) (by decide) (by decide)),
      (h c _ (mem_uc main_arg9 (by decide))).trans (W5_kept m c main_arg9 (by decide) (by decide) (by decide) (by decide) (by decide)),
      (h c _ (mem_uc main_arg10 (by decide))).trans (W5_kept m c main_arg10 (by decide) (by decide) (by decide) (by decide) (by decide)),
      (h c _ (mem_uc main_arg11 (by decide))).trans (W5_kept m c main_arg11 (by decide) (by decide) (by decide) (by decide) (by decide))⟩)
    (run_all m ρ)

end Cert.Kernel.Asm
end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibMatProd.lean ====
/-
  The product of two matrices over the extended reals, entry by entry, and the one law this certificate rests on.

  `prod x w` is the `[a, b]` array whose entry `(p, q)` is `∑ k, x[p, k] · w[k, q]`. Three array programs
  compute it: a matrix product into a zero accumulator whose operands first change float format (a change of
  format is the identity on extended reals), a host `dot_general` with no accumulator, and — the law — a window
  of columns cut out of the product with two weight matrices set side by side:

      (x · [w₁ | w₂])[:, 0:A]   = x · w₁        (x · [w₁ | w₂])[:, A:A+B] = x · w₂ ,

  because entry `(k, q)` of `[w₁ | w₂]` is `w₁[k, q]` for `q < A` and `w₂[k, q - A]` beyond. Each sum is the
  same sum term by term, so nothing is asked of the entries: infinities are welcome.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«177282_j10187662426197_2_alg».proof.Proof.LibRowLayers

noncomputable section

namespace Cert.MatProd

open Idealize.ShloMosaic Idealize.ShloMosaic.ValueIdx Cert.RowLayers

/-- The matrix product entry by entry: `(x · w)[p, q] = ∑ k, x[p, k] · w[k, q]`. -/
def prod {a K b : ℕ} (x : (⟨2, ![a, K]⟩ : Shape).Idx → EReal) (w : (⟨2, ![K, b]⟩ : Shape).Idx → EReal) :
    (⟨2, ![a, b]⟩ : Shape).Idx → EReal :=
  fun i => ∑ k : Fin K, rowOf x (i 0) k * w (ix2 k (i 1))

theorem prod_apply {a K b : ℕ} (x : (⟨2, ![a, K]⟩ : Shape).Idx → EReal) (w : (⟨2, ![K, b]⟩ : Shape).Idx → EReal)
    (p : Fin a) (q : Fin b) : prod x w (ix2 p q) = ∑ k : Fin K, x (ix2 p k) * w (ix2 k q) := rfl

/-! ## The programs that compute it -/

section Programs
variable {a K b : ℕ} {d : DotDims ⟨2, ![a, K]⟩ ⟨2, ![K, b]⟩ ⟨2, ![a, b]⟩} {φ₁ φ₂ : FTy}

/-- The host's product with "rows times columns" dimension numbers is `prod`. -/
theorem dotGeneral_eq_prod (H : RowsTimesCols d) (prec : Option ContractPrecision)
    (x : FVec Ideal ⟨2, ![a, K]⟩ φ₁) (w : FVec Ideal ⟨2, ![K, b]⟩ φ₂) :
    Host.dotGeneral (F := Ideal) d prec x w = prod x w := by
  funext i
  obtain ⟨p, q, rfl⟩ : ∃ (p : Fin a) (q : Fin b), i = ix2 p q := ⟨i 0, i 1, eq_ix2 i⟩
  exact congrFun (rowOf_dotGeneral H prec x w p) q

/-- The device's product into a zero accumulator is `prod`. -/
theorem matmul_zero_eq_prod (H : RowsTimesCols d) (prec : Option ContractPrecision)
    (x : FVec Ideal ⟨2, ![a, K]⟩ φ₁) (w : FVec Ideal ⟨2, ![K, b]⟩ φ₂) :
    matmul d prec x w (constant (F := Ideal) ⟨2, ![a, b]⟩ .f32 0x00000000#32) = prod x w := by
  funext i
  obtain ⟨p, q, rfl⟩ : ∃ (p : Fin a) (q : Fin b), i = ix2 p q := ⟨i 0, i 1, eq_ix2 i⟩
  exact congrFun (rowOf_matmul_zero H prec x w p) q

end Programs

/-! ## A block of rows -/

/-- Entry `(r, q)` of a product reads row `r` of the left factor only: if `x₀` holds the rows of `x` from `r₀` on,
    then `x₀ · w` at `(p, q)` is `x · w` at `(r₀ + p, q)`. -/
theorem prod_of_row_block {a₀ a K b : ℕ} (x : (⟨2, ![a, K]⟩ : Shape).Idx → EReal) (w : (⟨2, ![K, b]⟩ : Shape).Idx → EReal)
    (x₀ : (⟨2, ![a₀, K]⟩ : Shape).Idx → EReal) (r₀ : ℕ)
    (hx₀ : ∀ (y : (⟨2, ![a₀, K]⟩ : Shape).Idx) (z : (⟨2, ![a, K]⟩ : Shape).Idx),
      (z 0).val = r₀ + (y 0).val → (z 1).val = (y 1).val → x₀ y = x z)
    (j : (⟨2, ![a₀, b]⟩ : Shape).Idx) (i : (⟨2, ![a, b]⟩ : Shape).Idx)
    (hi0 : (i 0).val = r₀ + (j 0).val) (hi1 : (i 1).val = (j 1).val) :
    prod x₀ w j = prod x w i := by
  unfold prod
  refine Finset.sum_congr rfl fun k _ => ?_
  have e0 : rowOf x₀ (j 0) k = rowOf x (i 0) k := hx₀ (ix2 (j 0) k) (ix2 (i 0) k) hi0 rfl
  have e1 : (ix2 k (j 1) : (⟨2, ![K, b]⟩ : Shape).Idx) = ix2 k (i 1) := congrArg (ix2 k) (Fin.ext hi1.symm)
  exact congrArg₂ (· * ·) e0 (congrArg w e1)

/-! ## Two weight matrices side by side -/

section SideBySide
variable {K A B C : ℕ}

/-- Left of the seam the joined matrix is the first one. -/
theorem concat_cols_left (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (k : Fin K) (j : Fin C) (hj : j.val < A) :
    concatenate ⟨2, ![K, C]⟩ 1 [⟨⟨2, ![K, A]⟩, w₁⟩, ⟨⟨2, ![K, B]⟩, w₂⟩] hc (ix2 k j) = w₁ (ix2 k ⟨j.val, hj⟩) :=
  (congrFun (rowOf_concat_cols w₁ w₂ hc hC k) j).trans (dif_pos hj)

/-- From the seam on it is the second one. -/
theorem concat_cols_right (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (k : Fin K) (j : Fin C) (hj : ¬ j.val < A) :
    concatenate ⟨2, ![K, C]⟩ 1 [⟨⟨2, ![K, A]⟩, w₁⟩, ⟨⟨2, ![K, B]⟩, w₂⟩] hc (ix2 k j)
      = w₂ (ix2 k ⟨j.val - A, by have := j.isLt; omega⟩) :=
  (congrFun (rowOf_concat_cols w₁ w₂ hc hC k) j).trans (dif_neg hj)

variable {a : ℕ}

/-- THE LAW, left half: the first `A` columns of `x · [w₁ | w₂]` are `x · w₁`. -/
theorem slice_prod_concat_left (x : (⟨2, ![a, K]⟩ : Shape).Idx → EReal)
    (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (hs : (⟨2, ![a, C]⟩ : Shape).Slices ![0, 0] ⟨2, ![a, A]⟩) :
    extractStridedSlice ⟨2, ![a, A]⟩ ![0, 0]
        (prod x (concatenate ⟨2, ![K, C]⟩ 1 [⟨⟨2, ![K, A]⟩, w₁⟩, ⟨⟨2, ![K, B]⟩, w₂⟩] hc)) hs
      = prod x w₁ := by
  funext i
  obtain ⟨p, q, rfl⟩ : ∃ (p : Fin a) (q : Fin A), i = ix2 p q := ⟨i 0, i 1, eq_ix2 i⟩
  rw [slice2_axis1_eq]
  refine Finset.sum_congr rfl fun k _ => congrArg (rowOf x p k * ·) ?_
  refine (concat_cols_left w₁ w₂ hc hC k _ (by show 0 + q.val < A; have := q.isLt; omega)).trans ?_
  exact congrArg (fun z => w₁ (ix2 k z)) (Fin.ext (Nat.zero_add q.val))

/-- THE LAW, right half: the next `B` columns of `x · [w₁ | w₂]` are `x · w₂`. -/
theorem slice_prod_concat_right (x : (⟨2, ![a, K]⟩ : Shape).Idx → EReal)
    (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (hs : (⟨2, ![a, C]⟩ : Shape).Slices ![0, A] ⟨2, ![a, B]⟩) :
    extractStridedSlice ⟨2, ![a, B]⟩ ![0, A]
        (prod x (concatenate ⟨2, ![K, C]⟩ 1 [⟨⟨2, ![K, A]⟩, w₁⟩, ⟨⟨2, ![K, B]⟩, w₂⟩] hc)) hs
      = prod x w₂ := by
  funext i
  obtain ⟨p, q, rfl⟩ : ∃ (p : Fin a) (q : Fin B), i = ix2 p q := ⟨i 0, i 1, eq_ix2 i⟩
  rw [slice2_axis1_eq]
  refine Finset.sum_congr rfl fun k _ => congrArg (rowOf x p k * ·) ?_
  refine (concat_cols_right w₁ w₂ hc hC k _ (by show ¬ A + q.val < A; omega)).trans ?_
  exact congrArg (fun z => w₂ (ix2 k z)) (Fin.ext (by show A + q.val - A = q.val; omega))

end SideBySide

end Cert.MatProd

end
-- ==== Proof.Spec.lean ====
/-
  What the two-layer graph network computes, entry by entry, over the extended reals.

  The data: three N×N relation matrices A₁ A₂ A₃ (N = 8192), three N×10 token tables, a [3,1] column of relation
  weights, node features X (N×256), weights W₁ (256×128), W₂ (128×128) and bias rows b₁, b₂ (128).

    mix      T = A₁·w₀ + A₂·w₁ + A₃·w₂                         (entry by entry)
    tokens   Fᵢ = Aᵢ · tokᵢ                                     (N×10)
    layer    U = (T + Tᵀ) · Y + b                               (Y an N×128 matrix, b a row)
    readout  (U₁ + U₂) · ½ ,  U₁ = layer (X·W₁) b₁ ,  U₂ = layer (U₁·W₂) b₂

  A device that walks the 8192 columns in sixteen blocks of 512 never forms T + Tᵀ: per block it adds the block's
  part of T·Y and then the block's part of Tᵀ·Y to a running total that starts at zero. `tokAcc` and `gcAcc` are those
  running totals after n blocks; `blk n y` is position y of block n.
-/
import Idealize.ShloMosaic.PureOps.Ideal
import Idealize.ShloMosaic.Lib.ValueIdx
import proofs.«177282_j10187662426197_2_alg».proof.Proof.LibMatProd

noncomputable section

namespace Cert.Spec

open Idealize.ShloMosaic Idealize.ShloMosaic.ValueIdx

/-- An a×b array of extended reals. -/
abbrev Mat (a b : ℕ) : Type := (⟨2, ![a, b]⟩ : Shape).Idx → EReal
/-- A vector of a extended reals. -/
abbrev Row (a : ℕ) : Type := (⟨1, ![a]⟩ : Shape).Idx → EReal

/-- Position y of block n, for blocks of 512 along an axis of 8192 (wrapped around, so defined for every n). -/
def blk (n : ℕ) (y : Fin 512) : Fin 8192 := ⟨(n * 512 + y.val) % 8192, Nat.mod_lt _ (by norm_num)⟩

/-- Below sixteen blocks nothing wraps. -/
theorem blk_val {n : ℕ} (hn : n < 16) (y : Fin 512) : (blk n y).val = n * 512 + y.val := by
  unfold blk
  have hy := y.isLt
  exact Nat.mod_eq_of_lt (by omega)

/-- One half, as the binary32 pattern both programs print. -/
def half : EReal := Ideal.ofBits .f32 0x3F000000#32

/-- The weighted mix of the three relation matrices. -/
def mix (A1 A2 A3 : Mat 8192 8192) (wb : Mat 3 1) : Mat 8192 8192 :=
  fun i => A1 i * wb (ix2 0 0) + A2 i * wb (ix2 1 0) + A3 i * wb (ix2 2 0)

/-- Entry (r, q) of A · tok summed over the first n column blocks, starting from zero. -/
def tokAcc (A : Mat 8192 8192) (tok : Mat 8192 10) (r : Fin 8192) (q : Fin 10) : ℕ → EReal
  | 0 => 0
  | n + 1 => tokAcc A tok r q n + ∑ y : Fin 512, A (ix2 r (blk n y)) * tok (ix2 (blk n y) q)

/-- The token features as the device accumulates them: sixteen blocks. -/
def tokFeatK (A : Mat 8192 8192) (tok : Mat 8192 10) : Mat 8192 10 := fun i => tokAcc A tok (i 0) (i 1) 16

/-- Entry (r, q) of T·Y + Tᵀ·Y summed over the first n blocks, starting from zero: per block first the T part, then the
    Tᵀ part. -/
def gcAcc (T : Mat 8192 8192) (Y : Mat 8192 128) (r : Fin 8192) (q : Fin 128) : ℕ → EReal
  | 0 => 0
  | n + 1 => (gcAcc T Y r q n + ∑ y : Fin 512, T (ix2 r (blk n y)) * Y (ix2 (blk n y) q))
      + ∑ y : Fin 512, T (ix2 (blk n y) r) * Y (ix2 (blk n y) q)

/-- One layer as the device computes it: the sixteen-block total plus the bias row. -/
def layerK (T : Mat 8192 8192) (Y : Mat 8192 128) (b : Row 128) : Mat 8192 128 :=
  fun i => gcAcc T Y (i 0) (i 1) 16 + b (ix1 (i 1))

/-- The second layer with the readout as the device computes it: (U₁ + (total + bias)) · ½. -/
def readoutK (T : Mat 8192 8192) (Y : Mat 8192 128) (b : Row 128) (U1 : Mat 8192 128) : Mat 8192 128 :=
  fun i => (U1 i + (gcAcc T Y (i 0) (i 1) 16 + b (ix1 (i 1)))) * half

/-- One layer as the reference computes it: the symmetrised matrix formed, one product, the bias row. -/
def layerR (T : Mat 8192 8192) (Y : Mat 8192 128) (b : Row 128) : Mat 8192 128 :=
  fun i => (∑ k : Fin 8192, (T (ix2 (i 0) k) + T (ix2 k (i 0))) * Y (ix2 k (i 1))) + b (ix1 (i 1))

/-- The readout as the reference computes it. -/
def readoutR (U1 U2 : Mat 8192 128) : Mat 8192 128 := fun i => (U1 i + U2 i) * half

/-- The device's four results from the twelve arguments. -/
def outK (X : Mat 8192 256) (A1 A2 A3 : Mat 8192 8192) (wb : Mat 3 1) (W1 : Mat 256 128) (b1 : Row 128)
    (W2 : Mat 128 128) (b2 : Row 128) : Mat 8192 128 :=
  readoutK (mix A1 A2 A3 wb) (Cert.MatProd.prod (layerK (mix A1 A2 A3 wb) (Cert.MatProd.prod X W1) b1) W2) b2
    (layerK (mix A1 A2 A3 wb) (Cert.MatProd.prod X W1) b1)

/-- The reference's first result from the twelve arguments. -/
def outR (X : Mat 8192 256) (A1 A2 A3 : Mat 8192 8192) (wb : Mat 3 1) (W1 : Mat 256 128) (b1 : Row 128)
    (W2 : Mat 128 128) (b2 : Row 128) : Mat 8192 128 :=
  readoutR (layerR (mix A1 A2 A3 wb) (Cert.MatProd.prod X W1) b1)
    (layerR (mix A1 A2 A3 wb) (Cert.MatProd.prod (layerR (mix A1 A2 A3 wb) (Cert.MatProd.prod X W1) b1) W2) b2)

end Cert.Spec

end
-- ==== Proof.R0Value.lean ====
import proofs.«177282_j10187662426197_2_alg».proof.Proof.R0Frame
import proofs.«177282_j10187662426197_2_alg».proof.Proof.Spec
import proofs.«177282_j10187662426197_2_alg».proof.Proof.LibMatProd
import Idealize.ShloMosaic.PureOps.Ideal
import Idealize.ShloMosaic.PureOps.Ideal.Laws
import Idealize.ShloMosaic.Lib.ValueIdx
import Idealize.ShloMosaic.Lib.Pipeline.Value

/-!
  The first region's results as functions of its arguments, over the extended reals.

  Over the extended reals a change of float format is the identity and a matrix product into a zero accumulator is a
  plain sum. So at a point (i, j) of the grid the body leaves in the mix's buffer the entrywise weighted sum of the three
  matrix blocks, and adds to each running total the product of a 512 × 512 matrix block with a 512 × 10 token block:
  entry (r, q) grows by the sum over the block's 512 columns of matrix entry times token entry. After the j-th point of
  row i of the grid a total therefore holds, at (r, q), the sum over the first j + 1 column blocks — the recursion the
  specification names — for the rows 512·i + r of the array; the block written back at j = 15 is the sixteen-block total,
  and the sixteen row blocks tile the array.
-/

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.SL.Sem
open Idealize.ShloMosaic.Pipeline (Dat)
open Cert.RowLayers Cert.MatProd

/-! ## The product's dimension numbers say "rows times columns" -/

theorem dims_lhs0 (i : S512x10.Idx) (q : dot_S512x512_S512x10_S512x10_1_0_0_1_n_n.contr.Idx) :
    (dot_S512x512_S512x10_S512x10_1_0_0_1_n_n.lhsIdx i q 0).val = (i 0).val := by
  unfold DotDims.lhsIdx
  rw [dif_neg (show ¬(0 : Fin S512x512.rank) ∈ dot_S512x512_S512x10_S512x10_1_0_0_1_n_n.lhsBatch by decide), dif_pos (show (0 : Fin S512x512.rank) ∈ dot_S512x512_S512x10_S512x10_1_0_0_1_n_n.lhsNonContracting by decide)]
  rfl

theorem dims_rhs1 (i : S512x10.Idx) (q : dot_S512x512_S512x10_S512x10_1_0_0_1_n_n.contr.Idx) :
    (dot_S512x512_S512x10_S512x10_1_0_0_1_n_n.rhsIdx i q 1).val = (i 1).val := by
  unfold DotDims.rhsIdx
  rw [dif_neg (show ¬(1 : Fin S512x10.rank) ∈ dot_S512x512_S512x10_S512x10_1_0_0_1_n_n.rhsBatch by decide), dif_pos (show (1 : Fin S512x10.rank) ∈ dot_S512x512_S512x10_S512x10_1_0_0_1_n_n.rhsNonContracting by decide)]
  rfl

/-- The block product contracts the matrix block's columns against the token block's rows. -/
theorem dims_rows_times_cols : RowsTimesCols (a := 512) (K := 512) (b := 10) dot_S512x512_S512x10_S512x10_1_0_0_1_n_n where
  rank := rfl
  size := rfl
  lhs0 := dims_lhs0
  lhs1 := fun i q => dot_S512x512_S512x10_S512x10_1_0_0_1_n_n.lhsIdx_val_of_single rfl i q
  rhs0 := fun i q => dot_S512x512_S512x10_S512x10_1_0_0_1_n_n.rhsIdx_val_of_single rfl i q
  rhs1 := dims_rhs1

/-! ## What the body computes, entry by entry -/

/-- A total grows by the block product: old entry plus the sum over the block's columns. -/
theorem pay9_apply (x0 : Vec Ideal S512x512 .f32) (x3 p : Vec Ideal S512x10 .f32) (r : Fin 512) (q : Fin 10) :
    k0_pay9 x0 x3 p (ix2 r q) = p (ix2 r q) + ∑ k : Fin 512, x0 (ix2 r k) * x3 (ix2 k q) := by
  unfold k0_pay9
  refine congrArg₂ (· + ·) (congrFun (shapeCast_self p _) (ix2 r q)) ?_
  exact (congrFun (matmul_zero_eq_prod dims_rows_times_cols none _ _) (ix2 r q)).trans rfl

theorem pay1_apply (x1 : Vec Ideal S512x512 .f32) (x4 p : Vec Ideal S512x10 .f32) (r : Fin 512) (q : Fin 10) :
    k0_pay1 x1 (k0_pay7 x4) p (ix2 r q) = p (ix2 r q) + ∑ k : Fin 512, x1 (ix2 r k) * x4 (ix2 k q) := by
  unfold k0_pay1 k0_pay7
  refine congrArg₂ (· + ·) (congrFun (shapeCast_self p _) (ix2 r q)) ?_
  exact (congrFun (matmul_zero_eq_prod dims_rows_times_cols none _ _) (ix2 r q)).trans rfl

theorem pay2_apply (x2 : Vec Ideal S512x512 .f32) (x5 p : Vec Ideal S512x10 .f32) (r : Fin 512) (q : Fin 10) :
    k0_pay2 x2 (k0_pay8 x5) p (ix2 r q) = p (ix2 r q) + ∑ k : Fin 512, x2 (ix2 r k) * x5 (ix2 k q) := by
  unfold k0_pay2 k0_pay8
  refine congrArg₂ (· + ·) (congrFun (shapeCast_self p _) (ix2 r q)) ?_
  exact (congrFun (matmul_zero_eq_prod dims_rows_times_cols none _ _) (ix2 r q)).trans rfl

/-- Where a row of the grid begins the totals are set to zero. -/
theorem pay3_apply (y : S512x10.Idx) : k0_pay3 (F := Ideal) y = (0 : EReal) := Ideal.ofBits_zero_f32
theorem pay4_apply (y : S512x10.Idx) : k0_pay4 (F := Ideal) y = (0 : EReal) := Ideal.ofBits_zero_f32
theorem pay5_apply (y : S512x10.Idx) : k0_pay5 (F := Ideal) y = (0 : EReal) := Ideal.ofBits_zero_f32

/-- The mix, entry by entry: each matrix block's entry times its relation's weight, summed. -/
theorem pay6_apply (x6 : Vec Ideal S3x1 .f32) (x0 x1 x2 : Vec Ideal S512x512 .f32) (y : S512x512.Idx) :
    k0_pay6 x6 x0 x1 x2 y = x0 y * x6 (ix2 0 0) + x1 y * x6 (ix2 1 0) + x2 y * x6 (ix2 2 0) := by
  unfold k0_pay6
  have e0 : extractAt ![0, 0] (extractStridedSlice S1x1 ![0, 0] x6 slices_S3x1_o0_0_S1x1) inpos_S1x1_p0_0 = x6 (ix2 0 0) :=
    congrArg x6 (funext fun a => Fin.ext (by match a with | ⟨0, _⟩ => rfl | ⟨1, _⟩ => rfl))
  have e1 : extractAt ![0, 0] (extractStridedSlice S1x1 ![1, 0] x6 slices_S3x1_o1_0_S1x1) inpos_S1x1_p0_0 = x6 (ix2 1 0) :=
    congrArg x6 (funext fun a => Fin.ext (by match a with | ⟨0, _⟩ => rfl | ⟨1, _⟩ => rfl))
  have e2 : extractAt ![0, 0] (extractStridedSlice S1x1 ![2, 0] x6 slices_S3x1_o2_0_S1x1) inpos_S1x1_p0_0 = x6 (ix2 2 0) :=
    congrArg x6 (funext fun a => Fin.ext (by match a with | ⟨0, _⟩ => rfl | ⟨1, _⟩ => rfl))
  show x0 y * _ + x1 y * _ + x2 y * _ = _
  rw [e0, e1, e2]
  rfl

/-! ## Where each window's block sits in its array -/

/-- The printed index maps in closed form, decided over the grid: at point `t` = 16·i + j the matrix windows and the mix
    read block (i, j), the token windows block (j, 0), the weights their one block, the totals block (i, 0). -/
theorem idx_facts : ∀ t : Fin cfg0.N,
    (win0_0.index t (0 : Fin 2) = t.val / 16 ∧ win0_0.index t (1 : Fin 2) = t.val % 16)
    ∧ (win0_1.index t (0 : Fin 2) = t.val / 16 ∧ win0_1.index t (1 : Fin 2) = t.val % 16)
    ∧ (win0_2.index t (0 : Fin 2) = t.val / 16 ∧ win0_2.index t (1 : Fin 2) = t.val % 16)
    ∧ (win0_3.index t (0 : Fin 2) = t.val % 16 ∧ win0_3.index t (1 : Fin 2) = 0)
    ∧ (win0_4.index t (0 : Fin 2) = t.val % 16 ∧ win0_4.index t (1 : Fin 2) = 0)
    ∧ (win0_5.index t (0 : Fin 2) = t.val % 16 ∧ win0_5.index t (1 : Fin 2) = 0)
    ∧ (win0_6.index t (0 : Fin 2) = 0 ∧ win0_6.index t (1 : Fin 2) = 0)
    ∧ (win0_7.index t (0 : Fin 2) = t.val / 16 ∧ win0_7.index t (1 : Fin 2) = t.val % 16)
    ∧ (win0_8.index t (0 : Fin 2) = t.val / 16 ∧ win0_8.index t (1 : Fin 2) = 0)
    ∧ (win0_9.index t (0 : Fin 2) = t.val / 16 ∧ win0_9.index t (1 : Fin 2) = 0)
    ∧ (win0_10.index t (0 : Fin 2) = t.val / 16 ∧ win0_10.index t (1 : Fin 2) = 0) :=
  (by decide +kernel : ∀ t : Fin grid0.N, _)

variable (W : Entry Ideal) (c : Dev nD)

/-- An entry of matrix window 0's block at point 16·i + j is the array's entry 512·i down and 512·j across. -/
theorem iblk0_apply (t : Fin cfg0.N) (y : S512x512.Idx) (z : S8192x8192.Idx)
    (h0 : (z 0).val = t.val / 16 * 512 + (y 0).val) (h1 : (z 1).val = t.val % 16 * 512 + (y 1).val) :
    iblk W c 0 t y = W c main_arg1 z := by
  have e := idx_facts t
  show W c main_arg1 (((cfg0.win 0).blk t).view.emb y) = W c main_arg1 z
  refine congrArg _ (funext fun a => Fin.ext ?_)
  match a with
  | ⟨0, _⟩ => show win0_0.index t (0 : Fin 2) * 512 + 1 * (y 0).val = (z 0).val; omega
  | ⟨1, _⟩ => show win0_0.index t (1 : Fin 2) * 512 + 1 * (y 1).val = (z 1).val; omega

/-- An entry of matrix window 1's block at point 16·i + j is the array's entry 512·i down and 512·j across. -/
theorem iblk1_apply (t : Fin cfg0.N) (y : S512x512.Idx) (z : S8192x8192.Idx)
    (h0 : (z 0).val = t.val / 16 * 512 + (y 0).val) (h1 : (z 1).val = t.val % 16 * 512 + (y 1).val) :
    iblk W c 1 t y = W c main_arg2 z := by
  have e := idx_facts t
  show W c main_arg2 (((cfg0.win 1).blk t).view.emb y) = W c main_arg2 z
  refine congrArg _ (funext fun a => Fin.ext ?_)
  match a with
  | ⟨0, _⟩ => show win0_1.index t (0 : Fin 2) * 512 + 1 * (y 0).val = (z 0).val; omega
  | ⟨1, _⟩ => show win0_1.index t (1 : Fin 2) * 512 + 1 * (y 1).val = (z 1).val; omega

/-- An entry of matrix window 2's block at point 16·i + j is the array's entry 512·i down and 512·j across. -/
theorem iblk2_apply (t : Fin cfg0.N) (y : S512x512.Idx) (z : S8192x8192.Idx)
    (h0 : (z 0).val = t.val / 16 * 512 + (y 0).val) (h1 : (z 1).val = t.val % 16 * 512 + (y 1).val) :
    iblk W c 2 t y = W c main_arg3 z := by
  have e := idx_facts t
  show W c main_arg3 (((cfg0.win 2).blk t).view.emb y) = W c main_arg3 z
  refine congrArg _ (funext fun a => Fin.ext ?_)
  match a with
  | ⟨0, _⟩ => show win0_2.index t (0 : Fin 2) * 512 + 1 * (y 0).val = (z 0).val; omega
  | ⟨1, _⟩ => show win0_2.index t (1 : Fin 2) * 512 + 1 * (y 1).val = (z 1).val; omega

/-- An entry of token window 3's block at point 16·i + j is the table's entry 512·j down. -/
theorem iblk3_apply (t : Fin cfg0.N) (y : S512x10.Idx) (z : S8192x10.Idx)
    (h0 : (z 0).val = t.val % 16 * 512 + (y 0).val) (h1 : (z 1).val = (y 1).val) :
    iblk W c 3 t y = W c main_arg4 z := by
  have e := idx_facts t
  show W c main_arg4 (((cfg0.win 3).blk t).view.emb y) = W c main_arg4 z
  refine congrArg _ (funext fun a => Fin.ext ?_)
  match a with
  | ⟨0, _⟩ => show win0_3.index t (0 : Fin 2) * 512 + 1 * (y 0).val = (z 0).val; omega
  | ⟨1, _⟩ => show win0_3.index t (1 : Fin 2) * 10 + 1 * (y 1).val = (z 1).val; omega

/-- An entry of token window 4's block at point 16·i + j is the table's entry 512·j down. -/
theorem iblk4_apply (t : Fin cfg0.N) (y : S512x10.Idx) (z : S8192x10.Idx)
    (h0 : (z 0).val = t.val % 16 * 512 + (y 0).val) (h1 : (z 1).val = (y 1).val) :
    iblk W c 4 t y = W c main_arg5 z := by
  have e := idx_facts t
  show W c main_arg5 (((cfg0.win 4).blk t).view.emb y) = W c main_arg5 z
  refine congrArg _ (funext fun a => Fin.ext ?_)
  match a with
  | ⟨0, _⟩ => show win0_4.index t (0 : Fin 2) * 512 + 1 * (y 0).val = (z 0).val; omega
  | ⟨1, _⟩ => show win0_4.index t (1 : Fin 2) * 10 + 1 * (y 1).val = (z 1).val; omega

/-- An entry of token window 5's block at point 16·i + j is the table's entry 512·j down. -/
theorem iblk5_apply (t : Fin cfg0.N) (y : S512x10.Idx) (z : S8192x10.Idx)
    (h0 : (z 0).val = t.val % 16 * 512 + (y 0).val) (h1 : (z 1).val = (y 1).val) :
    iblk W c 5 t y = W c main_arg6 z := by
  have e := idx_facts t
  show W c main_arg6 (((cfg0.win 5).blk t).view.emb y) = W c main_arg6 z
  refine congrArg _ (funext fun a => Fin.ext ?_)
  match a with
  | ⟨0, _⟩ => show win0_5.index t (0 : Fin 2) * 512 + 1 * (y 0).val = (z 0).val; omega
  | ⟨1, _⟩ => show win0_5.index t (1 : Fin 2) * 10 + 1 * (y 1).val = (z 1).val; omega

/-- The weights' block is their array. -/
theorem iblk6_apply (t : Fin cfg0.N) (y : S3x1.Idx) : iblk W c 6 t y = W c main_arg7 y := by
  have e := idx_facts t
  show W c main_arg7 (((cfg0.win 6).blk t).view.emb y) = W c main_arg7 y
  refine congrArg _ (funext fun a => Fin.ext ?_)
  match a with
  | ⟨0, _⟩ => show win0_6.index t (0 : Fin 2) * 3 + 1 * (y 0).val = (y 0).val; omega
  | ⟨1, _⟩ => show win0_6.index t (1 : Fin 2) * 1 + 1 * (y 1).val = (y 1).val; omega

/-! ## The mix -/

/-- WHAT POINT `t` WRITES BACK to the mix's array is block `t` of the weighted mix of the three matrices. -/
theorem flushed7_eq (t : Fin cfg0.N) :
    (dat (F := Ideal) W c).flushed 7 t
      = ((cfg0.win 7).blk t).view.read (Elt Ideal) (Cert.Spec.mix (W c main_arg1) (W c main_arg2) (W c main_arg3) (W c main_arg7)) := by
  show (cfg0.win 7).cut (grid0.coords t) ((dat (F := Ideal) W c).after 7 t) = _
  rw [after_7]
  have e := idx_facts t
  funext y
  show k0_pay6 (iblk W c 6 t) (iblk W c 0 t) (iblk W c 1 t) (iblk W c 2 t) y
    = Cert.Spec.mix (W c main_arg1) (W c main_arg2) (W c main_arg3) (W c main_arg7) (((cfg0.win 7).blk t).view.emb y)
  refine (pay6_apply _ _ _ _ y).trans ?_
  have h0 : ((((cfg0.win 7).blk t).view.emb y) 0).val = t.val / 16 * 512 + (y 0).val := by
    show win0_7.index t (0 : Fin 2) * 512 + 1 * (y 0).val = _; omega
  have h1 : ((((cfg0.win 7).blk t).view.emb y) 1).val = t.val % 16 * 512 + (y 1).val := by
    show win0_7.index t (1 : Fin 2) * 512 + 1 * (y 1).val = _; omega
  rw [iblk0_apply W c t y _ h0 h1, iblk1_apply W c t y _ h0 h1, iblk2_apply W c t y _ h0 h1,
    iblk6_apply, iblk6_apply, iblk6_apply]
  rfl

/-- An index of the mix's array is in point `t`'s block iff each coordinate is in the block's range on its axis. -/
theorem mem_blk7 (t : Fin cfg0.N) (i : S8192x8192.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v0_0).slice (win0_7.rect t)).set ↔ _
  rw [View.set_slice_whole, Rect.mem_set_unit]
  exact Iff.rfl

/-- The 16 × 16 blocks tile the array: entry (r, s) is in the block of point 16·(r / 512) + s / 512. -/
theorem cover7 (i : S8192x8192.Idx) : ∃ t : Fin cfg0.N, (cfg0.win 7).flush t = true ∧ i ∈ ((cfg0.win 7).blk t).view.set := by
  have hi0 : (i 0).val < 8192 := (i 0).isLt
  have hi1 : (i 1).val < 8192 := (i 1).isLt
  have hN : cfg0.N = 256 := N_0
  refine ⟨⟨16 * ((i 0).val / 512) + (i 1).val / 512, by omega⟩, flush0_7 _, ?_⟩
  rw [mem_blk7]
  obtain ⟨-, -, -, -, -, -, -, ⟨e0, e1⟩, -⟩ := idx_facts ⟨16 * ((i 0).val / 512) + (i 1).val / 512, by omega⟩
  dsimp only at e0 e1
  intro a
  match a with
  | ⟨0, _⟩ => show win0_7.index _ (0 : Fin 2) * 512 ≤ (i 0).val ∧ (i 0).val < win0_7.index _ (0 : Fin 2) * 512 + 512; omega
  | ⟨1, _⟩ => show win0_7.index _ (1 : Fin 2) * 512 ≤ (i 1).val ∧ (i 1).val < win0_7.index _ (1 : Fin 2) * 512 + 512; omega

/-- THE MIX'S ARRAY after the region: the weighted mix of the three relation matrices. -/
theorem final0_7 (W : Entry Ideal) (c : Dev nD) :
    (dat (F := Ideal) W c).arrAt 7 cfg0.N = Cert.Spec.mix (W c main_arg1) (W c main_arg2) (W c main_arg3) (W c main_arg7) :=
  (dat (F := Ideal) W c).arrAt_eq_of_cover 7 _ (fun t _ => flushed7_eq W c t) cover7

/-! ## The running totals -/

/-- ONE POINT'S STEP for total 8: at point 16·i + j, entry (r, q) grows by the sum over column block j of the
    matrix's row 512·i + r times the table's column q. -/
theorem step8 (t : Fin cfg0.N) (p : Vec Ideal S512x10 .f32) (r : Fin 512) (q : Fin 10) (R : Fin 8192) (j : ℕ)
    (A : Cert.Spec.Mat 8192 8192) (T : Cert.Spec.Mat 8192 10) (hA : A = W c main_arg1) (hT : T = W c main_arg4)
    (hR : R.val = t.val / 16 * 512 + r.val) (hj : t.val % 16 = j) :
    k0_pay9 (iblk W c 0 t) (iblk W c 3 t) p (ix2 r q)
      = p (ix2 r q) + ∑ y : Fin 512, A (ix2 R (Cert.Spec.blk j y)) * T (ix2 (Cert.Spec.blk j y) q) := by
  subst hA hT
  have hN : t.val < 256 := lt_of_lt_of_eq t.isLt (show cfg0.N = 256 from N_0)
  have hj16 : j < 16 := by omega
  refine (pay9_apply _ _ p r q).trans (congrArg (p (ix2 r q) + ·) (Finset.sum_congr rfl fun y _ => ?_))
  have hb : (Cert.Spec.blk j y).val = t.val % 16 * 512 + y.val := by rw [Cert.Spec.blk_val hj16, hj]
  rw [iblk0_apply W c t (ix2 r y) (ix2 R (Cert.Spec.blk j y)) hR hb,
    iblk3_apply W c t (ix2 y q) (ix2 (Cert.Spec.blk j y) q) hb rfl]

/-- THE TOTAL after point `n` = 16·i + j, at (r, q): the specification's sum over the first j + 1 column blocks, for row
    512·i + r of the matrix — by induction on the point. -/
theorem acc8_eq : ∀ (n : ℕ) (hn : n < cfg0.N) (r : Fin 512) (q : Fin 10) (R : Fin 8192) (j : ℕ),
    R.val = n / 16 * 512 + r.val → n % 16 = j →
    acc8 W c n hn (ix2 r q) = Cert.Spec.tokAcc (W c main_arg1) (W c main_arg4) R q (j + 1)
  | 0, hn, r, q, R, j, hR, hj => by
    refine (congrFun (acc8_A W c ⟨0, hn⟩ rfl) _).trans ?_
    refine (step8 W c ⟨0, hn⟩ _ r q R j _ _ rfl rfl hR hj).trans ?_
    obtain rfl : j = 0 := hj.symm
    rw [pay3_apply]
    rfl
  | n + 1, hn, r, q, R, j, hR, hj => by
    by_cases h0 : (n + 1) % 16 = 0
    · refine (congrFun (acc8_A W c ⟨n + 1, hn⟩ h0) _).trans ?_
      refine (step8 W c ⟨n + 1, hn⟩ _ r q R j _ _ rfl rfl hR hj).trans ?_
      obtain rfl : j = 0 := by omega
      rw [pay3_apply]
      rfl
    · refine (congrFun (acc8_B W c ⟨n + 1, hn⟩ h0) _).trans ?_
      refine (step8 W c ⟨n + 1, hn⟩ _ r q R j _ _ rfl rfl hR hj).trans ?_
      obtain ⟨j', rfl⟩ : ∃ j', j = j' + 1 := ⟨j - 1, by omega⟩
      have ih := acc8_eq n (Nat.lt_of_succ_lt hn) r q R j' (by omega) (by omega)
      show acc8 W c n _ (ix2 r q) + _ = _
      rw [ih]
      rfl

/-- WHAT A ROW'S LAST POINT WRITES BACK to total 8's array is its block of the sixteen-block totals. -/
theorem flushed8_eq (t : Fin cfg0.N) (hf : (cfg0.win 8).flush t = true) :
    (dat (F := Ideal) W c).flushed 8 t
      = ((cfg0.win 8).blk t).view.read (Elt Ideal) (Cert.Spec.tokFeatK (W c main_arg1) (W c main_arg4)) := by
  show (cfg0.win 8).cut (grid0.coords t) ((dat (F := Ideal) W c).after 8 t) = _
  rw [after_8]
  have h15 : t.val % 16 = 15 := (flush0_8 t).mp hf
  have e := idx_facts t
  funext y
  obtain ⟨r, q, rfl⟩ : ∃ (r : Fin 512) (q : Fin 10), y = ix2 r q := ⟨y 0, y 1, eq_ix2 y⟩
  show acc8 W c t.val t.isLt (ix2 r q)
    = Cert.Spec.tokFeatK (W c main_arg1) (W c main_arg4) (((cfg0.win 8).blk t).view.emb (ix2 r q))
  have h0 : ((((cfg0.win 8).blk t).view.emb (ix2 r q)) 0).val = t.val / 16 * 512 + r.val := by
    show win0_8.index t (0 : Fin 2) * 512 + 1 * r.val = _; omega
  have h1 : (((cfg0.win 8).blk t).view.emb (ix2 r q)) 1 = q := Fin.ext (by
    show win0_8.index t (1 : Fin 2) * 10 + 1 * q.val = _; omega)
  refine (acc8_eq W c t.val t.isLt r q _ 15 h0 h15).trans ?_
  unfold Cert.Spec.tokFeatK
  rw [h1]

/-- An index of total 8's array is in point `t`'s block iff each coordinate is in the block's range on its axis. -/
theorem mem_blk8 (t : Fin cfg0.N) (i : S8192x10.Idx) :
    i ∈ ((cfg0.win 8).blk t).view.set ↔ ∀ a : Fin 2, win0_8.index t a * S512x10.size a ≤ (i a).val ∧ (i a).val < win0_8.index t a * S512x10.size a + S512x10.size a := by
  show i ∈ ((View.whole main_v0_1).slice (win0_8.rect t)).set ↔ _
  rw [View.set_slice_whole, Rect.mem_set_unit]
  exact Iff.rfl

/-- The sixteen row blocks tile the array: row r is in the block written back at point 16·(r / 512) + 15. -/
theorem cover8 (i : S8192x10.Idx) : ∃ t : Fin cfg0.N, (cfg0.win 8).flush t = true ∧ i ∈ ((cfg0.win 8).blk t).view.set := by
  have hi0 : (i 0).val < 8192 := (i 0).isLt
  have hi1 : (i 1).val < 10 := (i 1).isLt
  have hN : cfg0.N = 256 := N_0
  refine ⟨⟨16 * ((i 0).val / 512) + 15, by omega⟩, (flush0_8 _).mpr (by dsimp only; omega), ?_⟩
  rw [mem_blk8]
  have e := idx_facts ⟨16 * ((i 0).val / 512) + 15, by omega⟩
  dsimp only at e
  intro a
  match a with
  | ⟨0, _⟩ => show win0_8.index _ (0 : Fin 2) * 512 ≤ (i 0).val ∧ (i 0).val < win0_8.index _ (0 : Fin 2) * 512 + 512; omega
  | ⟨1, _⟩ => show win0_8.index _ (1 : Fin 2) * 10 ≤ (i 1).val ∧ (i 1).val < win0_8.index _ (1 : Fin 2) * 10 + 10; omega

/-- TOTAL 8'S ARRAY after the region: the token features of its relation, summed block by block. -/
theorem final0_8 (W : Entry Ideal) (c : Dev nD) :
    (dat (F := Ideal) W c).arrAt 8 cfg0.N = Cert.Spec.tokFeatK (W c main_arg1) (W c main_arg4) :=
  (dat (F := Ideal) W c).arrAt_eq_of_cover 8 _ (flushed8_eq W c) (cover8)

/-- ONE POINT'S STEP for total 9: at point 16·i + j, entry (r, q) grows by the sum over column block j of the
    matrix's row 512·i + r times the table's column q. -/
theorem step9 (t : Fin cfg0.N) (p : Vec Ideal S512x10 .f32) (r : Fin 512) (q : Fin 10) (R : Fin 8192) (j : ℕ)
    (A : Cert.Spec.Mat 8192 8192) (T : Cert.Spec.Mat 8192 10) (hA : A = W c main_arg2) (hT : T = W c main_arg5)
    (hR : R.val = t.val / 16 * 512 + r.val) (hj : t.val % 16 = j) :
    k0_pay1 (iblk W c 1 t) (k0_pay7 (iblk W c 4 t)) p (ix2 r q)
      = p (ix2 r q) + ∑ y : Fin 512, A (ix2 R (Cert.Spec.blk j y)) * T (ix2 (Cert.Spec.blk j y) q) := by
  subst hA hT
  have hN : t.val < 256 := lt_of_lt_of_eq t.isLt (show cfg0.N = 256 from N_0)
  have hj16 : j < 16 := by omega
  refine (pay1_apply _ _ p r q).trans (congrArg (p (ix2 r q) + ·) (Finset.sum_congr rfl fun y _ => ?_))
  have hb : (Cert.Spec.blk j y).val = t.val % 16 * 512 + y.val := by rw [Cert.Spec.blk_val hj16, hj]
  rw [iblk1_apply W c t (ix2 r y) (ix2 R (Cert.Spec.blk j y)) hR hb,
    iblk4_apply W c t (ix2 y q) (ix2 (Cert.Spec.blk j y) q) hb rfl]

/-- THE TOTAL after point `n` = 16·i + j, at (r, q): the specification's sum over the first j + 1 column blocks, for row
    512·i + r of the matrix — by induction on the point. -/
theorem acc9_eq : ∀ (n : ℕ) (hn : n < cfg0.N) (r : Fin 512) (q : Fin 10) (R : Fin 8192) (j : ℕ),
    R.val = n / 16 * 512 + r.val → n % 16 = j →
    acc9 W c n hn (ix2 r q) = Cert.Spec.tokAcc (W c main_arg2) (W c main_arg5) R q (j + 1)
  | 0, hn, r, q, R, j, hR, hj => by
    refine (congrFun (acc9_A W c ⟨0, hn⟩ rfl) _).trans ?_
    refine (step9 W c ⟨0, hn⟩ _ r q R j _ _ rfl rfl hR hj).trans ?_
    obtain rfl : j = 0 := hj.symm
    rw [pay4_apply]
    rfl
  | n + 1, hn, r, q, R, j, hR, hj => by
    by_cases h0 : (n + 1) % 16 = 0
    · refine (congrFun (acc9_A W c ⟨n + 1, hn⟩ h0) _).trans ?_
      refine (step9 W c ⟨n + 1, hn⟩ _ r q R j _ _ rfl rfl hR hj).trans ?_
      obtain rfl : j = 0 := by omega
      rw [pay4_apply]
      rfl
    · refine (congrFun (acc9_B W c ⟨n + 1, hn⟩ h0) _).trans ?_
      refine (step9 W c ⟨n + 1, hn⟩ _ r q R j _ _ rfl rfl hR hj).trans ?_
      obtain ⟨j', rfl⟩ : ∃ j', j = j' + 1 := ⟨j - 1, by omega⟩
      have ih := acc9_eq n (Nat.lt_of_succ_lt hn) r q R j' (by omega) (by omega)
      show acc9 W c n _ (ix2 r q) + _ = _
      rw [ih]
      rfl

/-- WHAT A ROW'S LAST POINT WRITES BACK to total 9's array is its block of the sixteen-block totals. -/
theorem flushed9_eq (t : Fin cfg0.N) (hf : (cfg0.win 9).flush t = true) :
    (dat (F := Ideal) W c).flushed 9 t
      = ((cfg0.win 9).blk t).view.read (Elt Ideal) (Cert.Spec.tokFeatK (W c main_arg2) (W c main_arg5)) := by
  show (cfg0.win 9).cut (grid0.coords t) ((dat (F := Ideal) W c).after 9 t) = _
  rw [after_9]
  have h15 : t.val % 16 = 15 := (flush0_9 t).mp hf
  have e := idx_facts t
  funext y
  obtain ⟨r, q, rfl⟩ : ∃ (r : Fin 512) (q : Fin 10), y = ix2 r q := ⟨y 0, y 1, eq_ix2 y⟩
  show acc9 W c t.val t.isLt (ix2 r q)
    = Cert.Spec.tokFeatK (W c main_arg2) (W c main_arg5) (((cfg0.win 9).blk t).view.emb (ix2 r q))
  have h0 : ((((cfg0.win 9).blk t).view.emb (ix2 r q)) 0).val = t.val / 16 * 512 + r.val := by
    show win0_9.index t (0 : Fin 2) * 512 + 1 * r.val = _; omega
  have h1 : (((cfg0.win 9).blk t).view.emb (ix2 r q)) 1 = q := Fin.ext (by
    show win0_9.index t (1 : Fin 2) * 10 + 1 * q.val = _; omega)
  refine (acc9_eq W c t.val t.isLt r q _ 15 h0 h15).trans ?_
  unfold Cert.Spec.tokFeatK
  rw [h1]

/-- An index of total 9's array is in point `t`'s block iff each coordinate is in the block's range on its axis. -/
theorem mem_blk9 (t : Fin cfg0.N) (i : S8192x10.Idx) :
    i ∈ ((cfg0.win 9).blk t).view.set ↔ ∀ a : Fin 2, win0_9.index t a * S512x10.size a ≤ (i a).val ∧ (i a).val < win0_9.index t a * S512x10.size a + S512x10.size a := by
  show i ∈ ((View.whole main_v0_2).slice (win0_9.rect t)).set ↔ _
  rw [View.set_slice_whole, Rect.mem_set_unit]
  exact Iff.rfl

/-- The sixteen row blocks tile the array: row r is in the block written back at point 16·(r / 512) + 15. -/
theorem cover9 (i : S8192x10.Idx) : ∃ t : Fin cfg0.N, (cfg0.win 9).flush t = true ∧ i ∈ ((cfg0.win 9).blk t).view.set := by
  have hi0 : (i 0).val < 8192 := (i 0).isLt
  have hi1 : (i 1).val < 10 := (i 1).isLt
  have hN : cfg0.N = 256 := N_0
  refine ⟨⟨16 * ((i 0).val / 512) + 15, by omega⟩, (flush0_9 _).mpr (by dsimp only; omega), ?_⟩
  rw [mem_blk9]
  have e := idx_facts ⟨16 * ((i 0).val / 512) + 15, by omega⟩
  dsimp only at e
  intro a
  match a with
  | ⟨0, _⟩ => show win0_9.index _ (0 : Fin 2) * 512 ≤ (i 0).val ∧ (i 0).val < win0_9.index _ (0 : Fin 2) * 512 + 512; omega
  | ⟨1, _⟩ => show win0_9.index _ (1 : Fin 2) * 10 ≤ (i 1).val ∧ (i 1).val < win0_9.index _ (1 : Fin 2) * 10 + 10; omega

/-- TOTAL 9'S ARRAY after the region: the token features of its relation, summed block by block. -/
theorem final0_9 (W : Entry Ideal) (c : Dev nD) :
    (dat (F := Ideal) W c).arrAt 9 cfg0.N = Cert.Spec.tokFeatK (W c main_arg2) (W c main_arg5) :=
  (dat (F := Ideal) W c).arrAt_eq_of_cover 9 _ (flushed9_eq W c) (cover9)

/-- ONE POINT'S STEP for total 10: at point 16·i + j, entry (r, q) grows by the sum over column block j of the
    matrix's row 512·i + r times the table's column q. -/
theorem step10 (t : Fin cfg0.N) (p : Vec Ideal S512x10 .f32) (r : Fin 512) (q : Fin 10) (R : Fin 8192) (j : ℕ)
    (A : Cert.Spec.Mat 8192 8192) (T : Cert.Spec.Mat 8192 10) (hA : A = W c main_arg3) (hT : T = W c main_arg6)
    (hR : R.val = t.val / 16 * 512 + r.val) (hj : t.val % 16 = j) :
    k0_pay2 (iblk W c 2 t) (k0_pay8 (iblk W c 5 t)) p (ix2 r q)
      = p (ix2 r q) + ∑ y : Fin 512, A (ix2 R (Cert.Spec.blk j y)) * T (ix2 (Cert.Spec.blk j y) q) := by
  subst hA hT
  have hN : t.val < 256 := lt_of_lt_of_eq t.isLt (show cfg0.N = 256 from N_0)
  have hj16 : j < 16 := by omega
  refine (pay2_apply _ _ p r q).trans (congrArg (p (ix2 r q) + ·) (Finset.sum_congr rfl fun y _ => ?_))
  have hb : (Cert.Spec.blk j y).val = t.val % 16 * 512 + y.val := by rw [Cert.Spec.blk_val hj16, hj]
  rw [iblk2_apply W c t (ix2 r y) (ix2 R (Cert.Spec.blk j y)) hR hb,
    iblk5_apply W c t (ix2 y q) (ix2 (Cert.Spec.blk j y) q) hb rfl]

/-- THE TOTAL after point `n` = 16·i + j, at (r, q): the specification's sum over the first j + 1 column blocks, for row
    512·i + r of the matrix — by induction on the point. -/
theorem acc10_eq : ∀ (n : ℕ) (hn : n < cfg0.N) (r : Fin 512) (q : Fin 10) (R : Fin 8192) (j : ℕ),
    R.val = n / 16 * 512 + r.val → n % 16 = j →
    acc10 W c n hn (ix2 r q) = Cert.Spec.tokAcc (W c main_arg3) (W c main_arg6) R q (j + 1)
  | 0, hn, r, q, R, j, hR, hj => by
    refine (congrFun (acc10_A W c ⟨0, hn⟩ rfl) _).trans ?_
    refine (step10 W c ⟨0, hn⟩ _ r q R j _ _ rfl rfl hR hj).trans ?_
    obtain rfl : j = 0 := hj.symm
    rw [pay5_apply]
    rfl
  | n + 1, hn, r, q, R, j, hR, hj => by
    by_cases h0 : (n + 1) % 16 = 0
    · refine (congrFun (acc10_A W c ⟨n + 1, hn⟩ h0) _).trans ?_
      refine (step10 W c ⟨n + 1, hn⟩ _ r q R j _ _ rfl rfl hR hj).trans ?_
      obtain rfl : j = 0 := by omega
      rw [pay5_apply]
      rfl
    · refine (congrFun (acc10_B W c ⟨n + 1, hn⟩ h0) _).trans ?_
      refine (step10 W c ⟨n + 1, hn⟩ _ r q R j _ _ rfl rfl hR hj).trans ?_
      obtain ⟨j', rfl⟩ : ∃ j', j = j' + 1 := ⟨j - 1, by omega⟩
      have ih := acc10_eq n (Nat.lt_of_succ_lt hn) r q R j' (by omega) (by omega)
      show acc10 W c n _ (ix2 r q) + _ = _
      rw [ih]
      rfl

/-- WHAT A ROW'S LAST POINT WRITES BACK to total 10's array is its block of the sixteen-block totals. -/
theorem flushed10_eq (t : Fin cfg0.N) (hf : (cfg0.win 10).flush t = true) :
    (dat (F := Ideal) W c).flushed 10 t
      = ((cfg0.win 10).blk t).view.read (Elt Ideal) (Cert.Spec.tokFeatK (W c main_arg3) (W c main_arg6)) := by
  show (cfg0.win 10).cut (grid0.coords t) ((dat (F := Ideal) W c).after 10 t) = _
  rw [after_10]
  have h15 : t.val % 16 = 15 := (flush0_10 t).mp hf
  have e := idx_facts t
  funext y
  obtain ⟨r, q, rfl⟩ : ∃ (r : Fin 512) (q : Fin 10), y = ix2 r q := ⟨y 0, y 1, eq_ix2 y⟩
  show acc10 W c t.val t.isLt (ix2 r q)
    = Cert.Spec.tokFeatK (W c main_arg3) (W c main_arg6) (((cfg0.win 10).blk t).view.emb (ix2 r q))
  have h0 : ((((cfg0.win 10).blk t).view.emb (ix2 r q)) 0).val = t.val / 16 * 512 + r.val := by
    show win0_10.index t (0 : Fin 2) * 512 + 1 * r.val = _; omega
  have h1 : (((cfg0.win 10).blk t).view.emb (ix2 r q)) 1 = q := Fin.ext (by
    show win0_10.index t (1 : Fin 2) * 10 + 1 * q.val = _; omega)
  refine (acc10_eq W c t.val t.isLt r q _ 15 h0 h15).trans ?_
  unfold Cert.Spec.tokFeatK
  rw [h1]

/-- An index of total 10's array is in point `t`'s block iff each coordinate is in the block's range on its axis. -/
theorem mem_blk10 (t : Fin cfg0.N) (i : S8192x10.Idx) :
    i ∈ ((cfg0.win 10).blk t).view.set ↔ ∀ a : Fin 2, win0_10.index t a * S512x10.size a ≤ (i a).val ∧ (i a).val < win0_10.index t a * S512x10.size a + S512x10.size a := by
  show i ∈ ((View.whole main_v0_3).slice (win0_10.rect t)).set ↔ _
  rw [View.set_slice_whole, Rect.mem_set_unit]
  exact Iff.rfl

/-- The sixteen row blocks tile the array: row r is in the block written back at point 16·(r / 512) + 15. -/
theorem cover10 (i : S8192x10.Idx) : ∃ t : Fin cfg0.N, (cfg0.win 10).flush t = true ∧ i ∈ ((cfg0.win 10).blk t).view.set := by
  have hi0 : (i 0).val < 8192 := (i 0).isLt
  have hi1 : (i 1).val < 10 := (i 1).isLt
  have hN : cfg0.N = 256 := N_0
  refine ⟨⟨16 * ((i 0).val / 512) + 15, by omega⟩, (flush0_10 _).mpr (by dsimp only; omega), ?_⟩
  rw [mem_blk10]
  have e := idx_facts ⟨16 * ((i 0).val / 512) + 15, by omega⟩
  dsimp only at e
  intro a
  match a with
  | ⟨0, _⟩ => show win0_10.index _ (0 : Fin 2) * 512 ≤ (i 0).val ∧ (i 0).val < win0_10.index _ (0 : Fin 2) * 512 + 512; omega
  | ⟨1, _⟩ => show win0_10.index _ (1 : Fin 2) * 10 ≤ (i 1).val ∧ (i 1).val < win0_10.index _ (1 : Fin 2) * 10 + 10; omega

/-- TOTAL 10'S ARRAY after the region: the token features of its relation, summed block by block. -/
theorem final0_10 (W : Entry Ideal) (c : Dev nD) :
    (dat (F := Ideal) W c).arrAt 10 cfg0.N = Cert.Spec.tokFeatK (W c main_arg3) (W c main_arg6) :=
  (dat (F := Ideal) W c).arrAt_eq_of_cover 10 _ (flushed10_eq W c) (cover10)

end Cert.KernelIdeal.R0

end
-- ==== Proof.LibColumnProducts.lean ====
/-
  Matrix products that contract the LEADING axis of an operand, read entry by entry over the extended reals.

  The usual product of an [a, K] matrix with a [K, b] matrix reads the left operand along its rows. Two other
  arrangements of the same sum occur when an operand is stored transposed: both operands stored with the contracted
  axis first ([K, a] and [K, b]: entry (p, q) is the sum over k of lhs[k, p] · rhs[k, q]), and the left operand stored
  with the contracted axis first while the right one has it last ([K, b] and [a, K], result [b, a]: entry (c, n) is
  the sum over k of lhs[k, c] · rhs[n, k]). Each is stated for dimension numbers that say so (a structure of six
  coordinate facts) and for the device's product into a zero accumulator.
-/
import Idealize.ShloMosaic.PureOps.Ideal
import Idealize.ShloMosaic.PureOps.Ideal.Laws
import Idealize.ShloMosaic.Lib.ValueIdx

noncomputable section

namespace Cert.ColumnProducts

open Idealize.ShloMosaic Idealize.ShloMosaic.ValueIdx

/-! ## Both operands with the contracted axis first -/

section ColsCols
variable {a K b : ℕ} (d : DotDims ⟨2, ![K, a]⟩ ⟨2, ![K, b]⟩ ⟨2, ![a, b]⟩)

/-- The dimension numbers of a `[K, a] × [K, b] → [a, b]` product contract ONE axis, of extent `K`, the leading one of
    both operands: the left operand is read at (contracted position, output row), the right one at (contracted
    position, output column). -/
structure ColsTimesCols : Prop where
  rank : d.contr.rank = 1
  size : d.contr.size ⟨0, by omega⟩ = K
  lhs0 : ∀ (j : (⟨2, ![a, b]⟩ : Shape).Idx) (q : d.contr.Idx), (d.lhsIdx j q 0).val = (q ⟨0, by omega⟩).val
  lhs1 : ∀ (j : (⟨2, ![a, b]⟩ : Shape).Idx) (q : d.contr.Idx), (d.lhsIdx j q 1).val = (j 0).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`. -/
theorem ColsTimesCols.sum_eq (H : ColsTimesCols d) (lhs : (⟨2, ![K, a]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 k p) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 k p := funext fun ax => Fin.ext (by
    match ax with
    | ⟨0, _⟩ => exact (H.lhs0 _ _).trans hk
    | ⟨1, _⟩ => exact H.lhs1 _ _)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Entry `(p, q)` of the device's product into a zero accumulator. -/
theorem ColsTimesCols.matmul_zero_apply {φ₁ φ₂ : FTy} (H : ColsTimesCols d) (prec : Option ContractPrecision)
    (lhs : FVec Ideal ⟨2, ![K, a]⟩ φ₁) (rhs : FVec Ideal ⟨2, ![K, b]⟩ φ₂) (p : Fin a) (q : Fin b) :
    matmul d prec lhs rhs (constant (F := Ideal) ⟨2, ![a, b]⟩ .f32 0x00000000#32) (ix2 p q)
      = ∑ k : Fin K, lhs (ix2 k p) * rhs (ix2 k q) := by
  show FloatOps.matmul d prec lhs rhs (constant (F := Ideal) ⟨2, ![a, b]⟩ .f32 0x00000000#32) (ix2 p q) = _
  rw [Ideal.matmul_constant_zero_apply]
  exact H.sum_eq lhs rhs p q

end ColsCols

/-! ## The left operand with the contracted axis first, the right one with it last -/

section ColsRows
variable {a K b : ℕ} (d : DotDims ⟨2, ![K, b]⟩ ⟨2, ![a, K]⟩ ⟨2, ![b, a]⟩)

/-- The dimension numbers of a `[K, b] × [a, K] → [b, a]` product contract ONE axis, of extent `K`, the leading one of
    the left operand and the trailing one of the right: the left operand is read at (contracted position, output
    row), the right one at (output column, contracted position). -/
structure ColsTimesRows : Prop where
  rank : d.contr.rank = 1
  size : d.contr.size ⟨0, by omega⟩ = K
  lhs0 : ∀ (j : (⟨2, ![b, a]⟩ : Shape).Idx) (q : d.contr.Idx), (d.lhsIdx j q 0).val = (q ⟨0, by omega⟩).val
  lhs1 : ∀ (j : (⟨2, ![b, a]⟩ : Shape).Idx) (q : d.contr.Idx), (d.lhsIdx j q 1).val = (j 0).val
  rhs0 : ∀ (j : (⟨2, ![b, a]⟩ : Shape).Idx) (q : d.contr.Idx), (d.rhsIdx j q 0).val = (j 1).val
  rhs1 : ∀ (j : (⟨2, ![b, a]⟩ : Shape).Idx) (q : d.contr.Idx), (d.rhsIdx j q 1).val = (q ⟨0, by omega⟩).val

variable {d}

/-- The sum over the contraction's index set, re-indexed by the contracted position `k < K`. -/
theorem ColsTimesRows.sum_eq (H : ColsTimesRows d) (lhs : (⟨2, ![K, b]⟩ : Shape).Idx → EReal) (rhs : (⟨2, ![a, K]⟩ : Shape).Idx → EReal)
    (c : Fin b) (n : Fin a) :
    (∑ k : d.contr.Idx, lhs (d.lhsIdx (ix2 c n) k) * rhs (d.rhsIdx (ix2 c n) k)) = ∑ k : Fin K, lhs (ix2 k c) * rhs (ix2 n k) := by
  rw [← Equiv.sum_comp (contrEquiv1 d K H.rank H.size).symm]
  refine Finset.sum_congr rfl fun k _ => ?_
  have hk := contrEquiv1_symm_val d K H.rank H.size k
  have el : d.lhsIdx (ix2 c n) ((contrEquiv1 d K H.rank H.size).symm k) = ix2 k c := funext fun ax => Fin.ext (by
    match ax with
    | ⟨0, _⟩ => exact (H.lhs0 _ _).trans hk
    | ⟨1, _⟩ => exact H.lhs1 _ _)
  have er : d.rhsIdx (ix2 c n) ((contrEquiv1 d K H.rank H.size).symm k) = ix2 n k := funext fun ax => Fin.ext (by
    match ax with
    | ⟨0, _⟩ => exact H.rhs0 _ _
    | ⟨1, _⟩ => exact (H.rhs1 _ _).trans hk)
  rw [el, er]

/-- Entry `(c, n)` of the device's product into a zero accumulator. -/
theorem ColsTimesRows.matmul_zero_apply {φ₁ φ₂ : FTy} (H : ColsTimesRows d) (prec : Option ContractPrecision)
    (lhs : FVec Ideal ⟨2, ![K, b]⟩ φ₁) (rhs : FVec Ideal ⟨2, ![a, K]⟩ φ₂) (c : Fin b) (n : Fin a) :
    matmul d prec lhs rhs (constant (F := Ideal) ⟨2, ![b, a]⟩ .f32 0x00000000#32) (ix2 c n)
      = ∑ k : Fin K, lhs (ix2 k c) * rhs (ix2 n k) := by
  show FloatOps.matmul d prec lhs rhs (constant (F := Ideal) ⟨2, ![b, a]⟩ .f32 0x00000000#32) (ix2 c n) = _
  rw [Ideal.matmul_constant_zero_apply]
  exact H.sum_eq lhs rhs c n

end ColsRows

end Cert.ColumnProducts

end
-- ==== Proof.R1Value.lean ====
import proofs.«177282_j10187662426197_2_alg».proof.Proof.R1Frame
import proofs.«177282_j10187662426197_2_alg».proof.Proof.Spec
import proofs.«177282_j10187662426197_2_alg».proof.Proof.LibColumnProducts
import proofs.«177282_j10187662426197_2_alg».proof.Proof.LibRowLayers
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-!
# What the second pallas_call writes: one layer, entry by entry

Over the extended reals a change of float format is the identity and a matrix product into a zero accumulator is a plain
sum. So one point's work on the running total adds, at entry (r, q), first ∑ y, A[r, y] · Y[y, q] over the block's 512
columns y, then ∑ y, B[y, r] · Y[y, q] over the 512 ROWS y of the transposed block. With A the block (i, k) and B the
block (k, i) of the relation matrix T, after the k-th point of row i of the grid the total at (r, q) is the sum over the
first k + 1 column blocks of T[i·512 + r, ·] · Y[·, q] + T[·, i·512 + r] · Y[·, q], in the order the device adds them:
`Cert.Spec.gcAcc`. The point with k = 15 writes that total plus the bias row into rows i·512 … i·512 + 511 of the
result, and the sixteen such points cover it.
-/

noncomputable section

namespace Cert.KernelIdeal.R1

open Cert.KernelIdeal Cert.KernelIdeal.Gen
open Idealize.ShloMosaic Idealize.ShloMosaic.TcCoe Idealize.ShloMosaic.ValueIdx
open Idealize.ShloMosaic.Pipeline (Dat Cfg Window)
open Cert.RowLayers Cert.ColumnProducts

/-! ## The two products' dimension numbers -/

/-- The first product reads its left operand along rows: (output row, contracted) × (contracted, output column). -/
theorem rowsCols : RowsTimesCols (a := 512) (K := 512) (b := 128) dot_S512x512_S512x128_S512x128_1_0_0_1_n_n where
  rank := rfl
  size := rfl
  lhs0 := fun j q => by
    unfold DotDims.lhsIdx
    rw [dif_neg (show ¬(0 : Fin S512x512.rank) ∈ dot_S512x512_S512x128_S512x128_1_0_0_1_n_n.lhsBatch by decide),
      dif_pos (show (0 : Fin S512x512.rank) ∈ dot_S512x512_S512x128_S512x128_1_0_0_1_n_n.lhsNonContracting by decide)]
    rfl
  lhs1 := fun j q => dot_S512x512_S512x128_S512x128_1_0_0_1_n_n.lhsIdx_val_of_single rfl j q
  rhs0 := fun j q => dot_S512x512_S512x128_S512x128_1_0_0_1_n_n.rhsIdx_val_of_single rfl j q
  rhs1 := fun j q => by
    unfold DotDims.rhsIdx
    rw [dif_neg (show ¬(1 : Fin S512x128.rank) ∈ dot_S512x512_S512x128_S512x128_1_0_0_1_n_n.rhsBatch by decide),
      dif_pos (show (1 : Fin S512x128.rank) ∈ dot_S512x512_S512x128_S512x128_1_0_0_1_n_n.rhsNonContracting by decide)]
    rfl

/-- The second product contracts the LEADING axis of both operands: (contracted, output row) × (contracted, output
    column) — the left operand is read transposed. -/
theorem colsCols : ColsTimesCols (a := 512) (K := 512) (b := 128) dot_S512x512_S512x128_S512x128_0_0_1_1_n_n where
  rank := rfl
  size := rfl
  lhs0 := fun j q => dot_S512x512_S512x128_S512x128_0_0_1_1_n_n.lhsIdx_val_of_single rfl j q
  lhs1 := fun j q => by
    unfold DotDims.lhsIdx
    rw [dif_neg (show ¬(1 : Fin S512x512.rank) ∈ dot_S512x512_S512x128_S512x128_0_0_1_1_n_n.lhsBatch by decide),
      dif_pos (show (1 : Fin S512x512.rank) ∈ dot_S512x512_S512x128_S512x128_0_0_1_1_n_n.lhsNonContracting by decide)]
    rfl
  rhs0 := fun j q => dot_S512x512_S512x128_S512x128_0_0_1_1_n_n.rhsIdx_val_of_single rfl j q
  rhs1 := fun j q => by
    unfold DotDims.rhsIdx
    rw [dif_neg (show ¬(1 : Fin S512x128.rank) ∈ dot_S512x512_S512x128_S512x128_0_0_1_1_n_n.rhsBatch by decide),
      dif_pos (show (1 : Fin S512x128.rank) ∈ dot_S512x512_S512x128_S512x128_0_0_1_1_n_n.rhsNonContracting by decide)]
    rfl

/-! ## The payloads, entry by entry -/

/-- The reset stores zero. -/
theorem pay1_apply (j : S512x128.Idx) : k1_pay1 (F := Ideal) j = 0 := by
  unfold k1_pay1
  simp only [shapeCast_self]
  exact Ideal.ofBits_zero_f32

/-- The first addition: the total plus the block's rows times the Y-block's columns. -/
theorem pay3_apply (x0 : Vec Ideal S512x512 .bf16) (x2 : Vec Ideal S512x128 .bf16) (xs : Vec Ideal S512x128 .f32)
    (r : Fin 512) (q : Fin 128) :
    k1_pay3 x0 x2 xs (ix2 r q) = xs (ix2 r q) + ∑ y : Fin 512, x0 (ix2 r y) * x2 (ix2 y q) := by
  unfold k1_pay3 k1_pay2
  simp only [shapeCast_self]
  exact congrArg (xs (ix2 r q) + ·) (congrFun (rowOf_matmul_zero (φ₁ := .bf16) (φ₂ := .bf16) rowsCols none x0 x2 r) q)

/-- The second addition: the total plus the TRANSPOSED block's rows times the Y-block's columns. -/
theorem pay4_apply (x1 : Vec Ideal S512x512 .bf16) (x2 : Vec Ideal S512x128 .bf16) (xs : Vec Ideal S512x128 .f32)
    (r : Fin 512) (q : Fin 128) :
    k1_pay4 x1 x2 xs (ix2 r q) = xs (ix2 r q) + ∑ y : Fin 512, x1 (ix2 y r) * x2 (ix2 y q) := by
  unfold k1_pay4 k1_pay2
  simp only [shapeCast_self]
  exact congrArg (xs (ix2 r q) + ·) (colsCols.matmul_zero_apply none x1 x2 r q)

/-- The write of the output: the total plus the bias row. -/
theorem pay5_apply (v : Vec Ideal S512x128 .f32) (b : Vec Ideal S128 .f32) (r : Fin 512) (q : Fin 128) :
    k1_pay5 v b (ix2 r q) = v (ix2 r q) + b (ix1 q) := by
  unfold k1_pay5
  exact congrArg (v (ix2 r q) + ·)
    ((broadcastTo_1b_ab_apply _ broadcasts_S1x128_S512x128 r q).trans (shapeCast_a_1a_apply b shapeCasts_S128_S1x128 0 q))

/-! ## The blocks, entry by entry

Point `t` of the grid is (i, k) = (t / 16, t % 16). The first window's block there is block (i, k) of the relation
matrix, the second's is block (k, i) of the same matrix, the third's is row block k of Y, the fourth's is the whole
bias row, and the output's is row block i of the result. -/

/-- The printed index maps, decided over the grid. -/
theorem idx_facts : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = t.val / 16
    ∧ win1_2.index t (0 : Fin 2) = t.val % 16 ∧ win1_2.index t (1 : Fin 2) = 0
    ∧ win1_3.index t (0 : Fin 1) = 0
    ∧ win1_4.index t (0 : Fin 2) = t.val / 16 ∧ win1_4.index t (1 : Fin 2) = 0 :=
  (by decide +kernel : ∀ t : Fin grid1.N, _)

variable (W : Entry Ideal)

/-- The arrays the region reads, as arrays of extended reals: the relation matrix, Y, the bias row. -/
abbrev Tm (c : Dev nD) : Cert.Spec.Mat 8192 8192 := W c main_v0_0
abbrev Ym (c : Dev nD) : Cert.Spec.Mat 8192 128 := W c main_v4
abbrev bm (c : Dev nD) : Cert.Spec.Row 128 := W c main_arg9

/-- Entry (r, y) of the first window's block: row r of row block t / 16, column y of column block t % 16. -/
theorem iblk0_apply (c : Dev nD) (t : Fin cfg1.N) (r y : Fin 512) :
    iblk W c 0 t (ix2 r y) = Tm W c (ix2 (Cert.Spec.blk (t.val / 16) r) (Cert.Spec.blk (t.val % 16) y)) := by
  have hN : t.val < 256 := lt_of_lt_of_eq t.isLt (show cfg1.N = 256 from N_1)
  obtain ⟨e00, e01, -⟩ := idx_facts t
  show W c main_v0_0 (((cfg1.win 0).blk t).view.emb (ix2 r y)) = _
  refine congrArg (W c main_v0_0) (funext fun a => Fin.ext ?_)
  match a with
  | ⟨0, _⟩ =>
    show win1_0.index t (0 : Fin 2) * 512 + 1 * r.val = (Cert.Spec.blk (t.val / 16) r).val
    rw [Cert.Spec.blk_val (by omega), e00]; omega
  | ⟨1, _⟩ =>
    show win1_0.index t (1 : Fin 2) * 512 + 1 * y.val = (Cert.Spec.blk (t.val % 16) y).val
    rw [Cert.Spec.blk_val (by omega), e01]; omega

/-- Entry (y, r) of the second window's block: row y of row block t % 16, column r of column block t / 16. -/
theorem iblk1_apply (c : Dev nD) (t : Fin cfg1.N) (y r : Fin 512) :
    iblk W c 1 t (ix2 y r) = Tm W c (ix2 (Cert.Spec.blk (t.val % 16) y) (Cert.Spec.blk (t.val / 16) r)) := by
  have hN : t.val < 256 := lt_of_lt_of_eq t.isLt (show cfg1.N = 256 from N_1)
  obtain ⟨-, -, e10, e11, -⟩ := idx_facts t
  show W c main_v0_0 (((cfg1.win 1).blk t).view.emb (ix2 y r)) = _
  refine congrArg (W c main_v0_0) (funext fun a => Fin.ext ?_)
  match a with
  | ⟨0, _⟩ =>
    show win1_1.index t (0 : Fin 2) * 512 + 1 * y.val = (Cert.Spec.blk (t.val % 16) y).val
    rw [Cert.Spec.blk_val (by omega), e10]; omega
  | ⟨1, _⟩ =>
    show win1_1.index t (1 : Fin 2) * 512 + 1 * r.val = (Cert.Spec.blk (t.val / 16) r).val
    rw [Cert.Spec.blk_val (by omega), e11]; omega

/-- Entry (y, q) of the third window's block: row y of row block t % 16 of Y, column q. -/
theorem iblk2_apply (c : Dev nD) (t : Fin cfg1.N) (y : Fin 512) (q : Fin 128) :
    iblk W c 2 t (ix2 y q) = Ym W c (ix2 (Cert.Spec.blk (t.val % 16) y) q) := by
  have hN : t.val < 256 := lt_of_lt_of_eq t.isLt (show cfg1.N = 256 from N_1)
  obtain ⟨-, -, -, -, e20, e21, -⟩ := idx_facts t
  show W c main_v4 (((cfg1.win 2).blk t).view.emb (ix2 y q)) = _
  refine congrArg (W c main_v4) (funext fun a => Fin.ext ?_)
  match a with
  | ⟨0, _⟩ =>
    show win1_2.index t (0 : Fin 2) * 512 + 1 * y.val = (Cert.Spec.blk (t.val % 16) y).val
    rw [Cert.Spec.blk_val (by omega), e20]; omega
  | ⟨1, _⟩ =>
    show win1_2.index t (1 : Fin 2) * 128 + 1 * q.val = q.val
    rw [e21]; omega

/-- Entry q of the fourth window's block: the bias row's. -/
theorem iblk3_apply (c : Dev nD) (t : Fin cfg1.N) (q : Fin 128) :
    iblk W c 3 t (ix1 q) = bm W c (ix1 q) := by
  obtain ⟨-, -, -, -, -, -, e30, -⟩ := idx_facts t
  show W c main_arg9 (((cfg1.win 3).blk t).view.emb (ix1 q)) = _
  refine congrArg (W c main_arg9) (funext fun a => Fin.ext ?_)
  match a with
  | ⟨0, _⟩ =>
    show win1_3.index t (0 : Fin 1) * 128 + 1 * q.val = q.val
    rw [e30]; omega

/-! ## The running total is the specification's -/

/-- One step on a total, entry by entry. -/
theorem step_apply (x0 x1 : Vec Ideal S512x512 .bf16) (x2 : Vec Ideal S512x128 .bf16) (xs : Vec Ideal S512x128 .f32)
    (r : Fin 512) (q : Fin 128) :
    step x0 x1 x2 xs (ix2 r q)
      = (xs (ix2 r q) + ∑ y : Fin 512, x0 (ix2 r y) * x2 (ix2 y q)) + ∑ y : Fin 512, x1 (ix2 y r) * x2 (ix2 y q) := by
  unfold step
  rw [pay4_apply, pay3_apply]

/-- One step at point `t` on a total, entry by entry, over the arrays. -/
theorem step_at (c : Dev nD) (t : Fin cfg1.N) (xs : Vec Ideal S512x128 .f32) (r : Fin 512) (q : Fin 128) :
    step (iblk W c 0 t) (iblk W c 1 t) (iblk W c 2 t) xs (ix2 r q)
      = (xs (ix2 r q)
          + ∑ y : Fin 512, Tm W c (ix2 (Cert.Spec.blk (t.val / 16) r) (Cert.Spec.blk (t.val % 16) y))
              * Ym W c (ix2 (Cert.Spec.blk (t.val % 16) y) q))
        + ∑ y : Fin 512, Tm W c (ix2 (Cert.Spec.blk (t.val % 16) y) (Cert.Spec.blk (t.val / 16) r))
              * Ym W c (ix2 (Cert.Spec.blk (t.val % 16) y) q) := by
  rw [step_apply]
  refine congrArg₂ (· + ·) (congrArg (xs (ix2 r q) + ·) (Finset.sum_congr rfl fun y _ => ?_)) (Finset.sum_congr rfl fun y _ => ?_)
  · rw [iblk0_apply, iblk2_apply]
  · rw [iblk1_apply, iblk2_apply]

/-- THE INVARIANT. After point `n` = 16 i + k the scratch holds, at (r, q), the specification's total of row
    i·512 + r over the first k + 1 blocks. -/
theorem accAt_apply (c : Dev nD) (n : ℕ) : ∀ (hn : n < cfg1.N) (r : Fin 512) (q : Fin 128),
    accAt W c n hn (ix2 r q)
      = Cert.Spec.gcAcc (Tm W c) (Ym W c) (Cert.Spec.blk (n / 16) r) q (n % 16 + 1) := by
  induction n with
  | zero =>
    intro hn r q
    rw [accAt_Z W c ⟨0, hn⟩ rfl, step_at, pay1_apply]
    rfl
  | succ n ih =>
    intro hn r q
    have hN : n + 1 < 256 := lt_of_lt_of_eq hn (show cfg1.N = 256 from N_1)
    by_cases h0 : (n + 1) % 16 = 0
    · rw [accAt_Z W c ⟨n + 1, hn⟩ h0, step_at, pay1_apply]
      show _ = Cert.Spec.gcAcc _ _ _ _ ((n + 1) % 16 + 1)
      rw [h0]
      rfl
    · rw [accAt_S W c ⟨n + 1, hn⟩ h0, step_at]
      show (accAt W c n _ (ix2 r q) + _) + _ = Cert.Spec.gcAcc _ _ _ _ ((n + 1) % 16 + 1)
      rw [ih]
      have e1 : (n + 1) / 16 = n / 16 := by omega
      have e2 : (n + 1) % 16 = n % 16 + 1 := by omega
      show _ = Cert.Spec.gcAcc (Tm W c) (Ym W c) (Cert.Spec.blk ((n + 1) / 16) r) q ((n + 1) % 16 + 1)
      rw [e1, e2]
      rfl

/-! ## From the blocks to the array -/

/-- WHAT A POINT WITH k = 15 WRITES BACK is row block t / 16 of the layer. -/
theorem flushed_eq (c : Dev nD) (t : Fin cfg1.N) (hf : (cfg1.win 4).flush t = true) :
    (dat (F := Ideal) W c).flushed 4 t
      = ((cfg1.win 4).blk t).view.read (Elt Ideal) (Cert.Spec.layerK (Tm W c) (Ym W c) (bm W c)) := by
  have h15 : t.val % 16 = 15 := (flush1_4 t).mp hf
  have hN : t.val < 256 := lt_of_lt_of_eq t.isLt (show cfg1.N = 256 from N_1)
  obtain ⟨-, -, -, -, -, -, -, e40, e41⟩ := idx_facts t
  show (cfg1.win 4).cut (grid1.coords t) ((dat (F := Ideal) W c).after 4 t) = _
  rw [after_4]
  funext j
  obtain ⟨r, q, rfl⟩ : ∃ (r : Fin 512) (q : Fin 128), j = ix2 r q := ⟨j 0, j 1, eq_ix2 j⟩
  show k1_pay5 (accAt W c t.val t.isLt) (iblk W c 3 t) (ix2 r q)
    = Cert.Spec.layerK (Tm W c) (Ym W c) (bm W c) (((cfg1.win 4).blk t).view.emb (ix2 r q))
  have hemb : ((cfg1.win 4).blk t).view.emb (ix2 r q) = (ix2 (Cert.Spec.blk (t.val / 16) r) q : (⟨2, ![8192, 128]⟩ : Shape).Idx) :=
    funext fun a => Fin.ext (by
      match a with
      | ⟨0, _⟩ =>
        show win1_4.index t (0 : Fin 2) * 512 + 1 * r.val = (Cert.Spec.blk (t.val / 16) r).val
        rw [Cert.Spec.blk_val (by omega), e40]; omega
      | ⟨1, _⟩ =>
        show win1_4.index t (1 : Fin 2) * 128 + 1 * q.val = q.val
        rw [e41]; omega)
  rw [hemb, pay5_apply, accAt_apply, iblk3_apply, h15]
  rfl

/-- An index of the result is in point `t`'s block iff each coordinate is in the block's range on its axis. -/
theorem mem_blk (t : Fin cfg1.N) (i : S8192x128.Idx) :
    i ∈ ((cfg1.win 4).blk t).view.set ↔ ∀ a : Fin 2, win1_4.index t a * S512x128.size a ≤ (i a).val ∧ (i a).val < win1_4.index t a * S512x128.size a + S512x128.size a := by
  show i ∈ ((View.whole main_v5).slice (win1_4.rect t)).set ↔ _
  rw [View.set_slice_whole, Rect.mem_set_unit]
  exact Iff.rfl

/-- Every entry of the result is written: row ρ by the last point of row ρ / 512 of the grid. -/
theorem covered (i : S8192x128.Idx) : ∃ t : Fin cfg1.N, (cfg1.win 4).flush t = true ∧ i ∈ ((cfg1.win 4).blk t).view.set := by
  have hi0 : (i 0).val < 8192 := (i 0).isLt
  have hi1 : (i 1).val < 128 := (i 1).isLt
  have hlt : (i 0).val / 512 * 16 + 15 < cfg1.N := by rw [show cfg1.N = 256 from N_1]; omega
  obtain ⟨-, -, -, -, -, -, -, e40, e41⟩ := idx_facts ⟨(i 0).val / 512 * 16 + 15, hlt⟩
  have e40' : win1_4.index ⟨(i 0).val / 512 * 16 + 15, hlt⟩ (0 : Fin 2) = ((i 0).val / 512 * 16 + 15) / 16 := e40
  refine ⟨⟨(i 0).val / 512 * 16 + 15, hlt⟩, (flush1_4 _).mpr (by show ((i 0).val / 512 * 16 + 15) % 16 = 15; omega), ?_⟩
  rw [mem_blk]
  intro a
  match a with
  | ⟨0, _⟩ =>
    show win1_4.index ⟨(i 0).val / 512 * 16 + 15, hlt⟩ (0 : Fin 2) * 512 ≤ (i 0).val
      ∧ (i 0).val < win1_4.index ⟨(i 0).val / 512 * 16 + 15, hlt⟩ (0 : Fin 2) * 512 + 512
    rw [e40']; omega
  | ⟨1, _⟩ =>
    show win1_4.index ⟨(i 0).val / 512 * 16 + 15, hlt⟩ (1 : Fin 2) * 128 ≤ (i 1).val
      ∧ (i 1).val < win1_4.index ⟨(i 0).val / 512 * 16 + 15, hlt⟩ (1 : Fin 2) * 128 + 128
    rw [e41]; omega

/-- THE RESULT after the run: the layer as the device computes it, of the relation matrix, Y and the bias row as the
    region finds them. -/
theorem final1_4 (W : Entry Ideal) (c : Dev nD) :
    (dat (F := Ideal) W c).arrAt 4 cfg1.N = Cert.Spec.layerK (W c main_v0_0) (W c main_v4) (W c main_arg9) :=
  (dat (F := Ideal) W c).arrAt_eq_of_cover 4 (Cert.Spec.layerK (Tm W c) (Ym W c) (bm W c)) (fun t hf => flushed_eq W c t hf) (covered)

end Cert.KernelIdeal.R1

end
-- ==== Proof.R2Value.lean ====
import proofs.«177282_j10187662426197_2_alg».proof.Proof.R2Frame
import proofs.«177282_j10187662426197_2_alg».proof.Proof.Spec
import proofs.«177282_j10187662426197_2_alg».proof.Proof.LibColumnProducts
import proofs.«177282_j10187662426197_2_alg».proof.Proof.LibMatProd
import Idealize.ShloMosaic.Lib.ValueLayout
import Idealize.ShloMosaic.Lib.Pipeline.Value

/-!
# The third grid's result, entry by entry, over the extended reals

Over the extended reals a change of float format is the identity and a matrix product into a zero accumulator is
a plain sum. So at point `(i, k)` of the grid the accumulator's update reads, at row `a` and column `q` of the block,

  s[a, q]  ↦  (s[a, q] + ∑ y, T[i·512 + a, k·512 + y] · Y[k·512 + y, q]) + ∑ y, T[k·512 + y, i·512 + a] · Y[k·512 + y, q],

the first sum from the product of block `(i, k)` of `T` with block `k` of `Y`, the second from the product that
contracts the leading axis of block `(k, i)` of `T` with the same block of `Y`. Starting from zero at `k = 0`, after
point `(i, k)` the accumulator therefore holds the running total `gcAcc T Y (i·512 + a) q (k + 1)` (induction along
the row), and the block written at `k = 15` is `(U₁ + (total of sixteen blocks + bias)) · ½` at the rows of block `i`:
block `i` of `readoutK T Y b U₁`. The sixteen written blocks tile the result array.
-/

set_option maxRecDepth 16384

noncomputable section

namespace Cert.KernelIdeal.R2

open Cert.KernelIdeal Cert.KernelIdeal.Gen
open Idealize.ShloMosaic Idealize.ShloMosaic.TcCoe Idealize.ShloMosaic.ValueIdx
open Idealize.ShloMosaic.Pipeline (Dat Cfg Window)
open Cert.RowLayers Cert.ColumnProducts Cert.Spec

/-! ## The two products' dimension numbers -/

/-- The first product reads its left operand along rows: entry (p, q) is the sum over k of lhs[p, k] · rhs[k, q]. -/
theorem rowsCols : RowsTimesCols dot_S512x512_S512x128_S512x128_1_0_0_1_n_n :=
  ⟨rfl, rfl, fun _ _ => rfl, fun _ _ => rfl, fun _ _ => rfl, fun _ _ => rfl⟩

/-- The second contracts the leading axis of both operands: entry (p, q) is the sum over k of lhs[k, p] · rhs[k, q]. -/
theorem colsCols : ColsTimesCols dot_S512x512_S512x128_S512x128_0_0_1_1_n_n :=
  ⟨rfl, rfl, fun _ _ => rfl, fun _ _ => rfl, fun _ _ => rfl, fun _ _ => rfl⟩

/-! ## The body's stored values, entry by entry -/

/-- The accumulator starts a row at zero. -/
theorem pay1_apply (a : Fin 512) (q : Fin 128) : k2_pay1 (F := Ideal) (ix2 a q) = 0 := by
  unfold k2_pay1
  simp only [shapeCast_self]
  exact Ideal.ofBits_zero_f32

/-- First update: the accumulator gains row `a` of the first block times column `q` of the tall block. -/
theorem pay3_apply (x0 : FVec Ideal S512x512 .bf16) (x2 : FVec Ideal S512x128 .bf16) (s : FVec Ideal S512x128 .f32)
    (a : Fin 512) (q : Fin 128) :
    k2_pay3 x0 x2 s (ix2 a q) = s (ix2 a q) + ∑ y : Fin 512, x0 (ix2 a y) * x2 (ix2 y q) := by
  unfold k2_pay3 k2_pay2
  simp only [shapeCast_self]
  exact congrArg (s (ix2 a q) + ·) (congrFun (rowOf_matmul_zero rowsCols none x0 x2 a) q)

/-- Second update: it gains COLUMN `a` of the second block times column `q` of the tall block. -/
theorem pay4_apply (x1 : FVec Ideal S512x512 .bf16) (x2 : FVec Ideal S512x128 .bf16) (s : FVec Ideal S512x128 .f32)
    (a : Fin 512) (q : Fin 128) :
    k2_pay4 x1 x2 s (ix2 a q) = s (ix2 a q) + ∑ y : Fin 512, x1 (ix2 y a) * x2 (ix2 y q) := by
  unfold k2_pay4 k2_pay2
  simp only [shapeCast_self]
  exact congrArg (s (ix2 a q) + ·) (colsCols.matmul_zero_apply none x1 x2 a q)

/-- The written block: (addend + (accumulator + bias)) · ½. -/
theorem pay5_apply (acc : FVec Ideal S512x128 .f32) (b : FVec Ideal S128 .f32) (u : FVec Ideal S512x128 .f32)
    (a : Fin 512) (q : Fin 128) :
    k2_pay5 acc b u (ix2 a q) = (u (ix2 a q) + (acc (ix2 a q) + b (ix1 q))) * half := by
  unfold k2_pay5
  simp only [shapeCast_self]
  show (u (ix2 a q) + (acc (ix2 a q) + broadcastTo S512x128 (shapeCast S1x128 b shapeCasts_S128_S1x128) broadcasts_S1x128_S512x128 (ix2 a q))) * half = _
  rw [broadcastTo_1b_ab_apply, shapeCast_a_1a_apply]

/-! ## Which blocks a point stages

Point `t` is `(i, k) = (t / 16, t % 16)`: the first window stages block `(i, k)` of the square matrix, the second
block `(k, i)`, the third block `k` of the tall matrix, the fourth block `i` of the addend, the fifth the bias row,
and the output window block `i` of the result. -/

theorem idx_facts : ∀ t : Fin cfg2.N,
    win2_0.index t (0 : Fin 2) = t.val / 16 ∧ win2_0.index t (1 : Fin 2) = t.val % 16
    ∧ win2_1.index t (0 : Fin 2) = t.val % 16 ∧ win2_1.index t (1 : Fin 2) = t.val / 16
    ∧ win2_2.index t (0 : Fin 2) = t.val % 16 ∧ win2_2.index t (1 : Fin 2) = 0
    ∧ win2_3.index t (0 : Fin 2) = t.val / 16 ∧ win2_3.index t (1 : Fin 2) = 0
    ∧ win2_4.index t (0 : Fin 1) = 0
    ∧ win2_5.index t (0 : Fin 2) = t.val / 16 ∧ win2_5.index t (1 : Fin 2) = 0 :=
  (by decide +kernel : ∀ t : Fin grid2.N, _)

variable (W : Entry Ideal) (c : Dev nD)

/-- The four arrays the grid reads, as arrays of extended reals: the square matrix, the tall matrix, the bias row, the addend. -/
abbrev Tm : Mat 8192 8192 := W c main_v0_0
abbrev Ym : Mat 8192 128 := W c main_v9
abbrev Bm : Row 128 := W c main_arg11
abbrev Um : Mat 8192 128 := W c main_v5

/-- Entry (a, b) of the first window's block is entry (block i at a, block k at b) of the square matrix. -/
theorem blk0_apply (t : Fin cfg2.N) (a b : Fin 512) :
    iblk W c 0 t (ix2 a b) = Tm W c (ix2 (blk (t.val / 16) a) (blk (t.val % 16) b)) := by
  obtain ⟨e0, e1, -⟩ := idx_facts t
  have hN : t.val < 256 := lt_of_lt_of_eq t.isLt N_2
  unfold iblk
  show W c main_v0_0 (((cfg2.win 0).blk t).view.emb (ix2 a b)) = _
  refine congrArg (W c main_v0_0) (funext fun ax => Fin.ext ?_)
  match ax with
  | ⟨0, _⟩ =>
    show win2_0.index t (0 : Fin 2) * 512 + 1 * a.val = (blk (t.val / 16) a).val
    rw [blk_val (by omega), e0]; omega
  | ⟨1, _⟩ =>
    show win2_0.index t (1 : Fin 2) * 512 + 1 * b.val = (blk (t.val % 16) b).val
    rw [blk_val (by omega), e1]; omega

/-- Entry (a, b) of the second window's block is entry (block k at a, block i at b) of the square matrix. -/
theorem blk1_apply (t : Fin cfg2.N) (a b : Fin 512) :
    iblk W c 1 t (ix2 a b) = Tm W c (ix2 (blk (t.val % 16) a) (blk (t.val / 16) b)) := by
  obtain ⟨-, -, e0, e1, -⟩ := idx_facts t
  have hN : t.val < 256 := lt_of_lt_of_eq t.isLt N_2
  unfold iblk
  show W c main_v0_0 (((cfg2.win 1).blk t).view.emb (ix2 a b)) = _
  refine congrArg (W c main_v0_0) (funext fun ax => Fin.ext ?_)
  match ax with
  | ⟨0, _⟩ =>
    show win2_1.index t (0 : Fin 2) * 512 + 1 * a.val = (blk (t.val % 16) a).val
    rw [blk_val (by omega), e0]; omega
  | ⟨1, _⟩ =>
    show win2_1.index t (1 : Fin 2) * 512 + 1 * b.val = (blk (t.val / 16) b).val
    rw [blk_val (by omega), e1]; omega

/-- Entry (a, q) of the third window's block is entry (block k at a, q) of the tall matrix. -/
theorem blk2_apply (t : Fin cfg2.N) (a : Fin 512) (q : Fin 128) :
    iblk W c 2 t (ix2 a q) = Ym W c (ix2 (blk (t.val % 16) a) q) := by
  obtain ⟨-, -, -, -, e0, e1, -⟩ := idx_facts t
  have hN : t.val < 256 := lt_of_lt_of_eq t.isLt N_2
  unfold iblk
  show W c main_v9 (((cfg2.win 2).blk t).view.emb (ix2 a q)) = _
  refine congrArg (W c main_v9) (funext fun ax => Fin.ext ?_)
  match ax with
  | ⟨0, _⟩ =>
    show win2_2.index t (0 : Fin 2) * 512 + 1 * a.val = (blk (t.val % 16) a).val
    rw [blk_val (by omega), e0]; omega
  | ⟨1, _⟩ =>
    show win2_2.index t (1 : Fin 2) * 128 + 1 * q.val = q.val
    rw [e1]; omega

/-- Entry (a, q) of the fourth window's block is entry (block i at a, q) of the addend. -/
theorem blk3_apply (t : Fin cfg2.N) (a : Fin 512) (q : Fin 128) :
    iblk W c 3 t (ix2 a q) = Um W c (ix2 (blk (t.val / 16) a) q) := by
  obtain ⟨-, -, -, -, -, -, e0, e1, -⟩ := idx_facts t
  have hN : t.val < 256 := lt_of_lt_of_eq t.isLt N_2
  unfold iblk
  show W c main_v5 (((cfg2.win 3).blk t).view.emb (ix2 a q)) = _
  refine congrArg (W c main_v5) (funext fun ax => Fin.ext ?_)
  match ax with
  | ⟨0, _⟩ =>
    show win2_3.index t (0 : Fin 2) * 512 + 1 * a.val = (blk (t.val / 16) a).val
    rw [blk_val (by omega), e0]; omega
  | ⟨1, _⟩ =>
    show win2_3.index t (1 : Fin 2) * 128 + 1 * q.val = q.val
    rw [e1]; omega

/-- The fifth window's block is the whole bias row. -/
theorem blk4_apply (t : Fin cfg2.N) (q : Fin 128) :
    iblk W c 4 t (ix1 q) = Bm W c (ix1 q) := by
  obtain ⟨-, -, -, -, -, -, -, -, e0, -⟩ := idx_facts t
  unfold iblk
  show W c main_arg11 (((cfg2.win 4).blk t).view.emb (ix1 q)) = _
  refine congrArg (W c main_arg11) (funext fun ax => Fin.ext ?_)
  match ax with
  | ⟨0, _⟩ =>
    show win2_4.index t (0 : Fin 1) * 128 + 1 * q.val = q.val
    rw [e0]; omega

/-! ## The accumulator along a row -/

/-- One point's update, entry by entry, in terms of the whole matrices. -/
theorem step_apply (t : Fin cfg2.N) (s : FVec Ideal S512x128 .f32) (a : Fin 512) (q : Fin 128) :
    stepAcc (iblk W c 0 t) (iblk W c 1 t) (iblk W c 2 t) s (ix2 a q)
      = (s (ix2 a q) + ∑ y : Fin 512, Tm W c (ix2 (blk (t.val / 16) a) (blk (t.val % 16) y)) * Ym W c (ix2 (blk (t.val % 16) y) q))
        + ∑ y : Fin 512, Tm W c (ix2 (blk (t.val % 16) y) (blk (t.val / 16) a)) * Ym W c (ix2 (blk (t.val % 16) y) q) := by
  unfold stepAcc
  rw [pay4_apply, pay3_apply]
  congr 1
  · congr 1
    exact Finset.sum_congr rfl fun y _ => by rw [blk0_apply, blk2_apply]
  · exact Finset.sum_congr rfl fun y _ => by rw [blk1_apply, blk2_apply]

/-- After point `n = 16 i + k` the accumulator holds the total over the first `k + 1` blocks, for the rows of block `i`. -/
theorem accAt_apply (n : ℕ) : ∀ (hn : n < cfg2.N) (a : Fin 512) (q : Fin 128),
    accAt W c n hn (ix2 a q) = gcAcc (Tm W c) (Ym W c) (blk (n / 16) a) q (n % 16 + 1) := by
  induction n using Nat.strong_induction_on with
  | _ n ih =>
    intro hn a q
    by_cases h0 : n % 16 = 0
    · rw [congrFun (accAt_first W c ⟨n, hn⟩ h0) (ix2 a q), step_apply W c ⟨n, hn⟩, pay1_apply]
      show _ = gcAcc (Tm W c) (Ym W c) (blk (n / 16) a) q (n % 16 + 1)
      rw [h0]
      rfl
    · have hp : n - 1 < n := by omega
      have e1 : (n - 1) / 16 = n / 16 := by omega
      have e2 : (n - 1) % 16 + 1 = n % 16 := by omega
      rw [congrFun (accAt_next W c ⟨n, hn⟩ h0) (ix2 a q), step_apply W c ⟨n, hn⟩]
      show (accAt W c (n - 1) _ (ix2 a q) + _) + _ = _
      rw [ih (n - 1) hp, e1, e2]
      rfl

/-- The block written at a row's last point, entry by entry: the readout at the rows of block `i`. -/
theorem outAt_apply (t : Fin cfg2.N) (h : t.val % 16 = 15) (a : Fin 512) (q : Fin 128) :
    outAt W c t (ix2 a q) = readoutK (Tm W c) (Ym W c) (Bm W c) (Um W c) (ix2 (blk (t.val / 16) a) q) := by
  unfold outAt
  rw [pay5_apply, accAt_apply, blk3_apply, blk4_apply, h]
  rfl

/-! ## From blocks to the array -/

/-- What the write-back at a row's last point writes is that block of the readout. -/
theorem flushed_eq (t : Fin cfg2.N) (hf : (cfg2.win 5).flush t = true) :
    (dat W c).flushed 5 t = ((cfg2.win 5).blk t).view.read (Elt Ideal) (readoutK (Tm W c) (Ym W c) (Bm W c) (Um W c)) := by
  have h15 : t.val % 16 = 15 := (flush2_5 t).mp hf
  obtain ⟨-, -, -, -, -, -, -, -, -, e0, e1⟩ := idx_facts t
  have hN : t.val < 256 := lt_of_lt_of_eq t.isLt N_2
  show (cfg2.win 5).cut (grid2.coords t) ((dat W c).after 5 t) = _
  rw [after_5]
  funext j
  obtain ⟨a, q, rfl⟩ : ∃ (a : Fin 512) (q : Fin 128), j = ix2 a q := ⟨j 0, j 1, eq_ix2 j⟩
  show outAt W c t (ix2 a q) = readoutK (Tm W c) (Ym W c) (Bm W c) (Um W c) (((cfg2.win 5).blk t).view.emb (ix2 a q))
  rw [outAt_apply W c t h15]
  refine congrArg (readoutK (Tm W c) (Ym W c) (Bm W c) (Um W c)) (funext fun ax => Fin.ext ?_)
  match ax with
  | ⟨0, _⟩ =>
    show (blk (t.val / 16) a).val = win2_5.index t (0 : Fin 2) * 512 + 1 * a.val
    rw [blk_val (by omega), e0]; omega
  | ⟨1, _⟩ =>
    show q.val = win2_5.index t (1 : Fin 2) * 128 + 1 * q.val
    rw [e1]; omega

/-- An entry of the result is in point `t`'s block iff each coordinate is in the block's range on its axis. -/
theorem mem_blk5 (t : Fin cfg2.N) (i : S8192x128.Idx) :
    i ∈ ((cfg2.win 5).blk t).view.set ↔ ∀ a : Fin 2, win2_5.index t a * S512x128.size a ≤ (i a).val ∧ (i a).val < win2_5.index t a * S512x128.size a + S512x128.size a := by
  show i ∈ ((View.whole main_v10).slice (win2_5.rect t)).set ↔ _
  rw [View.set_slice_whole, Rect.mem_set_unit]
  exact Iff.rfl

/-- Every entry of the result lies in the block written at the last point of its row of blocks. -/
theorem cover5 (i : S8192x128.Idx) : ∃ t : Fin cfg2.N, (cfg2.win 5).flush t = true ∧ i ∈ ((cfg2.win 5).blk t).view.set := by
  have hi0 : (i 0).val < 8192 := (i 0).isLt
  have hi1 : (i 1).val < 128 := (i 1).isLt
  have hlt : (i 0).val / 512 * 16 + 15 < cfg2.N := by rw [show cfg2.N = 256 from N_2]; omega
  obtain ⟨-, -, -, -, -, -, -, -, -, e0, e1⟩ := idx_facts ⟨(i 0).val / 512 * 16 + 15, hlt⟩
  have e0' : win2_5.index ⟨(i 0).val / 512 * 16 + 15, hlt⟩ (0 : Fin 2) = ((i 0).val / 512 * 16 + 15) / 16 := e0
  refine ⟨⟨(i 0).val / 512 * 16 + 15, hlt⟩, (flush2_5 _).mpr (by show ((i 0).val / 512 * 16 + 15) % 16 = 15; omega), ?_⟩
  rw [mem_blk5]
  intro ax
  match ax with
  | ⟨0, _⟩ =>
    show win2_5.index ⟨(i 0).val / 512 * 16 + 15, hlt⟩ (0 : Fin 2) * 512 ≤ (i 0).val ∧ (i 0).val < win2_5.index ⟨(i 0).val / 512 * 16 + 15, hlt⟩ (0 : Fin 2) * 512 + 512
    rw [e0']; omega
  | ⟨1, _⟩ =>
    show win2_5.index ⟨(i 0).val / 512 * 16 + 15, hlt⟩ (1 : Fin 2) * 128 ≤ (i 1).val ∧ (i 1).val < win2_5.index ⟨(i 0).val / 512 * 16 + 15, hlt⟩ (1 : Fin 2) * 128 + 128
    rw [e1]; omega

/-- THE RESULT ARRAY after the grid: the readout of the four arrays the grid read, entry by entry. -/
theorem final2_5 : (dat (F := Ideal) W c).arrAt 5 cfg2.N = Cert.Spec.readoutK (W c main_v0_0) (W c main_v9) (W c main_arg11) (W c main_v5) :=
  (dat W c).arrAt_eq_of_cover 5 _ (fun t hf => flushed_eq W c t hf) cover5

end Cert.KernelIdeal.R2

end
-- ==== Proof.AsmValue.lean ====
/-
  The device's results at the ideal instance, as functions of the twelve arguments.

  The last contents of each result buffer are traced back through the five items: the third region's result is its
  accumulated second layer with the readout, whose operands are the mix (unchanged since the first region wrote it), the
  host product U₁·W₂ (changes of float format are the identity over the extended reals, and the host's contraction is
  rows times columns), the last bias row as launched and the first layer as the second region wrote it; the first layer
  in turn reads the mix, the host product X·W₁ and the first bias row. The three token-feature results are not touched
  after the first region.
-/
import proofs.«177282_j10187662426197_2_alg».proof.Proof.Asm
import proofs.«177282_j10187662426197_2_alg».proof.Proof.R0Value
import proofs.«177282_j10187662426197_2_alg».proof.Proof.R1Value
import proofs.«177282_j10187662426197_2_alg».proof.Proof.R2Value
import proofs.«177282_j10187662426197_2_alg».proof.Proof.Spec
import proofs.«177282_j10187662426197_2_alg».proof.Proof.LibMatProd
import Idealize.ShloMosaic.Lib.StableHlo.Run

noncomputable section

namespace Cert.KernelIdeal.Asm

open Cert.KernelIdeal Cert.KernelIdeal.Gen
open Idealize.ShloMosaic Idealize.ShloMosaic.TcCoe Idealize.ShloMosaic.StableHlo
open Idealize.SL Idealize.SL.Sem
open Cert.Spec

/-! ## The device's results at the ideal instance, as the specification's functions of the arguments -/

variable (m : (ℓ : Loc nD τ sig) → Buf (Elt Ideal) ℓ)

/-- The two host contractions are rows times columns. -/
theorem xw_dims : Cert.RowLayers.RowsTimesCols dot_S8192x256_S256x128_S8192x128_1_0_0_1_n_n where
  rank := rfl
  size := rfl
  lhs0 i q := by
    unfold DotDims.lhsIdx
    rw [dif_neg (show ¬(0 : Fin S8192x256.rank) ∈ dot_S8192x256_S256x128_S8192x128_1_0_0_1_n_n.lhsBatch by decide), dif_pos (show (0 : Fin S8192x256.rank) ∈ dot_S8192x256_S256x128_S8192x128_1_0_0_1_n_n.lhsNonContracting by decide)]
    rfl
  lhs1 i q := dot_S8192x256_S256x128_S8192x128_1_0_0_1_n_n.lhsIdx_val_of_single rfl i q
  rhs0 i q := dot_S8192x256_S256x128_S8192x128_1_0_0_1_n_n.rhsIdx_val_of_single rfl i q
  rhs1 i q := by
    unfold DotDims.rhsIdx
    rw [dif_neg (show ¬(1 : Fin S256x128.rank) ∈ dot_S8192x256_S256x128_S8192x128_1_0_0_1_n_n.rhsBatch by decide), dif_pos (show (1 : Fin S256x128.rank) ∈ dot_S8192x256_S256x128_S8192x128_1_0_0_1_n_n.rhsNonContracting by decide)]
    rfl

theorem uw_dims : Cert.RowLayers.RowsTimesCols dot_S8192x128_S128x128_S8192x128_1_0_0_1_n_n where
  rank := rfl
  size := rfl
  lhs0 i q := by
    unfold DotDims.lhsIdx
    rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
    rfl
  lhs1 i q := dot_S8192x128_S128x128_S8192x128_1_0_0_1_n_n.lhsIdx_val_of_single rfl i q
  rhs0 i q := dot_S8192x128_S128x128_S8192x128_1_0_0_1_n_n.rhsIdx_val_of_single rfl i q
  rhs1 i q := by
    unfold DotDims.rhsIdx
    rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
    rfl

/-- A buffer the first host stretch does not write. -/
theorem W2_of (c : Dev nD) (r : Ref sig .tc) (h : r ∉ hostOps1_W) : W2 m c r = W1 m c r :=
  StableHlo.after_of_writes_sub hostOps1 _ hostOps1_writes h
/-- A buffer the second host stretch does not write. -/
theorem W4_of (c : Dev nD) (r : Ref sig .tc) (h : r ∉ hostOps2_W) : W4 m c r = W3 m c r :=
  StableHlo.after_of_writes_sub hostOps2 _ hostOps2_writes h

/-- The first host stretch leaves X·W₁ (changes of float format are the identity here). -/
theorem W2_v4 (c : Dev nD) :
    W2 m c main_v4 = Cert.MatProd.prod (m ((c : Thread nD τ).loc main_arg0)) (m ((c : Thread nD τ).loc main_arg8)) := by
  have e : (W2 m c main_v4 : FVec Ideal S8192x128 .bf16) = truncf (F := Ideal) .bf16 (Host.dotGeneral (F := Ideal) dot_S8192x256_S256x128_S8192x128_1_0_0_1_n_n none
      (truncf (F := Ideal) .bf16 (W1 m c main_arg0 : FVec Ideal S8192x256 .f32) bitsLt_bf16_f32)
      (truncf (F := Ideal) .bf16 (W1 m c main_arg8 : FVec Ideal S256x128 .f32) bitsLt_bf16_f32)) bitsLt_bf16_f32 := by
    show StableHlo.after hostOps1 (W1 m c) (Proc.devRef .tc main_v4) = _
    after_results
  rw [e, W1_of m c main_arg0 (by decide), W1_of m c main_arg8 (by decide)]
  exact Cert.MatProd.dotGeneral_eq_prod xw_dims none _ _

/-- The second host stretch leaves U₁·W₂. -/
theorem W4_v9 (c : Dev nD) :
    W4 m c main_v9 = Cert.MatProd.prod (W3 m c main_v5) (m ((c : Thread nD τ).loc main_arg10)) := by
  have e : (W4 m c main_v9 : FVec Ideal S8192x128 .bf16) = truncf (F := Ideal) .bf16 (Host.dotGeneral (F := Ideal) dot_S8192x128_S128x128_S8192x128_1_0_0_1_n_n none
      (truncf (F := Ideal) .bf16 (W3 m c main_v5 : FVec Ideal S8192x128 .f32) bitsLt_bf16_f32)
      (truncf (F := Ideal) .bf16 (W3 m c main_arg10 : FVec Ideal S128x128 .f32) bitsLt_bf16_f32)) bitsLt_bf16_f32 := by
    show StableHlo.after hostOps2 (W3 m c) (Proc.devRef .tc main_v9) = _
    after_results
  rw [e, W3_of m c main_arg10 (by decide), W2_of m c main_arg10 (by decide), W1_of m c main_arg10 (by decide)]
  exact Cert.MatProd.dotGeneral_eq_prod uw_dims none _ _

/-- The mix, as the first region leaves it. -/
theorem mixK (c : Dev nD) : W1 m c main_v0_0 = mix (m ((c : Thread nD τ).loc main_arg1)) (m ((c : Thread nD τ).loc main_arg2))
    (m ((c : Thread nD τ).loc main_arg3)) (m ((c : Thread nD τ).loc main_arg7)) :=
  (W1_v0_0 m c).trans (R0.final0_7 (E0 m) c)

/-- The first layer, as the second region leaves it. -/
theorem layer1K (c : Dev nD) : W3 m c main_v5 = layerK (W1 m c main_v0_0)
    (Cert.MatProd.prod (m ((c : Thread nD τ).loc main_arg0)) (m ((c : Thread nD τ).loc main_arg8))) (m ((c : Thread nD τ).loc main_arg9)) := by
  rw [W3_self, R1.final1_4 (E2 m) c]
  show layerK (W2 m c main_v0_0) (W2 m c main_v4) (W2 m c main_arg9) = _
  rw [W2_of m c main_v0_0 (by decide), W2_v4, W2_of m c main_arg9 (by decide), W1_of m c main_arg9 (by decide)]

/-- THE FIRST RESULT. -/
theorem outK_eq (c : Dev nD) : W5 m c main_v10 = outK (m ((c : Thread nD τ).loc main_arg0)) (m ((c : Thread nD τ).loc main_arg1))
    (m ((c : Thread nD τ).loc main_arg2)) (m ((c : Thread nD τ).loc main_arg3)) (m ((c : Thread nD τ).loc main_arg7))
    (m ((c : Thread nD τ).loc main_arg8)) (m ((c : Thread nD τ).loc main_arg9)) (m ((c : Thread nD τ).loc main_arg10))
    (m ((c : Thread nD τ).loc main_arg11)) := by
  rw [W5_self, R2.final2_5 (E4 m) c]
  show readoutK (W4 m c main_v0_0) (W4 m c main_v9) (W4 m c main_arg11) (W4 m c main_v5) = _
  rw [W4_of m c main_v0_0 (by decide), W3_of m c main_v0_0 (by decide), W2_of m c main_v0_0 (by decide), W4_v9,
    W4_of m c main_arg11 (by decide), W3_of m c main_arg11 (by decide), W2_of m c main_arg11 (by decide), W1_of m c main_arg11 (by decide),
    W4_of m c main_v5 (by decide), layer1K, mixK]
  rfl

/-- The three token-feature results reach the end as the first region leaves them. -/
theorem tok1K (c : Dev nD) : W5 m c main_v0_1 = tokFeatK (m ((c : Thread nD τ).loc main_arg1)) (m ((c : Thread nD τ).loc main_arg4)) := by
  rw [W5_of m c main_v0_1 (by decide), W4_of m c main_v0_1 (by decide), W3_of m c main_v0_1 (by decide), W2_of m c main_v0_1 (by decide), W1_v0_1]
  exact R0.final0_8 (E0 m) c
theorem tok2K (c : Dev nD) : W5 m c main_v0_2 = tokFeatK (m ((c : Thread nD τ).loc main_arg2)) (m ((c : Thread nD τ).loc main_arg5)) := by
  rw [W5_of m c main_v0_2 (by decide), W4_of m c main_v0_2 (by decide), W3_of m c main_v0_2 (by decide), W2_of m c main_v0_2 (by decide), W1_v0_2]
  exact R0.final0_9 (E0 m) c
theorem tok3K (c : Dev nD) : W5 m c main_v0_3 = tokFeatK (m ((c : Thread nD τ).loc main_arg3)) (m ((c : Thread nD τ).loc main_arg6)) := by
  rw [W5_of m c main_v0_3 (by decide), W4_of m c main_v0_3 (by decide), W3_of m c main_v0_3 (by decide), W2_of m c main_v0_3 (by decide), W1_v0_3]
  exact R0.final0_10 (E0 m) c

end Cert.KernelIdeal.Asm

end
-- ==== Proof.RefValue.lean ====
/-
  The reference program, read as the specification.

  Stage by stage the reference forms: the three scalar weights w₀ w₁ w₂ (the [3,1] column flattened, sliced and made
  rank 0), the mix T = A₁·w₀ + A₂·w₁ + A₃·w₂, its transpose and the sum T + Tᵀ, the product X·W₁, the first layer
  (T + Tᵀ)·(X·W₁) + b₁, the product U₁·W₂, the second layer, and (U₁ + U₂)·½. Each stage is read at an index through the
  stage lemmas of the generated reading of the run; a contraction is a sum over the contracted position, whose operand
  indices are the coordinates (row, k) and (k, column).
-/
import proofs.«177282_j10187662426197_2_alg».proof.Proof.Gen.ReferenceIdeal.Read
import proofs.«177282_j10187662426197_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Spec

/-! ## The scalar weights -/

/-- The rank-0 array made of entry j of the flattened weight column holds that entry. -/
theorem rank0_of_slice (y : S1.Idx → EReal) (i : S_.Idx) : shapeCast S_ y shapeCasts_S1_S_ i = y (ix1 0) :=
  shapeCast_apply y shapeCasts_S1_S_ i (ix1 0) (by
    rw [Shape.rowMajor_val_one]
    have h := (S_.rowMajor i).isLt
    have h1 : S_.numel = 1 := rfl
    show 0 = _
    omega)

theorem weight0 (x7 : S3x1.Idx → EReal) (i : S8192x8192.Idx) : val_main_v6 (F := Ideal) x7 i = x7 (ix2 0 0) := by
  rw [val_main_v6_apply]
  unfold val_main_v5
  rw [rank0_of_slice, val_main_v4_apply, val_main_v3_apply]
  exact congrArg x7 (funext fun a => Fin.ext (by match a with | ⟨0, _⟩ => rfl | ⟨1, _⟩ => rfl))

theorem weight1 (x7 : S3x1.Idx → EReal) (i : S8192x8192.Idx) : val_main_v10 (F := Ideal) x7 i = x7 (ix2 1 0) := by
  rw [val_main_v10_apply]
  unfold val_main_v9
  rw [rank0_of_slice, val_main_v8_apply, val_main_v3_apply]
  exact congrArg x7 (funext fun a => Fin.ext (by match a with | ⟨0, _⟩ => rfl | ⟨1, _⟩ => rfl))

theorem weight2 (x7 : S3x1.Idx → EReal) (i : S8192x8192.Idx) : val_main_v15 (F := Ideal) x7 i = x7 (ix2 2 0) := by
  rw [val_main_v15_apply]
  unfold val_main_v14
  rw [rank0_of_slice, val_main_v13_apply, val_main_v3_apply]
  exact congrArg x7 (funext fun a => Fin.ext (by match a with | ⟨0, _⟩ => rfl | ⟨1, _⟩ => rfl))

/-! ## The mix and its symmetrisation -/

theorem mix_eq (x1 x2 x3 : S8192x8192.Idx → EReal) (x7 : S3x1.Idx → EReal) :
    val_main_v17 (F := Ideal) x1 x2 x3 x7 = mix x1 x2 x3 x7 := by
  funext i
  rw [val_main_v17_apply, val_main_v12_apply, val_main_v7_apply, val_main_v11_apply, val_main_v16_apply, weight0, weight1, weight2]
  rfl

/-- Entry (r, k) of T + Tᵀ. -/
theorem sym_apply (x1 x2 x3 : S8192x8192.Idx → EReal) (x7 : S3x1.Idx → EReal) (r k : Fin 8192) :
    val_main_v19 (F := Ideal) x1 x2 x3 x7 (ix2 r k) = mix x1 x2 x3 x7 (ix2 r k) + mix x1 x2 x3 x7 (ix2 k r) := by
  rw [val_main_v19_apply, val_main_v18_apply, mix_eq]
  show _ + mix x1 x2 x3 x7 (idx_main_v18 (ix2 r k)) = _
  rw [show idx_main_v18 (ix2 r k) = ix2 k r from funext fun a => Fin.ext (by match a with | ⟨0, _⟩ => rfl | ⟨1, _⟩ => rfl)]

/-! ## The products -/

theorem xw_eq (x0 : S8192x256.Idx → EReal) (x8 : S256x128.Idx → EReal) :
    val_main_v20 (F := Ideal) x0 x8 = Cert.MatProd.prod x0 x8 := by
  funext i
  obtain ⟨r, q, rfl⟩ : ∃ (r : Fin 8192) (q : Fin 128), i = ix2 r q := ⟨i 0, i 1, eq_ix2 i⟩
  rw [val_main_v20_apply, Cert.MatProd.prod_apply]
  refine Finset.sum_congr rfl fun k _ => ?_
  rw [show lidx_main_v20 (ix2 r q) k = ix2 r k from funext fun a => Fin.ext (by match a with | ⟨0, _⟩ => rfl | ⟨1, _⟩ => rfl),
    show ridx_main_v20 (ix2 r q) k = ix2 k q from funext fun a => Fin.ext (by match a with | ⟨0, _⟩ => rfl | ⟨1, _⟩ => rfl)]

/-- A token-feature product of the reference is the matrix product. -/
theorem tok_eq (x1 : FVec Ideal S8192x8192 .f32) (x4 : FVec Ideal S8192x10 .f32) :
    Host.dotGeneral (F := Ideal) dot_S8192x8192_S8192x10_S8192x10_1_0_0_1_n_n none x1 x4 = Cert.MatProd.prod x1 x4 := by
  funext i
  obtain ⟨r, q, rfl⟩ : ∃ (r : Fin 8192) (q : Fin 10), i = ix2 r q := ⟨i 0, i 1, eq_ix2 i⟩
  have h := val_main_v0_apply x1 x4 (ix2 r q)
  unfold val_main_v0 at h
  rw [h, Cert.MatProd.prod_apply]
  refine Finset.sum_congr rfl fun k _ => ?_
  rw [show lidx_main_v0 (ix2 r q) k = ix2 r k from funext fun a => Fin.ext (by match a with | ⟨0, _⟩ => rfl | ⟨1, _⟩ => rfl),
    show ridx_main_v0 (ix2 r q) k = ix2 k q from funext fun a => Fin.ext (by match a with | ⟨0, _⟩ => rfl | ⟨1, _⟩ => rfl)]

/-! ## The layers -/

/-- The bias row broadcast over the rows, read at (r, q). -/
theorem bias1_apply (x9 : S128.Idx → EReal) (r : Fin 8192) (q : Fin 128) : val_main_v23 (F := Ideal) x9 (ix2 r q) = x9 (ix1 q) := by
  rw [val_main_v23_apply, val_main_v22_apply]
  exact congrArg x9 (funext fun a => Fin.ext (by match a with | ⟨0, _⟩ => rfl))

theorem bias2_apply (x11 : S128.Idx → EReal) (r : Fin 8192) (q : Fin 128) : val_main_v28 (F := Ideal) x11 (ix2 r q) = x11 (ix1 q) := by
  rw [val_main_v28_apply, val_main_v27_apply]
  exact congrArg x11 (funext fun a => Fin.ext (by match a with | ⟨0, _⟩ => rfl))

theorem layer1_eq (x0 : S8192x256.Idx → EReal) (x1 x2 x3 : S8192x8192.Idx → EReal) (x7 : S3x1.Idx → EReal)
    (x8 : S256x128.Idx → EReal) (x9 : S128.Idx → EReal) :
    val_main_v24 (F := Ideal) x0 x1 x2 x3 x7 x8 x9 = layerR (mix x1 x2 x3 x7) (Cert.MatProd.prod x0 x8) x9 := by
  funext i
  obtain ⟨r, q, rfl⟩ : ∃ (r : Fin 8192) (q : Fin 128), i = ix2 r q := ⟨i 0, i 1, eq_ix2 i⟩
  rw [val_main_v24_apply, val_main_v21_apply, bias1_apply, xw_eq]
  show (∑ k : Fin 8192, _) + _ = (∑ k : Fin 8192, _) + _
  refine congrArg (· + x9 (ix1 q)) (Finset.sum_congr rfl fun k _ => ?_)
  rw [show lidx_main_v21 (ix2 r q) k = ix2 r k from funext fun a => Fin.ext (by match a with | ⟨0, _⟩ => rfl | ⟨1, _⟩ => rfl),
    show ridx_main_v21 (ix2 r q) k = ix2 k q from funext fun a => Fin.ext (by match a with | ⟨0, _⟩ => rfl | ⟨1, _⟩ => rfl),
    sym_apply]

theorem uw_eq (x0 : S8192x256.Idx → EReal) (x1 x2 x3 : S8192x8192.Idx → EReal) (x7 : S3x1.Idx → EReal)
    (x8 : S256x128.Idx → EReal) (x9 : S128.Idx → EReal) (x10 : S128x128.Idx → EReal) :
    val_main_v25 (F := Ideal) x0 x1 x2 x3 x7 x8 x9 x10
      = Cert.MatProd.prod (layerR (mix x1 x2 x3 x7) (Cert.MatProd.prod x0 x8) x9) x10 := by
  funext i
  obtain ⟨r, q, rfl⟩ : ∃ (r : Fin 8192) (q : Fin 128), i = ix2 r q := ⟨i 0, i 1, eq_ix2 i⟩
  rw [val_main_v25_apply, Cert.MatProd.prod_apply, layer1_eq]
  refine Finset.sum_congr rfl fun k _ => ?_
  rw [show lidx_main_v25 (ix2 r q) k = ix2 r k from funext fun a => Fin.ext (by match a with | ⟨0, _⟩ => rfl | ⟨1, _⟩ => rfl),
    show ridx_main_v25 (ix2 r q) k = ix2 k q from funext fun a => Fin.ext (by match a with | ⟨0, _⟩ => rfl | ⟨1, _⟩ => rfl)]

theorem layer2_eq (x0 : S8192x256.Idx → EReal) (x1 x2 x3 : S8192x8192.Idx → EReal) (x7 : S3x1.Idx → EReal)
    (x8 : S256x128.Idx → EReal) (x9 : S128.Idx → EReal) (x10 : S128x128.Idx → EReal) (x11 : S128.Idx → EReal) :
    val_main_v29 (F := Ideal) x0 x1 x2 x3 x7 x8 x9 x10 x11
      = layerR (mix x1 x2 x3 x7) (Cert.MatProd.prod (layerR (mix x1 x2 x3 x7) (Cert.MatProd.prod x0 x8) x9) x10) x11 := by
  funext i
  obtain ⟨r, q, rfl⟩ : ∃ (r : Fin 8192) (q : Fin 128), i = ix2 r q := ⟨i 0, i 1, eq_ix2 i⟩
  rw [val_main_v29_apply, val_main_v26_apply, bias2_apply, uw_eq]
  show (∑ k : Fin 8192, _) + _ = (∑ k : Fin 8192, _) + _
  refine congrArg (· + x11 (ix1 q)) (Finset.sum_congr rfl fun k _ => ?_)
  rw [show lidx_main_v26 (ix2 r q) k = ix2 r k from funext fun a => Fin.ext (by match a with | ⟨0, _⟩ => rfl | ⟨1, _⟩ => rfl),
    show ridx_main_v26 (ix2 r q) k = ix2 k q from funext fun a => Fin.ext (by match a with | ⟨0, _⟩ => rfl | ⟨1, _⟩ => rfl),
    sym_apply]

/-! ## The readout -/

/-- One half, broadcast. -/
theorem half_apply (i : S8192x128.Idx) : val_main_v31 (F := Ideal) i = half := by
  rw [val_main_v31_apply, val_main_cst_apply]
  rfl

/-- The reference's first result is the specification's. -/
theorem out_eq (x0 : S8192x256.Idx → EReal) (x1 x2 x3 : S8192x8192.Idx → EReal) (x7 : S3x1.Idx → EReal)
    (x8 : S256x128.Idx → EReal) (x9 : S128.Idx → EReal) (x10 : S128x128.Idx → EReal) (x11 : S128.Idx → EReal) :
    val_main_v32 (F := Ideal) x0 x1 x2 x3 x7 x8 x9 x10 x11 = outR x0 x1 x2 x3 x7 x8 x9 x10 x11 := by
  funext i
  rw [val_main_v32_apply, val_main_v30_apply, half_apply, layer1_eq, layer2_eq]
  rfl

end Cert.ReferenceIdeal.RefValue

end
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.LibDenseEdges.lean ====
/-
  A dense matrix assembled from an edge list, applied to a column, against the edgewise sum.

  Edges e carry a weight a_e, a target r_e and a source c_e.  The dense matrix has entry
  (n, k) = ∑ of a_e over the edges with r_e = n and c_e = k  (parallel edges add up).  Applying it to a
  column t gives, at row n,  ∑_k L(n, k) · t_k.  The edgewise form aggregates at the target directly:
  ∑ of a_e · t_{c_e} over the edges with r_e = n.  The two agree because a product distributes over a finite
  sum — which on the extended reals needs every weight and every entry of the column to be a real number:
  with a weight +∞ beside a weight −∞ on parallel edges, or an infinite entry of t against weights that cancel,
  the two sides differ.  So the identity is stated for real-valued data, and the closure lemmas below are what
  carries "every entry is a real number" through sums, products, negation and maxima.
-/
import Idealize.ShloMosaic.PureOps.Ideal.Laws

noncomputable section

open scoped BigOperators

namespace Cert.DenseEdges

/-! ## Extended reals that are real numbers -/

/-- An extended real that is a real number (neither infinity). -/
def IsReal (x : EReal) : Prop := ∃ r : ℝ, x = (r : EReal)

theorem isReal_of_ne {x : EReal} (hb : x ≠ ⊥) (ht : x ≠ ⊤) : IsReal x :=
  ⟨x.toReal, (EReal.coe_toReal ht hb).symm⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_zero : IsReal 0 := ⟨0, EReal.coe_zero.symm⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.neg {x : EReal} (hx : IsReal x) : IsReal (-x) := by
  obtain ⟨r, rfl⟩ := hx; exact ⟨-r, (EReal.coe_neg r).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- A finite sum of real numbers is a real number. -/
theorem isReal_sum {ι : Type*} (s : Finset ι) (f : ι → EReal) (h : ∀ i ∈ s, IsReal (f i)) :
    IsReal (∑ i ∈ s, f i) := by
  classical
  refine Finset.induction_on s (fun _ => ?_) (fun i s hi ih h => ?_) h
  · rw [Finset.sum_empty]; exact isReal_zero
  · rw [Finset.sum_insert hi]
    exact (h i (Finset.mem_insert_self i s)).add (ih fun j hj => h j (Finset.mem_insert_of_mem hj))

/-! ## The dense form against the edgewise form -/

/-- Over the reals: summing the dense matrix's row n against the column is summing, over the edges into n, the
    weight times the column's entry at the edge's source. -/
theorem real_dense_eq_edges {E N : Type*} [Fintype E] [Fintype N] [DecidableEq N]
    (r c : E → N) (a : E → ℝ) (t : N → ℝ) (n : N) :
    ∑ k, (∑ e ∈ Finset.univ.filter (fun e => r e = n ∧ c e = k), a e) * t k
      = ∑ e ∈ Finset.univ.filter (fun e => r e = n), a e * t (c e) := by
  simp only [Finset.sum_mul, Finset.sum_filter]
  rw [Finset.sum_comm]
  refine Finset.sum_congr rfl fun e _ => ?_
  by_cases h : r e = n
  · simp only [h, true_and, if_true, ite_mul, zero_mul]
    rw [Finset.sum_ite_eq Finset.univ (c e) (fun k => a e * t k)]
    simp
  · simp only [h, false_and, if_false, zero_mul, Finset.sum_const_zero]

/-- THE IDENTITY over the extended reals, for real-valued weights and a real-valued column: row n of the dense
    matrix (each entry the zero it was initialised with plus its parallel edges' weights) against the column
    equals the zero plus the edgewise sum at the target n. -/
theorem dense_eq_edges {E N : Type*} [Fintype E] [Fintype N] [DecidableEq N]
    (r c : E → N) (a : E → EReal) (t : N → EReal)
    (ha : ∀ e, IsReal (a e)) (ht : ∀ k, IsReal (t k)) (n : N) :
    ∑ k, ((0 : EReal) + ∑ e ∈ Finset.univ.filter (fun e => r e = n ∧ c e = k), a e) * t k
      = (0 : EReal) + ∑ e ∈ Finset.univ.filter (fun e => r e = n), a e * t (c e) := by
  choose a' ha' using ha
  choose t' ht' using ht
  simp only [ha', ht', zero_add, ← coe_sum, ← EReal.coe_mul]
  exact congrArg _ (real_dense_eq_edges r c a' t' n)

/-- The dense product's entries are real numbers when the weights and the column are. -/
theorem isReal_dense {E N : Type*} [Fintype E] [Fintype N] [DecidableEq N]
    (r c : E → N) (a : E → EReal) (t : N → EReal)
    (ha : ∀ e, IsReal (a e)) (ht : ∀ k, IsReal (t k)) (n : N) :
    IsReal (∑ k, ((0 : EReal) + ∑ e ∈ Finset.univ.filter (fun e => r e = n ∧ c e = k), a e) * t k) :=
  isReal_sum _ _ fun k _ => (isReal_zero.add (isReal_sum _ _ fun e _ => ha e)).mul (ht k)

end Cert.DenseEdges

end
-- ==== Proof.Algebra.lean ====
/-
  The device's block-by-block totals against the reference's formulas, over the extended reals.

  * Token features. Adding sixteen block sums to zero, one after the other, is the whole sum over the 8192 columns:
    sums over the extended reals may be regrouped freely, so this needs no finiteness.
  * A layer. Per block the device adds the block's part of T·Y and then of Tᵀ·Y. Regrouped, the sixteen-block total is
    (∑ₖ T[r,k]·Y[k,q]) + (∑ₖ T[k,r]·Y[k,q]); the reference multiplies the SUM T[r,k] + T[k,r] by Y[k,q]. The two agree by
    distributivity, which on the extended reals holds for real numbers and fails at infinities (1 + (−1))·∞ = 0 but
    1·∞ + (−1)·∞ = −∞): here every entry involved is real because every input is finite.
  * Real numbers stay real under the sums and products that build the mix, the products and a layer.
-/
import proofs.«177282_j10187662426197_2_alg».proof.Proof.Spec
import proofs.«177282_j10187662426197_2_alg».proof.Proof.LibBlockSum
import proofs.«177282_j10187662426197_2_alg».proof.Proof.LibDenseEdges

noncomputable section

namespace Cert.Spec

open Idealize.ShloMosaic Idealize.ShloMosaic.ValueIdx Cert.DenseEdges

/-- Every entry of a family is a real number. -/
def RealValued {ι : Type} (f : ι → EReal) : Prop := ∀ i, IsReal (f i)

/-- On real numbers multiplication distributes over addition. -/
theorem add_mul_of_real {a b c : EReal} (ha : IsReal a) (hb : IsReal b) (hc : IsReal c) : (a + b) * c = a * c + b * c := by
  obtain ⟨x, rfl⟩ := ha
  obtain ⟨y, rfl⟩ := hb
  obtain ⟨z, rfl⟩ := hc
  rw [← EReal.coe_add, ← EReal.coe_mul, ← EReal.coe_mul, ← EReal.coe_mul, ← EReal.coe_add, add_mul]

/-- Position y of block n, as the block library numbers it. -/
theorem blk_eq_pos (n : ℕ) (y : Fin 512) : blk n y = BlockSum.pos 16 512 (by norm_num) n y := Fin.ext rfl

/-- Sixteen block sums added one after the other are the whole sum over the 8192 positions. -/
theorem sum_blocks (f : Fin 8192 → EReal) : ∑ b ∈ Finset.range 16, ∑ y : Fin 512, f (blk b y) = ∑ k : Fin 8192, f k := by
  have h := BlockSum.sum_range_blocks (M := EReal) 16 512 (by norm_num) (f : Fin (16 * 512) → EReal)
  simp only [← blk_eq_pos] at h
  exact h

/-! ## Token features -/

theorem tokAcc_eq_range (A : Mat 8192 8192) (tok : Mat 8192 10) (r : Fin 8192) (q : Fin 10) (n : ℕ) :
    tokAcc A tok r q n = ∑ b ∈ Finset.range n, ∑ y : Fin 512, A (ix2 r (blk b y)) * tok (ix2 (blk b y) q) := by
  induction n with
  | zero => simp [tokAcc]
  | succ n ih => rw [tokAcc, ih, Finset.sum_range_succ]

/-- The accumulated token features are the matrix product. -/
theorem tokFeatK_eq_prod (A : Mat 8192 8192) (tok : Mat 8192 10) : tokFeatK A tok = Cert.MatProd.prod A tok := by
  funext i
  obtain ⟨r, q, rfl⟩ : ∃ (r : Fin 8192) (q : Fin 10), i = ix2 r q := ⟨i 0, i 1, eq_ix2 i⟩
  rw [Cert.MatProd.prod_apply]
  show tokAcc A tok r q 16 = _
  rw [tokAcc_eq_range]
  exact sum_blocks fun k => A (ix2 r k) * tok (ix2 k q)

/-! ## A layer -/

theorem gcAcc_eq_range (T : Mat 8192 8192) (Y : Mat 8192 128) (r : Fin 8192) (q : Fin 128) (n : ℕ) :
    gcAcc T Y r q n = ∑ b ∈ Finset.range n, ((∑ y : Fin 512, T (ix2 r (blk b y)) * Y (ix2 (blk b y) q))
      + ∑ y : Fin 512, T (ix2 (blk b y) r) * Y (ix2 (blk b y) q)) := by
  induction n with
  | zero => simp [gcAcc]
  | succ n ih => rw [gcAcc, ih, Finset.sum_range_succ, add_assoc]

/-- The sixteen-block total is the symmetrised product, for real-valued T and Y. -/
theorem gcAcc_eq_sym (T : Mat 8192 8192) (Y : Mat 8192 128) (hT : RealValued T) (hY : RealValued Y) (r : Fin 8192) (q : Fin 128) :
    gcAcc T Y r q 16 = ∑ k : Fin 8192, (T (ix2 r k) + T (ix2 k r)) * Y (ix2 k q) := by
  rw [gcAcc_eq_range, Finset.sum_add_distrib, sum_blocks fun k => T (ix2 r k) * Y (ix2 k q),
    sum_blocks fun k => T (ix2 k r) * Y (ix2 k q), ← Finset.sum_add_distrib]
  exact Finset.sum_congr rfl fun k _ => (add_mul_of_real (hT _) (hT _) (hY _)).symm

theorem layerK_eq_layerR (T : Mat 8192 8192) (Y : Mat 8192 128) (b : Row 128) (hT : RealValued T) (hY : RealValued Y) :
    layerK T Y b = layerR T Y b := by
  funext i
  obtain ⟨r, q, rfl⟩ : ∃ (r : Fin 8192) (q : Fin 128), i = ix2 r q := ⟨i 0, i 1, eq_ix2 i⟩
  show gcAcc T Y r q 16 + b (ix1 q) = _
  rw [gcAcc_eq_sym T Y hT hY]
  rfl

theorem readoutK_eq (T : Mat 8192 8192) (Y : Mat 8192 128) (b : Row 128) (U1 : Mat 8192 128) (hT : RealValued T) (hY : RealValued Y) :
    readoutK T Y b U1 = readoutR U1 (layerR T Y b) := by
  funext i
  obtain ⟨r, q, rfl⟩ : ∃ (r : Fin 8192) (q : Fin 128), i = ix2 r q := ⟨i 0, i 1, eq_ix2 i⟩
  show (U1 (ix2 r q) + (gcAcc T Y r q 16 + b (ix1 q))) * half = _
  rw [gcAcc_eq_sym T Y hT hY]
  rfl

/-! ## Real numbers stay real -/

theorem realValued_mix {A1 A2 A3 : Mat 8192 8192} {wb : Mat 3 1} (h1 : RealValued A1) (h2 : RealValued A2) (h3 : RealValued A3)
    (hw : RealValued wb) : RealValued (mix A1 A2 A3 wb) :=
  fun i => (((h1 i).mul (hw _)).add ((h2 i).mul (hw _))).add ((h3 i).mul (hw _))

theorem realValued_prod {a K b : ℕ} {x : Mat a K} {w : Mat K b} (hx : RealValued x) (hw : RealValued w) :
    RealValued (Cert.MatProd.prod x w) :=
  fun _ => isReal_sum _ _ fun _ _ => (hx _).mul (hw _)

theorem realValued_layerR {T : Mat 8192 8192} {Y : Mat 8192 128} {b : Row 128} (hT : RealValued T) (hY : RealValued Y)
    (hb : RealValued b) : RealValued (layerR T Y b) :=
  fun _ => (isReal_sum _ _ fun _ _ => ((hT _).add (hT _)).mul (hY _)).add (hb _)

/-! ## The whole network -/

/-- For finite inputs the device's result is the reference's. (The last bias row may be anything.) -/
theorem outK_eq_outR (X : Mat 8192 256) (A1 A2 A3 : Mat 8192 8192) (wb : Mat 3 1) (W1 : Mat 256 128) (b1 : Row 128)
    (W2 : Mat 128 128) (b2 : Row 128) (hX : RealValued X) (h1 : RealValued A1) (h2 : RealValued A2) (h3 : RealValued A3)
    (hw : RealValued wb) (hW1 : RealValued W1) (hb1 : RealValued b1) (hW2 : RealValued W2) :
    outK X A1 A2 A3 wb W1 b1 W2 b2 = outR X A1 A2 A3 wb W1 b1 W2 b2 := by
  have hT := realValued_mix h1 h2 h3 hw
  have hY := realValued_prod hX hW1
  unfold outK outR
  rw [layerK_eq_layerR _ _ b1 hT hY]
  exact readoutK_eq _ _ b2 _ hT (realValued_prod (realValued_layerR hT hY hb1) hW2)

end Cert.Spec

end
-- ==== Proof.Finite.lean ====
/-
  Finite inputs are real numbers.

  The precondition is the conjunction, over the twelve argument arrays, of "every entry x satisfies |x| < +∞", each
  conjunct an all-reduction of the entrywise comparison. Over the extended reals |x| = max x (−x), and the comparison
  against +∞ excludes both infinities: x is a real number.
-/
import proofs.«177282_j10187662426197_2_alg».proof.Pre_finite_inputs
import proofs.«177282_j10187662426197_2_alg».proof.Proof.Gen.Pre_finite_inputs
import proofs.«177282_j10187662426197_2_alg».proof.Proof.Algebra
import Idealize.ShloMosaic.Lib.ReduceAll
import Idealize.ShloMosaic.Lib.Pipeline.Value
import Idealize.ShloMosaic.Lib.ValueIdx

noncomputable section

namespace Cert.Finite

open Idealize.ShloMosaic Idealize.ShloMosaic.ValueIdx Cert.DenseEdges Cert.Spec Cert.Pre_finite_inputs

instance : Subsingleton S_.Idx := ⟨fun a b => funext fun d => d.elim0⟩

/-- The pattern 0x7F800000 is +∞. -/
theorem inf_word : Ideal.ofBits .f32 0x7F800000#32 = (⊤ : EReal) := by
  simp [Ideal.ofBits, Ideal.ieee]

/-- An extended real whose absolute value is below +∞ is a real number. -/
theorem isReal_of_abs_lt_top {x : EReal} (h : max x (-x) < ⊤) : IsReal x := by
  refine isReal_of_ne ?_ ?_
  · rintro rfl; simp at h
  · rintro rfl; simp at h

/-- One conjunct of the precondition: if the all-reduction of |x| < +∞ is 1, every entry of x is real. -/
theorem real_of_all {S : Shape} {axes : List (Fin S.rank)} (x : FVec Ideal S .f32)
    (hb : S_.BroadcastsInDim S (![] : Fin 0 → Fin S.rank)) (hr : S.ReducesTo axes S_) (hS : 0 < S_.numel)
    (h : Host.reduce IntOp.andi (cmpf .olt (Host.absf x) (broadcastInDim S ![] hb (constant (F := Ideal) S_ .f32 0x7F800000#32)))
      (constantI S_ 1 1#1) hr hS ix0 = 1#1) : RealValued x := by
  intro i
  have e := Host.reduce_andi_all _ _ hr hS ix0 h i
  have hb' : (broadcastInDim S ![] hb (constant (F := Ideal) S_ .f32 0x7F800000#32)) i = Ideal.ofBits .f32 0x7F800000#32 :=
    (broadcastInDim_apply _ hb _ i ix0 (fun a => a.elim0)).trans rfl
  have e' : Ideal.cmp .olt (max (x i) (-(x i))) (Ideal.ofBits .f32 0x7F800000#32) = 1#1 := by
    rw [← hb']; exact e
  rw [inf_word] at e'
  apply isReal_of_abs_lt_top
  by_contra hlt
  simp [Ideal.cmp, hlt] at e'

/-- The precondition, unpacked: all twelve argument arrays hold real numbers only. -/
theorem args_real [Facts] (a0 : FVec Ideal S8192x256 .f32) (a1 a2 a3 : FVec Ideal S8192x8192 .f32) (a4 a5 a6 : FVec Ideal S8192x10 .f32)
    (a7 : FVec Ideal S3x1 .f32) (a8 : FVec Ideal S256x128 .f32) (a9 : FVec Ideal S128 .f32) (a10 : FVec Ideal S128x128 .f32)
    (a11 : FVec Ideal S128 .f32) (h : fn (F := Ideal) a0 a1 a2 a3 a4 a5 a6 a7 a8 a9 a10 a11 = fun _ => 1#1) :
    RealValued a0 ∧ RealValued a1 ∧ RealValued a2 ∧ RealValued a3 ∧ RealValued a4 ∧ RealValued a5 ∧ RealValued a6
      ∧ RealValued a7 ∧ RealValued a8 ∧ RealValued a9 ∧ RealValued a10 ∧ RealValued a11 := by
  have h0 := congrFun h ix0
  simp only [fn, fn_part1, fn_part2, fn_part3, andi, IntOp.andi_eq_one] at h0
  obtain ⟨⟨⟨⟨⟨⟨⟨⟨⟨⟨⟨h0, h1⟩, h2⟩, h3⟩, h4⟩, h5⟩, h6⟩, h7⟩, h8⟩, h9⟩, h10⟩, h11⟩ := h0
  exact ⟨real_of_all _ _ _ _ h0, real_of_all _ _ _ _ h1, real_of_all _ _ _ _ h2, real_of_all _ _ _ _ h3, real_of_all _ _ _ _ h4,
    real_of_all _ _ _ _ h5, real_of_all _ _ _ _ h6, real_of_all _ _ _ _ h7, real_of_all _ _ _ _ h8, real_of_all _ _ _ _ h9,
    real_of_all _ _ _ _ h10, real_of_all _ _ _ _ h11⟩

end Cert.Finite

end
-- ==== Proof.Claims.lean ====
/-
  The five conjuncts of the claim.

  The word-level program and its idealization are one text read at two instances, so their frames are the same assembly
  of three regions and two host stretches; the reference has no kernel and its frame is its run with the results
  dropped. For equal results: the device's run ends with each result buffer at contents that trace back to the
  specification's block-accumulated forms of the arguments; the reference's run ends at its one-product forms; the
  arguments agree by hypothesis, and for finite inputs the two forms are one function.
-/
import proofs.«177282_j10187662426197_2_alg».proof.Defs
import proofs.«177282_j10187662426197_2_alg».proof.Proof.Asm
import proofs.«177282_j10187662426197_2_alg».proof.Proof.WAsm
import proofs.«177282_j10187662426197_2_alg».proof.Proof.AsmValue
import proofs.«177282_j10187662426197_2_alg».proof.Proof.RefValue
import proofs.«177282_j10187662426197_2_alg».proof.Proof.Algebra
import proofs.«177282_j10187662426197_2_alg».proof.Proof.Finite
import proofs.«177282_j10187662426197_2_alg».proof.Proof.Gen.ReferenceIdeal.Run
import proofs.«177282_j10187662426197_2_alg».proof.Proof.Gen.ReferenceIdeal.Read
import proofs.«177282_j10187662426197_2_alg».proof.Proof.Gen.Kernel
import proofs.«177282_j10187662426197_2_alg».proof.Proof.Gen.KernelIdeal
import proofs.«177282_j10187662426197_2_alg».proof.Proof.Gen.ReferenceIdeal
import proofs.«177282_j10187662426197_2_alg».proof.Proof.Gen.Pre_finite_inputs

noncomputable section

namespace Cert.Proof.Claims

open Idealize.ShloMosaic Idealize.ShloMosaic.TcCoe Idealize.SL.Sem

/-! ## The frames -/

theorem frame_k : Cert.frame_Kernel := fun m ρ _ => Cert.Kernel.Asm.frame (F := Bits) m ρ
theorem frame_ki : Cert.frame_KernelIdeal := fun m ρ _ => Cert.KernelIdeal.Asm.frame (F := Ideal) m ρ
/-- The reference has no kernel: its frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-! ## Equal results over the extended reals -/

open Cert.KernelIdeal.Asm in
/-- The device ends with its four results at the last contents and its arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v10) = W5 m c Cert.KernelIdeal.main_v10
      ∧ r.2.mem ((c.tc : Thread Cert.KernelIdeal.nD Cert.KernelIdeal.τ).loc Cert.KernelIdeal.main_v0_1) = W5 m c Cert.KernelIdeal.main_v0_1
      ∧ r.2.mem ((c.tc : Thread Cert.KernelIdeal.nD Cert.KernelIdeal.τ).loc Cert.KernelIdeal.main_v0_2) = W5 m c Cert.KernelIdeal.main_v0_2
      ∧ r.2.mem ((c.tc : Thread Cert.KernelIdeal.nD Cert.KernelIdeal.τ).loc Cert.KernelIdeal.main_v0_3) = W5 m c Cert.KernelIdeal.main_v0_3
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) := by
  open Cert.KernelIdeal in
  exact (θ_run Cert.KernelIdeal.defs _ _).mono (fun r h c => ⟨
      h c _ (mem_uc main_v10 (by decide)), h c _ (mem_uc main_v0_1 (by decide)), h c _ (mem_uc main_v0_2 (by decide)), h c _ (mem_uc main_v0_3 (by decide)),
      (h c _ (mem_uc main_arg0 (by decide))).trans (W5_kept m c main_arg0 (by decide) (by decide) (by decide) (by decide) (by decide)),
      (h c _ (mem_uc main_arg1 (by decide))).trans (W5_kept m c main_arg1 (by decide) (by decide) (by decide) (by decide) (by decide)),
      (h c _ (mem_uc main_arg2 (by decide))).trans (W5_kept m c main_arg2 (by decide) (by decide) (by decide) (by decide) (by decide)),
      (h c _ (mem_uc main_arg3 (by decide))).trans (W5_kept m c main_arg3 (by decide) (by decide) (by decide) (by decide) (by decide)),
      (h c _ (mem_uc main_arg4 (by decide))).trans (W5_kept m c main_arg4 (by decide) (by decide) (by decide) (by decide) (by decide)),
      (h c _ (mem_uc main_arg5 (by decide))).trans (W5_kept m c main_arg5 (by decide) (by decide) (by decide) (by decide) (by decide)),
      (h c _ (mem_uc main_arg6 (by decide))).trans (W5_kept m c main_arg6 (by decide) (by decide) (by decide) (by decide) (by decide)),
      (h c _ (mem_uc main_arg7 (by decide))).trans (W5_kept m c main_arg7 (by decide) (by decide) (by decide) (by decide) (by decide)),
      (h c _ (mem_uc main_arg8 (by decide))).trans (W5_kept m c main_arg8 (by decide) (by decide) (by decide) (by decide) (by decide)),
      (h c _ (mem_uc main_arg9 (by decide))).trans (W5_kept m c main_arg9 (by decide) (by decide) (by decide) (by decide) (by decide)),
      (h c _ (mem_uc main_arg10 (by decide))).trans (W5_kept m c main_arg10 (by decide) (by decide) (by decide) (by decide) (by decide)),
      (h c _ (mem_uc main_arg11 (by decide))).trans (W5_kept m c main_arg11 (by decide) (by decide) (by decide) (by decide) (by decide))⟩)
    (run_all (F := Ideal) m ρ)

/-- From memories agreeing on the arguments the device and the reference end with equal results: the device's are the
    block-accumulated forms of the specification, the reference's its one-product forms, and for finite inputs these agree. -/
theorem algebraic : Cert.algebraic_KernelIdeal_ReferenceIdeal := by
  intro m ρ m' ρ' hpre hagree
  refine ⟨fun c => Cert.KernelIdeal.Asm.W5 m c Cert.KernelIdeal.main_v10, fun c => Cert.KernelIdeal.Asm.W5 m c Cert.KernelIdeal.main_v0_1,
    fun c => Cert.KernelIdeal.Asm.W5 m c Cert.KernelIdeal.main_v0_2, fun c => Cert.KernelIdeal.Asm.W5 m c Cert.KernelIdeal.main_v0_3,
    kernel_run m ρ, ?_⟩
  refine (θ_run Cert.ReferenceIdeal.defs _ _).mono (fun r h c => ?_) (Cert.ReferenceIdeal.Value.run (F := Ideal) m' ρ')
  obtain ⟨h32, h0, h1, h2, hargs⟩ := h c
  obtain ⟨e0, e1, e2, e3, e4, e5, e6, e7, e8, e9, e10, e11⟩ := hagree c
  obtain ⟨r0, r1, r2, r3, r4, r5, r6, r7, r8, r9, r10, r11⟩ := Cert.Finite.args_real _ _ _ _ _ _ _ _ _ _ _ _ (hpre c)
  refine ⟨h32.trans ?_, h0.trans ?_, h1.trans ?_, h2.trans ?_, hargs⟩
  · refine ((Cert.ReferenceIdeal.Read.val_main_v32_eq (F := Ideal) m' c).trans (Cert.ReferenceIdeal.RefValue.out_eq _ _ _ _ _ _ _ _ _)).trans ?_
    beta_reduce
    rw [e0, e1, e2, e3, e7, e8, e9, e10, e11, Cert.KernelIdeal.Asm.outK_eq]
    exact (Cert.Spec.outK_eq_outR _ _ _ _ _ _ _ _ _ r0 r1 r2 r3 r7 r8 r9 r10).symm
  · refine (Cert.ReferenceIdeal.RefValue.tok_eq _ _).trans ?_
    beta_reduce
    rw [e1, e4, Cert.KernelIdeal.Asm.tok1K, Cert.Spec.tokFeatK_eq_prod]
  · refine (Cert.ReferenceIdeal.RefValue.tok_eq _ _).trans ?_
    beta_reduce
    rw [e2, e5, Cert.KernelIdeal.Asm.tok2K, Cert.Spec.tokFeatK_eq_prod]
  · refine (Cert.ReferenceIdeal.RefValue.tok_eq _ _).trans ?_
    beta_reduce
    rw [e3, e6, Cert.KernelIdeal.Asm.tok3K, Cert.Spec.tokFeatK_eq_prod]

end Cert.Proof.Claims

end
-- ==== Proof.lean ====
/-
  Three tiled kernels against a plain two-layer graph network.

  The device computes, over 8192 nodes: a weighted mix T = A₁·w₀ + A₂·w₁ + A₃·w₂ of three relation matrices and three
  token-feature products Aᵢ·tokᵢ (first kernel, accumulating over sixteen column blocks); then twice a layer
  (T + Tᵀ)·Y + b without ever forming T + Tᵀ — per block of 512 it adds the block's part of T·Y and then of Tᵀ·Y to a
  running total — with Y = X·W₁ for the first layer and Y = U₁·W₂ for the second, and finally (U₁ + U₂)·½. The reference
  forms T + Tᵀ and takes one product per layer.

  Over the extended reals the two agree for finite inputs: sums may be regrouped freely, changes of float format are the
  identity, and (T[r,k] + T[k,r])·Y[k,q] = T[r,k]·Y[k,q] + T[k,r]·Y[k,q] holds because every entry involved is a real number
  (it fails at infinities, which is where the precondition is used). The token features need no finiteness.

  Each program's frame — it terminates, faults nowhere and leaves its arguments as launched — is proved from the three
  kernel regions' runs and the host operations between them; the idealization rewrote nothing, so "preserves" is trivial.
-/
import proofs.«177282_j10187662426197_2_alg».proof.Defs
import proofs.«177282_j10187662426197_2_alg».proof.Proof.Claims
import proofs.«177282_j10187662426197_2_alg».proof.Proof.Gen.Kernel
import proofs.«177282_j10187662426197_2_alg».proof.Proof.Gen.KernelIdeal
import proofs.«177282_j10187662426197_2_alg».proof.Proof.Gen.ReferenceIdeal
import proofs.«177282_j10187662426197_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
